-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x256 : Shape := ⟨2, ![524288, 256]⟩
abbrev S128 : Shape := ⟨1, ![128]⟩
abbrev S256 : Shape := ⟨1, ![256]⟩
abbrev S_ : Shape := ⟨0, ![]⟩

class Facts : Prop where
  bcast_S_S524288x256 : S_.BroadcastsInDim S524288x256 (![] : Fin 0 → Fin S524288x256.rank)
  reducesTo_S524288x256_S_d0_1 : S524288x256.ReducesTo [0, 1] S_
  h_S_ : 0 < S_.numel
  bcast_S_S256 : S_.BroadcastsInDim S256 (![] : Fin 0 → Fin S256.rank)
  reducesTo_S256_S_d0 : S256.ReducesTo [0] S_
  bcast_S_S128 : S_.BroadcastsInDim S128 (![] : Fin 0 → Fin S128.rank)
  reducesTo_S128_S_d0 : S128.ReducesTo [0] S_

variable [Facts]

def fn_part1 {F : FTy → Type} [FloatOps F] (main_arg1 : IVec S128 32) (main_v13 : IVec S_ 1) (main_v15 : IVec S128 1) (main_c_5 : IVec S_ 1) : IVec S_ 1 :=
  let main_v16 : IVec S_ 1 := (fun x v => Host.reduce IntOp.andi x v reducesTo_S128_S_d0 h_S_) main_v15 main_c_5
  let main_v17 : IVec S_ 1 := andi main_v13 main_v16
  let main_c_6 : IVec S_ 32 := constantI S_ 32 524288#32
  let main_v18 : IVec S128 32 := broadcastInDim S128 ![] bcast_S_S128 main_c_6
  let main_v19 : IVec S128 1 := cmpi .sle main_arg1 main_v18
  let main_c_7 : IVec S_ 1 := constantI S_ 1 1#1
  let main_v20 : IVec S_ 1 := (fun x v => Host.reduce IntOp.andi x v reducesTo_S128_S_d0 h_S_) main_v19 main_c_7
  let main_v21 : IVec S_ 1 := andi main_v17 main_v20
  let main_c_8 : IVec S_ 32 := constantI S_ 32 0#32
  let main_v22 : IVec S_ 32 := (fun x v => Host.reduce IntOp.addi x v reducesTo_S128_S_d0 h_S_) main_arg1 main_c_8
  let main_c_9 : IVec S_ 32 := constantI S_ 32 524288#32
  let main_v23 : IVec S_ 1 := cmpi .eq main_v22 main_c_9
  let main_v24 : IVec S_ 1 := andi main_v21 main_v23
  main_v24

def fn {F : FTy → Type} [FloatOps F] (main_arg0 : FVec F S524288x256 .f32) (main_arg1 : IVec S128 32) (main_arg2 : FVec F S256 .f32) (main_arg3 : FVec F S256 .f32) : IVec S_ 1 :=
  let main_v0 : FVec F S524288x256 .f32 := Host.absf main_arg0
  let main_cst : FVec F S_ .f32 := constant S_ .f32 0x7F800000#32
  let main_v1 : FVec F S524288x256 .f32 := broadcastInDim S524288x256 ![] bcast_S_S524288x256 main_cst
  let main_v2 : IVec S524288x256 1 := cmpf .olt main_v0 main_v1
  let main_c : IVec S_ 1 := constantI S_ 1 1#1
  let main_v3 : IVec S_ 1 := (fun x v => Host.reduce IntOp.andi x v reducesTo_S524288x256_S_d0_1 h_S_) main_v2 main_c
  let main_v4 : FVec F S256 .f32 := Host.absf main_arg2
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_c_4 : IVec S_ 32 := constantI S_ 32 0#32
  let main_v14 : IVec S128 32 := broadcastInDim S128 ![] bcast_S_S128 main_c_4
  let main_v15 : IVec S128 1 := cmpi .sge main_arg1 main_v14
  let main_c_5 : IVec S_ 1 := constantI S_ 1 1#1
  fn_part1 (F := F) main_arg1 main_v13 main_v15 main_c_5
-- ==== Kernel.lean ====
abbrev S524288x256 : Shape := ⟨2, ![524288, 256]⟩
abbrev S128 : Shape := ⟨1, ![128]⟩
abbrev S256 : Shape := ⟨1, ![256]⟩
abbrev S1 : Shape := ⟨1, ![1]⟩
abbrev S127 : Shape := ⟨1, ![127]⟩
abbrev S_ : Shape := ⟨0, ![]⟩
abbrev S524288 : Shape := ⟨1, ![524288]⟩
abbrev S128x1 : Shape := ⟨2, ![128, 1]⟩
abbrev S524288x1 : Shape := ⟨2, ![524288, 1]⟩
abbrev S1x1 : Shape := ⟨2, ![1, 1]⟩
abbrev S1x256 : Shape := ⟨2, ![1, 256]⟩
abbrev S128x512 : Shape := ⟨2, ![128, 512]⟩
abbrev S4096x256 : Shape := ⟨2, ![4096, 256]⟩
abbrev S4096x1 : Shape := ⟨2, ![4096, 1]⟩
abbrev S128x256 : Shape := ⟨2, ![128, 256]⟩
abbrev S4096x128 : Shape := ⟨2, ![4096, 128]⟩
abbrev S4096x512 : Shape := ⟨2, ![4096, 512]⟩

abbrev nBuf : Space → Nat
  | .hbm => 63
  | .vmem => 17
  | .smem => 0
  | _ => 0

abbrev bufTy : (tb : Table) → Fin (tcTables nBuf tb) → BufTy
  | .hbm, ⟨0, _⟩ => ⟨S524288x256, .f32⟩
  | .hbm, ⟨1, _⟩ => ⟨S128, .i32⟩
  | .hbm, ⟨2, _⟩ => ⟨S256, .f32⟩
  | .hbm, ⟨3, _⟩ => ⟨S256, .f32⟩
  | .hbm, ⟨4, _⟩ => ⟨S128, .i32⟩
  | .hbm, ⟨5, _⟩ => ⟨S1, .i32⟩
  | .hbm, ⟨6, _⟩ => ⟨S127, .i32⟩
  | .hbm, ⟨7, _⟩ => ⟨S128, .i32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S128, .i32⟩
  | .hbm, ⟨12, _⟩ => ⟨S_, .i32⟩
  | .hbm, ⟨13, _⟩ => ⟨S_, .i32⟩
  | .hbm, ⟨14, _⟩ => ⟨S128, .i32⟩
  | .hbm, ⟨15, _⟩ => ⟨S_, .i32⟩
  | .hbm, ⟨16, _⟩ => ⟨S524288, .i32⟩
  | .hbm, ⟨17, _⟩ => ⟨S_, .i32⟩
  | .hbm, ⟨18, _⟩ => ⟨S128, .i32⟩
  | .hbm, ⟨19, _⟩ => ⟨S128, .i1⟩
  | .hbm, ⟨20, _⟩ => ⟨S_, .i32⟩
  | .hbm, ⟨21, _⟩ => ⟨S128, .i32⟩
  | .hbm, ⟨22, _⟩ => ⟨S128, .i32⟩
  | .hbm, ⟨23, _⟩ => ⟨S128, .i32⟩
  | .hbm, ⟨24, _⟩ => ⟨S128x1, .i32⟩
  | .hbm, ⟨25, _⟩ => ⟨S_, .i32⟩
  | .hbm, ⟨26, _⟩ => ⟨S128, .i32⟩
  | .hbm, ⟨27, _⟩ => ⟨S524288, .i32⟩
  | .hbm, ⟨28, _⟩ => ⟨S_, .i32⟩
  | .hbm, ⟨29, _⟩ => ⟨S_, .i32⟩
  | .hbm, ⟨30, _⟩ => ⟨S524288, .i32⟩
  | .hbm, ⟨31, _⟩ => ⟨S_, .i32⟩
  | .hbm, ⟨32, _⟩ => ⟨S524288, .i32⟩
  | .hbm, ⟨33, _⟩ => ⟨S524288, .i32⟩
  | .hbm, ⟨34, _⟩ => ⟨S_, .i32⟩
  | .hbm, ⟨35, _⟩ => ⟨S524288, .i32⟩
  | .hbm, ⟨36, _⟩ => ⟨S524288, .i1⟩
  | .hbm, ⟨37, _⟩ => ⟨S_, .i32⟩
  | .hbm, ⟨38, _⟩ => ⟨S524288, .i32⟩
  | .hbm, ⟨39, _⟩ => ⟨S524288, .i32⟩
  | .hbm, ⟨40, _⟩ => ⟨S524288, .i32⟩
  | .hbm, ⟨41, _⟩ => ⟨S524288x1, .i32⟩
  | .hbm, ⟨42, _⟩ => ⟨S1, .i32⟩
  | .hbm, ⟨43, _⟩ => ⟨S_, .i32⟩
  | .hbm, ⟨44, _⟩ => ⟨S524288x1, .i32⟩
  | .hbm, ⟨45, _⟩ => ⟨S524288x1, .i1⟩
  | .hbm, ⟨46, _⟩ => ⟨S1x1, .i32⟩
  | .hbm, ⟨47, _⟩ => ⟨S524288x1, .i32⟩
  | .hbm, ⟨48, _⟩ => ⟨S524288x1, .i1⟩
  | .hbm, ⟨49, _⟩ => ⟨S524288x1, .i1⟩
  | .hbm, ⟨50, _⟩ => ⟨S_, .i1⟩
  | .hbm, ⟨51, _⟩ => ⟨S524288, .i1⟩
  | .hbm, ⟨52, _⟩ => ⟨S524288, .i32⟩
  | .hbm, ⟨53, _⟩ => ⟨S_, .i32⟩
  | .hbm, ⟨54, _⟩ => ⟨S524288, .i32⟩
  | .hbm, ⟨55, _⟩ => ⟨S524288, .i32⟩
  | .hbm, ⟨56, _⟩ => ⟨S524288x1, .i32⟩
  | .hbm, ⟨57, _⟩ => ⟨S128, .f32⟩
  | .hbm, ⟨58, _⟩ => ⟨S128x1, .f32⟩
  | .hbm, ⟨59, _⟩ => ⟨S1x256, .f32⟩
  | .hbm, ⟨60, _⟩ => ⟨S1x256, .f32⟩
  | .hbm, ⟨61, _⟩ => ⟨S128x512, .f32⟩
  | .hbm, ⟨62, _⟩ => ⟨S524288x256, .f32⟩
  | .local _ .vmem, ⟨0, _⟩ => ⟨S4096x256, .f32⟩
  | .local _ .vmem, ⟨1, _⟩ => ⟨S4096x256, .f32⟩
  | .local _ .vmem, ⟨2, _⟩ => ⟨S4096x1, .i32⟩
  | .local _ .vmem, ⟨3, _⟩ => ⟨S4096x1, .i32⟩
  | .local _ .vmem, ⟨4, _⟩ => ⟨S128x1, .f32⟩
  | .local _ .vmem, ⟨5, _⟩ => ⟨S1x256, .f32⟩
  | .local _ .vmem, ⟨6, _⟩ => ⟨S1x256, .f32⟩
  | .local _ .vmem, ⟨7, _⟩ => ⟨S128x512, .f32⟩
  | .local _ .vmem, ⟨8, _⟩ => ⟨S128x256, .f32⟩
  | .local _ .vmem, ⟨9, _⟩ => ⟨S128x256, .f32⟩
  | .local _ .vmem, ⟨10, _⟩ => ⟨S4096x256, .f32⟩
  | .local _ .vmem, ⟨11, _⟩ => ⟨S4096x256, .f32⟩
  | .local _ .vmem, ⟨12, _⟩ => ⟨S4096x1, .i32⟩
  | .local _ .vmem, ⟨13, _⟩ => ⟨S4096x1, .i32⟩
  | .local _ .vmem, ⟨14, _⟩ => ⟨S128x512, .f32⟩
  | .local _ .vmem, ⟨15, _⟩ => ⟨S4096x256, .f32⟩
  | .local _ .vmem, ⟨16, _⟩ => ⟨S4096x256, .f32⟩
  | _, _ => ⟨S524288x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_call1_call0_c : Ref sig .tc := ⟨.hbm, 12, rfl⟩
abbrev main_call1_call0_v0 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_c_2 : Ref sig .tc := ⟨.hbm, 17, rfl⟩
abbrev main_v6 : Ref sig .tc := ⟨.hbm, 18, rfl⟩
abbrev main_v7 : Ref sig .tc := ⟨.hbm, 19, rfl⟩
abbrev main_c_3 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_4 : Ref sig .tc := ⟨.hbm, 25, rfl⟩
abbrev main_v12 : Ref sig .tc := ⟨.hbm, 26, rfl⟩
abbrev main_v13 : Ref sig .tc := ⟨.hbm, 27, rfl⟩
abbrev main_call2_call0_c : Ref sig .tc := ⟨.hbm, 28, rfl⟩
abbrev main_call2_call0_v0 : Ref sig .tc := ⟨.hbm, 29, rfl⟩
abbrev main_v14 : Ref sig .tc := ⟨.hbm, 30, rfl⟩
abbrev main_c_5 : Ref sig .tc := ⟨.hbm, 31, rfl⟩
abbrev main_v15 : Ref sig .tc := ⟨.hbm, 32, rfl⟩
abbrev main_v16 : Ref sig .tc := ⟨.hbm, 33, rfl⟩
abbrev main_call3_c : Ref sig .tc := ⟨.hbm, 34, rfl⟩
abbrev main_call3_v0 : Ref sig .tc := ⟨.hbm, 35, rfl⟩
abbrev main_call3_v1 : Ref sig .tc := ⟨.hbm, 36, rfl⟩
abbrev main_call3_c_0 : Ref sig .tc := ⟨.hbm, 37, rfl⟩
abbrev main_call3_v2 : Ref sig .tc := ⟨.hbm, 38, rfl⟩
abbrev main_call3_v3 : Ref sig .tc := ⟨.hbm, 39, rfl⟩
abbrev main_call3_v4 : Ref sig .tc := ⟨.hbm, 40, rfl⟩
abbrev main_call3_v5 : Ref sig .tc := ⟨.hbm, 41, rfl⟩
abbrev main_call3_c_1 : Ref sig .tc := ⟨.hbm, 42, rfl⟩
abbrev main_call3_c_2 : Ref sig .tc := ⟨.hbm, 43, rfl⟩
abbrev main_call3_v6 : Ref sig .tc := ⟨.hbm, 44, rfl⟩
abbrev main_call3_v7 : Ref sig .tc := ⟨.hbm, 45, rfl⟩
abbrev main_call3_v8 : Ref sig .tc := ⟨.hbm, 46, rfl⟩
abbrev main_call3_v9 : Ref sig .tc := ⟨.hbm, 47, rfl⟩
abbrev main_call3_v10 : Ref sig .tc := ⟨.hbm, 48, rfl⟩
abbrev main_call3_v11 : Ref sig .tc := ⟨.hbm, 49, rfl⟩
abbrev main_call3_c_3 : Ref sig .tc := ⟨.hbm, 50, rfl⟩
abbrev main_call3_v12 : Ref sig .tc := ⟨.hbm, 51, rfl⟩
abbrev main_call3_v13 : Ref sig .tc := ⟨.hbm, 52, rfl⟩
abbrev main_call3_c_4 : Ref sig .tc := ⟨.hbm, 53, rfl⟩
abbrev main_call3_v14 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v27 : BitVec 1 := Scalar.cmpi .eq arg0 c127_i32
  let v28 : BitVec 32 := Scalar.extui v27
  let c0_i32_13 : BitVec 32 := 0#32
  let v29 : BitVec 1 := Scalar.cmpi .ne v28 c0_i32_13
  v29

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S128_S1_127 : S128.Slices ![127] S1
  slices_S128_S127_0 : S128.Slices ![0] S127
  concatenates_S1_S127_S128_d0 : Shape.Concatenates [S1, S127] S128 0
  bcast_S_S1 : S_.BroadcastsInDim S1 (![] : Fin 0 → Fin S1.rank)
  bcast_S_S_ : S_.BroadcastsInDim S_ (![] : Fin 0 → Fin S_.rank)
  reduceWindows_S128_S128_w128s1p127_0 : S128.ReduceWindows (![128] : Fin 1 → Nat) ![1] ![127] ![0] S128
  h_S_ : 0 < S_.numel
  bcast_S_S524288 : S_.BroadcastsInDim S524288 (![] : Fin 0 → Fin S524288.rank)
  bcast_S_S128 : S_.BroadcastsInDim S128 (![] : Fin 0 → Fin S128.rank)
  bcast_S128_S128x1_0 : S128.BroadcastsInDim S128x1 (![0] : Fin 1 → Fin S128x1.rank)
  reduceWindows_S524288_S524288_w524288s1p524287_0 : S524288.ReduceWindows (![524288] : Fin 1 → Nat) ![1] ![524287] ![0] S524288
  bcast_S524288_S524288x1_0 : S524288.BroadcastsInDim S524288x1 (![0] : Fin 1 → Fin S524288x1.rank)
  bcast_S_S524288x1 : S_.BroadcastsInDim S524288x1 (![] : Fin 0 → Fin S524288x1.rank)
  bcast_S1_S1x1_1 : S1.BroadcastsInDim S1x1 (![1] : Fin 1 → Fin S1x1.rank)
  bcast_S1x1_S524288x1_0_1 : S1x1.BroadcastsInDim S524288x1 (![0, 1] : Fin 2 → Fin S524288x1.rank)
  reducesTo_S524288x1_S524288_d1 : S524288x1.ReducesTo [1] S524288
  shapeCasts_S524288_S524288x1 : S524288.ShapeCasts S524288x1
  shapeCasts_S128_S128x1 : S128.ShapeCasts S128x1
  shapeCasts_S256_S1x256 : S256.ShapeCasts S1x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S4096x256_S4096x256_0_0 : ∀ a, (![0, 0] : Fin 2 → Nat) a + S4096x256.size a ≤ S4096x256.size a
  h_S4096x256 : 0 < S4096x256.numel
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  iota_S4096x128_d1_w32 : S4096x128.Iotas .tc 32 [1]
  broadcasts_S4096x1_S4096x128 : S4096x1.Broadcasts S4096x128
  natLt_1_32 : 1 < 32
  bitsLt_bf16_f32 : FTy.bits .bf16 < FTy.bits .f32
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x256 : S128x1.Broadcasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S128x256 : S1x256.Broadcasts S128x256
  inb_S128x512_S128x256_0_0 : ∀ a, (![0, 0] : Fin 2 → Nat) a + S128x256.size a ≤ S128x512.size a
  inb_S128x512_S128x256_0_256 : ∀ a, (![0, 256] : Fin 2 → Nat) a + S128x256.size a ≤ S128x512.size a
  inb_S128x512_S128x512_0_0 : ∀ a, (![0, 0] : Fin 2 → Nat) a + S128x512.size a ≤ S128x512.size a
  h_S128x512 : 0 < S128x512.numel
  shapeCasts_S128x512_S128x512 : S128x512.ShapeCasts S128x512
  slices_S4096x512_o0_0_S4096x256 : S4096x512.Slices ![0, 0] S4096x256
  slices_S4096x512_o0_256_S4096x256 : S4096x512.Slices ![0, 256] S4096x256
  scatter_S128_S1_S__n_0_0_0_wf : ScatterDims.WF S128 S1 S_ [] [0] [0] 0
  scatter_S524288_S128x1_S128_n_0_0_1_wf : ScatterDims.WF S524288 S128x1 S128 [] [0] [0] 1
  gather_S128_S524288x1_S524288_n_0_n_n_0_1_1_wf : GatherDims.WF S128 S524288x1 S524288 [] [0] [] [0] [] 1 ![1]
  dot_S4096x128_S4096x256_S128x256_0_0_1_1_n_n_wf : DotDims.WF S4096x128 S4096x256 S128x256 [0] [0] [1] [1] [] []
  dot_S4096x128_S128x512_S4096x512_1_0_0_1_n_n_wf : DotDims.WF S4096x128 S128x512 S4096x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S524288x256.size a
  hwx0_0 : ∀ i : grid0.Coords, EltTy.bits .f32 = 32 ∨ (Rect.block (s := S524288x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S524288x1.size a
  hwx0_1 : ∀ i : grid0.Coords, EltTy.bits .i32 = 32 ∨ (Rect.block (s := S524288x1) S4096x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x512.size a ≤ S128x512.size a
  hwx0_5 : ∀ i : grid0.Coords, EltTy.bits .f32 = 32 ∨ (Rect.block (s := S128x512) S128x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S524288x256.size a
  hwx1_0 : ∀ i : grid1.Coords, EltTy.bits .f32 = 32 ∨ (Rect.block (s := S524288x256) S4096x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x1.size a ≤ S524288x1.size a
  hwx1_1 : ∀ i : grid1.Coords, EltTy.bits .i32 = 32 ∨ (Rect.block (s := S524288x1) S4096x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x512.size a ≤ S128x512.size a
  hwx1_2 : ∀ i : grid1.Coords, EltTy.bits .f32 = 32 ∨ (Rect.block (s := S128x512) S128x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x256.size a ≤ S524288x256.size a
  hwx1_3 : ∀ i : grid1.Coords, EltTy.bits .f32 = 32 ∨ (Rect.block (s := S524288x256) S4096x256.size (cc1_transform_3 i) (hinb1_3 i)).WholeWords (EltTy.packing .f32)

variable [Facts₀]

def scatter_S128_S1_S__n_0_0_0 : ScatterDims S128 S1 S_ where
  updateWindowDims := []
  insertedWindowDims := [0]
  scatterDimsToOperandDims := [0]
  indexVectorDim := 0
  wf := scatter_S128_S1_S__n_0_0_0_wf
def scatter_S524288_S128x1_S128_n_0_0_1 : ScatterDims S524288 S128x1 S128 where
  updateWindowDims := []
  insertedWindowDims := [0]
  scatterDimsToOperandDims := [0]
  indexVectorDim := 1
  wf := scatter_S524288_S128x1_S128_n_0_0_1_wf
def gather_S128_S524288x1_S524288_n_0_n_n_0_1_1 : GatherDims S128 S524288x1 S524288 where
  offsetDims := []
  collapsedSliceDims := [0]
  operandBatchingDims := []
  startIndicesBatchingDims := []
  startIndexMap := [0]
  indexVectorDim := 1
  sliceSizes := ![1]
  wf := gather_S128_S524288x1_S524288_n_0_n_n_0_1_1_wf
def dot_S4096x128_S4096x256_S128x256_0_0_1_1_n_n : DotDims S4096x128 S4096x256 S128x256 where
  lhsContracting := [0]
  rhsContracting := [0]
  lhsNonContracting := [1]
  rhsNonContracting := [1]
  lhsBatch := []
  rhsBatch := []
  wf := dot_S4096x128_S4096x256_S128x256_0_0_1_1_n_n_wf
def dot_S4096x128_S128x512_S4096x512_1_0_0_1_n_n : DotDims S4096x128 S128x512 S4096x512 where
  lhsContracting := [1]
  rhsContracting := [0]
  lhsNonContracting := [0]
  rhsNonContracting := [1]
  lhsBatch := []
  rhsBatch := []
  wf := dot_S4096x128_S128x512_S4096x512_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S128x512.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg0) S4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S4096x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S128x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S4096x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S524288x256 : Shape := ⟨2, ![524288, 256]⟩
abbrev S128 : Shape := ⟨1, ![128]⟩
abbrev S256 : Shape := ⟨1, ![256]⟩
abbrev S1 : Shape := ⟨1, ![1]⟩
abbrev S127 : Shape := ⟨1, ![127]⟩
abbrev S_ : Shape := ⟨0, ![]⟩
abbrev S524288 : Shape := ⟨1, ![524288]⟩
abbrev S128x1 : Shape := ⟨2, ![128, 1]⟩
abbrev S524288x1 : Shape := ⟨2, ![524288, 1]⟩
abbrev S1x1 : Shape := ⟨2, ![1, 1]⟩
abbrev S128x256 : Shape := ⟨2, ![128, 256]⟩
abbrev S1x256 : Shape := ⟨2, ![1, 256]⟩

abbrev nBuf : Space → Nat
  | .hbm => 101
  | .vmem => 0
  | .smem => 0
  | _ => 0

abbrev bufTy : (tb : Table) → Fin (tcTables nBuf tb) → BufTy
  | .hbm, ⟨0, _⟩ => ⟨S524288x256, .f32⟩
  | .hbm, ⟨1, _⟩ => ⟨S128, .i32⟩
  | .hbm, ⟨2, _⟩ => ⟨S256, .f32⟩
  | .hbm, ⟨3, _⟩ => ⟨S256, .f32⟩
  | .hbm, ⟨4, _⟩ => ⟨S128, .i32⟩
  | .hbm, ⟨5, _⟩ => ⟨S1, .i32⟩
  | .hbm, ⟨6, _⟩ => ⟨S127, .i32⟩
  | .hbm, ⟨7, _⟩ => ⟨S128, .i32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S128, .i32⟩
  | .hbm, ⟨12, _⟩ => ⟨S_, .i32⟩
  | .hbm, ⟨13, _⟩ => ⟨S_, .i32⟩
  | .hbm, ⟨14, _⟩ => ⟨S128, .i32⟩
  | .hbm, ⟨15, _⟩ => ⟨S_, .i32⟩
  | .hbm, ⟨16, _⟩ => ⟨S524288, .i32⟩
  | .hbm, ⟨17, _⟩ => ⟨S_, .i32⟩
  | .hbm, ⟨18, _⟩ => ⟨S128, .i32⟩
  | .hbm, ⟨19, _⟩ => ⟨S128, .i1⟩
  | .hbm, ⟨20, _⟩ => ⟨S_, .i32⟩
  | .hbm, ⟨21, _⟩ => ⟨S128, .i32⟩
  | .hbm, ⟨22, _⟩ => ⟨S128, .i32⟩
  | .hbm, ⟨23, _⟩ => ⟨S128, .i32⟩
  | .hbm, ⟨24, _⟩ => ⟨S128x1, .i32⟩
  | .hbm, ⟨25, _⟩ => ⟨S_, .i32⟩
  | .hbm, ⟨26, _⟩ => ⟨S128, .i32⟩
  | .hbm, ⟨27, _⟩ => ⟨S524288, .i32⟩
  | .hbm, ⟨28, _⟩ => ⟨S_, .i32⟩
  | .hbm, ⟨29, _⟩ => ⟨S_, .i32⟩
  | .hbm, ⟨30, _⟩ => ⟨S524288, .i32⟩
  | .hbm, ⟨31, _⟩ => ⟨S_, .i32⟩
  | .hbm, ⟨32, _⟩ => ⟨S524288, .i32⟩
  | .hbm, ⟨33, _⟩ => ⟨S524288, .i32⟩
  | .hbm, ⟨34, _⟩ => ⟨S_, .i32⟩
  | .hbm, ⟨35, _⟩ => ⟨S524288, .i32⟩
  | .hbm, ⟨36, _⟩ => ⟨S524288, .i1⟩
  | .hbm, ⟨37, _⟩ => ⟨S_, .i32⟩
  | .hbm, ⟨38, _⟩ => ⟨S524288, .i32⟩
  | .hbm, ⟨39, _⟩ => ⟨S524288, .i32⟩
  | .hbm, ⟨40, _⟩ => ⟨S524288, .i32⟩
  | .hbm, ⟨41, _⟩ => ⟨S524288x1, .i32⟩
  | .hbm, ⟨42, _⟩ => ⟨S1, .i32⟩
  | .hbm, ⟨43, _⟩ => ⟨S_, .i32⟩
  | .hbm, ⟨44, _⟩ => ⟨S524288x1, .i32⟩
  | .hbm, ⟨45, _⟩ => ⟨S524288x1, .i1⟩
  | .hbm, ⟨46, _⟩ => ⟨S1x1, .i32⟩
  | .hbm, ⟨47, _⟩ => ⟨S524288x1, .i32⟩
  | .hbm, ⟨48, _⟩ => ⟨S524288x1, .i1⟩
  | .hbm, ⟨49, _⟩ => ⟨S524288x1, .i1⟩
  | .hbm, ⟨50, _⟩ => ⟨S_, .i1⟩
  | .hbm, ⟨51, _⟩ => ⟨S524288, .i1⟩
  | .hbm, ⟨52, _⟩ => ⟨S524288, .i32⟩
  | .hbm, ⟨53, _⟩ => ⟨S_, .i32⟩
  | .hbm, ⟨54, _⟩ => ⟨S524288, .i32⟩
  | .hbm, ⟨55, _⟩ => ⟨S524288, .i32⟩
  | .hbm, ⟨56, _⟩ => ⟨S128, .f32⟩
  | .hbm, ⟨57, _⟩ => ⟨S128x1, .f32⟩
  | .hbm, ⟨58, _⟩ => ⟨S_, .f32⟩
  | .hbm, ⟨59, _⟩ => ⟨S128x256, .f32⟩
  | .hbm, ⟨60, _⟩ => ⟨S524288x1, .i32⟩
  | .hbm, ⟨61, _⟩ => ⟨S128x256, .f32⟩
  | .hbm, ⟨62, _⟩ => ⟨S128x256, .f32⟩
  | .hbm, ⟨63, _⟩ => ⟨S128x256, .f32⟩
  | .hbm, ⟨64, _⟩ => ⟨S_, .i32⟩
  | .hbm, ⟨65, _⟩ => ⟨S524288, .i32⟩
  | .hbm, ⟨66, _⟩ => ⟨S524288, .i1⟩
  | .hbm, ⟨67, _⟩ => ⟨S_, .i32⟩
  | .hbm, ⟨68, _⟩ => ⟨S524288, .i32⟩
  | .hbm, ⟨69, _⟩ => ⟨S524288, .i32⟩
  | .hbm, ⟨70, _⟩ => ⟨S524288, .i32⟩
  | .hbm, ⟨71, _⟩ => ⟨S524288x1, .i32⟩
  | .hbm, ⟨72, _⟩ => ⟨S524288x256, .f32⟩
  | .hbm, ⟨73, _⟩ => ⟨S524288x256, .f32⟩
  | .hbm, ⟨74, _⟩ => ⟨S524288x256, .f32⟩
  | .hbm, ⟨75, _⟩ => ⟨S_, .f32⟩
  | .hbm, ⟨76, _⟩ => ⟨S128x256, .f32⟩
  | .hbm, ⟨77, _⟩ => ⟨S524288x1, .i32⟩
  | .hbm, ⟨78, _⟩ => ⟨S128x256, .f32⟩
  | .hbm, ⟨79, _⟩ => ⟨S128x256, .f32⟩
  | .hbm, ⟨80, _⟩ => ⟨S128x256, .f32⟩
  | .hbm, ⟨81, _⟩ => ⟨S_, .f32⟩
  | .hbm, ⟨82, _⟩ => ⟨S128x256, .f32⟩
  | .hbm, ⟨83, _⟩ => ⟨S128x256, .f32⟩
  | .hbm, ⟨84, _⟩ => ⟨S128x256, .f32⟩
  | .hbm, ⟨85, _⟩ => ⟨S_, .i32⟩
  | .hbm, ⟨86, _⟩ => ⟨S524288, .i32⟩
  | .hbm, ⟨87, _⟩ => ⟨S524288, .i1⟩
  | .hbm, ⟨88, _⟩ => ⟨S_, .i32⟩
  | .hbm, ⟨89, _⟩ => ⟨S524288, .i32⟩
  | .hbm, ⟨90, _⟩ => ⟨S524288, .i32⟩
  | .hbm, ⟨91, _⟩ => ⟨S524288, .i32⟩
  | .hbm, ⟨92, _⟩ => ⟨S524288x1, .i32⟩
  | .hbm, ⟨93, _⟩ => ⟨S524288x256, .f32⟩
  | .hbm, ⟨94, _⟩ => ⟨S524288x256, .f32⟩
  | .hbm, ⟨95, _⟩ => ⟨S1x256, .f32⟩
  | .hbm, ⟨96, _⟩ => ⟨S524288x256, .f32⟩
  | .hbm, ⟨97, _⟩ => ⟨S524288x256, .f32⟩
  | .hbm, ⟨98, _⟩ => ⟨S1x256, .f32⟩
  | .hbm, ⟨99, _⟩ => ⟨S524288x256, .f32⟩
  | .hbm, ⟨100, _⟩ => ⟨S524288x256, .f32⟩
  | _, _ => ⟨S524288x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_call1_call0_c : Ref sig .tc := ⟨.hbm, 12, rfl⟩
abbrev main_call1_call0_v0 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_c_2 : Ref sig .tc := ⟨.hbm, 17, rfl⟩
abbrev main_v6 : Ref sig .tc := ⟨.hbm, 18, rfl⟩
abbrev main_v7 : Ref sig .tc := ⟨.hbm, 19, rfl⟩
abbrev main_c_3 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_4 : Ref sig .tc := ⟨.hbm, 25, rfl⟩
abbrev main_v12 : Ref sig .tc := ⟨.hbm, 26, rfl⟩
abbrev main_v13 : Ref sig .tc := ⟨.hbm, 27, rfl⟩
abbrev main_call2_call0_c : Ref sig .tc := ⟨.hbm, 28, rfl⟩
abbrev main_call2_call0_v0 : Ref sig .tc := ⟨.hbm, 29, rfl⟩
abbrev main_v14 : Ref sig .tc := ⟨.hbm, 30, rfl⟩
abbrev main_c_5 : Ref sig .tc := ⟨.hbm, 31, rfl⟩
abbrev main_v15 : Ref sig .tc := ⟨.hbm, 32, rfl⟩
abbrev main_v16 : Ref sig .tc := ⟨.hbm, 33, rfl⟩
abbrev main_call3_c : Ref sig .tc := ⟨.hbm, 34, rfl⟩
abbrev main_call3_v0 : Ref sig .tc := ⟨.hbm, 35, rfl⟩
abbrev main_call3_v1 : Ref sig .tc := ⟨.hbm, 36, rfl⟩
abbrev main_call3_c_0 : Ref sig .tc := ⟨.hbm, 37, rfl⟩
abbrev main_call3_v2 : Ref sig .tc := ⟨.hbm, 38, rfl⟩
abbrev main_call3_v3 : Ref sig .tc := ⟨.hbm, 39, rfl⟩
abbrev main_call3_v4 : Ref sig .tc := ⟨.hbm, 40, rfl⟩
abbrev main_call3_v5 : Ref sig .tc := ⟨.hbm, 41, rfl⟩
abbrev main_call3_c_1 : Ref sig .tc := ⟨.hbm, 42, rfl⟩
abbrev main_call3_c_2 : Ref sig .tc := ⟨.hbm, 43, rfl⟩
abbrev main_call3_v6 : Ref sig .tc := ⟨.hbm, 44, rfl⟩
abbrev main_call3_v7 : Ref sig .tc := ⟨.hbm, 45, rfl⟩
abbrev main_call3_v8 : Ref sig .tc := ⟨.hbm, 46, rfl⟩
abbrev main_call3_v9 : Ref sig .tc := ⟨.hbm, 47, rfl⟩
abbrev main_call3_v10 : Ref sig .tc := ⟨.hbm, 48, rfl⟩
abbrev main_call3_v11 : Ref sig .tc := ⟨.hbm, 49, rfl⟩
abbrev main_call3_c_3 : Ref sig .tc := ⟨.hbm, 50, rfl⟩
abbrev main_call3_v12 : Ref sig .tc := ⟨.hbm, 51, rfl⟩
abbrev main_call3_v13 : Ref sig .tc := ⟨.hbm, 52, rfl⟩
abbrev main_call3_c_4 : Ref sig .tc := ⟨.hbm, 53, rfl⟩
abbrev main_call3_v14 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_cst : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_c_6 : Ref sig .tc := ⟨.hbm, 64, rfl⟩
abbrev main_v25 : Ref sig .tc := ⟨.hbm, 65, rfl⟩
abbrev main_v26 : Ref sig .tc := ⟨.hbm, 66, rfl⟩
abbrev main_c_7 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_cst_8 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_cst_9 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_c_10 : Ref sig .tc := ⟨.hbm, 85, rfl⟩
abbrev main_v42 : Ref sig .tc := ⟨.hbm, 86, rfl⟩
abbrev main_v43 : Ref sig .tc := ⟨.hbm, 87, rfl⟩
abbrev main_c_11 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩

abbrev nD : Nat := 1
abbrev τ : Topo := Topo.v7x

variable {F : FTy → Type} [FloatOps F]

class Facts₀ : Prop where
  slices_S128_S1_127 : S128.Slices ![127] S1
  slices_S128_S127_0 : S128.Slices ![0] S127
  concatenates_S1_S127_S128_d0 : Shape.Concatenates [S1, S127] S128 0
  bcast_S_S1 : S_.BroadcastsInDim S1 (![] : Fin 0 → Fin S1.rank)
  bcast_S_S_ : S_.BroadcastsInDim S_ (![] : Fin 0 → Fin S_.rank)
  reduceWindows_S128_S128_w128s1p127_0 : S128.ReduceWindows (![128] : Fin 1 → Nat) ![1] ![127] ![0] S128
  h_S_ : 0 < S_.numel
  bcast_S_S524288 : S_.BroadcastsInDim S524288 (![] : Fin 0 → Fin S524288.rank)
  bcast_S_S128 : S_.BroadcastsInDim S128 (![] : Fin 0 → Fin S128.rank)
  bcast_S128_S128x1_0 : S128.BroadcastsInDim S128x1 (![0] : Fin 1 → Fin S128x1.rank)
  reduceWindows_S524288_S524288_w524288s1p524287_0 : S524288.ReduceWindows (![524288] : Fin 1 → Nat) ![1] ![524287] ![0] S524288
  bcast_S524288_S524288x1_0 : S524288.BroadcastsInDim S524288x1 (![0] : Fin 1 → Fin S524288x1.rank)
  bcast_S_S524288x1 : S_.BroadcastsInDim S524288x1 (![] : Fin 0 → Fin S524288x1.rank)
  bcast_S1_S1x1_1 : S1.BroadcastsInDim S1x1 (![1] : Fin 1 → Fin S1x1.rank)
  bcast_S1x1_S524288x1_0_1 : S1x1.BroadcastsInDim S524288x1 (![0, 1] : Fin 2 → Fin S524288x1.rank)
  reducesTo_S524288x1_S524288_d1 : S524288x1.ReducesTo [1] S524288
  bcast_S_S128x256 : S_.BroadcastsInDim S128x256 (![] : Fin 0 → Fin S128x256.rank)
  bcast_S128x1_S128x256_0_1 : S128x1.BroadcastsInDim S128x256 (![0, 1] : Fin 2 → Fin S128x256.rank)
  bcast_S256_S1x256_1 : S256.BroadcastsInDim S1x256 (![1] : Fin 1 → Fin S1x256.rank)
  bcast_S1x256_S524288x256_0_1 : S1x256.BroadcastsInDim S524288x256 (![0, 1] : Fin 2 → Fin S524288x256.rank)
  scatter_S128_S1_S__n_0_0_0_wf : ScatterDims.WF S128 S1 S_ [] [0] [0] 0
  scatter_S524288_S128x1_S128_n_0_0_1_wf : ScatterDims.WF S524288 S128x1 S128 [] [0] [0] 1
  gather_S128_S524288x1_S524288_n_0_n_n_0_1_1_wf : GatherDims.WF S128 S524288x1 S524288 [] [0] [] [0] [] 1 ![1]
  scatter_S128x256_S524288x1_S524288x256_1_0_0_1_wf : ScatterDims.WF S128x256 S524288x1 S524288x256 [1] [0] [0] 1
  gather_S128x256_S524288x1_S524288x256_1_0_n_n_0_1_1256_wf : GatherDims.WF S128x256 S524288x1 S524288x256 [1] [0] [] [0] [] 1 ![1, 256]

variable [Facts₀]

def scatter_S128_S1_S__n_0_0_0 : ScatterDims S128 S1 S_ where
  updateWindowDims := []
  insertedWindowDims := [0]
  scatterDimsToOperandDims := [0]
  indexVectorDim := 0
  wf := scatter_S128_S1_S__n_0_0_0_wf
def scatter_S524288_S128x1_S128_n_0_0_1 : ScatterDims S524288 S128x1 S128 where
  updateWindowDims := []
  insertedWindowDims := [0]
  scatterDimsToOperandDims := [0]
  indexVectorDim := 1
  wf := scatter_S524288_S128x1_S128_n_0_0_1_wf
def gather_S128_S524288x1_S524288_n_0_n_n_0_1_1 : GatherDims S128 S524288x1 S524288 where
  offsetDims := []
  collapsedSliceDims := [0]
  operandBatchingDims := []
  startIndicesBatchingDims := []
  startIndexMap := [0]
  indexVectorDim := 1
  sliceSizes := ![1]
  wf := gather_S128_S524288x1_S524288_n_0_n_n_0_1_1_wf
def scatter_S128x256_S524288x1_S524288x256_1_0_0_1 : ScatterDims S128x256 S524288x1 S524288x256 where
  updateWindowDims := [1]
  insertedWindowDims := [0]
  scatterDimsToOperandDims := [0]
  indexVectorDim := 1
  wf := scatter_S128x256_S524288x1_S524288x256_1_0_0_1_wf
def gather_S128x256_S524288x1_S524288x256_1_0_n_n_0_1_1256 : GatherDims S128x256 S524288x1 S524288x256 where
  offsetDims := [1]
  collapsedSliceDims := [0]
  operandBatchingDims := []
  startIndicesBatchingDims := []
  startIndexMap := [0]
  indexVectorDim := 1
  sliceSizes := ![1, 256]
  wf := gather_S128x256_S524288x1_S524288x256_1_0_n_n_0_1_1256_wf

class Facts : Prop extends Facts₀ where

variable [Facts]
-- ==== Proof.BRunCond.lean ====
/- The run of @main through its host stretches and its two kernel regions, given each region's segment record pinned
   to the thread states between the items: every weakly fair execution terminates, and the final memory holds the
   second region's output array at what that region leaves there and every argument array as launched. -/
import proofs.«122487_j41781441855970_1_alg».proof.Proof.Gen.Kernel.Regions

noncomputable section

namespace Cert.Kernel.HandRun

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

set_option backward.isDefEq.respectTransparency.types false in
/-- The conditional run: as the conditional frame, over any contents X10 between the regions and X11 after the second
    (X11 holding each argument as launched), with the second region's output array read off X11 beside the arguments. -/
theorem run_cond {Ix : Type} [DecidableEq Ix] {U : Type} [URA U] {Lvl : Type} [Preorder Lvl]
    (m : (ℓ : Loc nD τ sig) → Buf (Elt F) ℓ)
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (X10 X11 : Dev nD → Valuation τ sig (Elt F))
    (harg0 : ∀ c : Dev nD, X11 c (Proc.devRef .tc main_arg0) = m ((c : Thread nD τ).loc main_arg0))
    (harg1 : ∀ c : Dev nD, X11 c (Proc.devRef .tc main_arg1) = m ((c : Thread nD τ).loc main_arg1))
    (harg2 : ∀ c : Dev nD, X11 c (Proc.devRef .tc main_arg2) = m ((c : Thread nD τ).loc main_arg2))
    (harg3 : ∀ c : Dev nD, X11 c (Proc.devRef .tc main_arg3) = m ((c : Thread nD τ).loc main_arg3))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V9 m c) ∗ E 0 c) ⊢ R0.pre c)
    (hpost0 : ∀ c : Dev nD, R0.post c ⊢ iprop(StableHlo.held (c : Thread nD τ) (Pipeline.ucRefs τ sig) (X10 c) ∗ E 1 c))
    (R1 : RegionSeg (pcfgs (F := F)) adm pdats ι defs₀ 𝒱₀ L lv 1)
    (hpre1 : ∀ c : Dev nD, iprop(StableHlo.held (c : Thread nD τ) (Pipeline.ucRefs τ sig) (X10 c) ∗ E 1 c) ⊢ R1.pre c)
    (hpost1 : ∀ c : Dev nD, R1.post c ⊢ iprop(StableHlo.held (c : Thread nD τ) (Pipeline.ucRefs τ sig) (X11 c) ∗ E 2 c)) :
    θ_run defs (onTc (τ := τ) (main (F := F))) ⟨m, fun _ => 0, ρ⟩ (fun r => ∀ c : Dev nD,
      r.2.mem ((c.tc : Thread nD τ).loc main_v24) = X11 c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) adm pdats ι cellOf_inj EP defs₀ 𝒱₀ L lv m ρ main
    (segs m 𝒱₀ L lv E ι pdats R0 R1)
    (fun c Q => by
      rewrite [main_chain c, Seg.run_eq_chain,
        show (segs m 𝒱₀ L lv E ι pdats R0 R1 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (X11 c))
    (hch := fun c => ⟨.rfl, .rfl, .rfl, .rfl, .rfl, .rfl, .rfl, .rfl, .rfl, hpre0 c, (hpost0 c).trans (hpre1 c), (hpost1 c).trans (sep_mono .rfl (hE2 c))⟩)
    (hinit := ?_) (QY := fun c s => s.mem ((c.tc : Thread nD τ).loc main_v24) = X11 c (Proc.devRef .tc main_v24) ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3))
    (hfin := fun c s' => ?_) (hQ := fun _ h => h)
  · -- the launch: the unscoped buffers are held at the launch contents; the rest makes E 0 on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each buffer read off the last valuation
    unfold StableHlo.held
    iintro ⟨Hh, HSI⟩
    ihave Hr := (pointsTo_read_all (Pipeline.ucRefs τ sig) (fun b => ((c : Thread nD τ).1, b)) (X11 c) s') $$ [Hh HSI]
    · isplitl [Hh] <;> iassumption
    icases Hr with ⟨%h, HSI⟩
    imodintro
    isplitr
    · ipureintro
      exact ⟨h (Proc.devRef .tc main_v24) (Finset.mem_filter.mpr ⟨StableHlo.devRef_mem_tcRefs main_v24, by decide⟩),
        (h (Proc.devRef .tc main_arg0) (Finset.mem_filter.mpr ⟨StableHlo.devRef_mem_tcRefs main_arg0, by decide⟩)).trans (harg0 c),
        (h (Proc.devRef .tc main_arg1) (Finset.mem_filter.mpr ⟨StableHlo.devRef_mem_tcRefs main_arg1, by decide⟩)).trans (harg1 c),
        (h (Proc.devRef .tc main_arg2) (Finset.mem_filter.mpr ⟨StableHlo.devRef_mem_tcRefs main_arg2, by decide⟩)).trans (harg2 c),
        (h (Proc.devRef .tc main_arg3) (Finset.mem_filter.mpr ⟨StableHlo.devRef_mem_tcRefs main_arg3, by decide⟩)).trans (harg3 c)⟩
    · iexact HSI

end Cert.Kernel.HandRun

end
-- ==== Proof.B1Region.lean ====
/- Region 1 of @main (the normalising kernel) at the buffer contents found when the region is entered: the windows'
   blocks, what the body leaves in the output window's staging buffer, the body's triple, the pipeline's proof data
   and the body obligation at every grid point. Generic in the float model. -/
import proofs.«122487_j41781441855970_1_alg».proof.Proof.Gen.Kernel.Launch
import proofs.«122487_j41781441855970_1_alg».proof.Proof.Gen.Kernel.Skeleton
import proofs.«122487_j41781441855970_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when region 1 is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: an unfetched
    window's block index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_x : Rect S4096x256 := Rect.unit (s := S4096x256) ![0, 0] S4096x256.size inb_S4096x256_S4096x256_0_0
abbrev r1_s : Rect S4096x1 := Rect.unit (s := S4096x1) ![0, 0] S4096x1.size inb_S4096x1_S4096x1_0_0
abbrev r1_t : Rect S128x512 := Rect.unit (s := S128x512) ![0, 0] S128x512.size inb_S128x512_S128x512_0_0

/-! ## What the body leaves in the output window's buffer -/

/-- The output window's staging buffer after the body, from the three input windows' blocks: its one store. -/
def out1_3 (x0 : Vec F S4096x256 .f32) (x1 : Vec F S4096x1 .i32) (x2 : Vec F S128x512 .f32) : Vec F S4096x256 .f32 :=
  View.canon [⟨r1_x, k1_pay1 (View.ld x0 r1_x) (View.ld x1 r1_s) (View.ld x2 r1_t)⟩]

/-- The one store covers the buffer. -/
theorem cover1_3 (p0 : Vec F S4096x256 .f32) (y : S4096x256.Idx) :
    ∃ pc ∈ ([⟨r1_x, p0⟩] : List (View.Piece (Elt F) S4096x256 .f32)), y ∈ pc.1.set :=
  View.cover_of_tiled [⟨r1_x, p0⟩] S4096x256.size (by rfl) y

/-! ## The body's triple -/

set_option maxHeartbeats 1000000 in
/-- The kernel body on whole staging memrefs, the inputs' at read contents and the output's at anything (the body
    reads it once and discards what it read), runs to the continuation holding the inputs' as they were and the
    output's at out1_3 of the inputs'. -/
theorem sound_kernel1 (c : Dev nD) (E : Set ℕ) (i : grid1.Coords) (arg1 : Memref sig .tc .vmem S4096x256 .f32) (harg1 : arg1.IsWhole) (arg2 : Memref sig .tc .vmem S4096x1 .i32) (harg2 : arg2.IsWhole) (arg3 : Memref sig .tc .vmem S128x512 .f32) (harg3 : arg3.IsWhole) (arg4 : Memref sig .tc .vmem S4096x256 .f32) (harg4 : arg4.IsWhole)
    (x0 : Vec F S4096x256 .f32) (x1 : Vec F S4096x1 .i32) (x2 : Vec F S128x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__norm_kernel i arg1 harg1 arg2 harg2 arg3 harg3 arg4 harg4) K := by
  simp only [cc1__norm_kernel_eq_skeleton]; unfold cc1__norm_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core c: the arrays as the region finds them; after the body at point t each
    input's buffer at its block and the output's at out1_3 of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand1

end
-- ==== Proof.BRun.lean ====
/- The run of @main through both kernel regions, from the first region's proof data and invariant entailments taken as
   given: the buffer contents between the items, every pipeline's proof data at its region's entry contents, each
   region's segment record over the thread state "every unscoped buffer at the boundary's contents, the generator
   register at some state, nothing owed", and the run itself. Generic in the float model. -/
import proofs.«122487_j41781441855970_1_alg».proof.Proof.BRunCond
import proofs.«122487_j41781441855970_1_alg».proof.Proof.B1Region

set_option maxRecDepth 16384

noncomputable section

namespace Cert.Kernel.HandRun

open Cert.Kernel.Gen Cert.Kernel.Hand1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The TensorCore's buffer contents at a boundary, per core. -/
abbrev Conts (F : FTy → Type) [FloatOps F] : Type := (c : Dev nD) → (b : Ref sig .tc) → Buf (Elt F) ((c : Thread nD τ).loc b)

/-- What the run takes of the first region: its proof data at any entry contents — the arrays read off those contents,
    full shares, nothing owed, every cell recorded —, its body obligation, and its invariant made at the first point from
    the generator register and the scoped buffers no window stages, and giving them back at the last. -/
structure Reg0 (F : FTy → Type) [FloatOps F] where
  dat0 : Conts F → (c : Dev nD) → Dat τ (Elt F) Unit ℕ (UR sig nD τ) ℕ cfg0 c
  hA : ∀ (V : Conts F) (c : Dev nD) (w : Fin cfg0.W), (dat0 V c).A w = V c (Pipeline.arrRef spec0 w)
  hq : ∀ (V : Conts F) (c : Dev nD) (w : Fin cfg0.W), (dat0 V c).q w = fullShare
  howed : ∀ (V : Conts F) (c : Dev nD) t, (dat0 V c).owed t = 0
  hrec : ∀ (V : Conts F) (c : Dev nD) t, (dat0 V c).recorded t = Set.univ
  body : ∀ (V : Conts F) (c : Dev nD), BodyObligation (dat0 V c) (defs₀ (F := F)) Variants.none () Set.univ
  hin : ∀ (V : Conts F) (c : Dev nD), (iprop((∃ r, prngReg c r) ∗ Pipeline.scopedRest spec0 c) : sProp (MT nD τ sig Unit (Elt F) ℕ (UR sig nD τ) ℕ)) ⊢ (dat0 V c).Φ 0
  hout : ∀ (V : Conts F) (c : Dev nD), (dat0 V c).Φ (Fin.last cfg0.N) ⊢ (iprop((∃ r, prngReg c r) ∗ Pipeline.scopedRest spec0 c) : sProp (MT nD τ sig Unit (Elt F) ℕ (UR sig nD τ) ℕ))

section Run

variable (D0 : Reg0 F)

variable (m : (ℓ : Loc nD τ sig) → Buf (Elt F) ℓ)

/-! ## The buffer contents at the regions' boundaries -/

/-- At the first region's entry: the launch contents through the host stretches. -/
abbrev T9 : Conts F := fun c b => V9 m c b

/-- At the first region's exit: its arrays at what the pipeline leaves, every other buffer as entered. -/
def W10 (c : Dev nD) : Valuation τ sig (Elt F) :=
  Pipeline.withArrays spec0 c (V9 m c) fun w => (D0.dat0 (T9 m) c).arrAt w cfg0.N
theorem W10_arr (c : Dev nD) (w : Fin cfg0.W) :
    W10 D0 m c (Proc.devRef .tc (Pipeline.arrRef spec0 w)) = (D0.dat0 (T9 m) c).arrAt w cfg0.N := by
  unfold W10; exact Pipeline.withArrays_arr spec0 launch0.win.arr_inj c _ _ w
theorem W10_of_ne (c : Dev nD) (b : Ref sig .tc) (hb : ∀ w, Pipeline.arrRef spec0 w ≠ b) :
    W10 D0 m c (Proc.devRef .tc b) = V9 m c (Proc.devRef .tc b) := by
  unfold W10; exact Pipeline.withArrays_of_ne spec0 c _ _ b hb
/-- The same read at the TensorCore's references: the second region's entry contents. -/
abbrev T10 : Conts F := fun c b => W10 D0 m c b
theorem hF0 (c : Dev nD) (w : Fin cfg0.W) : (D0.dat0 (T9 m) c).arrAt w cfg0.N = T10 D0 m c (Pipeline.arrRef spec0 w) :=
  (W10_arr D0 m c w).symm
theorem hrest0 (c : Dev nD) : ∀ b, b ∉ Finset.univ.image (Pipeline.arrRef spec0) → T10 D0 m c b = T9 m c b :=
  fun b hb => W10_of_ne D0 m c b fun w e => hb (Finset.mem_image.mpr ⟨w, Finset.mem_univ _, e⟩)

/-- At the second region's exit: its arrays at what the pipeline leaves, every other buffer as entered. -/
def W11 (c : Dev nD) : Valuation τ sig (Elt F) :=
  Pipeline.withArrays spec1 c (W10 D0 m c) fun w => (dat1 (T10 D0 m) c).arrAt w cfg1.N
theorem W11_arr (c : Dev nD) (w : Fin cfg1.W) :
    W11 D0 m c (Proc.devRef .tc (Pipeline.arrRef spec1 w)) = (dat1 (T10 D0 m) c).arrAt w cfg1.N := by
  unfold W11; exact Pipeline.withArrays_arr spec1 launch1.win.arr_inj c _ _ w
theorem W11_of_ne (c : Dev nD) (b : Ref sig .tc) (hb : ∀ w, Pipeline.arrRef spec1 w ≠ b) :
    W11 D0 m c (Proc.devRef .tc b) = W10 D0 m c (Proc.devRef .tc b) := by
  unfold W11; exact Pipeline.withArrays_of_ne spec1 c _ _ b hb
abbrev T11 : Conts F := fun c b => W11 D0 m c b
theorem hF1 (c : Dev nD) (w : Fin cfg1.W) : (dat1 (T10 D0 m) c).arrAt w cfg1.N = T11 D0 m c (Pipeline.arrRef spec1 w) :=
  (W11_arr D0 m c w).symm
theorem hrest1 (c : Dev nD) : ∀ b, b ∉ Finset.univ.image (Pipeline.arrRef spec1) → T11 D0 m c b = T10 D0 m c b :=
  fun b hb => W11_of_ne D0 m c b fun w e => hb (Finset.mem_image.mpr ⟨w, Finset.mem_univ _, e⟩)

/-! ### The arguments end as launched -/

theorem W11_main_arg0 (c : Dev nD) : W11 D0 m c (Proc.devRef .tc main_arg0) = m ((c : Thread nD τ).loc main_arg0) :=
  calc W11 D0 m c (Proc.devRef .tc main_arg0)
    _ = W10 D0 m c (Proc.devRef .tc main_arg0) := (W11_arr D0 m c 0).trans (((dat1 (T10 D0 m) c).arrAt_in 0 rfl _).trans (A_eq1 (T10 D0 m) c 0))
    _ = V9 m c (Proc.devRef .tc main_arg0) := (W10_arr D0 m c 0).trans (((D0.dat0 (T9 m) c).arrAt_in 0 rfl _).trans (D0.hA (T9 m) c 0))
    _ = m ((c : Thread nD τ).loc main_arg0) := (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans rfl

theorem W11_main_arg1 (c : Dev nD) : W11 D0 m c (Proc.devRef .tc main_arg1) = m ((c : Thread nD τ).loc main_arg1) :=
  calc W11 D0 m c (Proc.devRef .tc main_arg1)
    _ = W10 D0 m c (Proc.devRef .tc main_arg1) := W11_of_ne D0 m c main_arg1 (by decide)
    _ = V9 m c (Proc.devRef .tc main_arg1) := W10_of_ne D0 m c main_arg1 (by decide)
    _ = m ((c : Thread nD τ).loc main_arg1) := (V9_of m c main_arg1 (by decide)).trans <| (V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans rfl

theorem W11_main_arg2 (c : Dev nD) : W11 D0 m c (Proc.devRef .tc main_arg2) = m ((c : Thread nD τ).loc main_arg2) :=
  calc W11 D0 m c (Proc.devRef .tc main_arg2)
    _ = W10 D0 m c (Proc.devRef .tc main_arg2) := W11_of_ne D0 m c main_arg2 (by decide)
    _ = V9 m c (Proc.devRef .tc main_arg2) := W10_of_ne D0 m c main_arg2 (by decide)
    _ = m ((c : Thread nD τ).loc main_arg2) := (V9_of m c main_arg2 (by decide)).trans <| (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans rfl

theorem W11_main_arg3 (c : Dev nD) : W11 D0 m c (Proc.devRef .tc main_arg3) = m ((c : Thread nD τ).loc main_arg3) :=
  calc W11 D0 m c (Proc.devRef .tc main_arg3)
    _ = W10 D0 m c (Proc.devRef .tc main_arg3) := W11_of_ne D0 m c main_arg3 (by decide)
    _ = V9 m c (Proc.devRef .tc main_arg3) := W10_of_ne D0 m c main_arg3 (by decide)
    _ = m ((c : Thread nD τ).loc main_arg3) := (V9_of m c main_arg3 (by decide)).trans <| (V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans rfl

/-! ## The proof data family and the thread state -/

/-- Every pipeline's proof data, each at its region's entry contents: a literal match on the pipeline. -/
def pdats : (p : Fin 2) → (c : Dev nD) → Dat τ (Elt F) Unit ℕ (UR sig nD τ) ℕ (cfgs p) c
  | ⟨0, _⟩ => fun c => D0.dat0 (T9 m) c
  | ⟨1, _⟩ => fun c => dat1 (T10 D0 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- The first region over the thread state: entered from every unscoped buffer at the contents after the host
    stretches, left with its arrays at what the pipeline leaves. Its arrays split out of the unscoped buffers and put
    back at the exit contents; the generator register and the scoped rest into the region's invariant and out. -/
def reg0 : Pipeline.RegionSeg (pcfgs (F := F)) adm (pdats D0 m) () defs₀ 𝒱₀ L lv 0 where
  win := launch0.win.to₀
  block_pos := launch0.block_pos
  stage_whole := launch0.stage_whole
  K := PEmpty
  osem k := k.elim
  ho := Pipeline.OwnSemFacts.none _
  hbody c := (D0.body (T9 m) c).loose
  hwaits := Pipeline.hwaits_of_owed_zero _ _ _ _ L lv 0 fun c t => D0.howed (T9 m) c t
  pre c := iprop(StableHlo.held (c : Thread nD τ) (Pipeline.ucRefs τ sig) (V9 m c) ∗ R c)
  post c := iprop(StableHlo.held (c : Thread nD τ) (Pipeline.ucRefs τ sig) (W10 D0 m c) ∗ R c)
  X c := iprop(∃ r, prngReg c r)
  Y c := iprop(∃ r, prngReg c r)
  Z c := Pipeline.unscopedRest (Ix := Unit) (Name := ℕ) (U := UR sig nD τ) (Lvl := ℕ) spec0 c (T9 m c)
  hentry c := by
    rw [Pipeline.ownSems0_none]
    have hsplit := Pipeline.arrays_of_unscopedBufs (p := 0) (pcfgs (F := F)) adm (pdats D0 m) launch0.win launch0.arr_whole c
      ((pdats D0 m 0 c).share_full fun w => D0.hq (T9 m) c w) (T9 m c) fun w => D0.hA (T9 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun x _ => Or.inl ((Set.ext_iff.mp (D0.hrec (T9 m) c 0) x).mpr (Set.mem_univ x))
      rw [show (pdats D0 m 0 c).owed 0 = 0 from D0.howed (T9 m) c 0]
      iexact HO
    isplitl [Hp]; · iexact Hp
    iexact Hrest
  hin c := by
    rw [show (pdats D0 m 0 c).Φ 0 = (D0.dat0 (T9 m) c).Φ 0 from rfl]
    iintro ⟨Hp, -, Hr⟩
    iapply (D0.hin (T9 m) c)
    isplitl [Hp]; · iexact Hp
    iexact Hr
  hout c := by
    rw [Pipeline.ownSems0_none, show (pdats D0 m 0 c).Φ (Fin.last _) = (D0.dat0 (T9 m) c).Φ (Fin.last cfg0.N) from rfl]
    iintro H
    ihave H' := (D0.hout (T9 m) c) $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats D0 m) ((pdats D0 m 0 c).share_full fun w => D0.hq (T9 m) c w)
      (T9 m c) (T10 D0 m c) ((pdats D0 m 0 c).arrAt · cfg0.N) (hF0 D0 m c) (hrest0 D0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats D0 m 0 c).owed (Fin.last _) = 0 from D0.howed (T9 m) c _]
    iexact HO

set_option backward.isDefEq.respectTransparency.types false in
/-- The second region over the thread state: entered from every unscoped buffer at the first region's exit contents,
    left with its arrays at what the pipeline leaves. The generator register into the invariant (the scoped rest and
    the register, untouched) and out; nothing owed; no semaphore of the kernel's own. -/
def reg1 : Pipeline.RegionSeg (pcfgs (F := F)) adm (pdats D0 m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T10 D0 m) c).loose
  hwaits := Pipeline.hwaits_of_owed_zero _ _ _ _ L lv 1 fun _ _ => rfl
  pre c := iprop(StableHlo.held (c : Thread nD τ) (Pipeline.ucRefs τ sig) (W10 D0 m c) ∗ R c)
  post c := iprop(StableHlo.held (c : Thread nD τ) (Pipeline.ucRefs τ sig) (W11 D0 m c) ∗ R c)
  X c := iprop(∃ r, prngReg c r)
  Y c := iprop(∃ r, prngReg c r)
  Z c := Pipeline.unscopedRest (Ix := Unit) (Name := ℕ) (U := UR sig nD τ) (Lvl := ℕ) spec1 c (T10 D0 m c)
  hentry c := by
    rw [Pipeline.ownSems0_none]
    have hsplit := Pipeline.arrays_of_unscopedBufs (p := 1) (pcfgs (F := F)) adm (pdats D0 m) launch1.win launch1.arr_whole c
      ((pdats D0 m 1 c).share_full fun _ => rfl) (T10 D0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats D0 m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats D0 m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats D0 m) ((pdats D0 m 1 c).share_full fun _ => rfl)
      (T10 D0 m c) (T11 D0 m c) ((pdats D0 m 1 c).arrAt · cfg1.N) (hF1 D0 m c) (hrest1 D0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- THE RUN: from any memory with zero counters every weakly fair execution of @main terminates, nothing faulting,
    and every final memory holds the second region's output array at what its pipeline leaves there from the first
    region's exit contents, and each argument array as launched. -/
theorem run_both (ρ : Dev nD → PrngReg) : θ_run defs (onTc (τ := τ) (main (F := F))) ⟨m, fun _ => 0, ρ⟩ (fun r => ∀ c : Dev nD,
      r.2.mem ((c.tc : Thread nD τ).loc main_v24) = (dat1 (T10 D0 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (W11_arr D0 m c 3), (h c).2⟩)
    (run_cond m (emb₁ : Emb (UR sig nD τ) 𝕄) () 𝒱₀ L lv (fun _ _ => rfl) ρ (W10 D0 m) (W11 D0 m)
      (W11_main_arg0 D0 m) (W11_main_arg1 D0 m) (W11_main_arg2 D0 m) (W11_main_arg3 D0 m)
      (pdats D0 m) (O₀ := 0) (G := fun _ => iprop(emp))
      (u₀ := initOf (Pipeline.cells cfgs cellOf_inj) (Pipeline.launchToks cfgs cellOf_inj))
      (hu₀ := by
        iintro Hu; imodintro
        isplitl [Hu]
        · iapply (show (ownU (initOf (Pipeline.cells cfgs cellOf_inj) (Pipeline.launchToks cfgs cellOf_inj)) : sProp 𝕄)
              ⊢ BI.own (emb₁ (initOf (Pipeline.cells cfgs cellOf_inj) (Pipeline.launchToks cfgs cellOf_inj))) from .rfl)
          iexact Hu
        iapply (show (BI.emp : sProp 𝕄) ⊢ bigSep Finset.univ (fun _ : Dev nD => (BI.emp : sProp 𝕄)) from by rw [BI.bigSep_emp_const])
        iempintro)
      (E := fun _ => R)
      (hE0 := Pipeline.initEach L lv fun c => by
        iintro ⟨⟨-, HO, -, Hp, -⟩, -⟩
        imodintro
        isplitl [Hp]; · iexists _; iexact Hp
        iexists ∅; iexact HO)
      (hE2 := fun c => by iintro ⟨-, HO⟩; iexact HO)
      (reg0 D0 m) (fun c => .rfl) (fun c => .rfl)
      (reg1 D0 m) (fun c => .rfl) (fun c => .rfl))

include D0 in
/-- THE FRAME: the run, keeping only that the argument arrays end as launched. -/
theorem frame_both (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2)
    (run_both D0 m ρ)

end Run

end Cert.Kernel.HandRun

end
-- ==== Proof.B0Runs.lean ====
/- Region 0 (the segment reduction): what its three runs share — the two branch conditions of the body
   in closed form over the grid point, where the table window is idle, the scratch accumulators as memrefs,
   and the region invariant's resting form. -/
import proofs.«122487_j41781441855970_1_alg».proof.Proof.Gen.Kernel.Launch
import proofs.«122487_j41781441855970_1_alg».proof.Proof.Gen.Kernel.Skeleton
import proofs.«122487_j41781441855970_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's two branch conditions -/

/-- The first conditional (zero the accumulators): the grid coordinate is 0. -/
abbrev cond0_0 (i : grid0.Coords) : Prop :=
  (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val = 0 :=
  (by decide +kernel : ∀ t : Fin grid0.N, cond0_0 (grid0.coords t) ↔ t.val = 0)

/-- The second conditional (finish the table): the grid coordinate is 127. -/
abbrev cond0_1 (i : grid0.Coords) : Prop := k0_cond2 i = 1#1
/-- It holds at point 127 only. -/
theorem hcond0_1 : ∀ t : Fin cfg0.N, cond0_1 (grid0.coords t) ↔ t.val = 127 :=
  (by decide +kernel : ∀ t : Fin grid0.N, cond0_1 (grid0.coords t) ↔ t.val = 127)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from the last point the table window is idle and not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- At the last point it is live. -/
theorem liveAt0_5 : ∀ t : Fin cfg0.N, cond0_1 (grid0.coords t) → cfg0.idle 5 (grid0.coords t) = false := by decide +kernel

/-! ## The staging memrefs and the scratch accumulators -/

abbrev ms0_0 (t : Fin cfg0.N) : Memref sig .tc .vmem S4096x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x512 .f32 := win0_5.stage (cfg0.slots t 5)
abbrev hs0_5 (t : Fin cfg0.N) : (ms0_5 t).IsWhole := hstage0_5 ((cfg0.slots t 5).cast nbuf0_5)

/-- The two accumulators (sum and sum of squares per segment and feature): whole scoped buffers. -/
abbrev scM0_0 : Memref sig .tc .vmem S128x256 .f32 := Memref.whole cc0_scratch0
abbrev scM0_1 : Memref sig .tc .vmem S128x256 .f32 := Memref.whole cc0_scratch1
abbrev VS0_0 : View sig .tc .vmem S128x256 .f32 := scM0_0.view
abbrev VS0_1 : View sig .tc .vmem S128x256 .f32 := scM0_1.view
/-- One staging buffer of the table window, through which its contents are stated. -/
abbrev VO0_5 : View sig .tc .vmem S128x512 .f32 := (Memref.whole cc0_stg5_0 : Memref sig .tc .vmem S128x512 .f32).view

/-- The scoped buffers of the core that are neither a staging buffer of this region nor an accumulator
    (the other region's staging buffers), each whole at some contents. -/
def restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The scoped rest of this region: the two accumulators at some contents, beside the other region's
    staging buffers. -/
theorem scopedRest0_acc (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d) ∗ restS c) := by
  rw [scopedRest0_eq]; unfold restS; simp only [scM0_0, scM0_1, owns_whole]; try rfl

end Cert.Kernel.Hand0

end
-- ==== Proof.B0RunA.lean ====
/- Region 0, the run of the body at the FIRST grid point: the accumulators are zeroed, then the tile's
   one-hot products are added; the table window is left untouched. -/
import proofs.«122487_j41781441855970_1_alg».proof.Proof.B0Runs

set_option maxRecDepth 16384

noncomputable section

namespace Cert.Kernel.Hand0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At the first point: from the inputs' buffers at their contents, the table's buffer at `xi5` and the two
    accumulators at anything, the body runs to the inputs and the table's buffer as they were and each
    accumulator with its stores written (the pieces are found by the run). -/
noncomputable def kernelRun0_A (c : Dev nD) (i : grid0.Coords) (arg1 : Memref sig .tc .vmem S4096x256 .f32) (harg1 : arg1.IsWhole) (arg2 : Memref sig .tc .vmem S4096x1 .i32) (harg2 : arg2.IsWhole) (arg3 : Memref sig .tc .vmem S128x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S128x512 .f32) (harg6 : arg6.IsWhole) (arg7 : Memref sig .tc .vmem S128x256 .f32) (harg7 : arg7.IsWhole) (arg8 : Memref sig .tc .vmem S128x256 .f32) (harg8 : arg8.IsWhole) (hc0 : cond0_0 i) (hc1 : ¬cond0_1 i)
    (x0 : Vec F S4096x256 .f32) (x1 : Vec F S4096x1 .i32) (x2 : Vec F S128x1 .f32) (x3 : Vec F S1x256 .f32) (x4 : Vec F S1x256 .f32) :
    Σ' (LS0 : List (View.Piece (Elt F) S128x256 .f32)), { LS1 : List (View.Piece (Elt F) S128x256 .f32) //
      ∀ (xi5 : Vec F S128x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__reduce_kernel i arg1 harg1 arg2 harg2 arg3 harg3 arg4 harg4 arg5 harg5 arg6 harg6 arg7 harg7 arg8 harg8) K } := by
  refine ⟨?_, ?_, fun xi5 E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.Kernel.Hand0

end
-- ==== Proof.B0RunB.lean ====
/- Region 0, the run of the body at a MIDDLE grid point: the tile's one-hot products are added to the
   accumulators as the point before left them; the table window is left untouched. -/
import proofs.«122487_j41781441855970_1_alg».proof.Proof.B0RunA

set_option maxRecDepth 16384

noncomputable section

namespace Cert.Kernel.Hand0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At a middle point: the accumulators enter at `xs0`, `xs1`. -/
noncomputable def kernelRun0_B (c : Dev nD) (i : grid0.Coords) (arg1 : Memref sig .tc .vmem S4096x256 .f32) (harg1 : arg1.IsWhole) (arg2 : Memref sig .tc .vmem S4096x1 .i32) (harg2 : arg2.IsWhole) (arg3 : Memref sig .tc .vmem S128x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S128x512 .f32) (harg6 : arg6.IsWhole) (arg7 : Memref sig .tc .vmem S128x256 .f32) (harg7 : arg7.IsWhole) (arg8 : Memref sig .tc .vmem S128x256 .f32) (harg8 : arg8.IsWhole) (hc0 : ¬cond0_0 i) (hc1 : ¬cond0_1 i)
    (x0 : Vec F S4096x256 .f32) (x1 : Vec F S4096x1 .i32) (x2 : Vec F S128x1 .f32) (x3 : Vec F S1x256 .f32) (x4 : Vec F S1x256 .f32) (xs0 : Vec F S128x256 .f32) (xs1 : Vec F S128x256 .f32) :
    Σ' (LS0 : List (View.Piece (Elt F) S128x256 .f32)), { LS1 : List (View.Piece (Elt F) S128x256 .f32) //
      ∀ (xi5 : Vec F S128x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__reduce_kernel i arg1 harg1 arg2 harg2 arg3 harg3 arg4 harg4 arg5 harg5 arg6 harg6 arg7 harg7 arg8 harg8) K } := by
  refine ⟨?_, ?_, fun xi5 E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.Kernel.Hand0

end
-- ==== Proof.B0RunC.lean ====
/- Region 0, the run of the body at the LAST grid point: the tile's one-hot products are added to the
   accumulators, then the table's two halves (scale, shift) are stored from them. -/
import proofs.«122487_j41781441855970_1_alg».proof.Proof.B0RunB

set_option maxRecDepth 16384

noncomputable section

namespace Cert.Kernel.Hand0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At the last point: the accumulators enter at `xs0`, `xs1`, the table's buffer at anything; it leaves with
    its two stores written. -/
noncomputable def kernelRun0_C (c : Dev nD) (i : grid0.Coords) (arg1 : Memref sig .tc .vmem S4096x256 .f32) (harg1 : arg1.IsWhole) (arg2 : Memref sig .tc .vmem S4096x1 .i32) (harg2 : arg2.IsWhole) (arg3 : Memref sig .tc .vmem S128x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S128x512 .f32) (harg6 : arg6.IsWhole) (arg7 : Memref sig .tc .vmem S128x256 .f32) (harg7 : arg7.IsWhole) (arg8 : Memref sig .tc .vmem S128x256 .f32) (harg8 : arg8.IsWhole) (hc0 : ¬cond0_0 i) (hc1 : cond0_1 i)
    (x0 : Vec F S4096x256 .f32) (x1 : Vec F S4096x1 .i32) (x2 : Vec F S128x1 .f32) (x3 : Vec F S1x256 .f32) (x4 : Vec F S1x256 .f32) (xs0 : Vec F S128x256 .f32) (xs1 : Vec F S128x256 .f32) :
    Σ' (L5 : List (View.Piece (Elt F) S128x512 .f32)), Σ' (LS0 : List (View.Piece (Elt F) S128x256 .f32)), { LS1 : List (View.Piece (Elt F) S128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__reduce_kernel i arg1 harg1 arg2 harg2 arg3 harg3 arg4 harg4 arg5 harg5 arg6 harg6 arg7 harg7 arg8 harg8) K } := by
  refine ⟨?_, ?_, ?_, fun E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]; · iexists _; iexact HS0
    iexists _; iexact HS1

end Cert.Kernel.Hand0

end
-- ==== Proof.B0Pieces.lean ====
/- Region 0: what each control case of the body leaves in the two accumulators and (at the last point) in the
   table's buffer, as the stores the runs found read back; the stores of each buffer tile it. -/
import proofs.«122487_j41781441855970_1_alg».proof.Proof.B0RunC

set_option maxRecDepth 16384

noncomputable section

namespace Cert.Kernel.Hand0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## First point -/

theorem scover0_A_0 (c : Dev nD) (i : grid0.Coords) (arg1 : Memref sig .tc .vmem S4096x256 .f32) (harg1 : arg1.IsWhole) (arg2 : Memref sig .tc .vmem S4096x1 .i32) (harg2 : arg2.IsWhole) (arg3 : Memref sig .tc .vmem S128x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S128x512 .f32) (harg6 : arg6.IsWhole) (arg7 : Memref sig .tc .vmem S128x256 .f32) (harg7 : arg7.IsWhole) (arg8 : Memref sig .tc .vmem S128x256 .f32) (harg8 : arg8.IsWhole) (hc0 : cond0_0 i) (hc1 : ¬cond0_1 i)
    (x0 : Vec F S4096x256 .f32) (x1 : Vec F S4096x1 .i32) (x2 : Vec F S128x1 .f32) (x3 : Vec F S1x256 .f32) (x4 : Vec F S1x256 .f32) (y : S128x256.Idx) :
    ∃ pc ∈ (kernelRun0_A c i arg1 harg1 arg2 harg2 arg3 harg3 arg4 harg4 arg5 harg5 arg6 harg6 arg7 harg7 arg8 harg8 hc0 hc1 x0 x1 x2 x3 x4).1, y ∈ pc.1.set :=
  View.cover_of_tiledL (kernelRun0_A c i arg1 harg1 arg2 harg2 arg3 harg3 arg4 harg4 arg5 harg5 arg6 harg6 arg7 harg7 arg8 harg8 hc0 hc1 x0 x1 x2 x3 x4).1 S128x256.size (by sl_kernel_rfl) y

/-- What the case leaves in accumulator 0: its stores read back. -/
def sout0_A_0 (c : Dev nD) (i : grid0.Coords) (arg1 : Memref sig .tc .vmem S4096x256 .f32) (harg1 : arg1.IsWhole) (arg2 : Memref sig .tc .vmem S4096x1 .i32) (harg2 : arg2.IsWhole) (arg3 : Memref sig .tc .vmem S128x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S128x512 .f32) (harg6 : arg6.IsWhole) (arg7 : Memref sig .tc .vmem S128x256 .f32) (harg7 : arg7.IsWhole) (arg8 : Memref sig .tc .vmem S128x256 .f32) (harg8 : arg8.IsWhole) (hc0 : cond0_0 i) (hc1 : ¬cond0_1 i)
    (x0 : Vec F S4096x256 .f32) (x1 : Vec F S4096x1 .i32) (x2 : Vec F S128x1 .f32) (x3 : Vec F S1x256 .f32) (x4 : Vec F S1x256 .f32) : Vec F S128x256 .f32 :=
  VS0_0.read (Elt F) (VS0_0.writes (Elt F) VS0_0.junk (kernelRun0_A c i arg1 harg1 arg2 harg2 arg3 harg3 arg4 harg4 arg5 harg5 arg6 harg6 arg7 harg7 arg8 harg8 hc0 hc1 x0 x1 x2 x3 x4).1)

theorem scover0_A_1 (c : Dev nD) (i : grid0.Coords) (arg1 : Memref sig .tc .vmem S4096x256 .f32) (harg1 : arg1.IsWhole) (arg2 : Memref sig .tc .vmem S4096x1 .i32) (harg2 : arg2.IsWhole) (arg3 : Memref sig .tc .vmem S128x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S128x512 .f32) (harg6 : arg6.IsWhole) (arg7 : Memref sig .tc .vmem S128x256 .f32) (harg7 : arg7.IsWhole) (arg8 : Memref sig .tc .vmem S128x256 .f32) (harg8 : arg8.IsWhole) (hc0 : cond0_0 i) (hc1 : ¬cond0_1 i)
    (x0 : Vec F S4096x256 .f32) (x1 : Vec F S4096x1 .i32) (x2 : Vec F S128x1 .f32) (x3 : Vec F S1x256 .f32) (x4 : Vec F S1x256 .f32) (y : S128x256.Idx) :
    ∃ pc ∈ (kernelRun0_A c i arg1 harg1 arg2 harg2 arg3 harg3 arg4 harg4 arg5 harg5 arg6 harg6 arg7 harg7 arg8 harg8 hc0 hc1 x0 x1 x2 x3 x4).2.1, y ∈ pc.1.set :=
  View.cover_of_tiledL (kernelRun0_A c i arg1 harg1 arg2 harg2 arg3 harg3 arg4 harg4 arg5 harg5 arg6 harg6 arg7 harg7 arg8 harg8 hc0 hc1 x0 x1 x2 x3 x4).2.1 S128x256.size (by sl_kernel_rfl) y

/-- What the case leaves in accumulator 1: its stores read back. -/
def sout0_A_1 (c : Dev nD) (i : grid0.Coords) (arg1 : Memref sig .tc .vmem S4096x256 .f32) (harg1 : arg1.IsWhole) (arg2 : Memref sig .tc .vmem S4096x1 .i32) (harg2 : arg2.IsWhole) (arg3 : Memref sig .tc .vmem S128x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S128x512 .f32) (harg6 : arg6.IsWhole) (arg7 : Memref sig .tc .vmem S128x256 .f32) (harg7 : arg7.IsWhole) (arg8 : Memref sig .tc .vmem S128x256 .f32) (harg8 : arg8.IsWhole) (hc0 : cond0_0 i) (hc1 : ¬cond0_1 i)
    (x0 : Vec F S4096x256 .f32) (x1 : Vec F S4096x1 .i32) (x2 : Vec F S128x1 .f32) (x3 : Vec F S1x256 .f32) (x4 : Vec F S1x256 .f32) : Vec F S128x256 .f32 :=
  VS0_1.read (Elt F) (VS0_1.writes (Elt F) VS0_1.junk (kernelRun0_A c i arg1 harg1 arg2 harg2 arg3 harg3 arg4 harg4 arg5 harg5 arg6 harg6 arg7 harg7 arg8 harg8 hc0 hc1 x0 x1 x2 x3 x4).2.1)

/-! ## Middle points -/

theorem scover0_B_0 (c : Dev nD) (i : grid0.Coords) (arg1 : Memref sig .tc .vmem S4096x256 .f32) (harg1 : arg1.IsWhole) (arg2 : Memref sig .tc .vmem S4096x1 .i32) (harg2 : arg2.IsWhole) (arg3 : Memref sig .tc .vmem S128x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S128x512 .f32) (harg6 : arg6.IsWhole) (arg7 : Memref sig .tc .vmem S128x256 .f32) (harg7 : arg7.IsWhole) (arg8 : Memref sig .tc .vmem S128x256 .f32) (harg8 : arg8.IsWhole) (hc0 : ¬cond0_0 i) (hc1 : ¬cond0_1 i)
    (x0 : Vec F S4096x256 .f32) (x1 : Vec F S4096x1 .i32) (x2 : Vec F S128x1 .f32) (x3 : Vec F S1x256 .f32) (x4 : Vec F S1x256 .f32) (xs0 : Vec F S128x256 .f32) (xs1 : Vec F S128x256 .f32) (y : S128x256.Idx) :
    ∃ pc ∈ (kernelRun0_B c i arg1 harg1 arg2 harg2 arg3 harg3 arg4 harg4 arg5 harg5 arg6 harg6 arg7 harg7 arg8 harg8 hc0 hc1 x0 x1 x2 x3 x4 xs0 xs1).1, y ∈ pc.1.set :=
  View.cover_of_tiledL (kernelRun0_B c i arg1 harg1 arg2 harg2 arg3 harg3 arg4 harg4 arg5 harg5 arg6 harg6 arg7 harg7 arg8 harg8 hc0 hc1 x0 x1 x2 x3 x4 xs0 xs1).1 S128x256.size (by sl_kernel_rfl) y

/-- What the case leaves in accumulator 0: its stores read back. -/
def sout0_B_0 (c : Dev nD) (i : grid0.Coords) (arg1 : Memref sig .tc .vmem S4096x256 .f32) (harg1 : arg1.IsWhole) (arg2 : Memref sig .tc .vmem S4096x1 .i32) (harg2 : arg2.IsWhole) (arg3 : Memref sig .tc .vmem S128x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S128x512 .f32) (harg6 : arg6.IsWhole) (arg7 : Memref sig .tc .vmem S128x256 .f32) (harg7 : arg7.IsWhole) (arg8 : Memref sig .tc .vmem S128x256 .f32) (harg8 : arg8.IsWhole) (hc0 : ¬cond0_0 i) (hc1 : ¬cond0_1 i)
    (x0 : Vec F S4096x256 .f32) (x1 : Vec F S4096x1 .i32) (x2 : Vec F S128x1 .f32) (x3 : Vec F S1x256 .f32) (x4 : Vec F S1x256 .f32) (xs0 : Vec F S128x256 .f32) (xs1 : Vec F S128x256 .f32) : Vec F S128x256 .f32 :=
  VS0_0.read (Elt F) (VS0_0.writes (Elt F) VS0_0.junk (kernelRun0_B c i arg1 harg1 arg2 harg2 arg3 harg3 arg4 harg4 arg5 harg5 arg6 harg6 arg7 harg7 arg8 harg8 hc0 hc1 x0 x1 x2 x3 x4 xs0 xs1).1)

theorem scover0_B_1 (c : Dev nD) (i : grid0.Coords) (arg1 : Memref sig .tc .vmem S4096x256 .f32) (harg1 : arg1.IsWhole) (arg2 : Memref sig .tc .vmem S4096x1 .i32) (harg2 : arg2.IsWhole) (arg3 : Memref sig .tc .vmem S128x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S128x512 .f32) (harg6 : arg6.IsWhole) (arg7 : Memref sig .tc .vmem S128x256 .f32) (harg7 : arg7.IsWhole) (arg8 : Memref sig .tc .vmem S128x256 .f32) (harg8 : arg8.IsWhole) (hc0 : ¬cond0_0 i) (hc1 : ¬cond0_1 i)
    (x0 : Vec F S4096x256 .f32) (x1 : Vec F S4096x1 .i32) (x2 : Vec F S128x1 .f32) (x3 : Vec F S1x256 .f32) (x4 : Vec F S1x256 .f32) (xs0 : Vec F S128x256 .f32) (xs1 : Vec F S128x256 .f32) (y : S128x256.Idx) :
    ∃ pc ∈ (kernelRun0_B c i arg1 harg1 arg2 harg2 arg3 harg3 arg4 harg4 arg5 harg5 arg6 harg6 arg7 harg7 arg8 harg8 hc0 hc1 x0 x1 x2 x3 x4 xs0 xs1).2.1, y ∈ pc.1.set :=
  View.cover_of_tiledL (kernelRun0_B c i arg1 harg1 arg2 harg2 arg3 harg3 arg4 harg4 arg5 harg5 arg6 harg6 arg7 harg7 arg8 harg8 hc0 hc1 x0 x1 x2 x3 x4 xs0 xs1).2.1 S128x256.size (by sl_kernel_rfl) y

/-- What the case leaves in accumulator 1: its stores read back. -/
def sout0_B_1 (c : Dev nD) (i : grid0.Coords) (arg1 : Memref sig .tc .vmem S4096x256 .f32) (harg1 : arg1.IsWhole) (arg2 : Memref sig .tc .vmem S4096x1 .i32) (harg2 : arg2.IsWhole) (arg3 : Memref sig .tc .vmem S128x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S128x512 .f32) (harg6 : arg6.IsWhole) (arg7 : Memref sig .tc .vmem S128x256 .f32) (harg7 : arg7.IsWhole) (arg8 : Memref sig .tc .vmem S128x256 .f32) (harg8 : arg8.IsWhole) (hc0 : ¬cond0_0 i) (hc1 : ¬cond0_1 i)
    (x0 : Vec F S4096x256 .f32) (x1 : Vec F S4096x1 .i32) (x2 : Vec F S128x1 .f32) (x3 : Vec F S1x256 .f32) (x4 : Vec F S1x256 .f32) (xs0 : Vec F S128x256 .f32) (xs1 : Vec F S128x256 .f32) : Vec F S128x256 .f32 :=
  VS0_1.read (Elt F) (VS0_1.writes (Elt F) VS0_1.junk (kernelRun0_B c i arg1 harg1 arg2 harg2 arg3 harg3 arg4 harg4 arg5 harg5 arg6 harg6 arg7 harg7 arg8 harg8 hc0 hc1 x0 x1 x2 x3 x4 xs0 xs1).2.1)

/-! ## Last point -/

/-- The last point's two stores into the table's buffer tile it. -/
theorem cover0_C_5 (c : Dev nD) (i : grid0.Coords) (arg1 : Memref sig .tc .vmem S4096x256 .f32) (harg1 : arg1.IsWhole) (arg2 : Memref sig .tc .vmem S4096x1 .i32) (harg2 : arg2.IsWhole) (arg3 : Memref sig .tc .vmem S128x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S128x512 .f32) (harg6 : arg6.IsWhole) (arg7 : Memref sig .tc .vmem S128x256 .f32) (harg7 : arg7.IsWhole) (arg8 : Memref sig .tc .vmem S128x256 .f32) (harg8 : arg8.IsWhole) (hc0 : ¬cond0_0 i) (hc1 : cond0_1 i)
    (x0 : Vec F S4096x256 .f32) (x1 : Vec F S4096x1 .i32) (x2 : Vec F S128x1 .f32) (x3 : Vec F S1x256 .f32) (x4 : Vec F S1x256 .f32) (xs0 : Vec F S128x256 .f32) (xs1 : Vec F S128x256 .f32) (y : S128x512.Idx) :
    ∃ pc ∈ (kernelRun0_C c i arg1 harg1 arg2 harg2 arg3 harg3 arg4 harg4 arg5 harg5 arg6 harg6 arg7 harg7 arg8 harg8 hc0 hc1 x0 x1 x2 x3 x4 xs0 xs1).1, y ∈ pc.1.set :=
  View.cover_of_tiledL (kernelRun0_C c i arg1 harg1 arg2 harg2 arg3 harg3 arg4 harg4 arg5 harg5 arg6 harg6 arg7 harg7 arg8 harg8 hc0 hc1 x0 x1 x2 x3 x4 xs0 xs1).1 S128x256.size (by sl_kernel_rfl) y

/-- What the last point leaves in the table's buffer: its stores read back. -/
def out0_C_5 (c : Dev nD) (i : grid0.Coords) (arg1 : Memref sig .tc .vmem S4096x256 .f32) (harg1 : arg1.IsWhole) (arg2 : Memref sig .tc .vmem S4096x1 .i32) (harg2 : arg2.IsWhole) (arg3 : Memref sig .tc .vmem S128x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S128x512 .f32) (harg6 : arg6.IsWhole) (arg7 : Memref sig .tc .vmem S128x256 .f32) (harg7 : arg7.IsWhole) (arg8 : Memref sig .tc .vmem S128x256 .f32) (harg8 : arg8.IsWhole) (hc0 : ¬cond0_0 i) (hc1 : cond0_1 i)
    (x0 : Vec F S4096x256 .f32) (x1 : Vec F S4096x1 .i32) (x2 : Vec F S128x1 .f32) (x3 : Vec F S1x256 .f32) (x4 : Vec F S1x256 .f32) (xs0 : Vec F S128x256 .f32) (xs1 : Vec F S128x256 .f32) : Vec F S128x512 .f32 :=
  VO0_5.read (Elt F) (VO0_5.writes (Elt F) VO0_5.junk (kernelRun0_C c i arg1 harg1 arg2 harg2 arg3 harg3 arg4 harg4 arg5 harg5 arg6 harg6 arg7 harg7 arg8 harg8 hc0 hc1 x0 x1 x2 x3 x4 xs0 xs1).1)

theorem scover0_C_0 (c : Dev nD) (i : grid0.Coords) (arg1 : Memref sig .tc .vmem S4096x256 .f32) (harg1 : arg1.IsWhole) (arg2 : Memref sig .tc .vmem S4096x1 .i32) (harg2 : arg2.IsWhole) (arg3 : Memref sig .tc .vmem S128x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S128x512 .f32) (harg6 : arg6.IsWhole) (arg7 : Memref sig .tc .vmem S128x256 .f32) (harg7 : arg7.IsWhole) (arg8 : Memref sig .tc .vmem S128x256 .f32) (harg8 : arg8.IsWhole) (hc0 : ¬cond0_0 i) (hc1 : cond0_1 i)
    (x0 : Vec F S4096x256 .f32) (x1 : Vec F S4096x1 .i32) (x2 : Vec F S128x1 .f32) (x3 : Vec F S1x256 .f32) (x4 : Vec F S1x256 .f32) (xs0 : Vec F S128x256 .f32) (xs1 : Vec F S128x256 .f32) (y : S128x256.Idx) :
    ∃ pc ∈ (kernelRun0_C c i arg1 harg1 arg2 harg2 arg3 harg3 arg4 harg4 arg5 harg5 arg6 harg6 arg7 harg7 arg8 harg8 hc0 hc1 x0 x1 x2 x3 x4 xs0 xs1).2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 x4 xs0 xs1).2.1 S128x256.size (by sl_kernel_rfl) y

/-- What the case leaves in accumulator 0: its stores read back. -/
def sout0_C_0 (c : Dev nD) (i : grid0.Coords) (arg1 : Memref sig .tc .vmem S4096x256 .f32) (harg1 : arg1.IsWhole) (arg2 : Memref sig .tc .vmem S4096x1 .i32) (harg2 : arg2.IsWhole) (arg3 : Memref sig .tc .vmem S128x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S128x512 .f32) (harg6 : arg6.IsWhole) (arg7 : Memref sig .tc .vmem S128x256 .f32) (harg7 : arg7.IsWhole) (arg8 : Memref sig .tc .vmem S128x256 .f32) (harg8 : arg8.IsWhole) (hc0 : ¬cond0_0 i) (hc1 : cond0_1 i)
    (x0 : Vec F S4096x256 .f32) (x1 : Vec F S4096x1 .i32) (x2 : Vec F S128x1 .f32) (x3 : Vec F S1x256 .f32) (x4 : Vec F S1x256 .f32) (xs0 : Vec F S128x256 .f32) (xs1 : Vec F S128x256 .f32) : Vec F S128x256 .f32 :=
  VS0_0.read (Elt F) (VS0_0.writes (Elt F) VS0_0.junk (kernelRun0_C c i arg1 harg1 arg2 harg2 arg3 harg3 arg4 harg4 arg5 harg5 arg6 harg6 arg7 harg7 arg8 harg8 hc0 hc1 x0 x1 x2 x3 x4 xs0 xs1).2.1)

theorem scover0_C_1 (c : Dev nD) (i : grid0.Coords) (arg1 : Memref sig .tc .vmem S4096x256 .f32) (harg1 : arg1.IsWhole) (arg2 : Memref sig .tc .vmem S4096x1 .i32) (harg2 : arg2.IsWhole) (arg3 : Memref sig .tc .vmem S128x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S128x512 .f32) (harg6 : arg6.IsWhole) (arg7 : Memref sig .tc .vmem S128x256 .f32) (harg7 : arg7.IsWhole) (arg8 : Memref sig .tc .vmem S128x256 .f32) (harg8 : arg8.IsWhole) (hc0 : ¬cond0_0 i) (hc1 : cond0_1 i)
    (x0 : Vec F S4096x256 .f32) (x1 : Vec F S4096x1 .i32) (x2 : Vec F S128x1 .f32) (x3 : Vec F S1x256 .f32) (x4 : Vec F S1x256 .f32) (xs0 : Vec F S128x256 .f32) (xs1 : Vec F S128x256 .f32) (y : S128x256.Idx) :
    ∃ pc ∈ (kernelRun0_C c i arg1 harg1 arg2 harg2 arg3 harg3 arg4 harg4 arg5 harg5 arg6 harg6 arg7 harg7 arg8 harg8 hc0 hc1 x0 x1 x2 x3 x4 xs0 xs1).2.2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 x4 xs0 xs1).2.2.1 S128x256.size (by sl_kernel_rfl) y

/-- What the case leaves in accumulator 1: its stores read back. -/
def sout0_C_1 (c : Dev nD) (i : grid0.Coords) (arg1 : Memref sig .tc .vmem S4096x256 .f32) (harg1 : arg1.IsWhole) (arg2 : Memref sig .tc .vmem S4096x1 .i32) (harg2 : arg2.IsWhole) (arg3 : Memref sig .tc .vmem S128x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S128x512 .f32) (harg6 : arg6.IsWhole) (arg7 : Memref sig .tc .vmem S128x256 .f32) (harg7 : arg7.IsWhole) (arg8 : Memref sig .tc .vmem S128x256 .f32) (harg8 : arg8.IsWhole) (hc0 : ¬cond0_0 i) (hc1 : cond0_1 i)
    (x0 : Vec F S4096x256 .f32) (x1 : Vec F S4096x1 .i32) (x2 : Vec F S128x1 .f32) (x3 : Vec F S1x256 .f32) (x4 : Vec F S1x256 .f32) (xs0 : Vec F S128x256 .f32) (xs1 : Vec F S128x256 .f32) : Vec F S128x256 .f32 :=
  VS0_1.read (Elt F) (VS0_1.writes (Elt F) VS0_1.junk (kernelRun0_C c i arg1 harg1 arg2 harg2 arg3 harg3 arg4 harg4 arg5 harg5 arg6 harg6 arg7 harg7 arg8 harg8 hc0 hc1 x0 x1 x2 x3 x4 xs0 xs1).2.2.1)

end Cert.Kernel.Hand0

end
-- ==== Proof.B0Frame.lean ====
/- Region 0, its proof data and body obligation at any contents `V` of the core's buffers on entry: the
   accumulators after each grid point by recursion on the point (zeroed and first tile added at point 0, one
   more tile's one-hot products added at each later point), the table's buffer after the last point, the
   invariant that carries the accumulators from point to point, and the body's triple at every point. -/
import proofs.«122487_j41781441855970_1_alg».proof.Proof.B0Pieces

set_option maxRecDepth 16384

noncomputable section

namespace Cert.Kernel.Hand0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The accumulators after each point -/

/-- The two accumulators after the body at point `n`: at point 0 the zeroed buffers plus the first tile's
    products; at a later point the tile's products added to what the point before left. -/
def accAt0 (c : Dev nD) : (n : ℕ) → n < cfg0.N → Vec F S128x256 .f32 × Vec F S128x256 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h1 : n + 1 = 127 then
      (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (accAt0 c n (Nat.lt_of_succ_lt hn)).1 (accAt0 c n (Nat.lt_of_succ_lt hn)).2,
        sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (accAt0 c n (Nat.lt_of_succ_lt hn)).1 (accAt0 c n (Nat.lt_of_succ_lt hn)).2)
    else
      (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (accAt0 c n (Nat.lt_of_succ_lt hn)).1 (accAt0 c n (Nat.lt_of_succ_lt hn)).2,
        sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (accAt0 c n (Nat.lt_of_succ_lt hn)).1 (accAt0 c n (Nat.lt_of_succ_lt hn)).2)

theorem accAt0_A (c : Dev nD) (t : Fin cfg0.N) (h0 : t.val = 0) (h1 : ¬t.val = 127) :
    accAt0 V c t.val t.isLt = (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t),
      sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact absurd h0 (Nat.succ_ne_zero n)

theorem accAt0_B (c : Dev nD) (t : Fin cfg0.N) (h0 : ¬t.val = 0) (h1 : ¬t.val = 127) :
    accAt0 V c t.val t.isLt = (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (accAt0 V c (t.val - 1) (Nat.lt_of_le_of_lt (Nat.sub_le _ _) t.isLt)).1 (accAt0 V c (t.val - 1) (Nat.lt_of_le_of_lt (Nat.sub_le _ _) t.isLt)).2,
      sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (accAt0 V c (t.val - 1) (Nat.lt_of_le_of_lt (Nat.sub_le _ _) t.isLt)).1 (accAt0 V c (t.val - 1) (Nat.lt_of_le_of_lt (Nat.sub_le _ _) t.isLt)).2) := by
  obtain ⟨n, hn⟩ := t
  cases n with
  | zero => exact absurd rfl h0
  | succ n => exact (dif_neg h1).trans rfl

theorem accAt0_C (c : Dev nD) (t : Fin cfg0.N) (h0 : ¬t.val = 0) (h1 : t.val = 127) :
    accAt0 V c t.val t.isLt = (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (accAt0 V c (t.val - 1) (Nat.lt_of_le_of_lt (Nat.sub_le _ _) t.isLt)).1 (accAt0 V c (t.val - 1) (Nat.lt_of_le_of_lt (Nat.sub_le _ _) t.isLt)).2,
      sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (accAt0 V c (t.val - 1) (Nat.lt_of_le_of_lt (Nat.sub_le _ _) t.isLt)).1 (accAt0 V c (t.val - 1) (Nat.lt_of_le_of_lt (Nat.sub_le _ _) t.isLt)).2) := by
  obtain ⟨n, hn⟩ := t
  cases n with
  | zero => exact absurd rfl h0
  | succ n => exact (dif_pos h1).trans rfl

/-- A placeholder for the table's buffer where nothing reads it. -/
def junk5 : Vec F S128x512 .f32 := broadcast S128x512 (Scalar.ofBits .f32 0x00000000#32 : F .f32)

/-- The table's buffer after the body at point `t`: at the last point the two stored halves, computed from the
    accumulators (the earlier points leave the window idle: nothing reads this value there). -/
def tblAt0 (c : Dev nD) (t : Fin cfg0.N) : Vec F S128x512 .f32 :=
  if h1 : t.val = 127 then
    if h0 : t.val = 0 then junk5
    else out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (accAt0 V c (t.val - 1) (Nat.lt_of_le_of_lt (Nat.sub_le _ _) t.isLt)).1 (accAt0 V c (t.val - 1) (Nat.lt_of_le_of_lt (Nat.sub_le _ _) t.isLt)).2
  else junk5

theorem tblAt0_C (c : Dev nD) (t : Fin cfg0.N) (h0 : ¬t.val = 0) (h1 : t.val = 127) :
    tblAt0 V c t = out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (accAt0 V c (t.val - 1) (Nat.lt_of_le_of_lt (Nat.sub_le _ _) t.isLt)).1 (accAt0 V c (t.val - 1) (Nat.lt_of_le_of_lt (Nat.sub_le _ _) t.isLt)).2 := by
  unfold tblAt0; rw [dif_pos h1, dif_neg h0]

/-! ## The region invariant -/

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restS c) ∗ (∃ r, prngReg c r)) := by
  unfold Pipeline.ΦA; rw [scopedRest0_acc]

/-- Before point `n`: at the first point the scoped rest at anything; afterwards the two accumulators at what
    the point before left, beside the other scoped buffers and the generator register. -/
def PhiS (c : Dev nD) : (n : ℕ) → n ≤ cfg0.N → sProp 𝕄
  | 0, _ => Pipeline.ΦA spec0 c
  | n + 1, hn => iprop(iprop(owns (c : Thread nD τ) scM0_0 fullShare ((accAt0 V c n hn).1) ∗ owns (c : Thread nD τ) scM0_1 fullShare ((accAt0 V c n hn).2) ∗ restS c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((accAt0 V c n hn).1) ∗ owns (c : Thread nD τ) scM0_1 fullShare ((accAt0 V c n hn).2) ∗ restS c) ∗ (∃ r, prngReg c r)) := rfl

theorem PhiS_pos (c : Dev nD) (n : ℕ) (h : n ≤ cfg0.N) (hz : n ≠ 0) :
    PhiS V c n h = iprop(iprop(owns (c : Thread nD τ) scM0_0 fullShare ((accAt0 V c (n - 1) (by omega)).1) ∗ owns (c : Thread nD τ) scM0_1 fullShare ((accAt0 V c (n - 1) (by omega)).2) ∗ restS c) ∗ (∃ r, prngReg c r)) := by
  cases n with
  | zero => exact absurd rfl hz
  | succ n => rfl

/-! ## The proof data -/

/-- Region 0's proof data on core `c`: the arrays as the region finds them; every input's buffer left at its
    block; the table's buffer at `tblAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => tblAt0 V c t
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = tblAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point. The inputs' buffers hold their blocks; the point's position selects the control
    case; the invariant hands the body the accumulators at what the point before left (at anything at the
    first point) and takes them back at this point's contents; the table's buffer is handed back untouched
    before the last point and at its two stored halves at the last. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 128 := lt_of_lt_of_eq t.isLt (show cfg0.N = 128 from N_0)
  rw [show (dat0 V c).leavesExact 0 t = owns (c : Thread nD τ) (ms0_0 t) fullShare ((dat0 V c).after 0 t) from (by unfold Dat.leavesExact; rw [liveAt0_0 t]), after0_0]
  rw [show (dat0 V c).leavesExact 1 t = owns (c : Thread nD τ) (ms0_1 t) fullShare ((dat0 V c).after 1 t) from (by unfold Dat.leavesExact; rw [liveAt0_1 t]), after0_1]
  rw [show (dat0 V c).leavesExact 2 t = owns (c : Thread nD τ) (ms0_2 t) fullShare ((dat0 V c).after 2 t) from (by unfold Dat.leavesExact; rw [liveAt0_2 t]), after0_2]
  rw [show (dat0 V c).leavesExact 3 t = owns (c : Thread nD τ) (ms0_3 t) fullShare ((dat0 V c).after 3 t) from (by unfold Dat.leavesExact; rw [liveAt0_3 t]), after0_3]
  rw [show (dat0 V c).leavesExact 4 t = owns (c : Thread nD τ) (ms0_4 t) fullShare ((dat0 V c).after 4 t) from (by unfold Dat.leavesExact; rw [liveAt0_4 t]), after0_4]
  by_cases h0 : t.val = 0
  · have h1 : ¬t.val = 127 := by omega
    rw [Dat.leavesExact_idle (dat0 V c) 5 t (idleAt0_5 t (fun h => h1 ((hcond0_1 t).mp h))) (noFlush0_5 t (fun h => h1 ((hcond0_1 t).mp h)))]
    rw [accAt0_A V c t h0 h1]
    unfold sout0_A_0 sout0_A_1; (try dsimp only)
    rw [PhiS_castSucc V c t, PhiS_zero V c _ _ h0, PhiA0_eq]
    iintro ⟨⟨⟨HS0, HS1, Hr⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, ⟨%es0, HS0⟩, ⟨%es1, HS1⟩⟩
    isplitl [HS0 HS1 Hr Hg]
    · isplitl [HS0 HS1 Hr]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · by_cases h1 : t.val = 127
    · rw [show (dat0 V c).leavesExact 5 t = owns (c : Thread nD τ) (ms0_5 t) fullShare ((dat0 V c).after 5 t) from (by unfold Dat.leavesExact; rw [liveAt0_5 t ((hcond0_1 t).mpr h1)]), after0_5, tblAt0_C V c t h0 h1]
      rw [accAt0_C V c t h0 h1]
      unfold out0_C_5 sout0_C_0 sout0_C_1; (try dsimp only)
      rw [PhiS_castSucc V c t, PhiS_pos V c _ _ h0]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, ⟨%es1, HS1⟩⟩
      isplitl [HS0 HS1 Hr Hg]
      · isplitl [HS0 HS1 Hr]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_C_5 c _ _ _ _ _ _ _ _ _ _ _ _ _ _ _ _ _ _ _ _ _ _ _ _ _ _)
    · rw [Dat.leavesExact_idle (dat0 V c) 5 t (idleAt0_5 t (fun h => h1 ((hcond0_1 t).mp h))) (noFlush0_5 t (fun h => h1 ((hcond0_1 t).mp h)))]
      rw [accAt0_B V c t h0 h1]
      unfold sout0_B_0 sout0_B_1; (try dsimp only)
      rw [PhiS_castSucc V c t, PhiS_pos V c _ _ h0]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _ _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hr Hg]
      · isplitl [HS0 HS1 Hr]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Into and out of the invariant -/

/-- The generator register and the scoped rest make the invariant before the first point. -/
theorem hin0 (c : Dev nD) : iprop((∃ r, prngReg c r) ∗ Pipeline.scopedRest (Ix := Unit) (Name := ℕ) (U := UR sig nD τ) (Lvl := ℕ) (Val := Elt F) spec0 c) ⊢ ((dat0 V c).Φ 0 : sProp 𝕄) := by
  rw [show (dat0 V c).Φ 0 = PhiS V c 0 (Nat.zero_le _) from rfl, PhiS_zero V c 0 _ rfl]; unfold Pipeline.ΦA
  iintro ⟨Hp, Hr⟩
  isplitl [Hr]; · iexact Hr
  iexact Hp

/-- After the last point the invariant gives them back: the accumulators' contents are forgotten. -/
theorem hout0 (c : Dev nD) : ((dat0 V c).Φ (Fin.last cfg0.N) : sProp 𝕄) ⊢ iprop((∃ r, prngReg c r) ∗ Pipeline.scopedRest (Ix := Unit) (Name := ℕ) (U := UR sig nD τ) (Lvl := ℕ) (Val := Elt F) spec0 c) := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 128 := N_0; omega), scopedRest0_acc]
  iintro ⟨⟨HS0, HS1, Hr⟩, Hg⟩
  isplitl [Hg]; · iexact Hg
  isplitl [HS0]; · iexists _; iexact HS0
  isplitl [HS1]; · iexists _; iexact HS1
  iexact Hr

end Cert.Kernel.Hand0

end
-- ==== Proof.BRunFinal.lean ====
/- The run of @main with the first region's record supplied: the frame claim's post with no precondition, and the run
   with the second region's output array named. Generic in the float model. -/
import proofs.«122487_j41781441855970_1_alg».proof.Proof.BRun
import proofs.«122487_j41781441855970_1_alg».proof.Proof.B0Frame

set_option maxRecDepth 16384

noncomputable section

namespace Cert.Kernel.HandRun

open Cert.Kernel.Gen Cert.Kernel.Hand1
open Idealize.ShloMosaic Idealize.ShloMosaic.TcCoe Idealize.SL.Sem
open Idealize.ShloMosaic.Pipeline (Dat)

variable {F : FTy → Type} [FloatOps F]

/-- The first region's record: its proof data at any entry contents, its body obligation, its invariant's two ends. -/
def D0 : Reg0 F where
  dat0 := Hand0.dat0
  hA := fun V c w => Hand0.A_eq0 V c w
  hq := fun V c w => by dsimp only [Hand0.dat0]
  howed := fun V c t => by dsimp only [Hand0.dat0]
  hrec := fun V c t => by dsimp only [Hand0.dat0]
  body := fun V c => Hand0.body_obligation0 V c
  hin := fun V c => Hand0.hin0 V c
  hout := fun V c => Hand0.hout0 V c

variable (m : (ℓ : Loc nD τ sig) → Buf (Elt F) ℓ) (ρ : Dev nD → PrngReg)

/-- THE FRAME: from any memory with zero counters every weakly fair execution of @main on the TensorCores terminates,
    nothing faulting, and every final state has the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_both D0 m ρ

/-- THE RUN with the output array named: what the second region's pipeline leaves from the first region's exit
    contents; the arguments unchanged. -/
theorem run_blocks : θ_run defs (onTc (τ := τ) (main (F := F))) ⟨m, fun _ => 0, ρ⟩ (fun r => ∀ c : Dev nD,
      r.2.mem ((c.tc : Thread nD τ).loc main_v24) = (dat1 (T10 D0 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_both D0 m ρ

end Cert.Kernel.HandRun

end
-- ==== Proof.KRunCond.lean ====
/- The run of @main through its host stretches and its two kernel regions, given each region's segment record pinned
   to the thread states between the items: every weakly fair execution terminates, and the final memory holds the
   second region's output array at what that region leaves there and every argument array as launched. -/
import proofs.«122487_j41781441855970_1_alg».proof.Proof.Gen.KernelIdeal.Regions

noncomputable section

namespace Cert.KernelIdeal.HandRun

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

set_option backward.isDefEq.respectTransparency.types false in
/-- The conditional run: as the conditional frame, over any contents X10 between the regions and X11 after the second
    (X11 holding each argument as launched), with the second region's output array read off X11 beside the arguments. -/
theorem run_cond {Ix : Type} [DecidableEq Ix] {U : Type} [URA U] {Lvl : Type} [Preorder Lvl]
    (m : (ℓ : Loc nD τ sig) → Buf (Elt F) ℓ)
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (X10 X11 : Dev nD → Valuation τ sig (Elt F))
    (harg0 : ∀ c : Dev nD, X11 c (Proc.devRef .tc main_arg0) = m ((c : Thread nD τ).loc main_arg0))
    (harg1 : ∀ c : Dev nD, X11 c (Proc.devRef .tc main_arg1) = m ((c : Thread nD τ).loc main_arg1))
    (harg2 : ∀ c : Dev nD, X11 c (Proc.devRef .tc main_arg2) = m ((c : Thread nD τ).loc main_arg2))
    (harg3 : ∀ c : Dev nD, X11 c (Proc.devRef .tc main_arg3) = m ((c : Thread nD τ).loc main_arg3))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V9 m c) ∗ E 0 c) ⊢ R0.pre c)
    (hpost0 : ∀ c : Dev nD, R0.post c ⊢ iprop(StableHlo.held (c : Thread nD τ) (Pipeline.ucRefs τ sig) (X10 c) ∗ E 1 c))
    (R1 : RegionSeg (pcfgs (F := F)) adm pdats ι defs₀ 𝒱₀ L lv 1)
    (hpre1 : ∀ c : Dev nD, iprop(StableHlo.held (c : Thread nD τ) (Pipeline.ucRefs τ sig) (X10 c) ∗ E 1 c) ⊢ R1.pre c)
    (hpost1 : ∀ c : Dev nD, R1.post c ⊢ iprop(StableHlo.held (c : Thread nD τ) (Pipeline.ucRefs τ sig) (X11 c) ∗ E 2 c)) :
    θ_run defs (onTc (τ := τ) (main (F := F))) ⟨m, fun _ => 0, ρ⟩ (fun r => ∀ c : Dev nD,
      r.2.mem ((c.tc : Thread nD τ).loc main_v24) = X11 c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) adm pdats ι cellOf_inj EP defs₀ 𝒱₀ L lv m ρ main
    (segs m 𝒱₀ L lv E ι pdats R0 R1)
    (fun c Q => by
      rewrite [main_chain c, Seg.run_eq_chain,
        show (segs m 𝒱₀ L lv E ι pdats R0 R1 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (X11 c))
    (hch := fun c => ⟨.rfl, .rfl, .rfl, .rfl, .rfl, .rfl, .rfl, .rfl, .rfl, hpre0 c, (hpost0 c).trans (hpre1 c), (hpost1 c).trans (sep_mono .rfl (hE2 c))⟩)
    (hinit := ?_) (QY := fun c s => s.mem ((c.tc : Thread nD τ).loc main_v24) = X11 c (Proc.devRef .tc main_v24) ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3))
    (hfin := fun c s' => ?_) (hQ := fun _ h => h)
  · -- the launch: the unscoped buffers are held at the launch contents; the rest makes E 0 on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each buffer read off the last valuation
    unfold StableHlo.held
    iintro ⟨Hh, HSI⟩
    ihave Hr := (pointsTo_read_all (Pipeline.ucRefs τ sig) (fun b => ((c : Thread nD τ).1, b)) (X11 c) s') $$ [Hh HSI]
    · isplitl [Hh] <;> iassumption
    icases Hr with ⟨%h, HSI⟩
    imodintro
    isplitr
    · ipureintro
      exact ⟨h (Proc.devRef .tc main_v24) (Finset.mem_filter.mpr ⟨StableHlo.devRef_mem_tcRefs main_v24, by decide⟩),
        (h (Proc.devRef .tc main_arg0) (Finset.mem_filter.mpr ⟨StableHlo.devRef_mem_tcRefs main_arg0, by decide⟩)).trans (harg0 c),
        (h (Proc.devRef .tc main_arg1) (Finset.mem_filter.mpr ⟨StableHlo.devRef_mem_tcRefs main_arg1, by decide⟩)).trans (harg1 c),
        (h (Proc.devRef .tc main_arg2) (Finset.mem_filter.mpr ⟨StableHlo.devRef_mem_tcRefs main_arg2, by decide⟩)).trans (harg2 c),
        (h (Proc.devRef .tc main_arg3) (Finset.mem_filter.mpr ⟨StableHlo.devRef_mem_tcRefs main_arg3, by decide⟩)).trans (harg3 c)⟩
    · iexact HSI

end Cert.KernelIdeal.HandRun

end
-- ==== Proof.K1Region.lean ====
/- Region 1 of @main (the normalising kernel) at the buffer contents found when the region is entered: the windows'
   blocks, what the body leaves in the output window's staging buffer, the body's triple, the pipeline's proof data
   and the body obligation at every grid point. Generic in the float model. -/
import proofs.«122487_j41781441855970_1_alg».proof.Proof.Gen.KernelIdeal.Launch
import proofs.«122487_j41781441855970_1_alg».proof.Proof.Gen.KernelIdeal.Skeleton
import proofs.«122487_j41781441855970_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when region 1 is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: an unfetched
    window's block index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_x : Rect S4096x256 := Rect.unit (s := S4096x256) ![0, 0] S4096x256.size inb_S4096x256_S4096x256_0_0
abbrev r1_s : Rect S4096x1 := Rect.unit (s := S4096x1) ![0, 0] S4096x1.size inb_S4096x1_S4096x1_0_0
abbrev r1_t : Rect S128x512 := Rect.unit (s := S128x512) ![0, 0] S128x512.size inb_S128x512_S128x512_0_0

/-! ## What the body leaves in the output window's buffer -/

/-- The output window's staging buffer after the body, from the three input windows' blocks: its one store. -/
def out1_3 (x0 : Vec F S4096x256 .f32) (x1 : Vec F S4096x1 .i32) (x2 : Vec F S128x512 .f32) : Vec F S4096x256 .f32 :=
  View.canon [⟨r1_x, k1_pay1 (View.ld x0 r1_x) (View.ld x1 r1_s) (View.ld x2 r1_t)⟩]

/-- The one store covers the buffer. -/
theorem cover1_3 (p0 : Vec F S4096x256 .f32) (y : S4096x256.Idx) :
    ∃ pc ∈ ([⟨r1_x, p0⟩] : List (View.Piece (Elt F) S4096x256 .f32)), y ∈ pc.1.set :=
  View.cover_of_tiled [⟨r1_x, p0⟩] S4096x256.size (by rfl) y

/-! ## The body's triple -/

set_option maxHeartbeats 1000000 in
/-- The kernel body on whole staging memrefs, the inputs' at read contents and the output's at anything (the body
    reads it once and discards what it read), runs to the continuation holding the inputs' as they were and the
    output's at out1_3 of the inputs'. -/
theorem sound_kernel1 (c : Dev nD) (E : Set ℕ) (i : grid1.Coords) (arg1 : Memref sig .tc .vmem S4096x256 .f32) (harg1 : arg1.IsWhole) (arg2 : Memref sig .tc .vmem S4096x1 .i32) (harg2 : arg2.IsWhole) (arg3 : Memref sig .tc .vmem S128x512 .f32) (harg3 : arg3.IsWhole) (arg4 : Memref sig .tc .vmem S4096x256 .f32) (harg4 : arg4.IsWhole)
    (x0 : Vec F S4096x256 .f32) (x1 : Vec F S4096x1 .i32) (x2 : Vec F S128x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__norm_kernel i arg1 harg1 arg2 harg2 arg3 harg3 arg4 harg4) K := by
  simp only [cc1__norm_kernel_eq_skeleton]; unfold cc1__norm_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core c: the arrays as the region finds them; after the body at point t each
    input's buffer at its block and the output's at out1_3 of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand1

end
-- ==== Proof.KRun.lean ====
/- The run of @main through both kernel regions, from the first region's proof data and invariant entailments taken as
   given: the buffer contents between the items, every pipeline's proof data at its region's entry contents, each
   region's segment record over the thread state "every unscoped buffer at the boundary's contents, the generator
   register at some state, nothing owed", and the run itself. Generic in the float model. -/
import proofs.«122487_j41781441855970_1_alg».proof.Proof.KRunCond
import proofs.«122487_j41781441855970_1_alg».proof.Proof.K1Region

set_option maxRecDepth 16384

noncomputable section

namespace Cert.KernelIdeal.HandRun

open Cert.KernelIdeal.Gen Cert.KernelIdeal.Hand1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The TensorCore's buffer contents at a boundary, per core. -/
abbrev Conts (F : FTy → Type) [FloatOps F] : Type := (c : Dev nD) → (b : Ref sig .tc) → Buf (Elt F) ((c : Thread nD τ).loc b)

/-- What the run takes of the first region: its proof data at any entry contents — the arrays read off those contents,
    full shares, nothing owed, every cell recorded —, its body obligation, and its invariant made at the first point from
    the generator register and the scoped buffers no window stages, and giving them back at the last. -/
structure Reg0 (F : FTy → Type) [FloatOps F] where
  dat0 : Conts F → (c : Dev nD) → Dat τ (Elt F) Unit ℕ (UR sig nD τ) ℕ cfg0 c
  hA : ∀ (V : Conts F) (c : Dev nD) (w : Fin cfg0.W), (dat0 V c).A w = V c (Pipeline.arrRef spec0 w)
  hq : ∀ (V : Conts F) (c : Dev nD) (w : Fin cfg0.W), (dat0 V c).q w = fullShare
  howed : ∀ (V : Conts F) (c : Dev nD) t, (dat0 V c).owed t = 0
  hrec : ∀ (V : Conts F) (c : Dev nD) t, (dat0 V c).recorded t = Set.univ
  body : ∀ (V : Conts F) (c : Dev nD), BodyObligation (dat0 V c) (defs₀ (F := F)) Variants.none () Set.univ
  hin : ∀ (V : Conts F) (c : Dev nD), (iprop((∃ r, prngReg c r) ∗ Pipeline.scopedRest spec0 c) : sProp (MT nD τ sig Unit (Elt F) ℕ (UR sig nD τ) ℕ)) ⊢ (dat0 V c).Φ 0
  hout : ∀ (V : Conts F) (c : Dev nD), (dat0 V c).Φ (Fin.last cfg0.N) ⊢ (iprop((∃ r, prngReg c r) ∗ Pipeline.scopedRest spec0 c) : sProp (MT nD τ sig Unit (Elt F) ℕ (UR sig nD τ) ℕ))

section Run

variable (D0 : Reg0 F)

variable (m : (ℓ : Loc nD τ sig) → Buf (Elt F) ℓ)

/-! ## The buffer contents at the regions' boundaries -/

/-- At the first region's entry: the launch contents through the host stretches. -/
abbrev T9 : Conts F := fun c b => V9 m c b

/-- At the first region's exit: its arrays at what the pipeline leaves, every other buffer as entered. -/
def W10 (c : Dev nD) : Valuation τ sig (Elt F) :=
  Pipeline.withArrays spec0 c (V9 m c) fun w => (D0.dat0 (T9 m) c).arrAt w cfg0.N
theorem W10_arr (c : Dev nD) (w : Fin cfg0.W) :
    W10 D0 m c (Proc.devRef .tc (Pipeline.arrRef spec0 w)) = (D0.dat0 (T9 m) c).arrAt w cfg0.N := by
  unfold W10; exact Pipeline.withArrays_arr spec0 launch0.win.arr_inj c _ _ w
theorem W10_of_ne (c : Dev nD) (b : Ref sig .tc) (hb : ∀ w, Pipeline.arrRef spec0 w ≠ b) :
    W10 D0 m c (Proc.devRef .tc b) = V9 m c (Proc.devRef .tc b) := by
  unfold W10; exact Pipeline.withArrays_of_ne spec0 c _ _ b hb
/-- The same read at the TensorCore's references: the second region's entry contents. -/
abbrev T10 : Conts F := fun c b => W10 D0 m c b
theorem hF0 (c : Dev nD) (w : Fin cfg0.W) : (D0.dat0 (T9 m) c).arrAt w cfg0.N = T10 D0 m c (Pipeline.arrRef spec0 w) :=
  (W10_arr D0 m c w).symm
theorem hrest0 (c : Dev nD) : ∀ b, b ∉ Finset.univ.image (Pipeline.arrRef spec0) → T10 D0 m c b = T9 m c b :=
  fun b hb => W10_of_ne D0 m c b fun w e => hb (Finset.mem_image.mpr ⟨w, Finset.mem_univ _, e⟩)

/-- At the second region's exit: its arrays at what the pipeline leaves, every other buffer as entered. -/
def W11 (c : Dev nD) : Valuation τ sig (Elt F) :=
  Pipeline.withArrays spec1 c (W10 D0 m c) fun w => (dat1 (T10 D0 m) c).arrAt w cfg1.N
theorem W11_arr (c : Dev nD) (w : Fin cfg1.W) :
    W11 D0 m c (Proc.devRef .tc (Pipeline.arrRef spec1 w)) = (dat1 (T10 D0 m) c).arrAt w cfg1.N := by
  unfold W11; exact Pipeline.withArrays_arr spec1 launch1.win.arr_inj c _ _ w
theorem W11_of_ne (c : Dev nD) (b : Ref sig .tc) (hb : ∀ w, Pipeline.arrRef spec1 w ≠ b) :
    W11 D0 m c (Proc.devRef .tc b) = W10 D0 m c (Proc.devRef .tc b) := by
  unfold W11; exact Pipeline.withArrays_of_ne spec1 c _ _ b hb
abbrev T11 : Conts F := fun c b => W11 D0 m c b
theorem hF1 (c : Dev nD) (w : Fin cfg1.W) : (dat1 (T10 D0 m) c).arrAt w cfg1.N = T11 D0 m c (Pipeline.arrRef spec1 w) :=
  (W11_arr D0 m c w).symm
theorem hrest1 (c : Dev nD) : ∀ b, b ∉ Finset.univ.image (Pipeline.arrRef spec1) → T11 D0 m c b = T10 D0 m c b :=
  fun b hb => W11_of_ne D0 m c b fun w e => hb (Finset.mem_image.mpr ⟨w, Finset.mem_univ _, e⟩)

/-! ### The arguments end as launched -/

theorem W11_main_arg0 (c : Dev nD) : W11 D0 m c (Proc.devRef .tc main_arg0) = m ((c : Thread nD τ).loc main_arg0) :=
  calc W11 D0 m c (Proc.devRef .tc main_arg0)
    _ = W10 D0 m c (Proc.devRef .tc main_arg0) := (W11_arr D0 m c 0).trans (((dat1 (T10 D0 m) c).arrAt_in 0 rfl _).trans (A_eq1 (T10 D0 m) c 0))
    _ = V9 m c (Proc.devRef .tc main_arg0) := (W10_arr D0 m c 0).trans (((D0.dat0 (T9 m) c).arrAt_in 0 rfl _).trans (D0.hA (T9 m) c 0))
    _ = m ((c : Thread nD τ).loc main_arg0) := (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans rfl

theorem W11_main_arg1 (c : Dev nD) : W11 D0 m c (Proc.devRef .tc main_arg1) = m ((c : Thread nD τ).loc main_arg1) :=
  calc W11 D0 m c (Proc.devRef .tc main_arg1)
    _ = W10 D0 m c (Proc.devRef .tc main_arg1) := W11_of_ne D0 m c main_arg1 (by decide)
    _ = V9 m c (Proc.devRef .tc main_arg1) := W10_of_ne D0 m c main_arg1 (by decide)
    _ = m ((c : Thread nD τ).loc main_arg1) := (V9_of m c main_arg1 (by decide)).trans <| (V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans rfl

theorem W11_main_arg2 (c : Dev nD) : W11 D0 m c (Proc.devRef .tc main_arg2) = m ((c : Thread nD τ).loc main_arg2) :=
  calc W11 D0 m c (Proc.devRef .tc main_arg2)
    _ = W10 D0 m c (Proc.devRef .tc main_arg2) := W11_of_ne D0 m c main_arg2 (by decide)
    _ = V9 m c (Proc.devRef .tc main_arg2) := W10_of_ne D0 m c main_arg2 (by decide)
    _ = m ((c : Thread nD τ).loc main_arg2) := (V9_of m c main_arg2 (by decide)).trans <| (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans rfl

theorem W11_main_arg3 (c : Dev nD) : W11 D0 m c (Proc.devRef .tc main_arg3) = m ((c : Thread nD τ).loc main_arg3) :=
  calc W11 D0 m c (Proc.devRef .tc main_arg3)
    _ = W10 D0 m c (Proc.devRef .tc main_arg3) := W11_of_ne D0 m c main_arg3 (by decide)
    _ = V9 m c (Proc.devRef .tc main_arg3) := W10_of_ne D0 m c main_arg3 (by decide)
    _ = m ((c : Thread nD τ).loc main_arg3) := (V9_of m c main_arg3 (by decide)).trans <| (V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans rfl

/-! ## The proof data family and the thread state -/

/-- Every pipeline's proof data, each at its region's entry contents: a literal match on the pipeline. -/
def pdats : (p : Fin 2) → (c : Dev nD) → Dat τ (Elt F) Unit ℕ (UR sig nD τ) ℕ (cfgs p) c
  | ⟨0, _⟩ => fun c => D0.dat0 (T9 m) c
  | ⟨1, _⟩ => fun c => dat1 (T10 D0 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- The first region over the thread state: entered from every unscoped buffer at the contents after the host
    stretches, left with its arrays at what the pipeline leaves. Its arrays split out of the unscoped buffers and put
    back at the exit contents; the generator register and the scoped rest into the region's invariant and out. -/
def reg0 : Pipeline.RegionSeg (pcfgs (F := F)) adm (pdats D0 m) () defs₀ 𝒱₀ L lv 0 where
  win := launch0.win.to₀
  block_pos := launch0.block_pos
  stage_whole := launch0.stage_whole
  K := PEmpty
  osem k := k.elim
  ho := Pipeline.OwnSemFacts.none _
  hbody c := (D0.body (T9 m) c).loose
  hwaits := Pipeline.hwaits_of_owed_zero _ _ _ _ L lv 0 fun c t => D0.howed (T9 m) c t
  pre c := iprop(StableHlo.held (c : Thread nD τ) (Pipeline.ucRefs τ sig) (V9 m c) ∗ R c)
  post c := iprop(StableHlo.held (c : Thread nD τ) (Pipeline.ucRefs τ sig) (W10 D0 m c) ∗ R c)
  X c := iprop(∃ r, prngReg c r)
  Y c := iprop(∃ r, prngReg c r)
  Z c := Pipeline.unscopedRest (Ix := Unit) (Name := ℕ) (U := UR sig nD τ) (Lvl := ℕ) spec0 c (T9 m c)
  hentry c := by
    rw [Pipeline.ownSems0_none]
    have hsplit := Pipeline.arrays_of_unscopedBufs (p := 0) (pcfgs (F := F)) adm (pdats D0 m) launch0.win launch0.arr_whole c
      ((pdats D0 m 0 c).share_full fun w => D0.hq (T9 m) c w) (T9 m c) fun w => D0.hA (T9 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun x _ => Or.inl ((Set.ext_iff.mp (D0.hrec (T9 m) c 0) x).mpr (Set.mem_univ x))
      rw [show (pdats D0 m 0 c).owed 0 = 0 from D0.howed (T9 m) c 0]
      iexact HO
    isplitl [Hp]; · iexact Hp
    iexact Hrest
  hin c := by
    rw [show (pdats D0 m 0 c).Φ 0 = (D0.dat0 (T9 m) c).Φ 0 from rfl]
    iintro ⟨Hp, -, Hr⟩
    iapply (D0.hin (T9 m) c)
    isplitl [Hp]; · iexact Hp
    iexact Hr
  hout c := by
    rw [Pipeline.ownSems0_none, show (pdats D0 m 0 c).Φ (Fin.last _) = (D0.dat0 (T9 m) c).Φ (Fin.last cfg0.N) from rfl]
    iintro H
    ihave H' := (D0.hout (T9 m) c) $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats D0 m) ((pdats D0 m 0 c).share_full fun w => D0.hq (T9 m) c w)
      (T9 m c) (T10 D0 m c) ((pdats D0 m 0 c).arrAt · cfg0.N) (hF0 D0 m c) (hrest0 D0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats D0 m 0 c).owed (Fin.last _) = 0 from D0.howed (T9 m) c _]
    iexact HO

set_option backward.isDefEq.respectTransparency.types false in
/-- The second region over the thread state: entered from every unscoped buffer at the first region's exit contents,
    left with its arrays at what the pipeline leaves. The generator register into the invariant (the scoped rest and
    the register, untouched) and out; nothing owed; no semaphore of the kernel's own. -/
def reg1 : Pipeline.RegionSeg (pcfgs (F := F)) adm (pdats D0 m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T10 D0 m) c).loose
  hwaits := Pipeline.hwaits_of_owed_zero _ _ _ _ L lv 1 fun _ _ => rfl
  pre c := iprop(StableHlo.held (c : Thread nD τ) (Pipeline.ucRefs τ sig) (W10 D0 m c) ∗ R c)
  post c := iprop(StableHlo.held (c : Thread nD τ) (Pipeline.ucRefs τ sig) (W11 D0 m c) ∗ R c)
  X c := iprop(∃ r, prngReg c r)
  Y c := iprop(∃ r, prngReg c r)
  Z c := Pipeline.unscopedRest (Ix := Unit) (Name := ℕ) (U := UR sig nD τ) (Lvl := ℕ) spec1 c (T10 D0 m c)
  hentry c := by
    rw [Pipeline.ownSems0_none]
    have hsplit := Pipeline.arrays_of_unscopedBufs (p := 1) (pcfgs (F := F)) adm (pdats D0 m) launch1.win launch1.arr_whole c
      ((pdats D0 m 1 c).share_full fun _ => rfl) (T10 D0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats D0 m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats D0 m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats D0 m) ((pdats D0 m 1 c).share_full fun _ => rfl)
      (T10 D0 m c) (T11 D0 m c) ((pdats D0 m 1 c).arrAt · cfg1.N) (hF1 D0 m c) (hrest1 D0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- THE RUN: from any memory with zero counters every weakly fair execution of @main terminates, nothing faulting,
    and every final memory holds the second region's output array at what its pipeline leaves there from the first
    region's exit contents, and each argument array as launched. -/
theorem run_both (ρ : Dev nD → PrngReg) : θ_run defs (onTc (τ := τ) (main (F := F))) ⟨m, fun _ => 0, ρ⟩ (fun r => ∀ c : Dev nD,
      r.2.mem ((c.tc : Thread nD τ).loc main_v24) = (dat1 (T10 D0 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (W11_arr D0 m c 3), (h c).2⟩)
    (run_cond m (emb₁ : Emb (UR sig nD τ) 𝕄) () 𝒱₀ L lv (fun _ _ => rfl) ρ (W10 D0 m) (W11 D0 m)
      (W11_main_arg0 D0 m) (W11_main_arg1 D0 m) (W11_main_arg2 D0 m) (W11_main_arg3 D0 m)
      (pdats D0 m) (O₀ := 0) (G := fun _ => iprop(emp))
      (u₀ := initOf (Pipeline.cells cfgs cellOf_inj) (Pipeline.launchToks cfgs cellOf_inj))
      (hu₀ := by
        iintro Hu; imodintro
        isplitl [Hu]
        · iapply (show (ownU (initOf (Pipeline.cells cfgs cellOf_inj) (Pipeline.launchToks cfgs cellOf_inj)) : sProp 𝕄)
              ⊢ BI.own (emb₁ (initOf (Pipeline.cells cfgs cellOf_inj) (Pipeline.launchToks cfgs cellOf_inj))) from .rfl)
          iexact Hu
        iapply (show (BI.emp : sProp 𝕄) ⊢ bigSep Finset.univ (fun _ : Dev nD => (BI.emp : sProp 𝕄)) from by rw [BI.bigSep_emp_const])
        iempintro)
      (E := fun _ => R)
      (hE0 := Pipeline.initEach L lv fun c => by
        iintro ⟨⟨-, HO, -, Hp, -⟩, -⟩
        imodintro
        isplitl [Hp]; · iexists _; iexact Hp
        iexists ∅; iexact HO)
      (hE2 := fun c => by iintro ⟨-, HO⟩; iexact HO)
      (reg0 D0 m) (fun c => .rfl) (fun c => .rfl)
      (reg1 D0 m) (fun c => .rfl) (fun c => .rfl))

include D0 in
/-- THE FRAME: the run, keeping only that the argument arrays end as launched. -/
theorem frame_both (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2)
    (run_both D0 m ρ)

end Run

end Cert.KernelIdeal.HandRun

end
-- ==== Proof.K0Runs.lean ====
/- Region 0 (the segment reduction): what its three runs share — the two branch conditions of the body
   in closed form over the grid point, where the table window is idle, the scratch accumulators as memrefs,
   and the region invariant's resting form. -/
import proofs.«122487_j41781441855970_1_alg».proof.Proof.Gen.KernelIdeal.Launch
import proofs.«122487_j41781441855970_1_alg».proof.Proof.Gen.KernelIdeal.Skeleton
import proofs.«122487_j41781441855970_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's two branch conditions -/

/-- The first conditional (zero the accumulators): the grid coordinate is 0. -/
abbrev cond0_0 (i : grid0.Coords) : Prop :=
  (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val = 0 :=
  (by decide +kernel : ∀ t : Fin grid0.N, cond0_0 (grid0.coords t) ↔ t.val = 0)

/-- The second conditional (finish the table): the grid coordinate is 127. -/
abbrev cond0_1 (i : grid0.Coords) : Prop := k0_cond2 i = 1#1
/-- It holds at point 127 only. -/
theorem hcond0_1 : ∀ t : Fin cfg0.N, cond0_1 (grid0.coords t) ↔ t.val = 127 :=
  (by decide +kernel : ∀ t : Fin grid0.N, cond0_1 (grid0.coords t) ↔ t.val = 127)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from the last point the table window is idle and not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- At the last point it is live. -/
theorem liveAt0_5 : ∀ t : Fin cfg0.N, cond0_1 (grid0.coords t) → cfg0.idle 5 (grid0.coords t) = false := by decide +kernel

/-! ## The staging memrefs and the scratch accumulators -/

abbrev ms0_0 (t : Fin cfg0.N) : Memref sig .tc .vmem S4096x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x512 .f32 := win0_5.stage (cfg0.slots t 5)
abbrev hs0_5 (t : Fin cfg0.N) : (ms0_5 t).IsWhole := hstage0_5 ((cfg0.slots t 5).cast nbuf0_5)

/-- The two accumulators (sum and sum of squares per segment and feature): whole scoped buffers. -/
abbrev scM0_0 : Memref sig .tc .vmem S128x256 .f32 := Memref.whole cc0_scratch0
abbrev scM0_1 : Memref sig .tc .vmem S128x256 .f32 := Memref.whole cc0_scratch1
abbrev VS0_0 : View sig .tc .vmem S128x256 .f32 := scM0_0.view
abbrev VS0_1 : View sig .tc .vmem S128x256 .f32 := scM0_1.view
/-- One staging buffer of the table window, through which its contents are stated. -/
abbrev VO0_5 : View sig .tc .vmem S128x512 .f32 := (Memref.whole cc0_stg5_0 : Memref sig .tc .vmem S128x512 .f32).view

/-- The scoped buffers of the core that are neither a staging buffer of this region nor an accumulator
    (the other region's staging buffers), each whole at some contents. -/
def restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The scoped rest of this region: the two accumulators at some contents, beside the other region's
    staging buffers. -/
theorem scopedRest0_acc (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d) ∗ restS c) := by
  rw [scopedRest0_eq]; unfold restS; simp only [scM0_0, scM0_1, owns_whole]; try rfl

end Cert.KernelIdeal.Hand0

end
-- ==== Proof.K0RunA.lean ====
/- Region 0, the run of the body at the FIRST grid point: the accumulators are zeroed, then the tile's
   one-hot products are added; the table window is left untouched. -/
import proofs.«122487_j41781441855970_1_alg».proof.Proof.K0Runs

set_option maxRecDepth 16384

noncomputable section

namespace Cert.KernelIdeal.Hand0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At the first point: from the inputs' buffers at their contents, the table's buffer at `xi5` and the two
    accumulators at anything, the body runs to the inputs and the table's buffer as they were and each
    accumulator with its stores written (the pieces are found by the run). -/
noncomputable def kernelRun0_A (c : Dev nD) (i : grid0.Coords) (arg1 : Memref sig .tc .vmem S4096x256 .f32) (harg1 : arg1.IsWhole) (arg2 : Memref sig .tc .vmem S4096x1 .i32) (harg2 : arg2.IsWhole) (arg3 : Memref sig .tc .vmem S128x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S128x512 .f32) (harg6 : arg6.IsWhole) (arg7 : Memref sig .tc .vmem S128x256 .f32) (harg7 : arg7.IsWhole) (arg8 : Memref sig .tc .vmem S128x256 .f32) (harg8 : arg8.IsWhole) (hc0 : cond0_0 i) (hc1 : ¬cond0_1 i)
    (x0 : Vec F S4096x256 .f32) (x1 : Vec F S4096x1 .i32) (x2 : Vec F S128x1 .f32) (x3 : Vec F S1x256 .f32) (x4 : Vec F S1x256 .f32) :
    Σ' (LS0 : List (View.Piece (Elt F) S128x256 .f32)), { LS1 : List (View.Piece (Elt F) S128x256 .f32) //
      ∀ (xi5 : Vec F S128x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__reduce_kernel i arg1 harg1 arg2 harg2 arg3 harg3 arg4 harg4 arg5 harg5 arg6 harg6 arg7 harg7 arg8 harg8) K } := by
  refine ⟨?_, ?_, fun xi5 E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.KernelIdeal.Hand0

end
-- ==== Proof.K0RunB.lean ====
/- Region 0, the run of the body at a MIDDLE grid point: the tile's one-hot products are added to the
   accumulators as the point before left them; the table window is left untouched. -/
import proofs.«122487_j41781441855970_1_alg».proof.Proof.K0RunA

set_option maxRecDepth 16384

noncomputable section

namespace Cert.KernelIdeal.Hand0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a middle point: the accumulators enter at `xs0`, `xs1`. -/
noncomputable def kernelRun0_B (c : Dev nD) (i : grid0.Coords) (arg1 : Memref sig .tc .vmem S4096x256 .f32) (harg1 : arg1.IsWhole) (arg2 : Memref sig .tc .vmem S4096x1 .i32) (harg2 : arg2.IsWhole) (arg3 : Memref sig .tc .vmem S128x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S128x512 .f32) (harg6 : arg6.IsWhole) (arg7 : Memref sig .tc .vmem S128x256 .f32) (harg7 : arg7.IsWhole) (arg8 : Memref sig .tc .vmem S128x256 .f32) (harg8 : arg8.IsWhole) (hc0 : ¬cond0_0 i) (hc1 : ¬cond0_1 i)
    (x0 : Vec F S4096x256 .f32) (x1 : Vec F S4096x1 .i32) (x2 : Vec F S128x1 .f32) (x3 : Vec F S1x256 .f32) (x4 : Vec F S1x256 .f32) (xs0 : Vec F S128x256 .f32) (xs1 : Vec F S128x256 .f32) :
    Σ' (LS0 : List (View.Piece (Elt F) S128x256 .f32)), { LS1 : List (View.Piece (Elt F) S128x256 .f32) //
      ∀ (xi5 : Vec F S128x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__reduce_kernel i arg1 harg1 arg2 harg2 arg3 harg3 arg4 harg4 arg5 harg5 arg6 harg6 arg7 harg7 arg8 harg8) K } := by
  refine ⟨?_, ?_, fun xi5 E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.KernelIdeal.Hand0

end
-- ==== Proof.K0RunC.lean ====
/- Region 0, the run of the body at the LAST grid point: the tile's one-hot products are added to the
   accumulators, then the table's two halves (scale, shift) are stored from them. -/
import proofs.«122487_j41781441855970_1_alg».proof.Proof.K0RunB

set_option maxRecDepth 16384

noncomputable section

namespace Cert.KernelIdeal.Hand0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At the last point: the accumulators enter at `xs0`, `xs1`, the table's buffer at anything; it leaves with
    its two stores written. -/
noncomputable def kernelRun0_C (c : Dev nD) (i : grid0.Coords) (arg1 : Memref sig .tc .vmem S4096x256 .f32) (harg1 : arg1.IsWhole) (arg2 : Memref sig .tc .vmem S4096x1 .i32) (harg2 : arg2.IsWhole) (arg3 : Memref sig .tc .vmem S128x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S128x512 .f32) (harg6 : arg6.IsWhole) (arg7 : Memref sig .tc .vmem S128x256 .f32) (harg7 : arg7.IsWhole) (arg8 : Memref sig .tc .vmem S128x256 .f32) (harg8 : arg8.IsWhole) (hc0 : ¬cond0_0 i) (hc1 : cond0_1 i)
    (x0 : Vec F S4096x256 .f32) (x1 : Vec F S4096x1 .i32) (x2 : Vec F S128x1 .f32) (x3 : Vec F S1x256 .f32) (x4 : Vec F S1x256 .f32) (xs0 : Vec F S128x256 .f32) (xs1 : Vec F S128x256 .f32) :
    Σ' (L5 : List (View.Piece (Elt F) S128x512 .f32)), Σ' (LS0 : List (View.Piece (Elt F) S128x256 .f32)), { LS1 : List (View.Piece (Elt F) S128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__reduce_kernel i arg1 harg1 arg2 harg2 arg3 harg3 arg4 harg4 arg5 harg5 arg6 harg6 arg7 harg7 arg8 harg8) K } := by
  refine ⟨?_, ?_, ?_, fun E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]; · iexists _; iexact HS0
    iexists _; iexact HS1

end Cert.KernelIdeal.Hand0

end
-- ==== Proof.K0Pieces.lean ====
/- Region 0: what each control case of the body leaves in the two accumulators and (at the last point) in the
   table's buffer, as the stores the runs found read back; the stores of each buffer tile it. -/
import proofs.«122487_j41781441855970_1_alg».proof.Proof.K0RunC

set_option maxRecDepth 16384

noncomputable section

namespace Cert.KernelIdeal.Hand0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## First point -/

theorem scover0_A_0 (c : Dev nD) (i : grid0.Coords) (arg1 : Memref sig .tc .vmem S4096x256 .f32) (harg1 : arg1.IsWhole) (arg2 : Memref sig .tc .vmem S4096x1 .i32) (harg2 : arg2.IsWhole) (arg3 : Memref sig .tc .vmem S128x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S128x512 .f32) (harg6 : arg6.IsWhole) (arg7 : Memref sig .tc .vmem S128x256 .f32) (harg7 : arg7.IsWhole) (arg8 : Memref sig .tc .vmem S128x256 .f32) (harg8 : arg8.IsWhole) (hc0 : cond0_0 i) (hc1 : ¬cond0_1 i)
    (x0 : Vec F S4096x256 .f32) (x1 : Vec F S4096x1 .i32) (x2 : Vec F S128x1 .f32) (x3 : Vec F S1x256 .f32) (x4 : Vec F S1x256 .f32) (y : S128x256.Idx) :
    ∃ pc ∈ (kernelRun0_A c i arg1 harg1 arg2 harg2 arg3 harg3 arg4 harg4 arg5 harg5 arg6 harg6 arg7 harg7 arg8 harg8 hc0 hc1 x0 x1 x2 x3 x4).1, y ∈ pc.1.set :=
  View.cover_of_tiledL (kernelRun0_A c i arg1 harg1 arg2 harg2 arg3 harg3 arg4 harg4 arg5 harg5 arg6 harg6 arg7 harg7 arg8 harg8 hc0 hc1 x0 x1 x2 x3 x4).1 S128x256.size (by sl_kernel_rfl) y

/-- What the case leaves in accumulator 0: its stores read back. -/
def sout0_A_0 (c : Dev nD) (i : grid0.Coords) (arg1 : Memref sig .tc .vmem S4096x256 .f32) (harg1 : arg1.IsWhole) (arg2 : Memref sig .tc .vmem S4096x1 .i32) (harg2 : arg2.IsWhole) (arg3 : Memref sig .tc .vmem S128x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S128x512 .f32) (harg6 : arg6.IsWhole) (arg7 : Memref sig .tc .vmem S128x256 .f32) (harg7 : arg7.IsWhole) (arg8 : Memref sig .tc .vmem S128x256 .f32) (harg8 : arg8.IsWhole) (hc0 : cond0_0 i) (hc1 : ¬cond0_1 i)
    (x0 : Vec F S4096x256 .f32) (x1 : Vec F S4096x1 .i32) (x2 : Vec F S128x1 .f32) (x3 : Vec F S1x256 .f32) (x4 : Vec F S1x256 .f32) : Vec F S128x256 .f32 :=
  VS0_0.read (Elt F) (VS0_0.writes (Elt F) VS0_0.junk (kernelRun0_A c i arg1 harg1 arg2 harg2 arg3 harg3 arg4 harg4 arg5 harg5 arg6 harg6 arg7 harg7 arg8 harg8 hc0 hc1 x0 x1 x2 x3 x4).1)

theorem scover0_A_1 (c : Dev nD) (i : grid0.Coords) (arg1 : Memref sig .tc .vmem S4096x256 .f32) (harg1 : arg1.IsWhole) (arg2 : Memref sig .tc .vmem S4096x1 .i32) (harg2 : arg2.IsWhole) (arg3 : Memref sig .tc .vmem S128x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S128x512 .f32) (harg6 : arg6.IsWhole) (arg7 : Memref sig .tc .vmem S128x256 .f32) (harg7 : arg7.IsWhole) (arg8 : Memref sig .tc .vmem S128x256 .f32) (harg8 : arg8.IsWhole) (hc0 : cond0_0 i) (hc1 : ¬cond0_1 i)
    (x0 : Vec F S4096x256 .f32) (x1 : Vec F S4096x1 .i32) (x2 : Vec F S128x1 .f32) (x3 : Vec F S1x256 .f32) (x4 : Vec F S1x256 .f32) (y : S128x256.Idx) :
    ∃ pc ∈ (kernelRun0_A c i arg1 harg1 arg2 harg2 arg3 harg3 arg4 harg4 arg5 harg5 arg6 harg6 arg7 harg7 arg8 harg8 hc0 hc1 x0 x1 x2 x3 x4).2.1, y ∈ pc.1.set :=
  View.cover_of_tiledL (kernelRun0_A c i arg1 harg1 arg2 harg2 arg3 harg3 arg4 harg4 arg5 harg5 arg6 harg6 arg7 harg7 arg8 harg8 hc0 hc1 x0 x1 x2 x3 x4).2.1 S128x256.size (by sl_kernel_rfl) y

/-- What the case leaves in accumulator 1: its stores read back. -/
def sout0_A_1 (c : Dev nD) (i : grid0.Coords) (arg1 : Memref sig .tc .vmem S4096x256 .f32) (harg1 : arg1.IsWhole) (arg2 : Memref sig .tc .vmem S4096x1 .i32) (harg2 : arg2.IsWhole) (arg3 : Memref sig .tc .vmem S128x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S128x512 .f32) (harg6 : arg6.IsWhole) (arg7 : Memref sig .tc .vmem S128x256 .f32) (harg7 : arg7.IsWhole) (arg8 : Memref sig .tc .vmem S128x256 .f32) (harg8 : arg8.IsWhole) (hc0 : cond0_0 i) (hc1 : ¬cond0_1 i)
    (x0 : Vec F S4096x256 .f32) (x1 : Vec F S4096x1 .i32) (x2 : Vec F S128x1 .f32) (x3 : Vec F S1x256 .f32) (x4 : Vec F S1x256 .f32) : Vec F S128x256 .f32 :=
  VS0_1.read (Elt F) (VS0_1.writes (Elt F) VS0_1.junk (kernelRun0_A c i arg1 harg1 arg2 harg2 arg3 harg3 arg4 harg4 arg5 harg5 arg6 harg6 arg7 harg7 arg8 harg8 hc0 hc1 x0 x1 x2 x3 x4).2.1)

/-! ## Middle points -/

theorem scover0_B_0 (c : Dev nD) (i : grid0.Coords) (arg1 : Memref sig .tc .vmem S4096x256 .f32) (harg1 : arg1.IsWhole) (arg2 : Memref sig .tc .vmem S4096x1 .i32) (harg2 : arg2.IsWhole) (arg3 : Memref sig .tc .vmem S128x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S128x512 .f32) (harg6 : arg6.IsWhole) (arg7 : Memref sig .tc .vmem S128x256 .f32) (harg7 : arg7.IsWhole) (arg8 : Memref sig .tc .vmem S128x256 .f32) (harg8 : arg8.IsWhole) (hc0 : ¬cond0_0 i) (hc1 : ¬cond0_1 i)
    (x0 : Vec F S4096x256 .f32) (x1 : Vec F S4096x1 .i32) (x2 : Vec F S128x1 .f32) (x3 : Vec F S1x256 .f32) (x4 : Vec F S1x256 .f32) (xs0 : Vec F S128x256 .f32) (xs1 : Vec F S128x256 .f32) (y : S128x256.Idx) :
    ∃ pc ∈ (kernelRun0_B c i arg1 harg1 arg2 harg2 arg3 harg3 arg4 harg4 arg5 harg5 arg6 harg6 arg7 harg7 arg8 harg8 hc0 hc1 x0 x1 x2 x3 x4 xs0 xs1).1, y ∈ pc.1.set :=
  View.cover_of_tiledL (kernelRun0_B c i arg1 harg1 arg2 harg2 arg3 harg3 arg4 harg4 arg5 harg5 arg6 harg6 arg7 harg7 arg8 harg8 hc0 hc1 x0 x1 x2 x3 x4 xs0 xs1).1 S128x256.size (by sl_kernel_rfl) y

/-- What the case leaves in accumulator 0: its stores read back. -/
def sout0_B_0 (c : Dev nD) (i : grid0.Coords) (arg1 : Memref sig .tc .vmem S4096x256 .f32) (harg1 : arg1.IsWhole) (arg2 : Memref sig .tc .vmem S4096x1 .i32) (harg2 : arg2.IsWhole) (arg3 : Memref sig .tc .vmem S128x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S128x512 .f32) (harg6 : arg6.IsWhole) (arg7 : Memref sig .tc .vmem S128x256 .f32) (harg7 : arg7.IsWhole) (arg8 : Memref sig .tc .vmem S128x256 .f32) (harg8 : arg8.IsWhole) (hc0 : ¬cond0_0 i) (hc1 : ¬cond0_1 i)
    (x0 : Vec F S4096x256 .f32) (x1 : Vec F S4096x1 .i32) (x2 : Vec F S128x1 .f32) (x3 : Vec F S1x256 .f32) (x4 : Vec F S1x256 .f32) (xs0 : Vec F S128x256 .f32) (xs1 : Vec F S128x256 .f32) : Vec F S128x256 .f32 :=
  VS0_0.read (Elt F) (VS0_0.writes (Elt F) VS0_0.junk (kernelRun0_B c i arg1 harg1 arg2 harg2 arg3 harg3 arg4 harg4 arg5 harg5 arg6 harg6 arg7 harg7 arg8 harg8 hc0 hc1 x0 x1 x2 x3 x4 xs0 xs1).1)

theorem scover0_B_1 (c : Dev nD) (i : grid0.Coords) (arg1 : Memref sig .tc .vmem S4096x256 .f32) (harg1 : arg1.IsWhole) (arg2 : Memref sig .tc .vmem S4096x1 .i32) (harg2 : arg2.IsWhole) (arg3 : Memref sig .tc .vmem S128x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S128x512 .f32) (harg6 : arg6.IsWhole) (arg7 : Memref sig .tc .vmem S128x256 .f32) (harg7 : arg7.IsWhole) (arg8 : Memref sig .tc .vmem S128x256 .f32) (harg8 : arg8.IsWhole) (hc0 : ¬cond0_0 i) (hc1 : ¬cond0_1 i)
    (x0 : Vec F S4096x256 .f32) (x1 : Vec F S4096x1 .i32) (x2 : Vec F S128x1 .f32) (x3 : Vec F S1x256 .f32) (x4 : Vec F S1x256 .f32) (xs0 : Vec F S128x256 .f32) (xs1 : Vec F S128x256 .f32) (y : S128x256.Idx) :
    ∃ pc ∈ (kernelRun0_B c i arg1 harg1 arg2 harg2 arg3 harg3 arg4 harg4 arg5 harg5 arg6 harg6 arg7 harg7 arg8 harg8 hc0 hc1 x0 x1 x2 x3 x4 xs0 xs1).2.1, y ∈ pc.1.set :=
  View.cover_of_tiledL (kernelRun0_B c i arg1 harg1 arg2 harg2 arg3 harg3 arg4 harg4 arg5 harg5 arg6 harg6 arg7 harg7 arg8 harg8 hc0 hc1 x0 x1 x2 x3 x4 xs0 xs1).2.1 S128x256.size (by sl_kernel_rfl) y

/-- What the case leaves in accumulator 1: its stores read back. -/
def sout0_B_1 (c : Dev nD) (i : grid0.Coords) (arg1 : Memref sig .tc .vmem S4096x256 .f32) (harg1 : arg1.IsWhole) (arg2 : Memref sig .tc .vmem S4096x1 .i32) (harg2 : arg2.IsWhole) (arg3 : Memref sig .tc .vmem S128x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S128x512 .f32) (harg6 : arg6.IsWhole) (arg7 : Memref sig .tc .vmem S128x256 .f32) (harg7 : arg7.IsWhole) (arg8 : Memref sig .tc .vmem S128x256 .f32) (harg8 : arg8.IsWhole) (hc0 : ¬cond0_0 i) (hc1 : ¬cond0_1 i)
    (x0 : Vec F S4096x256 .f32) (x1 : Vec F S4096x1 .i32) (x2 : Vec F S128x1 .f32) (x3 : Vec F S1x256 .f32) (x4 : Vec F S1x256 .f32) (xs0 : Vec F S128x256 .f32) (xs1 : Vec F S128x256 .f32) : Vec F S128x256 .f32 :=
  VS0_1.read (Elt F) (VS0_1.writes (Elt F) VS0_1.junk (kernelRun0_B c i arg1 harg1 arg2 harg2 arg3 harg3 arg4 harg4 arg5 harg5 arg6 harg6 arg7 harg7 arg8 harg8 hc0 hc1 x0 x1 x2 x3 x4 xs0 xs1).2.1)

/-! ## Last point -/

/-- The last point's two stores into the table's buffer tile it. -/
theorem cover0_C_5 (c : Dev nD) (i : grid0.Coords) (arg1 : Memref sig .tc .vmem S4096x256 .f32) (harg1 : arg1.IsWhole) (arg2 : Memref sig .tc .vmem S4096x1 .i32) (harg2 : arg2.IsWhole) (arg3 : Memref sig .tc .vmem S128x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S128x512 .f32) (harg6 : arg6.IsWhole) (arg7 : Memref sig .tc .vmem S128x256 .f32) (harg7 : arg7.IsWhole) (arg8 : Memref sig .tc .vmem S128x256 .f32) (harg8 : arg8.IsWhole) (hc0 : ¬cond0_0 i) (hc1 : cond0_1 i)
    (x0 : Vec F S4096x256 .f32) (x1 : Vec F S4096x1 .i32) (x2 : Vec F S128x1 .f32) (x3 : Vec F S1x256 .f32) (x4 : Vec F S1x256 .f32) (xs0 : Vec F S128x256 .f32) (xs1 : Vec F S128x256 .f32) (y : S128x512.Idx) :
    ∃ pc ∈ (kernelRun0_C c i arg1 harg1 arg2 harg2 arg3 harg3 arg4 harg4 arg5 harg5 arg6 harg6 arg7 harg7 arg8 harg8 hc0 hc1 x0 x1 x2 x3 x4 xs0 xs1).1, y ∈ pc.1.set :=
  View.cover_of_tiledL (kernelRun0_C c i arg1 harg1 arg2 harg2 arg3 harg3 arg4 harg4 arg5 harg5 arg6 harg6 arg7 harg7 arg8 harg8 hc0 hc1 x0 x1 x2 x3 x4 xs0 xs1).1 S128x256.size (by sl_kernel_rfl) y

/-- What the last point leaves in the table's buffer: its stores read back. -/
def out0_C_5 (c : Dev nD) (i : grid0.Coords) (arg1 : Memref sig .tc .vmem S4096x256 .f32) (harg1 : arg1.IsWhole) (arg2 : Memref sig .tc .vmem S4096x1 .i32) (harg2 : arg2.IsWhole) (arg3 : Memref sig .tc .vmem S128x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S128x512 .f32) (harg6 : arg6.IsWhole) (arg7 : Memref sig .tc .vmem S128x256 .f32) (harg7 : arg7.IsWhole) (arg8 : Memref sig .tc .vmem S128x256 .f32) (harg8 : arg8.IsWhole) (hc0 : ¬cond0_0 i) (hc1 : cond0_1 i)
    (x0 : Vec F S4096x256 .f32) (x1 : Vec F S4096x1 .i32) (x2 : Vec F S128x1 .f32) (x3 : Vec F S1x256 .f32) (x4 : Vec F S1x256 .f32) (xs0 : Vec F S128x256 .f32) (xs1 : Vec F S128x256 .f32) : Vec F S128x512 .f32 :=
  VO0_5.read (Elt F) (VO0_5.writes (Elt F) VO0_5.junk (kernelRun0_C c i arg1 harg1 arg2 harg2 arg3 harg3 arg4 harg4 arg5 harg5 arg6 harg6 arg7 harg7 arg8 harg8 hc0 hc1 x0 x1 x2 x3 x4 xs0 xs1).1)

theorem scover0_C_0 (c : Dev nD) (i : grid0.Coords) (arg1 : Memref sig .tc .vmem S4096x256 .f32) (harg1 : arg1.IsWhole) (arg2 : Memref sig .tc .vmem S4096x1 .i32) (harg2 : arg2.IsWhole) (arg3 : Memref sig .tc .vmem S128x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S128x512 .f32) (harg6 : arg6.IsWhole) (arg7 : Memref sig .tc .vmem S128x256 .f32) (harg7 : arg7.IsWhole) (arg8 : Memref sig .tc .vmem S128x256 .f32) (harg8 : arg8.IsWhole) (hc0 : ¬cond0_0 i) (hc1 : cond0_1 i)
    (x0 : Vec F S4096x256 .f32) (x1 : Vec F S4096x1 .i32) (x2 : Vec F S128x1 .f32) (x3 : Vec F S1x256 .f32) (x4 : Vec F S1x256 .f32) (xs0 : Vec F S128x256 .f32) (xs1 : Vec F S128x256 .f32) (y : S128x256.Idx) :
    ∃ pc ∈ (kernelRun0_C c i arg1 harg1 arg2 harg2 arg3 harg3 arg4 harg4 arg5 harg5 arg6 harg6 arg7 harg7 arg8 harg8 hc0 hc1 x0 x1 x2 x3 x4 xs0 xs1).2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 x4 xs0 xs1).2.1 S128x256.size (by sl_kernel_rfl) y

/-- What the case leaves in accumulator 0: its stores read back. -/
def sout0_C_0 (c : Dev nD) (i : grid0.Coords) (arg1 : Memref sig .tc .vmem S4096x256 .f32) (harg1 : arg1.IsWhole) (arg2 : Memref sig .tc .vmem S4096x1 .i32) (harg2 : arg2.IsWhole) (arg3 : Memref sig .tc .vmem S128x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S128x512 .f32) (harg6 : arg6.IsWhole) (arg7 : Memref sig .tc .vmem S128x256 .f32) (harg7 : arg7.IsWhole) (arg8 : Memref sig .tc .vmem S128x256 .f32) (harg8 : arg8.IsWhole) (hc0 : ¬cond0_0 i) (hc1 : cond0_1 i)
    (x0 : Vec F S4096x256 .f32) (x1 : Vec F S4096x1 .i32) (x2 : Vec F S128x1 .f32) (x3 : Vec F S1x256 .f32) (x4 : Vec F S1x256 .f32) (xs0 : Vec F S128x256 .f32) (xs1 : Vec F S128x256 .f32) : Vec F S128x256 .f32 :=
  VS0_0.read (Elt F) (VS0_0.writes (Elt F) VS0_0.junk (kernelRun0_C c i arg1 harg1 arg2 harg2 arg3 harg3 arg4 harg4 arg5 harg5 arg6 harg6 arg7 harg7 arg8 harg8 hc0 hc1 x0 x1 x2 x3 x4 xs0 xs1).2.1)

theorem scover0_C_1 (c : Dev nD) (i : grid0.Coords) (arg1 : Memref sig .tc .vmem S4096x256 .f32) (harg1 : arg1.IsWhole) (arg2 : Memref sig .tc .vmem S4096x1 .i32) (harg2 : arg2.IsWhole) (arg3 : Memref sig .tc .vmem S128x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S128x512 .f32) (harg6 : arg6.IsWhole) (arg7 : Memref sig .tc .vmem S128x256 .f32) (harg7 : arg7.IsWhole) (arg8 : Memref sig .tc .vmem S128x256 .f32) (harg8 : arg8.IsWhole) (hc0 : ¬cond0_0 i) (hc1 : cond0_1 i)
    (x0 : Vec F S4096x256 .f32) (x1 : Vec F S4096x1 .i32) (x2 : Vec F S128x1 .f32) (x3 : Vec F S1x256 .f32) (x4 : Vec F S1x256 .f32) (xs0 : Vec F S128x256 .f32) (xs1 : Vec F S128x256 .f32) (y : S128x256.Idx) :
    ∃ pc ∈ (kernelRun0_C c i arg1 harg1 arg2 harg2 arg3 harg3 arg4 harg4 arg5 harg5 arg6 harg6 arg7 harg7 arg8 harg8 hc0 hc1 x0 x1 x2 x3 x4 xs0 xs1).2.2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 x4 xs0 xs1).2.2.1 S128x256.size (by sl_kernel_rfl) y

/-- What the case leaves in accumulator 1: its stores read back. -/
def sout0_C_1 (c : Dev nD) (i : grid0.Coords) (arg1 : Memref sig .tc .vmem S4096x256 .f32) (harg1 : arg1.IsWhole) (arg2 : Memref sig .tc .vmem S4096x1 .i32) (harg2 : arg2.IsWhole) (arg3 : Memref sig .tc .vmem S128x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S128x512 .f32) (harg6 : arg6.IsWhole) (arg7 : Memref sig .tc .vmem S128x256 .f32) (harg7 : arg7.IsWhole) (arg8 : Memref sig .tc .vmem S128x256 .f32) (harg8 : arg8.IsWhole) (hc0 : ¬cond0_0 i) (hc1 : cond0_1 i)
    (x0 : Vec F S4096x256 .f32) (x1 : Vec F S4096x1 .i32) (x2 : Vec F S128x1 .f32) (x3 : Vec F S1x256 .f32) (x4 : Vec F S1x256 .f32) (xs0 : Vec F S128x256 .f32) (xs1 : Vec F S128x256 .f32) : Vec F S128x256 .f32 :=
  VS0_1.read (Elt F) (VS0_1.writes (Elt F) VS0_1.junk (kernelRun0_C c i arg1 harg1 arg2 harg2 arg3 harg3 arg4 harg4 arg5 harg5 arg6 harg6 arg7 harg7 arg8 harg8 hc0 hc1 x0 x1 x2 x3 x4 xs0 xs1).2.2.1)

end Cert.KernelIdeal.Hand0

end
-- ==== Proof.K0Frame.lean ====
/- Region 0, its proof data and body obligation at any contents `V` of the core's buffers on entry: the
   accumulators after each grid point by recursion on the point (zeroed and first tile added at point 0, one
   more tile's one-hot products added at each later point), the table's buffer after the last point, the
   invariant that carries the accumulators from point to point, and the body's triple at every point. -/
import proofs.«122487_j41781441855970_1_alg».proof.Proof.K0Pieces

set_option maxRecDepth 16384

noncomputable section

namespace Cert.KernelIdeal.Hand0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The accumulators after each point -/

/-- The two accumulators after the body at point `n`: at point 0 the zeroed buffers plus the first tile's
    products; at a later point the tile's products added to what the point before left. -/
def accAt0 (c : Dev nD) : (n : ℕ) → n < cfg0.N → Vec F S128x256 .f32 × Vec F S128x256 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h1 : n + 1 = 127 then
      (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (accAt0 c n (Nat.lt_of_succ_lt hn)).1 (accAt0 c n (Nat.lt_of_succ_lt hn)).2,
        sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (accAt0 c n (Nat.lt_of_succ_lt hn)).1 (accAt0 c n (Nat.lt_of_succ_lt hn)).2)
    else
      (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (accAt0 c n (Nat.lt_of_succ_lt hn)).1 (accAt0 c n (Nat.lt_of_succ_lt hn)).2,
        sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (accAt0 c n (Nat.lt_of_succ_lt hn)).1 (accAt0 c n (Nat.lt_of_succ_lt hn)).2)

theorem accAt0_A (c : Dev nD) (t : Fin cfg0.N) (h0 : t.val = 0) (h1 : ¬t.val = 127) :
    accAt0 V c t.val t.isLt = (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t),
      sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact absurd h0 (Nat.succ_ne_zero n)

theorem accAt0_B (c : Dev nD) (t : Fin cfg0.N) (h0 : ¬t.val = 0) (h1 : ¬t.val = 127) :
    accAt0 V c t.val t.isLt = (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (accAt0 V c (t.val - 1) (Nat.lt_of_le_of_lt (Nat.sub_le _ _) t.isLt)).1 (accAt0 V c (t.val - 1) (Nat.lt_of_le_of_lt (Nat.sub_le _ _) t.isLt)).2,
      sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (accAt0 V c (t.val - 1) (Nat.lt_of_le_of_lt (Nat.sub_le _ _) t.isLt)).1 (accAt0 V c (t.val - 1) (Nat.lt_of_le_of_lt (Nat.sub_le _ _) t.isLt)).2) := by
  obtain ⟨n, hn⟩ := t
  cases n with
  | zero => exact absurd rfl h0
  | succ n => exact (dif_neg h1).trans rfl

theorem accAt0_C (c : Dev nD) (t : Fin cfg0.N) (h0 : ¬t.val = 0) (h1 : t.val = 127) :
    accAt0 V c t.val t.isLt = (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (accAt0 V c (t.val - 1) (Nat.lt_of_le_of_lt (Nat.sub_le _ _) t.isLt)).1 (accAt0 V c (t.val - 1) (Nat.lt_of_le_of_lt (Nat.sub_le _ _) t.isLt)).2,
      sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (accAt0 V c (t.val - 1) (Nat.lt_of_le_of_lt (Nat.sub_le _ _) t.isLt)).1 (accAt0 V c (t.val - 1) (Nat.lt_of_le_of_lt (Nat.sub_le _ _) t.isLt)).2) := by
  obtain ⟨n, hn⟩ := t
  cases n with
  | zero => exact absurd rfl h0
  | succ n => exact (dif_pos h1).trans rfl

/-- A placeholder for the table's buffer where nothing reads it. -/
def junk5 : Vec F S128x512 .f32 := broadcast S128x512 (Scalar.ofBits .f32 0x00000000#32 : F .f32)

/-- The table's buffer after the body at point `t`: at the last point the two stored halves, computed from the
    accumulators (the earlier points leave the window idle: nothing reads this value there). -/
def tblAt0 (c : Dev nD) (t : Fin cfg0.N) : Vec F S128x512 .f32 :=
  if h1 : t.val = 127 then
    if h0 : t.val = 0 then junk5
    else out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (accAt0 V c (t.val - 1) (Nat.lt_of_le_of_lt (Nat.sub_le _ _) t.isLt)).1 (accAt0 V c (t.val - 1) (Nat.lt_of_le_of_lt (Nat.sub_le _ _) t.isLt)).2
  else junk5

theorem tblAt0_C (c : Dev nD) (t : Fin cfg0.N) (h0 : ¬t.val = 0) (h1 : t.val = 127) :
    tblAt0 V c t = out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (accAt0 V c (t.val - 1) (Nat.lt_of_le_of_lt (Nat.sub_le _ _) t.isLt)).1 (accAt0 V c (t.val - 1) (Nat.lt_of_le_of_lt (Nat.sub_le _ _) t.isLt)).2 := by
  unfold tblAt0; rw [dif_pos h1, dif_neg h0]

/-! ## The region invariant -/

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restS c) ∗ (∃ r, prngReg c r)) := by
  unfold Pipeline.ΦA; rw [scopedRest0_acc]

/-- Before point `n`: at the first point the scoped rest at anything; afterwards the two accumulators at what
    the point before left, beside the other scoped buffers and the generator register. -/
def PhiS (c : Dev nD) : (n : ℕ) → n ≤ cfg0.N → sProp 𝕄
  | 0, _ => Pipeline.ΦA spec0 c
  | n + 1, hn => iprop(iprop(owns (c : Thread nD τ) scM0_0 fullShare ((accAt0 V c n hn).1) ∗ owns (c : Thread nD τ) scM0_1 fullShare ((accAt0 V c n hn).2) ∗ restS c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((accAt0 V c n hn).1) ∗ owns (c : Thread nD τ) scM0_1 fullShare ((accAt0 V c n hn).2) ∗ restS c) ∗ (∃ r, prngReg c r)) := rfl

theorem PhiS_pos (c : Dev nD) (n : ℕ) (h : n ≤ cfg0.N) (hz : n ≠ 0) :
    PhiS V c n h = iprop(iprop(owns (c : Thread nD τ) scM0_0 fullShare ((accAt0 V c (n - 1) (by omega)).1) ∗ owns (c : Thread nD τ) scM0_1 fullShare ((accAt0 V c (n - 1) (by omega)).2) ∗ restS c) ∗ (∃ r, prngReg c r)) := by
  cases n with
  | zero => exact absurd rfl hz
  | succ n => rfl

/-! ## The proof data -/

/-- Region 0's proof data on core `c`: the arrays as the region finds them; every input's buffer left at its
    block; the table's buffer at `tblAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => tblAt0 V c t
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = tblAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point. The inputs' buffers hold their blocks; the point's position selects the control
    case; the invariant hands the body the accumulators at what the point before left (at anything at the
    first point) and takes them back at this point's contents; the table's buffer is handed back untouched
    before the last point and at its two stored halves at the last. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 128 := lt_of_lt_of_eq t.isLt (show cfg0.N = 128 from N_0)
  rw [show (dat0 V c).leavesExact 0 t = owns (c : Thread nD τ) (ms0_0 t) fullShare ((dat0 V c).after 0 t) from (by unfold Dat.leavesExact; rw [liveAt0_0 t]), after0_0]
  rw [show (dat0 V c).leavesExact 1 t = owns (c : Thread nD τ) (ms0_1 t) fullShare ((dat0 V c).after 1 t) from (by unfold Dat.leavesExact; rw [liveAt0_1 t]), after0_1]
  rw [show (dat0 V c).leavesExact 2 t = owns (c : Thread nD τ) (ms0_2 t) fullShare ((dat0 V c).after 2 t) from (by unfold Dat.leavesExact; rw [liveAt0_2 t]), after0_2]
  rw [show (dat0 V c).leavesExact 3 t = owns (c : Thread nD τ) (ms0_3 t) fullShare ((dat0 V c).after 3 t) from (by unfold Dat.leavesExact; rw [liveAt0_3 t]), after0_3]
  rw [show (dat0 V c).leavesExact 4 t = owns (c : Thread nD τ) (ms0_4 t) fullShare ((dat0 V c).after 4 t) from (by unfold Dat.leavesExact; rw [liveAt0_4 t]), after0_4]
  by_cases h0 : t.val = 0
  · have h1 : ¬t.val = 127 := by omega
    rw [Dat.leavesExact_idle (dat0 V c) 5 t (idleAt0_5 t (fun h => h1 ((hcond0_1 t).mp h))) (noFlush0_5 t (fun h => h1 ((hcond0_1 t).mp h)))]
    rw [accAt0_A V c t h0 h1]
    unfold sout0_A_0 sout0_A_1; (try dsimp only)
    rw [PhiS_castSucc V c t, PhiS_zero V c _ _ h0, PhiA0_eq]
    iintro ⟨⟨⟨HS0, HS1, Hr⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, ⟨%es0, HS0⟩, ⟨%es1, HS1⟩⟩
    isplitl [HS0 HS1 Hr Hg]
    · isplitl [HS0 HS1 Hr]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · by_cases h1 : t.val = 127
    · rw [show (dat0 V c).leavesExact 5 t = owns (c : Thread nD τ) (ms0_5 t) fullShare ((dat0 V c).after 5 t) from (by unfold Dat.leavesExact; rw [liveAt0_5 t ((hcond0_1 t).mpr h1)]), after0_5, tblAt0_C V c t h0 h1]
      rw [accAt0_C V c t h0 h1]
      unfold out0_C_5 sout0_C_0 sout0_C_1; (try dsimp only)
      rw [PhiS_castSucc V c t, PhiS_pos V c _ _ h0]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, ⟨%es1, HS1⟩⟩
      isplitl [HS0 HS1 Hr Hg]
      · isplitl [HS0 HS1 Hr]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_C_5 c _ _ _ _ _ _ _ _ _ _ _ _ _ _ _ _ _ _ _ _ _ _ _ _ _ _)
    · rw [Dat.leavesExact_idle (dat0 V c) 5 t (idleAt0_5 t (fun h => h1 ((hcond0_1 t).mp h))) (noFlush0_5 t (fun h => h1 ((hcond0_1 t).mp h)))]
      rw [accAt0_B V c t h0 h1]
      unfold sout0_B_0 sout0_B_1; (try dsimp only)
      rw [PhiS_castSucc V c t, PhiS_pos V c _ _ h0]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _ _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hr Hg]
      · isplitl [HS0 HS1 Hr]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Into and out of the invariant -/

/-- The generator register and the scoped rest make the invariant before the first point. -/
theorem hin0 (c : Dev nD) : iprop((∃ r, prngReg c r) ∗ Pipeline.scopedRest (Ix := Unit) (Name := ℕ) (U := UR sig nD τ) (Lvl := ℕ) (Val := Elt F) spec0 c) ⊢ ((dat0 V c).Φ 0 : sProp 𝕄) := by
  rw [show (dat0 V c).Φ 0 = PhiS V c 0 (Nat.zero_le _) from rfl, PhiS_zero V c 0 _ rfl]; unfold Pipeline.ΦA
  iintro ⟨Hp, Hr⟩
  isplitl [Hr]; · iexact Hr
  iexact Hp

/-- After the last point the invariant gives them back: the accumulators' contents are forgotten. -/
theorem hout0 (c : Dev nD) : ((dat0 V c).Φ (Fin.last cfg0.N) : sProp 𝕄) ⊢ iprop((∃ r, prngReg c r) ∗ Pipeline.scopedRest (Ix := Unit) (Name := ℕ) (U := UR sig nD τ) (Lvl := ℕ) (Val := Elt F) spec0 c) := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 128 := N_0; omega), scopedRest0_acc]
  iintro ⟨⟨HS0, HS1, Hr⟩, Hg⟩
  isplitl [Hg]; · iexact Hg
  isplitl [HS0]; · iexists _; iexact HS0
  isplitl [HS1]; · iexists _; iexact HS1
  iexact Hr

end Cert.KernelIdeal.Hand0

end
-- ==== Proof.KRunFinal.lean ====
/- The run of @main with the first region's record supplied: the frame claim's post with no precondition, and the run
   with the second region's output array named. Generic in the float model. -/
import proofs.«122487_j41781441855970_1_alg».proof.Proof.KRun
import proofs.«122487_j41781441855970_1_alg».proof.Proof.K0Frame

set_option maxRecDepth 16384

noncomputable section

namespace Cert.KernelIdeal.HandRun

open Cert.KernelIdeal.Gen Cert.KernelIdeal.Hand1
open Idealize.ShloMosaic Idealize.ShloMosaic.TcCoe Idealize.SL.Sem
open Idealize.ShloMosaic.Pipeline (Dat)

variable {F : FTy → Type} [FloatOps F]

/-- The first region's record: its proof data at any entry contents, its body obligation, its invariant's two ends. -/
def D0 : Reg0 F where
  dat0 := Hand0.dat0
  hA := fun V c w => Hand0.A_eq0 V c w
  hq := fun V c w => by dsimp only [Hand0.dat0]
  howed := fun V c t => by dsimp only [Hand0.dat0]
  hrec := fun V c t => by dsimp only [Hand0.dat0]
  body := fun V c => Hand0.body_obligation0 V c
  hin := fun V c => Hand0.hin0 V c
  hout := fun V c => Hand0.hout0 V c

variable (m : (ℓ : Loc nD τ sig) → Buf (Elt F) ℓ) (ρ : Dev nD → PrngReg)

/-- THE FRAME: from any memory with zero counters every weakly fair execution of @main on the TensorCores terminates,
    nothing faulting, and every final state has the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_both D0 m ρ

/-- THE RUN with the output array named: what the second region's pipeline leaves from the first region's exit
    contents; the arguments unchanged. -/
theorem run_blocks : θ_run defs (onTc (τ := τ) (main (F := F))) ⟨m, fun _ => 0, ρ⟩ (fun r => ∀ c : Dev nD,
      r.2.mem ((c.tc : Thread nD τ).loc main_v24) = (dat1 (T10 D0 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_both D0 m ρ

end Cert.KernelIdeal.HandRun

end
-- ==== Proof.KRunRead.lean ====
/- What the second region is entered with, read back: the data and the segment words are the first region's entry
   contents (the first region only reads them), the table is what the first region's pipeline leaves. -/
import proofs.«122487_j41781441855970_1_alg».proof.Proof.KRun

set_option maxRecDepth 16384

noncomputable section

namespace Cert.KernelIdeal.HandRun

open Cert.KernelIdeal.Gen Cert.KernelIdeal.Hand1
open Idealize.ShloMosaic Idealize.ShloMosaic.TcCoe Idealize.SL.Sem
open Idealize.ShloMosaic.Pipeline (Dat)

variable {F : FTy → Type} [FloatOps F]
variable (D0 : Reg0 F) (m : (ℓ : Loc nD τ sig) → Buf (Elt F) ℓ)

/-- The data array reaches the first region as launched: no host stretch writes it. -/
theorem T9_main_arg0 (c : Dev nD) : T9 m c main_arg0 = m ((c : Thread nD τ).loc main_arg0) :=
  (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans rfl

/-- The second region finds the data array as the first did: the first region's window over it is an input. -/
theorem T10_main_arg0 (c : Dev nD) : T10 D0 m c main_arg0 = T9 m c main_arg0 :=
  (W10_arr D0 m c 0).trans (((D0.dat0 (T9 m) c).arrAt_in 0 rfl _).trans (D0.hA (T9 m) c 0))

/-- The second region finds the segment words as the first did. -/
theorem T10_main_v18 (c : Dev nD) : T10 D0 m c main_v18 = T9 m c main_v18 :=
  (W10_arr D0 m c 1).trans (((D0.dat0 (T9 m) c).arrAt_in 1 rfl _).trans (D0.hA (T9 m) c 1))

/-- The second region finds in the table what the first region's pipeline leaves there. -/
theorem T10_main_v23 (c : Dev nD) : T10 D0 m c main_v23 = (D0.dat0 (T9 m) c).arrAt 5 cfg0.N :=
  W10_arr D0 m c 5

end Cert.KernelIdeal.HandRun

end
-- ==== Proof.RaggedNormLaw.lean ====
/-
  The mathematics of a ragged instance norm, apart from any program.

  Rows are grouped into segments by a map `σ`. For one feature column `x` and one segment with row set `s`,
  write `S = ∑ x`, `Q = ∑ x²`, `n = |s|`. One side forms `scale = w / √(max(Q/n − (S/n)², 0) + ε)`,
  `shift = β − (S/n)·scale` and returns `x·scale + shift`; the other centres first, `x − S/n`, divides by
  `√((∑ (x − S/n)²)/n + ε)`, then applies `w` and `β`. Because the divisor `n` IS the number of rows of the
  segment, the mean of the centred squares is `Q/n − (S/n)²`; it is a mean of squares, hence nonnegative, so the
  `max` with `0` changes nothing; with `ε > 0` the root is positive and the two affine forms agree in the field
  of real numbers. Everything here is finite, so the extended-real operations are the real ones.

  A segment is selected by a one-hot row or column of `0`s and `1`s: a product `0 · t` is `0` on the extended
  reals even for an infinite `t`, so a row of the selector against a table returns the table's entry at `σ r`
  whatever the other entries hold, and a column against the data sums the rows of the segment.
-/
import Idealize.ShloMosaic.PureOps.Ideal
import Idealize.ShloMosaic.PureOps.Ideal.Laws

noncomputable section

open Idealize.ShloMosaic

namespace Cert.RaggedNorm

/-! ## Real arithmetic -/

/-- Expanding the centred squares: `∑ (x − μ)² = ∑ x² − 2μ ∑ x + |s| μ²`. -/
theorem sum_centred_sq {ι : Type} (s : Finset ι) (x : ι → ℝ) (μ : ℝ) :
    ∑ i ∈ s, (x i - μ) ^ 2 = ∑ i ∈ s, x i ^ 2 - 2 * μ * ∑ i ∈ s, x i + s.card * μ ^ 2 := by
  have h : ∀ i ∈ s, (x i - μ) ^ 2 = x i ^ 2 - 2 * μ * x i + μ ^ 2 := fun i _ => by ring
  rw [Finset.sum_congr rfl h, Finset.sum_add_distrib, Finset.sum_sub_distrib, ← Finset.mul_sum,
    Finset.sum_const, nsmul_eq_mul]

/-- The mean of the centred squares is the mean of the squares less the squared mean, when the divisor is the
    number of terms. -/
theorem var_two_forms {ι : Type} (s : Finset ι) (x : ι → ℝ) (hs : s.card ≠ 0) :
    (∑ i ∈ s, (x i - (∑ i ∈ s, x i) / s.card) ^ 2) / s.card
      = (∑ i ∈ s, x i ^ 2) / s.card - ((∑ i ∈ s, x i) / s.card) ^ 2 := by
  have hn : (s.card : ℝ) ≠ 0 := Nat.cast_ne_zero.mpr hs
  rw [sum_centred_sq]
  field_simp
  ring

/-- Scale-and-shift against centre-then-divide, for a nonzero deviation `d`. -/
theorem affine_two_forms (x μ w β d : ℝ) (hd : d ≠ 0) :
    x * (w / d) + (β - μ * (w / d)) = (x - μ) / d * w + β := by
  field_simp
  ring

/-! ## The same on the extended reals -/

/-- A finite sum of reals, read in the extended reals, is the sum of the readings. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of two reals with a nonzero divisor is the real quotient. -/
theorem div_coe_coe (a b : ℝ) (hb : b ≠ 0) : Ideal.div (a : EReal) (b : EReal) = ((a / b : ℝ) : EReal) := by
  rw [Ideal.div_coe hb, ← EReal.coe_mul, mul_one_div]

/-- The root of a nonnegative real is the real root. -/
theorem sqrt_coe_nonneg (a : ℝ) (ha : 0 ≤ a) : Ideal.sqrt (a : EReal) = ((Real.sqrt a : ℝ) : EReal) := by
  rw [Ideal.sqrt_coe, if_neg (not_lt.mpr ha)]

/-- A row of a one-hot selector against a table returns the table's entry at the row's segment: every other
    product is `0 · t = 0`, also for an infinite `t`. -/
theorem sum_onehot_mul {ι β : Type} [Fintype β] [DecidableEq β] (σ : ι → β) (r : ι) (T : β → EReal) :
    ∑ b, (if σ r = b then (1 : EReal) else 0) * T b = T (σ r) := by
  rw [Finset.sum_eq_single (σ r)]
  · rw [if_pos rfl, one_mul]
  · intro b _ hb
    rw [if_neg (Ne.symm hb), zero_mul]
  · intro h
    exact absurd (Finset.mem_univ _) h

/-- A column of the selector against finite data sums the rows of its segment. -/
theorem sum_onehot_col {ι β : Type} [Fintype ι] [DecidableEq β] (σ : ι → β) (b : β) (x : ι → ℝ) :
    ∑ r, (if σ r = b then (1 : EReal) else 0) * (x r : EReal)
      = ((∑ r ∈ Finset.univ.filter (fun r => σ r = b), x r : ℝ) : EReal) := by
  rw [coe_sum, Finset.sum_filter]
  refine Finset.sum_congr rfl fun r _ => ?_
  split_ifs <;> simp

/-! ## The two programs' formulas for one entry -/

/-- The first side's per-segment scale, from the segment's sum `S`, sum of squares `Q` and divisor `c`. -/
def kScale (S Q c w ε : EReal) : EReal :=
  Ideal.div w (Ideal.sqrt (max (Ideal.div Q c - Ideal.div S c * Ideal.div S c) 0 + ε))

/-- The first side's per-segment shift. -/
def kShift (S Q c w β ε : EReal) : EReal := β - Ideal.div S c * kScale S Q c w ε

/-- The first side's entry: the datum times the scale plus the shift. -/
def kOut (x S Q c w β ε : EReal) : EReal := x * kScale S Q c w ε + kShift S Q c w β ε

/-- The second side's entry: centred by the segment mean, divided by the root of the mean centred square `Q'/c`
    plus `ε`, then weighted and shifted. -/
def rOut (x S Q' c w β ε : EReal) : EReal :=
  Ideal.div (x - Ideal.div S c) (Ideal.sqrt (Ideal.div Q' c + ε)) * w + β

/-- The two entries agree on finite data as soon as the mean centred square is the mean square less the squared
    mean (`hvar`) and the centred squares sum to something nonnegative. -/
theorem kOut_eq_rOut_real (x S Q Q' n w β ε : ℝ) (hn : 0 < n) (hε : 0 < ε)
    (hvar : Q' / n = Q / n - S / n * (S / n)) (hQ' : 0 ≤ Q') :
    kOut (x : EReal) (S : EReal) (Q : EReal) (n : EReal) (w : EReal) (β : EReal) (ε : EReal)
      = rOut (x : EReal) (S : EReal) (Q' : EReal) (n : EReal) (w : EReal) (β : EReal) (ε : EReal) := by
  have hn0 : n ≠ 0 := hn.ne'
  have hV : 0 ≤ Q / n - S / n * (S / n) := hvar ▸ div_nonneg hQ' hn.le
  have hd : 0 < Real.sqrt (Q / n - S / n * (S / n) + ε) := Real.sqrt_pos.mpr (by linarith)
  have hmax : max (((Q / n - S / n * (S / n) : ℝ)) : EReal) 0 = ((Q / n - S / n * (S / n) : ℝ) : EReal) :=
    max_eq_left (by exact_mod_cast hV)
  have hA : ((Q / n : ℝ) : EReal) - ((S / n : ℝ) : EReal) * ((S / n : ℝ) : EReal)
      = ((Q / n - S / n * (S / n) : ℝ) : EReal) := by norm_cast
  have hB : (x : EReal) - ((S / n : ℝ) : EReal) = ((x - S / n : ℝ) : EReal) := by norm_cast
  unfold kOut kShift kScale rOut
  rw [div_coe_coe Q n hn0, div_coe_coe S n hn0, div_coe_coe Q' n hn0, hvar, hA, hmax, ← EReal.coe_add,
    sqrt_coe_nonneg (Q / n - S / n * (S / n) + ε) (by linarith), div_coe_coe w _ hd.ne', hB,
    div_coe_coe _ _ hd.ne']
  have := affine_two_forms x (S / n) w β _ hd.ne'
  exact_mod_cast this

/-- The two entries agree for a row `i` of a segment with row set `s`, finite data `x`, and the segment's
    divisor equal to its number of rows. -/
theorem kOut_eq_rOut {ι : Type} (s : Finset ι) (x : ι → ℝ) (i : ι) (hi : i ∈ s) (w β ε : ℝ) (hε : 0 < ε) :
    kOut ((x i : ℝ) : EReal) ((∑ j ∈ s, x j : ℝ) : EReal) ((∑ j ∈ s, x j ^ 2 : ℝ) : EReal)
        (((s.card : ℝ)) : EReal) (w : EReal) (β : EReal) (ε : EReal)
      = rOut ((x i : ℝ) : EReal) ((∑ j ∈ s, x j : ℝ) : EReal)
        ((∑ j ∈ s, (x j - (∑ j ∈ s, x j) / s.card) ^ 2 : ℝ) : EReal)
        (((s.card : ℝ)) : EReal) (w : EReal) (β : EReal) (ε : EReal) := by
  have hs : s.card ≠ 0 := Finset.card_ne_zero_of_mem hi
  refine kOut_eq_rOut_real _ _ _ _ _ w β ε (Nat.cast_pos.mpr (Nat.pos_of_ne_zero hs)) hε ?_
    (Finset.sum_nonneg fun j _ => sq_nonneg _)
  rw [var_two_forms s x hs, sq]

end Cert.RaggedNorm

end
-- ==== Proof.Spec.lean ====
/-
  What the two kernel regions leave, as whole-array functions of what they are given, at the ideal instance.

  The first region accumulates, tile by tile, for every segment `b` and feature `f`, the sum `S` and the sum of squares
  `Q` of the rows whose segment word is `b`: each row contributes through a one-hot selector entry, `1` when the row's
  word is the column's word and `0` otherwise. At the last tile it turns them, with the segment's divisor, the weight
  and the bias, into a table of two halves: columns `f < 256` hold the scale `w / √(max(Q/c − (S/c)², 0) + ε)`, columns
  `256 + f` the shift `bias − (S/c)·scale`. The second region multiplies each row by its segment's scale and adds
  its segment's shift, both picked out of the table by the same one-hot selector.
-/
import proofs.«122487_j41781441855970_1_alg».proof.Proof.RaggedNormLaw
import Idealize.ShloMosaic.Lib.ValueIdx

noncomputable section

open Idealize.ShloMosaic Idealize.ShloMosaic.ValueIdx

namespace Cert.RaggedNorm

/-- The stabiliser under the root, as both programs carry it. -/
def eps : EReal := Ideal.ofBits .f32 0x3727C5AC#32

/-- One entry of the one-hot selector: a row whose segment word is `s`, against the column whose word is `j`. -/
def oh (s j : BitVec 32) : EReal := if s = j then 1 else 0

/-- The sum over all rows of segment `b` of feature `f`, through the selector. -/
def segS (x : (⟨2, ![524288, 256]⟩ : Shape).Idx → EReal) (seg : (⟨2, ![524288, 1]⟩ : Shape).Idx → BitVec 32)
    (b : Fin 128) (f : Fin 256) : EReal :=
  ∑ r : Fin 524288, oh (seg (ix2 r 0)) (BitVec.ofNat 32 b.val) * x (ix2 r f)

/-- The sum over all rows of segment `b` of the square of feature `f`, through the selector. -/
def segQ (x : (⟨2, ![524288, 256]⟩ : Shape).Idx → EReal) (seg : (⟨2, ![524288, 1]⟩ : Shape).Idx → BitVec 32)
    (b : Fin 128) (f : Fin 256) : EReal :=
  ∑ r : Fin 524288, oh (seg (ix2 r 0)) (BitVec.ofNat 32 b.val) * (x (ix2 r f) * x (ix2 r f))

/-- One entry of the table: the scale in the first half, the shift in the second. -/
def tableAt (x : (⟨2, ![524288, 256]⟩ : Shape).Idx → EReal) (seg : (⟨2, ![524288, 1]⟩ : Shape).Idx → BitVec 32)
    (cnt : (⟨2, ![128, 1]⟩ : Shape).Idx → EReal) (w2 b2 : (⟨2, ![1, 256]⟩ : Shape).Idx → EReal)
    (b : Fin 128) (j : Fin 512) : EReal :=
  if h : j.val < 256 then
    kScale (segS x seg b ⟨j.val, h⟩) (segQ x seg b ⟨j.val, h⟩) (cnt (ix2 b 0)) (w2 (ix2 0 ⟨j.val, h⟩)) eps
  else
    kShift (segS x seg b ⟨j.val - 256, by omega⟩) (segQ x seg b ⟨j.val - 256, by omega⟩) (cnt (ix2 b 0))
      (w2 (ix2 0 ⟨j.val - 256, by omega⟩)) (b2 (ix2 0 ⟨j.val - 256, by omega⟩)) eps

/-- WHAT THE FIRST REGION LEAVES: the table of scales and shifts. -/
def tableOf (x : (⟨2, ![524288, 256]⟩ : Shape).Idx → EReal) (seg : (⟨2, ![524288, 1]⟩ : Shape).Idx → BitVec 32)
    (cnt : (⟨2, ![128, 1]⟩ : Shape).Idx → EReal) (w2 b2 : (⟨2, ![1, 256]⟩ : Shape).Idx → EReal) :
    (⟨2, ![128, 512]⟩ : Shape).Idx → EReal :=
  fun i => tableAt x seg cnt w2 b2 (i 0) (i 1)

/-- One entry of the output: the datum times its segment's scale plus its segment's shift, both selected one-hot. -/
def outAt (x : (⟨2, ![524288, 256]⟩ : Shape).Idx → EReal) (seg : (⟨2, ![524288, 1]⟩ : Shape).Idx → BitVec 32)
    (table : (⟨2, ![128, 512]⟩ : Shape).Idx → EReal) (r : Fin 524288) (f : Fin 256) : EReal :=
  x (ix2 r f) * (∑ b : Fin 128, oh (seg (ix2 r 0)) (BitVec.ofNat 32 b.val) * table (ix2 b ⟨f.val, by omega⟩))
    + ∑ b : Fin 128, oh (seg (ix2 r 0)) (BitVec.ofNat 32 b.val) * table (ix2 b ⟨f.val + 256, by omega⟩)

/-- WHAT THE SECOND REGION LEAVES: the normalised rows. -/
def outOf (x : (⟨2, ![524288, 256]⟩ : Shape).Idx → EReal) (seg : (⟨2, ![524288, 1]⟩ : Shape).Idx → BitVec 32)
    (table : (⟨2, ![128, 512]⟩ : Shape).Idx → EReal) : (⟨2, ![524288, 256]⟩ : Shape).Idx → EReal :=
  fun i => outAt x seg table (i 0) (i 1)

/-- The selector's entry as the kernel computes it: the comparison's bit widened to a word and read as a signed
    integer is `1` or `0`. -/
theorem oh_eq_sitofp (s j : BitVec 32) :
    (((BitVec.setWidth 32 (IntOp.cmpi .eq s j)).toInt : ℝ) : EReal) = oh s j := by
  unfold oh
  by_cases h : s = j
  · subst h
    rw [if_pos rfl]
    simp [IntOp.cmpi]
  · rw [if_neg h]
    have hb : (s == j) = false := by simpa using h
    simp [IntOp.cmpi, hb]

/-- A row of the selector against a table picks the entry of the row's segment, when the row's word is a column's. -/
theorem sum_oh_mul (s : BitVec 32) (b : Fin 128) (hs : s = BitVec.ofNat 32 b.val) (T : Fin 128 → EReal) :
    ∑ b' : Fin 128, oh s (BitVec.ofNat 32 b'.val) * T b' = T b := by
  rw [Finset.sum_eq_single b]
  · unfold oh; rw [if_pos hs, one_mul]
  · intro b' _ hb'
    unfold oh
    rw [if_neg, zero_mul]
    intro h
    apply hb'
    rw [hs] at h
    have := congrArg BitVec.toNat h
    simp only [BitVec.toNat_ofNat] at this
    have h1 := b.isLt
    have h2 := b'.isLt
    exact Fin.ext (by omega)
  · intro h
    exact absurd (Finset.mem_univ _) h

/-- THE TWO REGIONS COMPOSED, at a row whose segment word is the column word of `b`: the first side's entry formula. -/
theorem outAt_tableOf (x : (⟨2, ![524288, 256]⟩ : Shape).Idx → EReal) (seg : (⟨2, ![524288, 1]⟩ : Shape).Idx → BitVec 32)
    (cnt : (⟨2, ![128, 1]⟩ : Shape).Idx → EReal) (w2 b2 : (⟨2, ![1, 256]⟩ : Shape).Idx → EReal)
    (r : Fin 524288) (f : Fin 256) (b : Fin 128) (hs : seg (ix2 r 0) = BitVec.ofNat 32 b.val) :
    outAt x seg (tableOf x seg cnt w2 b2) r f
      = kOut (x (ix2 r f)) (segS x seg b f) (segQ x seg b f) (cnt (ix2 b 0)) (w2 (ix2 0 f)) (b2 (ix2 0 f)) eps := by
  unfold outAt kOut
  rw [sum_oh_mul _ b hs (fun b' => tableOf x seg cnt w2 b2 (ix2 b' ⟨f.val, by omega⟩)),
    sum_oh_mul _ b hs (fun b' => tableOf x seg cnt w2 b2 (ix2 b' ⟨f.val + 256, by omega⟩))]
  have hf := f.isLt
  have e1 : tableOf x seg cnt w2 b2 (ix2 b ⟨f.val, by omega⟩)
      = kScale (segS x seg b f) (segQ x seg b f) (cnt (ix2 b 0)) (w2 (ix2 0 f)) eps := by
    show tableAt x seg cnt w2 b2 b ⟨f.val, _⟩ = _
    unfold tableAt
    rw [dif_pos (show (⟨f.val, by omega⟩ : Fin 512).val < 256 from hf)]
  have e2 : tableOf x seg cnt w2 b2 (ix2 b ⟨f.val + 256, by omega⟩)
      = kShift (segS x seg b f) (segQ x seg b f) (cnt (ix2 b 0)) (w2 (ix2 0 f)) (b2 (ix2 0 f)) eps := by
    show tableAt x seg cnt w2 b2 b ⟨f.val + 256, _⟩ = _
    unfold tableAt
    rw [dif_neg (show ¬ (⟨f.val + 256, by omega⟩ : Fin 512).val < 256 from by simp)]
    simp only [Nat.add_sub_cancel]
  rw [e1, e2]

end Cert.RaggedNorm

end
-- ==== Proof.K1Value.lean ====
/- Region 1's value at the ideal instance: the body's payload at an index (the one-hot gather product as a plain sum over
   the segments, its two halves at columns f and 256 + f), what each grid point writes back, and the output array after
   the region as one function of the arrays the region is entered with. -/
import proofs.«122487_j41781441855970_1_alg».proof.Proof.K1Region
import proofs.«122487_j41781441855970_1_alg».proof.Proof.Spec
import Idealize.ShloMosaic.Lib.Pipeline.Value

set_option maxRecDepth 16384

noncomputable section

namespace Cert.KernelIdeal.Hand1

open Cert.KernelIdeal.Gen
open Idealize.ShloMosaic Idealize.ShloMosaic.TcCoe Idealize.SL.Sem
open Idealize.ShloMosaic.Pipeline (Dat)
open Idealize.ShloMosaic.ValueIdx Cert.RaggedNorm

/-! ## The gather product at an index -/

/-- The product's dimension numbers: the selector's columns against the table's rows. -/
abbrev D1 := dot_S4096x128_S128x512_S4096x512_1_0_0_1_n_n

theorem D1_rank : D1.contr.rank = 1 := by decide
theorem D1_size : D1.contr.size ⟨0, by decide⟩ = 128 := by decide

theorem D1_lhsIdx (j : S4096x512.Idx) (k : D1.contr.Idx) : D1.lhsIdx j k = ix2 (j 0) ((k ⟨0, by decide⟩).cast (by decide)) := by
  funext a
  match a with
  | ⟨0, _⟩ => rfl
  | ⟨1, _⟩ => rfl

theorem D1_rhsIdx (j : S4096x512.Idx) (k : D1.contr.Idx) : D1.rhsIdx j k = ix2 ((k ⟨0, by decide⟩).cast (by decide)) (j 1) := by
  funext a
  match a with
  | ⟨0, _⟩ => rfl
  | ⟨1, _⟩ => rfl

/-- The selector the body builds from a tile's segment words. -/
def sel (x1 : Vec Ideal S4096x1 .i32) : FVec Ideal S4096x128 .bf16 :=
  truncf .bf16 (sitofp .f32 (extui 32 (cmpi .eq (broadcastTo S4096x128 (shapeCast S4096x1 x1 shapeCasts_S4096x1_S4096x1) broadcasts_S4096x1_S4096x128) (iota .tc S4096x128 32 [1] iota_S4096x128_d1_w32)) natLt_1_32)) bitsLt_bf16_f32

/-- Its entry at row r and column b: one when the row's word is the column's. -/
theorem sel_apply (x1 : Vec Ideal S4096x1 .i32) (r : Fin 4096) (b : Fin 128) :
    sel x1 (ix2 r b) = oh (x1 (ix2 r (0 : Fin 1))) (BitVec.ofNat 32 b.val) := by
  unfold sel
  rw [truncf_apply, sitofp_apply, extui_apply, ← oh_eq_sitofp]
  have e1 : (broadcastTo S4096x128 (shapeCast S4096x1 x1 shapeCasts_S4096x1_S4096x1) broadcasts_S4096x1_S4096x128) (ix2 r b) = x1 (ix2 r (0 : Fin 1)) := by
    rw [broadcastTo_apply _ _ _ (ix2 r (0 : Fin 1)) (by intro a; match a with | ⟨0, _⟩ => rfl | ⟨1, _⟩ => rfl)]
    exact shapeCast_apply _ _ _ (ix2 r (0 : Fin 1)) rfl
  have e2 : iota .tc S4096x128 32 [1] iota_S4096x128_d1_w32 (ix2 r b) = BitVec.ofNat 32 b.val :=
    iota_single_apply .tc S4096x128 32 1 iota_S4096x128_d1_w32 (ix2 r b)
  show (((BitVec.setWidth 32 (IntOp.cmpi .eq ((broadcastTo S4096x128 (shapeCast S4096x1 x1 shapeCasts_S4096x1_S4096x1) broadcasts_S4096x1_S4096x128) (ix2 r b)) (iota .tc S4096x128 32 [1] iota_S4096x128_d1_w32 (ix2 r b)))).toInt : ℝ) : EReal) = _
  rw [e1, e2]

/-- The gather product the body forms: the selector against the table, into a zero accumulator. -/
def gath (x1 : Vec Ideal S4096x1 .i32) (x2 : Vec Ideal S128x512 .f32) : FVec Ideal S4096x512 .f32 :=
  matmul D1 none (sel x1) (truncf .bf16 (shapeCast S128x512 x2 shapeCasts_S128x512_S128x512) bitsLt_bf16_f32) (constant S4096x512 .f32 0x00000000#32)

/-- At an index it is the plain sum over the segments of the selector's entry times the table's. -/
theorem gath_apply (x1 : Vec Ideal S4096x1 .i32) (x2 : Vec Ideal S128x512 .f32) (r : Fin 4096) (q : Fin 512) :
    gath x1 x2 (ix2 r q) = ∑ b : Fin 128, oh (x1 (ix2 r (0 : Fin 1))) (BitVec.ofNat 32 b.val) * x2 (ix2 b q) := by
  unfold gath
  simp only [matmul]
  rw [Ideal.matmul_constant_zero_apply]
  refine ((contrEquiv1 D1 128 D1_rank D1_size).symm.sum_comp _).symm.trans ?_
  refine Finset.sum_congr rfl fun b _ => ?_
  rw [D1_lhsIdx, D1_rhsIdx]
  have hb : ((((contrEquiv1 D1 128 D1_rank D1_size).symm b) ⟨0, by decide⟩).cast (by decide) : Fin 128) = b :=
    Fin.ext (contrEquiv1_symm_val D1 128 D1_rank D1_size b)
  rw [hb]
  show sel x1 (ix2 r b) * _ = _
  rw [sel_apply]
  congr 1
  exact shapeCast_apply (s := S128x512) (t := S128x512) x2 shapeCasts_S128x512_S128x512 (ix2 b q) (ix2 b q) rfl

/-! ## The payload at an index -/

/-- The body's payload is the datum times the first half of the gather product plus the second half. -/
theorem pay_eq (x0 : Vec Ideal S4096x256 .f32) (x1 : Vec Ideal S4096x1 .i32) (x2 : Vec Ideal S128x512 .f32) :
    k1_pay1 x0 x1 x2 = addf (mulf x0 (extractStridedSlice S4096x256 ![0, 0] (gath x1 x2) slices_S4096x512_o0_0_S4096x256))
      (extractStridedSlice S4096x256 ![0, 256] (gath x1 x2) slices_S4096x512_o0_256_S4096x256) := rfl

/-- At row r and feature f: the datum times the row's segment's scale plus its shift, both selected one-hot. -/
theorem pay_apply (x0 : Vec Ideal S4096x256 .f32) (x1 : Vec Ideal S4096x1 .i32) (x2 : Vec Ideal S128x512 .f32) (r : Fin 4096) (f : Fin 256) :
    k1_pay1 x0 x1 x2 (ix2 r f)
      = x0 (ix2 r f) * (∑ b : Fin 128, oh (x1 (ix2 r (0 : Fin 1))) (BitVec.ofNat 32 b.val) * x2 (ix2 b (⟨f.val, by omega⟩ : Fin 512)))
        + ∑ b : Fin 128, oh (x1 (ix2 r (0 : Fin 1))) (BitVec.ofNat 32 b.val) * x2 (ix2 b (⟨f.val + 256, by omega⟩ : Fin 512)) := by
  rw [pay_eq, addf_apply, mulf_apply]
  rw [extractStridedSlice_apply _ _ slices_S4096x512_o0_0_S4096x256 (ix2 r f) (ix2 r (⟨f.val, by omega⟩ : Fin 512))
      (by intro a; match a with | ⟨0, _⟩ => exact (Nat.zero_add _).symm | ⟨1, _⟩ => exact (Nat.zero_add _).symm),
    extractStridedSlice_apply _ _ slices_S4096x512_o0_256_S4096x256 (ix2 r f) (ix2 r (⟨f.val + 256, by omega⟩ : Fin 512))
      (by intro a; match a with | ⟨0, _⟩ => exact (Nat.zero_add _).symm | ⟨1, _⟩ => exact Nat.add_comm _ _),
    gath_apply, gath_apply]

/-! ## From blocks to the array -/

-- the TensorCore's buffer contents when region 1 is entered
variable (V : (c : Dev nD) → (b : Ref sig .tc) → Buf (Elt Ideal) ((c : Thread nD τ).loc b))

theorem hz2 : (![0, 0] : Fin 2 → Nat) = fun _ => 0 := funext fun a => by fin_cases a <;> rfl

/-- The printed index maps, decided over the grid: the data, the segment words and the output move a tile of rows per
    point, the table stays. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The normalised row at an index whose feature coordinate is f. -/
theorem outOf_at (X : S524288x256.Idx → EReal) (S : S524288x1.Idx → BitVec 32) (T : S128x512.Idx → EReal)
    (E : S524288x256.Idx) (f : Fin 256) (hE1 : (E 1).val = f.val) :
    outOf X S T E
      = X E * (∑ b : Fin 128, oh (S (ix2 (E 0) (0 : Fin 1))) (BitVec.ofNat 32 b.val) * T (ix2 b (⟨f.val, by omega⟩ : Fin 512)))
        + ∑ b : Fin 128, oh (S (ix2 (E 0) (0 : Fin 1))) (BitVec.ofNat 32 b.val) * T (ix2 b (⟨f.val + 256, by omega⟩ : Fin 512)) := by
  obtain ⟨a, b, rfl⟩ : ∃ (a : Fin 524288) (b : Fin 256), E = (ix2 a b : S524288x256.Idx) :=
    ⟨E 0, E 1, eq_ix2 (n0 := 524288) (n1 := 256) E⟩
  have hb : b = f := Fin.ext hE1
  subst hb
  rfl

set_option maxHeartbeats 1000000 in
/-- The payload of the three windows' blocks at point t, at row r and feature f of the tile, is the normalised row of
    the whole arrays at the index the output window's block puts (r, f) at. -/
theorem pay_block_eq (t : Fin cfg1.N) (X : S524288x256.Idx → EReal) (S : S524288x1.Idx → BitVec 32) (T : S128x512.Idx → EReal)
    (r : Fin 4096) (f : Fin 256) :
    k1_pay1 (F := Ideal) (fun j => X (((cfg1.win 0).blk t).view.emb j)) (fun j => S (((cfg1.win 1).blk t).view.emb j))
        (fun j => T (((cfg1.win 2).blk t).view.emb j)) (ix2 r f)
      = outOf X S T (((cfg1.win 3).blk t).view.emb (ix2 r f)) := by
  obtain ⟨e0, e0', e1, e1', e2, e2', e3, e3'⟩ := idx_facts t
  rw [pay_apply]
  have hr : r.val < 4096 := r.isLt
  have hf : f.val < 256 := f.isLt
  have hE0 : ((((cfg1.win 3).blk t).view.emb (ix2 r f)) 0).val = t.val * 4096 + r.val := by
    show win1_3.index t (0 : Fin 2) * 4096 + 1 * r.val = _; omega
  have hE1 : ((((cfg1.win 3).blk t).view.emb (ix2 r f)) 1).val = f.val := by
    show win1_3.index t (1 : Fin 2) * 256 + 1 * f.val = _; omega
  have h0 : ((cfg1.win 0).blk t).view.emb (ix2 r f) = ((cfg1.win 3).blk t).view.emb (ix2 r f) := by
    funext a; apply Fin.ext
    match a with
    | ⟨0, _⟩ => show win1_0.index t (0 : Fin 2) * 4096 + 1 * r.val = win1_3.index t (0 : Fin 2) * 4096 + 1 * r.val; omega
    | ⟨1, _⟩ => show win1_0.index t (1 : Fin 2) * 256 + 1 * f.val = win1_3.index t (1 : Fin 2) * 256 + 1 * f.val; omega
  have h1 : ((cfg1.win 1).blk t).view.emb (ix2 r (0 : Fin 1)) = ix2 ((((cfg1.win 3).blk t).view.emb (ix2 r f)) 0) (0 : Fin 1) := by
    funext a; apply Fin.ext
    match a with
    | ⟨0, _⟩ => show win1_1.index t (0 : Fin 2) * 4096 + 1 * r.val = _; rw [hE0]; omega
    | ⟨1, _⟩ => show win1_1.index t (1 : Fin 2) * 1 + 1 * 0 = 0; omega
  have h2 : ∀ (b : Fin 128) (q : Fin 512), ((cfg1.win 2).blk t).view.emb (ix2 b q) = ix2 b q := by
    intro b q
    funext a; apply Fin.ext
    match a with
    | ⟨0, _⟩ => show win1_2.index t (0 : Fin 2) * 128 + 1 * b.val = b.val; omega
    | ⟨1, _⟩ => show win1_2.index t (1 : Fin 2) * 512 + 1 * q.val = q.val; omega
  show X (((cfg1.win 0).blk t).view.emb (ix2 r f))
      * (∑ b : Fin 128, oh (S (((cfg1.win 1).blk t).view.emb (ix2 r (0 : Fin 1)))) (BitVec.ofNat 32 b.val)
          * T (((cfg1.win 2).blk t).view.emb (ix2 b (⟨f.val, by omega⟩ : Fin 512))))
      + ∑ b : Fin 128, oh (S (((cfg1.win 1).blk t).view.emb (ix2 r (0 : Fin 1)))) (BitVec.ofNat 32 b.val)
          * T (((cfg1.win 2).blk t).view.emb (ix2 b (⟨f.val + 256, by omega⟩ : Fin 512)))
    = _
  rw [h0, h1]
  simp only [h2]
  exact (outOf_at X S T _ f hE1).symm

set_option maxHeartbeats 1000000 in
/-- WHAT POINT t WRITES BACK is block t of the normalised rows of the arrays as the region finds them. -/
theorem flushed3_eq (c : Dev nD) (t : Fin cfg1.N) :
    (dat1 (F := Ideal) V c).flushed 3 t
      = ((cfg1.win 3).blk t).view.read (Elt Ideal) (outOf (V c main_arg0) (V c main_v18) (V c main_v23)) := by
  show (cfg1.win 3).cut (grid1.coords t) ((dat1 V c).after 3 t) = _
  rw [after1_3]
  unfold out1_3
  rw [View.canon_unit_zero hz2]
  simp only [View.ld_unit_zero (S := S4096x256) hz2, View.ld_unit_zero (S := S4096x1) hz2, View.ld_unit_zero (S := S128x512) hz2]
  funext j
  obtain ⟨r, f, rfl⟩ : ∃ (r : Fin 4096) (f : Fin 256), j = (ix2 r f : S4096x256.Idx) := ⟨j 0, j 1, eq_ix2 (n0 := 4096) (n1 := 256) j⟩
  exact pay_block_eq t (V c main_arg0) (V c main_v18) (V c main_v23) r f

/-- An index of the output array is in point t's block iff each coordinate is in the block's range on its axis. -/
theorem mem_blk3 (t : Fin cfg1.N) (i : S524288x256.Idx) :
    i ∈ ((cfg1.win 3).blk t).view.set ↔ ∀ a : Fin 2, win1_3.index t a * S4096x256.size a ≤ (i a).val ∧ (i a).val < win1_3.index t a * S4096x256.size a + S4096x256.size a := by
  show i ∈ ((View.whole main_v24).slice (win1_3.rect t)).set ↔ _
  rw [View.set_slice_whole, Rect.mem_set_unit]
  exact Iff.rfl

/-- Every index of the output array is in some point's block: the tiles of rows fill it. -/
theorem covered3 (i : S524288x256.Idx) : ∃ t : Fin cfg1.N, (cfg1.win 3).flush t = true ∧ i ∈ ((cfg1.win 3).blk t).view.set := by
  have hi0 : (i 0).val < 524288 := (i 0).isLt
  have hi1 : (i 1).val < 256 := (i 1).isLt
  have hN : cfg1.N = 128 := N_1
  refine ⟨⟨(i 0).val / 4096, by rw [hN]; omega⟩, flush1_3 _, ?_⟩
  rw [mem_blk3]
  obtain ⟨-, -, -, -, -, -, e3, e3'⟩ := idx_facts ⟨(i 0).val / 4096, by rw [hN]; omega⟩
  intro a
  match a with
  | ⟨0, _⟩ =>
    show win1_3.index ⟨(i 0).val / 4096, _⟩ (0 : Fin 2) * 4096 ≤ (i 0).val ∧ (i 0).val < win1_3.index ⟨(i 0).val / 4096, _⟩ (0 : Fin 2) * 4096 + 4096
    rw [e3]; show (i 0).val / 4096 * 4096 ≤ (i 0).val ∧ (i 0).val < (i 0).val / 4096 * 4096 + 4096; omega
  | ⟨1, _⟩ =>
    show win1_3.index ⟨(i 0).val / 4096, _⟩ (1 : Fin 2) * 256 ≤ (i 1).val ∧ (i 1).val < win1_3.index ⟨(i 0).val / 4096, _⟩ (1 : Fin 2) * 256 + 256
    rw [e3']; omega

/-- THE OUTPUT ARRAY after the region: the normalised rows of the data, the segment words and the table the region is
    entered with. -/
theorem out_final (c : Dev nD) :
    (dat1 (F := Ideal) V c).arrAt 3 cfg1.N = outOf (V c main_arg0) (V c main_v18) (V c main_v23) :=
  (dat1 V c).arrAt_eq_of_cover 3 _ (fun t _ => flushed3_eq V c t) covered3

end Cert.KernelIdeal.Hand1

end
-- ==== Proof.KRunValue.lean ====
/- The run of @main at the ideal instance with the output array as a function of what the program is launched with:
   the normalised rows of the data, the segment words the host stretches compute, and the table the first region leaves. -/
import proofs.«122487_j41781441855970_1_alg».proof.Proof.KRunFinal
import proofs.«122487_j41781441855970_1_alg».proof.Proof.KRunRead
import proofs.«122487_j41781441855970_1_alg».proof.Proof.K1Value

set_option maxRecDepth 16384

noncomputable section

namespace Cert.KernelIdeal.HandRun

open Cert.KernelIdeal.Gen Cert.KernelIdeal.Hand1
open Idealize.ShloMosaic Idealize.ShloMosaic.TcCoe Idealize.SL.Sem
open Idealize.ShloMosaic.Pipeline (Dat)
open Cert.RaggedNorm

variable (m : (ℓ : Loc nD τ sig) → Buf (Elt Ideal) ℓ) (ρ : Dev nD → PrngReg)

/-- The output array after the run: the normalised rows of the launched data, the segment words before the first
    region, and the table the first region's pipeline leaves. -/
theorem out_run (c : Dev nD) :
    (dat1 (F := Ideal) (T10 D0 m) c).arrAt 3 cfg1.N
      = outOf (m ((c : Thread nD τ).loc main_arg0)) (V9 m c (Proc.devRef .tc main_v18))
          ((Hand0.dat0 (F := Ideal) (T9 m) c).arrAt 5 cfg0.N) := by
  rw [out_final (T10 D0 m) c, T10_main_arg0 D0 m c, T10_main_v18 D0 m c, T10_main_v23 D0 m c, T9_main_arg0 m c]
  rfl

/-- THE RUN at the ideal instance, the output array read: the arguments unchanged. -/
theorem run_out : θ_run (defs (F := Ideal)) (onTc (τ := τ) (main (F := Ideal))) ⟨m, fun _ => 0, ρ⟩ (fun r => ∀ c : Dev nD,
      r.2.mem ((c.tc : Thread nD τ).loc main_v24)
        = outOf (m ((c : Thread nD τ).loc main_arg0)) (V9 m c (Proc.devRef .tc main_v18))
            ((Hand0.dat0 (F := Ideal) (T9 m) c).arrAt 5 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (out_run m c), (h c).2⟩) (run_blocks m ρ)

end Cert.KernelIdeal.HandRun

end
-- ==== Proof.K0Out.lean ====
/- Region 0: what each control case leaves in the accumulators, as the payloads of its stores over the
   buffers' contents on entry — at the first point the tile's products added to the zeroed buffer, at a
   later point added to what the buffer held. -/
import proofs.«122487_j41781441855970_1_alg».proof.Proof.K0Pieces
import Idealize.ShloMosaic.Lib.Pipeline.Value

set_option maxRecDepth 16384

noncomputable section

namespace Cert.KernelIdeal.Hand0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz : (![0, 0] : Fin 2 → Nat) = fun _ => 0 := funext fun a => by fin_cases a <;> rfl

set_option maxHeartbeats 400000 in
theorem sout_B_0 (c : Dev nD) (i : grid0.Coords) (arg1 : Memref sig .tc .vmem S4096x256 .f32) (harg1 : arg1.IsWhole) (arg2 : Memref sig .tc .vmem S4096x1 .i32) (harg2 : arg2.IsWhole) (arg3 : Memref sig .tc .vmem S128x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S128x512 .f32) (harg6 : arg6.IsWhole) (arg7 : Memref sig .tc .vmem S128x256 .f32) (harg7 : arg7.IsWhole) (arg8 : Memref sig .tc .vmem S128x256 .f32) (harg8 : arg8.IsWhole) (hc0 : ¬cond0_0 i) (hc1 : ¬cond0_1 i) (x0 : Vec F S4096x256 .f32) (x1 : Vec F S4096x1 .i32) (x2 : Vec F S128x1 .f32) (x3 : Vec F S1x256 .f32) (x4 : Vec F S1x256 .f32) (xs0 : Vec F S128x256 .f32) (xs1 : Vec F S128x256 .f32) : sout0_B_0 c i arg1 harg1 arg2 harg2 arg3 harg3 arg4 harg4 arg5 harg5 arg6 harg6 arg7 harg7 arg8 harg8 hc0 hc1 x0 x1 x2 x3 x4 xs0 xs1 = k0_pay4 x0 x1 xs0 := by
  unfold sout0_B_0
  rw [View.read_writes_eq_canon _ _ _ (scover0_B_0 c i arg1 harg1 arg2 harg2 arg3 harg3 arg4 harg4 arg5 harg5 arg6 harg6 arg7 harg7 arg8 harg8 hc0 hc1 x0 x1 x2 x3 x4 xs0 xs1)]
  unfold kernelRun0_B
  dsimp only
  rw [View.canon_unit_zero (S := S128x256) hz]
  simp only [View.readAt_eq_ld, harg1.read_unread, harg2.read_unread, harg3.read_unread, harg4.read_unread, harg5.read_unread, harg7.read_unread, harg8.read_unread, View.ld_unit_zero (S := S4096x256) hz, View.ld_unit_zero (S := S4096x1) hz, View.ld_unit_zero (S := S128x256) hz, View.ld_unit_zero (S := S128x1) hz, View.ld_unit_zero (S := S1x256) hz]

set_option maxHeartbeats 400000 in
theorem sout_B_1 (c : Dev nD) (i : grid0.Coords) (arg1 : Memref sig .tc .vmem S4096x256 .f32) (harg1 : arg1.IsWhole) (arg2 : Memref sig .tc .vmem S4096x1 .i32) (harg2 : arg2.IsWhole) (arg3 : Memref sig .tc .vmem S128x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S128x512 .f32) (harg6 : arg6.IsWhole) (arg7 : Memref sig .tc .vmem S128x256 .f32) (harg7 : arg7.IsWhole) (arg8 : Memref sig .tc .vmem S128x256 .f32) (harg8 : arg8.IsWhole) (hc0 : ¬cond0_0 i) (hc1 : ¬cond0_1 i) (x0 : Vec F S4096x256 .f32) (x1 : Vec F S4096x1 .i32) (x2 : Vec F S128x1 .f32) (x3 : Vec F S1x256 .f32) (x4 : Vec F S1x256 .f32) (xs0 : Vec F S128x256 .f32) (xs1 : Vec F S128x256 .f32) : sout0_B_1 c i arg1 harg1 arg2 harg2 arg3 harg3 arg4 harg4 arg5 harg5 arg6 harg6 arg7 harg7 arg8 harg8 hc0 hc1 x0 x1 x2 x3 x4 xs0 xs1 = k0_pay5 x0 x1 xs1 := by
  unfold sout0_B_1
  rw [View.read_writes_eq_canon _ _ _ (scover0_B_1 c i arg1 harg1 arg2 harg2 arg3 harg3 arg4 harg4 arg5 harg5 arg6 harg6 arg7 harg7 arg8 harg8 hc0 hc1 x0 x1 x2 x3 x4 xs0 xs1)]
  unfold kernelRun0_B
  dsimp only
  rw [View.canon_unit_zero (S := S128x256) hz]
  simp only [View.readAt_eq_ld, harg1.read_unread, harg2.read_unread, harg3.read_unread, harg4.read_unread, harg5.read_unread, harg7.read_unread, harg8.read_unread, View.ld_unit_zero (S := S4096x256) hz, View.ld_unit_zero (S := S4096x1) hz, View.ld_unit_zero (S := S128x256) hz, View.ld_unit_zero (S := S128x1) hz, View.ld_unit_zero (S := S1x256) hz]

set_option maxHeartbeats 400000 in
theorem sout_C_0 (c : Dev nD) (i : grid0.Coords) (arg1 : Memref sig .tc .vmem S4096x256 .f32) (harg1 : arg1.IsWhole) (arg2 : Memref sig .tc .vmem S4096x1 .i32) (harg2 : arg2.IsWhole) (arg3 : Memref sig .tc .vmem S128x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S128x512 .f32) (harg6 : arg6.IsWhole) (arg7 : Memref sig .tc .vmem S128x256 .f32) (harg7 : arg7.IsWhole) (arg8 : Memref sig .tc .vmem S128x256 .f32) (harg8 : arg8.IsWhole) (hc0 : ¬cond0_0 i) (hc1 : cond0_1 i) (x0 : Vec F S4096x256 .f32) (x1 : Vec F S4096x1 .i32) (x2 : Vec F S128x1 .f32) (x3 : Vec F S1x256 .f32) (x4 : Vec F S1x256 .f32) (xs0 : Vec F S128x256 .f32) (xs1 : Vec F S128x256 .f32) : sout0_C_0 c i arg1 harg1 arg2 harg2 arg3 harg3 arg4 harg4 arg5 harg5 arg6 harg6 arg7 harg7 arg8 harg8 hc0 hc1 x0 x1 x2 x3 x4 xs0 xs1 = k0_pay4 x0 x1 xs0 := by
  unfold sout0_C_0
  rw [View.read_writes_eq_canon _ _ _ (scover0_C_0 c i arg1 harg1 arg2 harg2 arg3 harg3 arg4 harg4 arg5 harg5 arg6 harg6 arg7 harg7 arg8 harg8 hc0 hc1 x0 x1 x2 x3 x4 xs0 xs1)]
  unfold kernelRun0_C
  dsimp only
  sl_unfold_words
  rw [View.canon_unit_zero (S := S128x256) hz]
  simp only [View.readAt_eq_ld, harg1.read_unread, harg2.read_unread, harg3.read_unread, harg4.read_unread, harg5.read_unread, harg7.read_unread, harg8.read_unread, View.ld_unit_zero (S := S4096x256) hz, View.ld_unit_zero (S := S4096x1) hz, View.ld_unit_zero (S := S128x256) hz, View.ld_unit_zero (S := S128x1) hz, View.ld_unit_zero (S := S1x256) hz]

set_option maxHeartbeats 400000 in
theorem sout_C_1 (c : Dev nD) (i : grid0.Coords) (arg1 : Memref sig .tc .vmem S4096x256 .f32) (harg1 : arg1.IsWhole) (arg2 : Memref sig .tc .vmem S4096x1 .i32) (harg2 : arg2.IsWhole) (arg3 : Memref sig .tc .vmem S128x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S128x512 .f32) (harg6 : arg6.IsWhole) (arg7 : Memref sig .tc .vmem S128x256 .f32) (harg7 : arg7.IsWhole) (arg8 : Memref sig .tc .vmem S128x256 .f32) (harg8 : arg8.IsWhole) (hc0 : ¬cond0_0 i) (hc1 : cond0_1 i) (x0 : Vec F S4096x256 .f32) (x1 : Vec F S4096x1 .i32) (x2 : Vec F S128x1 .f32) (x3 : Vec F S1x256 .f32) (x4 : Vec F S1x256 .f32) (xs0 : Vec F S128x256 .f32) (xs1 : Vec F S128x256 .f32) : sout0_C_1 c i arg1 harg1 arg2 harg2 arg3 harg3 arg4 harg4 arg5 harg5 arg6 harg6 arg7 harg7 arg8 harg8 hc0 hc1 x0 x1 x2 x3 x4 xs0 xs1 = k0_pay5 x0 x1 xs1 := by
  unfold sout0_C_1
  rw [View.read_writes_eq_canon _ _ _ (scover0_C_1 c i arg1 harg1 arg2 harg2 arg3 harg3 arg4 harg4 arg5 harg5 arg6 harg6 arg7 harg7 arg8 harg8 hc0 hc1 x0 x1 x2 x3 x4 xs0 xs1)]
  unfold kernelRun0_C
  dsimp only
  sl_unfold_words
  rw [View.canon_unit_zero (S := S128x256) hz]
  simp only [View.readAt_eq_ld, harg1.read_unread, harg2.read_unread, harg3.read_unread, harg4.read_unread, harg5.read_unread, harg7.read_unread, harg8.read_unread, View.ld_unit_zero (S := S4096x256) hz, View.ld_unit_zero (S := S4096x1) hz, View.ld_unit_zero (S := S128x256) hz, View.ld_unit_zero (S := S128x1) hz, View.ld_unit_zero (S := S1x256) hz]

set_option maxHeartbeats 400000 in
theorem sout_A_0 (c : Dev nD) (i : grid0.Coords) (arg1 : Memref sig .tc .vmem S4096x256 .f32) (harg1 : arg1.IsWhole) (arg2 : Memref sig .tc .vmem S4096x1 .i32) (harg2 : arg2.IsWhole) (arg3 : Memref sig .tc .vmem S128x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S128x512 .f32) (harg6 : arg6.IsWhole) (arg7 : Memref sig .tc .vmem S128x256 .f32) (harg7 : arg7.IsWhole) (arg8 : Memref sig .tc .vmem S128x256 .f32) (harg8 : arg8.IsWhole) (hc0 : cond0_0 i) (hc1 : ¬cond0_1 i) (x0 : Vec F S4096x256 .f32) (x1 : Vec F S4096x1 .i32) (x2 : Vec F S128x1 .f32) (x3 : Vec F S1x256 .f32) (x4 : Vec F S1x256 .f32) : sout0_A_0 c i arg1 harg1 arg2 harg2 arg3 harg3 arg4 harg4 arg5 harg5 arg6 harg6 arg7 harg7 arg8 harg8 hc0 hc1 x0 x1 x2 x3 x4 = k0_pay4 x0 x1 (k0_pay1 (F := F)) := by
  unfold sout0_A_0
  rw [View.read_writes_eq_canon _ _ _ (scover0_A_0 c i arg1 harg1 arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S128x256) hz, View.readCov_unit_zero (S := S128x256) _ hz]
  simp only [View.readAt_eq_ld, harg1.read_unread, harg2.read_unread, harg3.read_unread, harg4.read_unread, harg5.read_unread, harg7.read_unread, harg8.read_unread, View.ld_unit_zero (S := S4096x256) hz, View.ld_unit_zero (S := S4096x1) hz, View.ld_unit_zero (S := S128x256) hz, View.ld_unit_zero (S := S128x1) hz, View.ld_unit_zero (S := S1x256) hz]

set_option maxHeartbeats 400000 in
theorem sout_A_1 (c : Dev nD) (i : grid0.Coords) (arg1 : Memref sig .tc .vmem S4096x256 .f32) (harg1 : arg1.IsWhole) (arg2 : Memref sig .tc .vmem S4096x1 .i32) (harg2 : arg2.IsWhole) (arg3 : Memref sig .tc .vmem S128x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S128x512 .f32) (harg6 : arg6.IsWhole) (arg7 : Memref sig .tc .vmem S128x256 .f32) (harg7 : arg7.IsWhole) (arg8 : Memref sig .tc .vmem S128x256 .f32) (harg8 : arg8.IsWhole) (hc0 : cond0_0 i) (hc1 : ¬cond0_1 i) (x0 : Vec F S4096x256 .f32) (x1 : Vec F S4096x1 .i32) (x2 : Vec F S128x1 .f32) (x3 : Vec F S1x256 .f32) (x4 : Vec F S1x256 .f32) : sout0_A_1 c i arg1 harg1 arg2 harg2 arg3 harg3 arg4 harg4 arg5 harg5 arg6 harg6 arg7 harg7 arg8 harg8 hc0 hc1 x0 x1 x2 x3 x4 = k0_pay5 x0 x1 (k0_pay2 (F := F)) := by
  unfold sout0_A_1
  rw [View.read_writes_eq_canon _ _ _ (scover0_A_1 c i arg1 harg1 arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S128x256) hz, View.readCov_unit_zero (S := S128x256) _ hz]
  simp only [View.readAt_eq_ld, harg1.read_unread, harg2.read_unread, harg3.read_unread, harg4.read_unread, harg5.read_unread, harg7.read_unread, harg8.read_unread, View.ld_unit_zero (S := S4096x256) hz, View.ld_unit_zero (S := S4096x1) hz, View.ld_unit_zero (S := S128x256) hz, View.ld_unit_zero (S := S128x1) hz, View.ld_unit_zero (S := S1x256) hz]

end Cert.KernelIdeal.Hand0

end
-- ==== Proof.K0OutT.lean ====
/- Region 0: what the last point leaves in the table's buffer, half by half — columns below 256 hold the
   scale payload, columns from 256 the shift payload, both over the accumulators as this point's tile
   completed them. -/
import proofs.«122487_j41781441855970_1_alg».proof.Proof.K0Out
import Idealize.ShloMosaic.Lib.ValueIdx

set_option maxRecDepth 16384

noncomputable section

namespace Cert.KernelIdeal.Hand0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-- The two stored halves of the table's buffer. -/
abbrev R0 : Rect S128x512 := Rect.unit (s := S128x512) ![0, 0] S128x256.size inb_S128x512_S128x256_0_0
abbrev R256 : Rect S128x512 := Rect.unit (s := S128x512) ![0, 256] S128x256.size inb_S128x512_S128x256_0_256

/-- A [128,512] buffer from its two [128,256] halves. -/
def halves {α : Type} (p8 p9 : S128x256.Idx → α) : S128x512.Idx → α := fun y =>
  if h : (y 1).val < 256 then p8 (ix2 (y 0) ⟨(y 1).val, h⟩)
  else p9 (ix2 (y 0) ⟨(y 1).val - 256, by have := idx2_lt1 y; omega⟩)

set_option maxHeartbeats 400000 in
/-- Two stores, the left half then the right half, leave the buffer made of the two payloads. -/
theorem canon_halves {Val : EltTy → Type} [∀ e, Nonempty (Val e)] (p8 p9 : S128x256.Idx → Val .f32) (y : S128x512.Idx) :
    View.canon [(⟨R256, p9⟩ : View.Piece Val S128x512 .f32), ⟨R0, p8⟩] y = halves p8 p9 y := by
  refine View.canon_apply_of_pieces (halves p8 p9) _ ?_ y
    (View.cover_of_tiledL ([⟨R256, p9⟩, ⟨R0, p8⟩] : List (View.Piece Val S128x512 .f32)) S128x256.size (by sl_kernel_rfl) y)
  intro p hp
  rcases List.mem_cons.mp hp with rfl | hp
  · intro x
    have e0 : ((R256.emb x 0 : Fin 128) : ℕ) = (x 0 : ℕ) := by
      have := Rect.emb_apply R256 x 0
      show ((R256.emb x 0 : Fin 128) : ℕ) = _
      rw [this]; show 0 + 1 * (x 0 : ℕ) = _; omega
    have e1 : ((R256.emb x 1 : Fin 512) : ℕ) = 256 + (x 1 : ℕ) := by
      have := Rect.emb_apply R256 x 1
      rw [this]; show 256 + 1 * (x 1 : ℕ) = _; omega
    unfold halves
    rw [dif_neg (by rw [e1]; omega)]
    refine congrArg p9 (funext fun a => Fin.ext ?_)
    match a with
    | ⟨0, _⟩ => exact e0.symm
    | ⟨1, _⟩ => show (x 1 : ℕ) = (R256.emb x 1 : ℕ) - 256; rw [e1]; omega
  · rcases List.mem_singleton.mp hp with rfl
    intro x
    have e0 : ((R0.emb x 0 : Fin 128) : ℕ) = (x 0 : ℕ) := by
      have := Rect.emb_apply R0 x 0
      rw [this]; show 0 + 1 * (x 0 : ℕ) = _; omega
    have e1 : ((R0.emb x 1 : Fin 512) : ℕ) = (x 1 : ℕ) := by
      have := Rect.emb_apply R0 x 1
      rw [this]; show 0 + 1 * (x 1 : ℕ) = _; omega
    have hx1 : (x 1 : ℕ) < 256 := idx2_lt1 x
    unfold halves
    rw [dif_pos (by rw [e1]; exact hx1)]
    refine congrArg p8 (funext fun a => Fin.ext ?_)
    match a with
    | ⟨0, _⟩ => exact e0.symm
    | ⟨1, _⟩ => exact e1.symm

set_option maxHeartbeats 400000 in
/-- The table's buffer after the last point, as the two payloads' halves. -/
theorem out_C_5 (c : Dev nD) (i : grid0.Coords) (arg1 : Memref sig .tc .vmem S4096x256 .f32) (harg1 : arg1.IsWhole) (arg2 : Memref sig .tc .vmem S4096x1 .i32) (harg2 : arg2.IsWhole) (arg3 : Memref sig .tc .vmem S128x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S128x512 .f32) (harg6 : arg6.IsWhole) (arg7 : Memref sig .tc .vmem S128x256 .f32) (harg7 : arg7.IsWhole) (arg8 : Memref sig .tc .vmem S128x256 .f32) (harg8 : arg8.IsWhole) (hc0 : ¬cond0_0 i) (hc1 : cond0_1 i) (x0 : Vec F S4096x256 .f32) (x1 : Vec F S4096x1 .i32) (x2 : Vec F S128x1 .f32) (x3 : Vec F S1x256 .f32) (x4 : Vec F S1x256 .f32) (xs0 : Vec F S128x256 .f32) (xs1 : Vec F S128x256 .f32) :
    out0_C_5 c i arg1 harg1 arg2 harg2 arg3 harg3 arg4 harg4 arg5 harg5 arg6 harg6 arg7 harg7 arg8 harg8 hc0 hc1 x0 x1 x2 x3 x4 xs0 xs1
      = halves (k0_pay8 x2 (k0_pay4 x0 x1 xs0) (k0_pay5 x0 x1 xs1) x3) (k0_pay9 x2 (k0_pay4 x0 x1 xs0) (k0_pay5 x0 x1 xs1) x3 x4) := by
  unfold out0_C_5
  rw [View.read_writes_eq_canon _ _ _ (cover0_C_5 c i arg1 harg1 arg2 harg2 arg3 harg3 arg4 harg4 arg5 harg5 arg6 harg6 arg7 harg7 arg8 harg8 hc0 hc1 x0 x1 x2 x3 x4 xs0 xs1)]
  unfold kernelRun0_C
  dsimp only
  sl_unfold_words
  rw [View.readCov_unit_zero (S := S128x256) _ hz, View.readCov_unit_zero (S := S128x256) _ hz]
  simp only [View.readAt_eq_ld, harg1.read_unread, harg2.read_unread, harg3.read_unread, harg4.read_unread, harg5.read_unread, harg7.read_unread, harg8.read_unread, View.ld_unit_zero (S := S4096x256) hz, View.ld_unit_zero (S := S4096x1) hz, View.ld_unit_zero (S := S128x256) hz, View.ld_unit_zero (S := S128x1) hz, View.ld_unit_zero (S := S1x256) hz]
  exact funext fun y => canon_halves _ _ y

end Cert.KernelIdeal.Hand0

end
-- ==== Proof.K0Acc.lean ====
/- Region 0: the accumulators point by point as the skeleton's payloads — the first tile's products added
   to the zeroed buffers, each later tile's added to what the point before left — and the table's buffer at
   the last point as its two stored halves over the completed accumulators. -/
import proofs.«122487_j41781441855970_1_alg».proof.Proof.K0Frame
import proofs.«122487_j41781441855970_1_alg».proof.Proof.K0OutT

set_option maxRecDepth 16384

noncomputable section

namespace Cert.KernelIdeal.Hand0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
theorem accAt0_zero (c : Dev nD) (h : 0 < cfg0.N) :
    accAt0 V c 0 h = (k0_pay4 (iblk0 V c 0 ⟨0, h⟩) (iblk0 V c 1 ⟨0, h⟩) (k0_pay1 (F := F)), k0_pay5 (iblk0 V c 0 ⟨0, h⟩) (iblk0 V c 1 ⟨0, h⟩) (k0_pay2 (F := F))) := by
  have h1 : ¬(⟨0, h⟩ : Fin cfg0.N).val = 127 := by simp
  exact (accAt0_A V c ⟨0, h⟩ rfl h1).trans (congrArg₂ Prod.mk
    (sout_A_0 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) scM0_1 (Memref.isWhole_whole _) ((hcond0_0 ⟨0, h⟩).mpr rfl) (fun hh => h1 ((hcond0_1 ⟨0, h⟩).mp hh)) (iblk0 V c 0 ⟨0, h⟩) (iblk0 V c 1 ⟨0, h⟩) (iblk0 V c 2 ⟨0, h⟩) (iblk0 V c 3 ⟨0, h⟩) (iblk0 V c 4 ⟨0, h⟩))
    (sout_A_1 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) scM0_1 (Memref.isWhole_whole _) ((hcond0_0 ⟨0, h⟩).mpr rfl) (fun hh => h1 ((hcond0_1 ⟨0, h⟩).mp hh)) (iblk0 V c 0 ⟨0, h⟩) (iblk0 V c 1 ⟨0, h⟩) (iblk0 V c 2 ⟨0, h⟩) (iblk0 V c 3 ⟨0, h⟩) (iblk0 V c 4 ⟨0, h⟩)))

set_option maxHeartbeats 1000000 in
theorem accAt0_succ (c : Dev nD) (n : ℕ) (h : n + 1 < cfg0.N) :
    accAt0 V c (n + 1) h = (k0_pay4 (iblk0 V c 0 ⟨n + 1, h⟩) (iblk0 V c 1 ⟨n + 1, h⟩) (accAt0 V c n (Nat.lt_of_succ_lt h)).1, k0_pay5 (iblk0 V c 0 ⟨n + 1, h⟩) (iblk0 V c 1 ⟨n + 1, h⟩) (accAt0 V c n (Nat.lt_of_succ_lt h)).2) := by
  have h0 : ¬(⟨n + 1, h⟩ : Fin cfg0.N).val = 0 := Nat.succ_ne_zero n
  by_cases h1 : (⟨n + 1, h⟩ : Fin cfg0.N).val = 127
  · exact (accAt0_C V c ⟨n + 1, h⟩ h0 h1).trans (congrArg₂ Prod.mk
      (sout_C_0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (fun hh => h0 ((hcond0_0 ⟨n + 1, h⟩).mp hh)) ((hcond0_1 ⟨n + 1, h⟩).mpr h1) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (accAt0 V c n (Nat.lt_of_succ_lt h)).1 (accAt0 V c n (Nat.lt_of_succ_lt h)).2)
      (sout_C_1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (fun hh => h0 ((hcond0_0 ⟨n + 1, h⟩).mp hh)) ((hcond0_1 ⟨n + 1, h⟩).mpr h1) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (accAt0 V c n (Nat.lt_of_succ_lt h)).1 (accAt0 V c n (Nat.lt_of_succ_lt h)).2))
  · exact (accAt0_B V c ⟨n + 1, h⟩ h0 h1).trans (congrArg₂ Prod.mk
      (sout_B_0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (accAt0 V c n (Nat.lt_of_succ_lt h)).1 (accAt0 V c n (Nat.lt_of_succ_lt h)).2)
      (sout_B_1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (accAt0 V c n (Nat.lt_of_succ_lt h)).1 (accAt0 V c n (Nat.lt_of_succ_lt h)).2))

set_option maxHeartbeats 1000000 in
/-- The table's buffer at the last point: its two halves over the accumulators as that point leaves them. -/
theorem tblAt0_last (c : Dev nD) (t : Fin cfg0.N) (h127 : t.val = 127) :
    tblAt0 V c t = halves (k0_pay8 (iblk0 V c 2 t) (accAt0 V c t.val t.isLt).1 (accAt0 V c t.val t.isLt).2 (iblk0 V c 3 t)) (k0_pay9 (iblk0 V c 2 t) (accAt0 V c t.val t.isLt).1 (accAt0 V c t.val t.isLt).2 (iblk0 V c 3 t) (iblk0 V c 4 t)) := by
  have h0 : ¬t.val = 0 := by omega
  have h1 : t.val = 127 := h127
  have hacc : accAt0 V c t.val t.isLt = (k0_pay4 (iblk0 V c 0 t) (iblk0 V c 1 t) (accAt0 V c (t.val - 1) (Nat.lt_of_le_of_lt (Nat.sub_le _ _) t.isLt)).1, k0_pay5 (iblk0 V c 0 t) (iblk0 V c 1 t) (accAt0 V c (t.val - 1) (Nat.lt_of_le_of_lt (Nat.sub_le _ _) t.isLt)).2) :=
    (accAt0_C V c t h0 h1).trans (congrArg₂ Prod.mk
      (sout_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun hh => h0 ((hcond0_0 t).mp hh)) ((hcond0_1 t).mpr h1) (iblk0 V c 0 t) (iblk0 V c 1 t) (iblk0 V c 2 t) (iblk0 V c 3 t) (iblk0 V c 4 t) (accAt0 V c (t.val - 1) (Nat.lt_of_le_of_lt (Nat.sub_le _ _) t.isLt)).1 (accAt0 V c (t.val - 1) (Nat.lt_of_le_of_lt (Nat.sub_le _ _) t.isLt)).2)
      (sout_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun hh => h0 ((hcond0_0 t).mp hh)) ((hcond0_1 t).mpr h1) (iblk0 V c 0 t) (iblk0 V c 1 t) (iblk0 V c 2 t) (iblk0 V c 3 t) (iblk0 V c 4 t) (accAt0 V c (t.val - 1) (Nat.lt_of_le_of_lt (Nat.sub_le _ _) t.isLt)).1 (accAt0 V c (t.val - 1) (Nat.lt_of_le_of_lt (Nat.sub_le _ _) t.isLt)).2))
  rw [hacc]
  exact (tblAt0_C V c t h0 h1).trans
    (out_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun hh => h0 ((hcond0_0 t).mp hh)) ((hcond0_1 t).mpr h1) (iblk0 V c 0 t) (iblk0 V c 1 t) (iblk0 V c 2 t) (iblk0 V c 3 t) (iblk0 V c 4 t) (accAt0 V c (t.val - 1) (Nat.lt_of_le_of_lt (Nat.sub_le _ _) t.isLt)).1 (accAt0 V c (t.val - 1) (Nat.lt_of_le_of_lt (Nat.sub_le _ _) t.isLt)).2)

end Cert.KernelIdeal.Hand0

end
-- ==== Proof.K0Blk.lean ====
/- Region 0: a window's block at a grid point read at an index is its array at the placed index — row
   `4096·t + k` for the two row-tiled windows, the same index for the windows whose block is their whole
   array; and a sum over all rows regroups as the sum over the tiles of each tile's rows. -/
import proofs.«122487_j41781441855970_1_alg».proof.Proof.K0Frame
import Idealize.ShloMosaic.Lib.Pipeline.Value
import Idealize.ShloMosaic.Lib.ValueIdx

set_option maxRecDepth 16384

noncomputable section

namespace Cert.KernelIdeal.Hand0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

theorem index0_0 : ∀ t : Fin grid0.N, win0_0.index t 0 = t.val ∧ win0_0.index t 1 = 0 := by decide +kernel
theorem index0_1 : ∀ t : Fin grid0.N, win0_1.index t 0 = t.val ∧ win0_1.index t 1 = 0 := by decide +kernel

set_option maxHeartbeats 400000 in
theorem iblk0_0_apply (c : Dev nD) (t : Fin cfg0.N) (k : Fin 4096) (f : Fin 256) (h : 4096 * t.val + k.val < 524288) :
    iblk0 V c 0 t (ix2 k f) = V c main_arg0 (ix2 ⟨4096 * t.val + k.val, h⟩ f) := by
  show V c main_arg0 ((win0_0.rect t).emb (ix2 k f)) = _
  refine congrArg (V c main_arg0) (funext fun a => Fin.ext ?_)
  have e := win0_0.rect_emb_val t (ix2 k f) a
  match a with
  | ⟨0, _⟩ => rw [e]; show win0_0.index t 0 * 4096 + k.val = 4096 * t.val + k.val; rw [(index0_0 t).1]; omega
  | ⟨1, _⟩ => rw [e]; show win0_0.index t 1 * 256 + f.val = f.val; rw [(index0_0 t).2]; omega

set_option maxHeartbeats 400000 in
theorem iblk0_1_apply (c : Dev nD) (t : Fin cfg0.N) (k : Fin 4096) (h : 4096 * t.val + k.val < 524288) :
    iblk0 V c 1 t (ix2 k 0) = V c main_v18 (ix2 ⟨4096 * t.val + k.val, h⟩ 0) := by
  show V c main_v18 ((win0_1.rect t).emb (ix2 k 0)) = _
  refine congrArg (V c main_v18) (funext fun a => Fin.ext ?_)
  have e := win0_1.rect_emb_val t (ix2 k 0) a
  match a with
  | ⟨0, _⟩ => rw [e]; show win0_1.index t 0 * 4096 + k.val = 4096 * t.val + k.val; rw [(index0_1 t).1]; omega
  | ⟨1, _⟩ => rw [e]; show win0_1.index t 1 * 1 + 0 = 0; rw [(index0_1 t).2]

theorem index0_2 : ∀ t : Fin grid0.N, win0_2.index t 0 = 0 ∧ win0_2.index t 1 = 0 := by decide +kernel
theorem index0_3 : ∀ t : Fin grid0.N, win0_3.index t 0 = 0 ∧ win0_3.index t 1 = 0 := by decide +kernel
theorem index0_4 : ∀ t : Fin grid0.N, win0_4.index t 0 = 0 ∧ win0_4.index t 1 = 0 := by decide +kernel
theorem index0_5 : ∀ t : Fin grid0.N, win0_5.index t 0 = 0 ∧ win0_5.index t 1 = 0 := by decide +kernel

theorem iblk0_2_apply (c : Dev nD) (t : Fin cfg0.N) (b : Fin 128) :
    iblk0 V c 2 t (ix2 b 0) = V c main_v20 (ix2 b 0) := by
  show V c main_v20 ((win0_2.rect t).emb (ix2 b 0)) = _
  refine congrArg (V c main_v20) (funext fun a => Fin.ext ?_)
  have e := win0_2.rect_emb_val t (ix2 b 0) a
  match a with
  | ⟨0, _⟩ => rw [e]; show win0_2.index t 0 * 128 + b.val = b.val; rw [(index0_2 t).1]; omega
  | ⟨1, _⟩ => rw [e]; show win0_2.index t 1 * 1 + 0 = 0; rw [(index0_2 t).2]

theorem iblk0_3_apply (c : Dev nD) (t : Fin cfg0.N) (f : Fin 256) :
    iblk0 V c 3 t (ix2 0 f) = V c main_v21 (ix2 0 f) := by
  show V c main_v21 ((win0_3.rect t).emb (ix2 0 f)) = _
  refine congrArg (V c main_v21) (funext fun a => Fin.ext ?_)
  have e := win0_3.rect_emb_val t (ix2 0 f) a
  match a with
  | ⟨0, _⟩ => rw [e]; show win0_3.index t 0 * 1 + 0 = 0; rw [(index0_3 t).1]
  | ⟨1, _⟩ => rw [e]; show win0_3.index t 1 * 256 + f.val = f.val; rw [(index0_3 t).2]; omega

theorem iblk0_4_apply (c : Dev nD) (t : Fin cfg0.N) (f : Fin 256) :
    iblk0 V c 4 t (ix2 0 f) = V c main_v22 (ix2 0 f) := by
  show V c main_v22 ((win0_4.rect t).emb (ix2 0 f)) = _
  refine congrArg (V c main_v22) (funext fun a => Fin.ext ?_)
  have e := win0_4.rect_emb_val t (ix2 0 f) a
  match a with
  | ⟨0, _⟩ => rw [e]; show win0_4.index t 0 * 1 + 0 = 0; rw [(index0_4 t).1]
  | ⟨1, _⟩ => rw [e]; show win0_4.index t 1 * 256 + f.val = f.val; rw [(index0_4 t).2]; omega

/-- A sum over all rows is the sum over the tiles of the sums over a tile's rows. -/
theorem sum_tiles {M : Type} [AddCommMonoid M] (g : Fin 524288 → M) :
    ∑ r, g r = ∑ t : Fin 128, ∑ k : Fin 4096, g ⟨4096 * t.val + k.val, by have := t.isLt; have := k.isLt; omega⟩ := by
  rw [← Equiv.sum_comp ((finProdFinEquiv (m := 128) (n := 4096)).trans (finCongr (by norm_num : 128 * 4096 = 524288))) g,
    Fintype.sum_prod_type]
  refine Finset.sum_congr rfl fun t _ => Finset.sum_congr rfl fun k _ => congrArg g (Fin.ext ?_)
  simp [finProdFinEquiv]; omega

end Cert.KernelIdeal.Hand0
end
-- ==== Proof.K0Pay.lean ====
/- Region 0 at the ideal values: the body's payloads read at an index. A tile's contribution to the
   accumulators is, for segment column `b` and feature `f`, the sum over the tile's rows of the one-hot
   selector entry times the datum (or its square): the matrix product into a zero accumulator is a plain
   sum, every change of float format is the identity, and the selector entry is the comparison's bit read as
   a number. The last point's arithmetic is the specification's scale and shift. -/
import proofs.«122487_j41781441855970_1_alg».proof.Proof.Gen.KernelIdeal.Skeleton
import proofs.«122487_j41781441855970_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand0

open Idealize.ShloMosaic Idealize.ShloMosaic.ValueIdx
open Cert.KernelIdeal Cert.KernelIdeal.Gen Cert.RaggedNorm

local notation "D0" => dot_S4096x128_S4096x256_S128x256_0_0_1_1_n_n

/-- The product contracting the ROW axis of both operands, into the zero accumulator, at an index: the sum over
    the rows of the products of the two columns' entries. -/
theorem matmulT_apply {φ₁ φ₂ : FTy} (A : FVec Ideal S4096x128 φ₁) (B : FVec Ideal S4096x256 φ₂) (b : Fin 128) (f : Fin 256) :
    FloatOps.matmul D0 none A B (constant S128x256 .f32 0x00000000#32) (ix2 b f)
      = ∑ k : Fin 4096, A (ix2 k b) * B (ix2 k f) := by
  rw [Ideal.matmul_constant_zero_apply, ← Equiv.sum_comp (contrEquiv1 D0 4096 rfl rfl).symm]
  refine Finset.sum_congr rfl fun k _ => ?_
  have c2 := contrEquiv1_symm_val D0 4096 rfl rfl k
  have l2 : DotDims.lhsIdx D0 (ix2 b f) ((contrEquiv1 D0 4096 rfl rfl).symm k) = ix2 k b := by
    funext ax; apply Fin.ext
    match ax with
    | ⟨0, _⟩ => simp [DotDims.lhsIdx, dot_S4096x128_S4096x256_S128x256_0_0_1_1_n_n]; exact c2
    | ⟨1, _⟩ => simp [DotDims.lhsIdx, dot_S4096x128_S4096x256_S128x256_0_0_1_1_n_n]; rfl
  have r2 : DotDims.rhsIdx D0 (ix2 b f) ((contrEquiv1 D0 4096 rfl rfl).symm k) = ix2 k f := by
    funext ax; apply Fin.ext
    match ax with
    | ⟨0, _⟩ => simp [DotDims.rhsIdx, dot_S4096x128_S4096x256_S128x256_0_0_1_1_n_n]; exact c2
    | ⟨1, _⟩ => simp [DotDims.rhsIdx, dot_S4096x128_S4096x256_S128x256_0_0_1_1_n_n]; rfl
  rw [l2, r2]

/-- The selector the body builds from the tile's segment words, at row `k` and column `b`. -/
theorem pay3_apply (seg : Vec Ideal S4096x1 .i32) (k : Fin 4096) (b : Fin 128) :
    k0_pay3 (F := Ideal) seg (ix2 k b) = oh (seg (ix2 k 0)) (BitVec.ofNat 32 b.val) := by
  unfold k0_pay3
  show ((((BitVec.setWidth 32 (IntOp.cmpi .eq _ _)).toInt : ℝ)) : EReal) = _
  rw [oh_eq_sitofp]
  congr 1
  · exact (broadcastTo_apply _ _ (ix2 k b) (ix2 k 0) (fun a => by
      match a with
      | ⟨0, _⟩ => rfl
      | ⟨1, _⟩ => rfl)).trans (congrFun (shapeCast_self seg _) _)
  · exact iota_single_apply .tc S4096x128 32 1 _ (ix2 k b)

/-- A tile's sums added to the accumulator `a`, at segment `b` and feature `f`. -/
theorem pay4_apply (x : Vec Ideal S4096x256 .f32) (seg : Vec Ideal S4096x1 .i32) (a : Vec Ideal S128x256 .f32) (b : Fin 128) (f : Fin 256) :
    k0_pay4 (F := Ideal) x seg a (ix2 b f)
      = a (ix2 b f) + ∑ k : Fin 4096, oh (seg (ix2 k 0)) (BitVec.ofNat 32 b.val) * x (ix2 k f) := by
  unfold k0_pay4
  refine (congrFun (shapeCast_self _ _) _).trans ?_
  refine congrArg (a (ix2 b f) + ·) ?_
  refine (matmulT_apply _ _ b f).trans ?_
  exact Finset.sum_congr rfl fun k _ => congrArg (· * x (ix2 k f)) (pay3_apply seg k b)

/-- A tile's sums of squares added to the accumulator `a`. -/
theorem pay5_apply (x : Vec Ideal S4096x256 .f32) (seg : Vec Ideal S4096x1 .i32) (a : Vec Ideal S128x256 .f32) (b : Fin 128) (f : Fin 256) :
    k0_pay5 (F := Ideal) x seg a (ix2 b f)
      = a (ix2 b f) + ∑ k : Fin 4096, oh (seg (ix2 k 0)) (BitVec.ofNat 32 b.val) * (x (ix2 k f) * x (ix2 k f)) := by
  unfold k0_pay5
  refine (congrFun (shapeCast_self _ _) _).trans ?_
  refine congrArg (a (ix2 b f) + ·) ?_
  refine (matmulT_apply _ _ b f).trans ?_
  exact Finset.sum_congr rfl fun k _ => congrArg (· * (x (ix2 k f) * x (ix2 k f))) (pay3_apply seg k b)

/-- The zeroed accumulators hold zero. -/
theorem pay1_apply (i : S128x256.Idx) : k0_pay1 (F := Ideal) i = 0 := by
  unfold k0_pay1
  refine (congrFun (shapeCast_self _ _) _).trans ?_
  exact Ideal.ofBits_zero_f32
theorem pay2_apply (i : S128x256.Idx) : k0_pay2 (F := Ideal) i = 0 := by
  unfold k0_pay2
  refine (congrFun (shapeCast_self _ _) _).trans ?_
  exact Ideal.ofBits_zero_f32

/-- The segment's mean, as the last point computes it. -/
theorem pay7_apply (cnt : Vec Ideal S128x1 .f32) (S : Vec Ideal S128x256 .f32) (b : Fin 128) (f : Fin 256) :
    k0_pay7 (F := Ideal) cnt S (ix2 b f) = Ideal.div (S (ix2 b f)) (cnt (ix2 b 0)) := by
  unfold k0_pay7 k0_pay6
  show Ideal.div (S (ix2 b f)) _ = _
  refine congrArg (Ideal.div (S (ix2 b f))) ?_
  exact (broadcastTo_apply _ _ (ix2 b f) (ix2 b 0) (fun a => by
      match a with
      | ⟨0, _⟩ => rfl
      | ⟨1, _⟩ => rfl)).trans (congrFun (shapeCast_self cnt _) _)

/-- The table's first half: the specification's scale. -/
theorem pay8_apply (cnt : Vec Ideal S128x1 .f32) (S Q : Vec Ideal S128x256 .f32) (w : Vec Ideal S1x256 .f32) (b : Fin 128) (f : Fin 256) :
    k0_pay8 (F := Ideal) cnt S Q w (ix2 b f)
      = kScale (S (ix2 b f)) (Q (ix2 b f)) (cnt (ix2 b 0)) (w (ix2 0 f)) eps := by
  have hc : (broadcastTo S128x256 (k0_pay6 (F := Ideal) cnt) broadcasts_S128x1_S128x256 : FVec Ideal S128x256 .f32) (ix2 b f) = cnt (ix2 b 0) :=
    (broadcastTo_apply _ _ (ix2 b f) (ix2 b 0) (fun a => by
      match a with
      | ⟨0, _⟩ => rfl
      | ⟨1, _⟩ => rfl)).trans (by unfold k0_pay6; exact congrFun (shapeCast_self cnt _) _)
  have hw : (broadcastTo S128x256 (shapeCast S1x256 w shapeCasts_S1x256_S1x256) broadcasts_S1x256_S128x256 : FVec Ideal S128x256 .f32) (ix2 b f) = w (ix2 0 f) :=
    (broadcastTo_apply _ _ (ix2 b f) (ix2 0 f) (fun a => by
      match a with
      | ⟨0, _⟩ => rfl
      | ⟨1, _⟩ => rfl)).trans (congrFun (shapeCast_self w _) _)
  unfold k0_pay8 kScale eps
  show Ideal.div _ (Ideal.sqrt (max (Ideal.div (Q (ix2 b f)) _ - k0_pay7 (F := Ideal) cnt S (ix2 b f) * k0_pay7 (F := Ideal) cnt S (ix2 b f)) (Ideal.ofBits .f32 0x00000000#32) + Ideal.ofBits .f32 0x3727C5AC#32)) = _
  rw [hc, hw, pay7_apply, Ideal.ofBits_zero_f32]

/-- The table's second half: the specification's shift. -/
theorem pay9_apply (cnt : Vec Ideal S128x1 .f32) (S Q : Vec Ideal S128x256 .f32) (w β : Vec Ideal S1x256 .f32) (b : Fin 128) (f : Fin 256) :
    k0_pay9 (F := Ideal) cnt S Q w β (ix2 b f)
      = kShift (S (ix2 b f)) (Q (ix2 b f)) (cnt (ix2 b 0)) (w (ix2 0 f)) (β (ix2 0 f)) eps := by
  have hb : (broadcastTo S128x256 (shapeCast S1x256 β shapeCasts_S1x256_S1x256) broadcasts_S1x256_S128x256 : FVec Ideal S128x256 .f32) (ix2 b f) = β (ix2 0 f) :=
    (broadcastTo_apply _ _ (ix2 b f) (ix2 0 f) (fun a => by
      match a with
      | ⟨0, _⟩ => rfl
      | ⟨1, _⟩ => rfl)).trans (congrFun (shapeCast_self β _) _)
  unfold k0_pay9 kShift
  show _ - k0_pay7 (F := Ideal) cnt S (ix2 b f) * k0_pay8 (F := Ideal) cnt S Q w (ix2 b f) = _
  rw [hb, pay7_apply, pay8_apply]

end Cert.KernelIdeal.Hand0

end
-- ==== Proof.K0Value.lean ====
/- Region 0 at the ideal values: the table the region leaves is the specification's. The accumulators
   after point `n` hold, at segment `b` and feature `f`, the sum over the tiles up to `n` of the tile's
   selected data (by induction on the point: a tile adds its one-hot sums, the first to zero); a tile's rows
   are rows `4096·t + k` of the whole arrays, so after the last tile the sums run over all rows; the last
   point's arithmetic on them is the specification's scale and shift, stored as the table's two halves,
   and the one write-back, at the last point, writes the whole table. -/
import proofs.«122487_j41781441855970_1_alg».proof.Proof.K0Acc
import proofs.«122487_j41781441855970_1_alg».proof.Proof.K0Blk
import proofs.«122487_j41781441855970_1_alg».proof.Proof.K0Pay

set_option maxRecDepth 16384

noncomputable section

namespace Cert.KernelIdeal.Hand0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.RaggedNorm

variable (V : (c : Dev nD) → (b : Ref sig .tc) → Buf (Elt Ideal) ((c : Thread nD τ).loc b))

/-! ## One tile's sums -/

/-- Tile `t`'s selected sum of feature `f` for segment `b`, over the whole arrays. -/
def tileS (x : (⟨2, ![524288, 256]⟩ : Shape).Idx → EReal) (seg : (⟨2, ![524288, 1]⟩ : Shape).Idx → BitVec 32)
    (b : Fin 128) (f : Fin 256) (t : ℕ) : EReal :=
  if h : t < 128 then
    ∑ k : Fin 4096, oh (seg (ix2 (⟨4096 * t + k.val, by have := k.isLt; omega⟩ : Fin 524288) 0)) (BitVec.ofNat 32 b.val)
      * x (ix2 (⟨4096 * t + k.val, by have := k.isLt; omega⟩ : Fin 524288) f)
  else 0

/-- The same of the squares. -/
def tileQ (x : (⟨2, ![524288, 256]⟩ : Shape).Idx → EReal) (seg : (⟨2, ![524288, 1]⟩ : Shape).Idx → BitVec 32)
    (b : Fin 128) (f : Fin 256) (t : ℕ) : EReal :=
  if h : t < 128 then
    ∑ k : Fin 4096, oh (seg (ix2 (⟨4096 * t + k.val, by have := k.isLt; omega⟩ : Fin 524288) 0)) (BitVec.ofNat 32 b.val)
      * (x (ix2 (⟨4096 * t + k.val, by have := k.isLt; omega⟩ : Fin 524288) f) * x (ix2 (⟨4096 * t + k.val, by have := k.isLt; omega⟩ : Fin 524288) f))
  else 0

theorem tileS_eq (c : Dev nD) (t : Fin cfg0.N) (b : Fin 128) (f : Fin 256) :
    ∑ k : Fin 4096, oh (iblk0 V c 1 t (ix2 k 0)) (BitVec.ofNat 32 b.val) * (iblk0 V c 0 t (ix2 k f) : EReal)
      = tileS (V c main_arg0) (V c main_v18) b f t.val := by
  have ht : t.val < 128 := lt_of_lt_of_eq t.isLt N_0
  unfold tileS; rw [dif_pos ht]
  refine Finset.sum_congr rfl fun k _ => ?_
  rw [iblk0_1_apply V c t k (by have := k.isLt; omega), iblk0_0_apply V c t k f (by have := k.isLt; omega)]

theorem tileQ_eq (c : Dev nD) (t : Fin cfg0.N) (b : Fin 128) (f : Fin 256) :
    ∑ k : Fin 4096, oh (iblk0 V c 1 t (ix2 k 0)) (BitVec.ofNat 32 b.val) * (@id EReal (iblk0 V c 0 t (ix2 k f)) * @id EReal (iblk0 V c 0 t (ix2 k f)))
      = tileQ (V c main_arg0) (V c main_v18) b f t.val := by
  have ht : t.val < 128 := lt_of_lt_of_eq t.isLt N_0
  unfold tileQ; rw [dif_pos ht]
  refine Finset.sum_congr rfl fun k _ => ?_
  rw [iblk0_1_apply V c t k (by have := k.isLt; omega), iblk0_0_apply V c t k f (by have := k.isLt; omega)]
  rfl

/-! ## The accumulators after each point -/

theorem acc_S (c : Dev nD) : ∀ (n : ℕ) (h : n < cfg0.N) (b : Fin 128) (f : Fin 256),
    (accAt0 V c n h).1 (ix2 b f) = ∑ t ∈ Finset.range (n + 1), tileS (V c main_arg0) (V c main_v18) b f t
  | 0, h, b, f => by
    rw [accAt0_zero V c h]
    show k0_pay4 (F := Ideal) (iblk0 V c 0 ⟨0, h⟩) (iblk0 V c 1 ⟨0, h⟩) (k0_pay1 (F := Ideal)) (ix2 b f) = _
    rw [pay4_apply, pay1_apply, zero_add, Finset.sum_range_one]
    exact tileS_eq V c ⟨0, h⟩ b f
  | n + 1, h, b, f => by
    rw [accAt0_succ V c n h]
    show k0_pay4 (F := Ideal) (iblk0 V c 0 ⟨n + 1, h⟩) (iblk0 V c 1 ⟨n + 1, h⟩) (accAt0 V c n (Nat.lt_of_succ_lt h)).1 (ix2 b f) = _
    rw [pay4_apply, acc_S c n (Nat.lt_of_succ_lt h) b f, Finset.sum_range_succ _ (n + 1)]
    exact congrArg (_ + ·) (tileS_eq V c ⟨n + 1, h⟩ b f)

theorem acc_Q (c : Dev nD) : ∀ (n : ℕ) (h : n < cfg0.N) (b : Fin 128) (f : Fin 256),
    (accAt0 V c n h).2 (ix2 b f) = ∑ t ∈ Finset.range (n + 1), tileQ (V c main_arg0) (V c main_v18) b f t
  | 0, h, b, f => by
    rw [accAt0_zero V c h]
    show k0_pay5 (F := Ideal) (iblk0 V c 0 ⟨0, h⟩) (iblk0 V c 1 ⟨0, h⟩) (k0_pay2 (F := Ideal)) (ix2 b f) = _
    rw [pay5_apply, pay2_apply, zero_add, Finset.sum_range_one]
    exact tileQ_eq V c ⟨0, h⟩ b f
  | n + 1, h, b, f => by
    rw [accAt0_succ V c n h]
    show k0_pay5 (F := Ideal) (iblk0 V c 0 ⟨n + 1, h⟩) (iblk0 V c 1 ⟨n + 1, h⟩) (accAt0 V c n (Nat.lt_of_succ_lt h)).2 (ix2 b f) = _
    rw [pay5_apply, acc_Q c n (Nat.lt_of_succ_lt h) b f, Finset.sum_range_succ _ (n + 1)]
    exact congrArg (_ + ·) (tileQ_eq V c ⟨n + 1, h⟩ b f)

/-! ## All tiles: the whole-array segment sums -/

theorem sum_tileS (x : (⟨2, ![524288, 256]⟩ : Shape).Idx → EReal) (seg : (⟨2, ![524288, 1]⟩ : Shape).Idx → BitVec 32)
    (b : Fin 128) (f : Fin 256) : ∑ t ∈ Finset.range 128, tileS x seg b f t = segS x seg b f := by
  unfold segS
  rw [sum_tiles (fun r => oh (seg (ix2 r 0)) (BitVec.ofNat 32 b.val) * x (ix2 r f)),
    ← Fin.sum_univ_eq_sum_range (fun t => tileS x seg b f t) 128]
  refine Finset.sum_congr rfl fun t _ => ?_
  unfold tileS; rw [dif_pos t.isLt]

theorem sum_tileQ (x : (⟨2, ![524288, 256]⟩ : Shape).Idx → EReal) (seg : (⟨2, ![524288, 1]⟩ : Shape).Idx → BitVec 32)
    (b : Fin 128) (f : Fin 256) : ∑ t ∈ Finset.range 128, tileQ x seg b f t = segQ x seg b f := by
  unfold segQ
  rw [sum_tiles (fun r => oh (seg (ix2 r 0)) (BitVec.ofNat 32 b.val) * (x (ix2 r f) * x (ix2 r f))),
    ← Fin.sum_univ_eq_sum_range (fun t => tileQ x seg b f t) 128]
  refine Finset.sum_congr rfl fun t _ => ?_
  unfold tileQ; rw [dif_pos t.isLt]

/-! ## The table -/

/-- The table's buffer after the last point is the specification's table. -/
theorem tbl_value (c : Dev nD) (t : Fin cfg0.N) (h127 : t.val = 127) :
    tblAt0 V c t = tableOf (V c main_arg0) (V c main_v18) (V c main_v20) (V c main_v21) (V c main_v22) := by
  have hS : ∀ b f, (accAt0 V c t.val t.isLt).1 (ix2 b f) = segS (V c main_arg0) (V c main_v18) b f := fun b f => by
    rw [acc_S V c t.val t.isLt b f, h127]; exact sum_tileS _ _ b f
  have hQ : ∀ b f, (accAt0 V c t.val t.isLt).2 (ix2 b f) = segQ (V c main_arg0) (V c main_v18) b f := fun b f => by
    rw [acc_Q V c t.val t.isLt b f, h127]; exact sum_tileQ _ _ b f
  funext y
  obtain ⟨b, j, rfl⟩ : ∃ (b : Fin 128) (j : Fin 512), y = ix2 b j := ⟨y 0, y 1, eq_ix2 y⟩
  rw [tblAt0_last V c t h127]
  show halves _ _ (ix2 b j) = tableAt _ _ _ _ _ b j
  unfold halves tableAt
  dsimp only
  by_cases hj : j.val < 256
  · rw [dif_pos hj, dif_pos hj, pay8_apply, hS, hQ, iblk0_2_apply, iblk0_3_apply]
  · rw [dif_neg hj, dif_neg hj, pay9_apply, hS, hQ, iblk0_2_apply, iblk0_3_apply, iblk0_4_apply]

/-! ## The write-back -/

theorem flushed_eq (c : Dev nD) (t : Fin cfg0.N) (hf : (cfg0.win 5).flush t = true) :
    (dat0 V c).flushed 5 t = ((cfg0.win 5).blk t).view.read (Elt Ideal)
      (tableOf (V c main_arg0) (V c main_v18) (V c main_v20) (V c main_v21) (V c main_v22)) := by
  have hN : cfg0.N = 128 := N_0
  have h127 : t.val = 127 := by have := (flush0_5 t).mp hf; have := t.isLt; omega
  show (cfg0.win 5).cut (grid0.coords t) ((dat0 V c).after 5 t) = _
  rw [after0_5, tbl_value V c t h127]
  have hz' : (fun a => win0_5.index t a * main_v23.ty.shape.size a) = fun _ => 0 := funext fun a => by
    match a with
    | ⟨0, _⟩ => show win0_5.index t 0 * _ = 0; rw [(index0_5 t).1, Nat.zero_mul]
    | ⟨1, _⟩ => show win0_5.index t 1 * _ = 0; rw [(index0_5 t).2, Nat.zero_mul]
  exact (Memref.read_access_unit_zero (Elt Ideal) main_v23 hz' (fun a => by rw [congrFun hz' a]; simp) _).symm

/-- The last grid point. -/
def t127 : Fin cfg0.N := ⟨127, by rw [show cfg0.N = 128 from N_0]; decide⟩

/-- THE TABLE REGION 0 LEAVES: the specification's, over the buffers' contents on entry. -/
theorem table_final (c : Dev nD) :
    (dat0 (F := Ideal) V c).arrAt 5 cfg0.N
      = tableOf (V c main_arg0) (V c main_v18) (V c main_v20) (V c main_v21) (V c main_v22) :=
  (dat0 V c).arrAt_eq_of_cover 5 _ (flushed_eq V c) fun i =>
    ⟨t127, (flush0_5 t127).mpr rfl, by
      have he : ((cfg0.win 5).blk t127).view.emb (i : ((cfg0.win 5).xblock (grid0.coords t127)).Idx) = i := by
        funext a; apply Fin.ext
        exact win0_5.rect_emb_val_of_index_zero t127 a (by
          match a with
          | ⟨0, _⟩ => exact (index0_5 t127).1
          | ⟨1, _⟩ => exact (index0_5 t127).2) i
      rw [← he]; exact View.emb_mem_set _ _⟩

end Cert.KernelIdeal.Hand0

end
-- ==== Proof.KRunMain.lean ====
/- The run of @main at the ideal instance, read whole: the output array is the normalised rows of the launched data with
   the segment words, the divisors, the weight and the bias as the host stretches leave them before the first region;
   the arguments end as launched. -/
import proofs.«122487_j41781441855970_1_alg».proof.Proof.KRunValue
import proofs.«122487_j41781441855970_1_alg».proof.Proof.K0Value

set_option maxRecDepth 16384

noncomputable section

namespace Cert.KernelIdeal.HandRun

open Cert.KernelIdeal.Gen Cert.KernelIdeal.Hand1
open Idealize.ShloMosaic Idealize.ShloMosaic.TcCoe Idealize.SL.Sem
open Idealize.ShloMosaic.Pipeline (Dat)
open Cert.RaggedNorm

variable (m : (ℓ : Loc nD τ sig) → Buf (Elt Ideal) ℓ) (ρ : Dev nD → PrngReg)

/-- The table the first region leaves, from the launched data and what the host stretches leave before it. -/
theorem table_run (c : Dev nD) :
    (Hand0.dat0 (F := Ideal) (T9 m) c).arrAt 5 cfg0.N
      = tableOf (m ((c : Thread nD τ).loc main_arg0)) (V9 m c (Proc.devRef .tc main_v18)) (V9 m c (Proc.devRef .tc main_v20))
          (V9 m c (Proc.devRef .tc main_v21)) (V9 m c (Proc.devRef .tc main_v22)) := by
  rw [Hand0.table_final (T9 m) c, T9_main_arg0 m c]

/-- THE RUN at the ideal instance: every weakly fair execution of @main from memory m with zero counters terminates,
    and every final memory holds in the output array the rows normalised by the table of scales and shifts, and each
    argument array as launched. -/
theorem run_main : θ_run (defs (F := Ideal)) (onTc (τ := τ) (main (F := Ideal))) ⟨m, fun _ => 0, ρ⟩ (fun r => ∀ c : Dev nD,
      r.2.mem ((c.tc : Thread nD τ).loc main_v24)
        = outOf (m ((c : Thread nD τ).loc main_arg0)) (V9 m c (Proc.devRef .tc main_v18))
            (tableOf (m ((c : Thread nD τ).loc main_arg0)) (V9 m c (Proc.devRef .tc main_v18)) (V9 m c (Proc.devRef .tc main_v20))
              (V9 m c (Proc.devRef .tc main_v21)) (V9 m c (Proc.devRef .tc main_v22)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (congrArg (outOf _ _) (table_run m c)), (h c).2⟩) (run_out m ρ)

end Cert.KernelIdeal.HandRun

end
-- ==== Proof.ROps.lean ====
/-
  The reference program's @main as a list of its 97 host operations, the operations of the functions it calls
  listed at their call sites over each call's buffer record, in seven consecutive windows; @main is the
  straight line of that list, no buffer or semaphore of the signature is scoped, and every operation touches
  TensorCore references only.
-/
import proofs.«122487_j41781441855970_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The segment starts: the iota, the lengths rolled by one place, the first entry overwritten with zero, the running sum. -/
abbrev opsW1 : List (HloOp τ sig (Elt F)) :=
  [ nullary main_v0 (iotaInDim S128 32 0),
    TRef.unary (.of main_arg1 : TRef sig ⟨S128, .i32⟩) main_call0.v0 (extractStridedSlice S1 ![127] · slices_S128_S1_127),
    TRef.unary (.of main_arg1 : TRef sig ⟨S128, .i32⟩) main_call0.v1 (extractStridedSlice S127 ![0] · slices_S128_S127_0),
    TRef.binary main_call0.v0 main_call0.v1 main_call0.v2 (fun a b => concatenate S128 0 [⟨S1, a⟩, ⟨S127, b⟩] concatenates_S1_S127_S128_d0),
    nullary main_c (constantI S_ 32 0#32),
    unary main_c main_v2 (broadcastInDim S1 ![] bcast_S_S1 : (⟨S_, .i32⟩ : BufTy).Contents (Elt F) → (⟨S1, .i32⟩ : BufTy).Contents (Elt F)),
    nullary main_c_0 (constantI S_ 32 0#32),
    ternary main_v1 main_v2 main_c_0 main_v3 ((fun x i u => Host.scatter scatter_S128_S1_S__n_0_0_0 (fun _ b => b) x i u) : (⟨S128, .i32⟩ : BufTy).Contents (Elt F) → (⟨S1, .i32⟩ : BufTy).Contents (Elt F) → (⟨S_, .i32⟩ : BufTy).Contents (Elt F) → (⟨S128, .i32⟩ : BufTy).Contents (Elt F)),
    TRef.nullary main_call1.call0.c (constantI S_ 32 0#32),
    TRef.unary main_call1.call0.c main_call1.call0.v0 (broadcastInDim S_ ![] bcast_S_S_),
    TRef.binary (.of main_v3 : TRef sig ⟨S128, .i32⟩) main_call1.call0.v0 main_call1.call0.v1 (fun x v => Host.reduceWindow IntOp.addi ![128] ![1] ![127] ![0] x v reduceWindows_S128_S128_w128s1p127_0 h_S_) ]

/-- The marks: one added at every segment start (a start below zero wrapped by the row count). -/
abbrev opsW2 : List (HloOp τ sig (Elt F)) :=
  [ nullary main_c_1 (constantI S_ 32 0#32),
    unary main_c_1 main_v5 (broadcastInDim S524288 ![] bcast_S_S524288 : (⟨S_, .i32⟩ : BufTy).Contents (Elt F) → (⟨S524288, .i32⟩ : BufTy).Contents (Elt F)),
    nullary main_c_2 (constantI S_ 32 0#32),
    unary main_c_2 main_v6 (broadcastInDim S128 ![] bcast_S_S128 : (⟨S_, .i32⟩ : BufTy).Contents (Elt F) → (⟨S128, .i32⟩ : BufTy).Contents (Elt F)),
    binary main_v4 main_v6 main_v7 (cmpi .slt : (⟨S128, .i32⟩ : BufTy).Contents (Elt F) → (⟨S128, .i32⟩ : BufTy).Contents (Elt F) → (⟨S128, .i1⟩ : BufTy).Contents (Elt F)),
    nullary main_c_3 (constantI S_ 32 524288#32),
    unary main_c_3 main_v8 (broadcastInDim S128 ![] bcast_S_S128 : (⟨S_, .i32⟩ : BufTy).Contents (Elt F) → (⟨S128, .i32⟩ : BufTy).Contents (Elt F)),
    binary main_v4 main_v8 main_v9 (addi : (⟨S128, .i32⟩ : BufTy).Contents (Elt F) → (⟨S128, .i32⟩ : BufTy).Contents (Elt F) → (⟨S128, .i32⟩ : BufTy).Contents (Elt F)),
    ternary main_v7 main_v9 main_v4 main_v10 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    unary main_v10 main_v11 (broadcastInDim S128x1 ![0] bcast_S128_S128x1_0 : (⟨S128, .i32⟩ : BufTy).Contents (Elt F) → (⟨S128x1, .i32⟩ : BufTy).Contents (Elt F)),
    nullary main_c_4 (constantI S_ 32 1#32),
    unary main_c_4 main_v12 (broadcastInDim S128 ![] bcast_S_S128 : (⟨S_, .i32⟩ : BufTy).Contents (Elt F) → (⟨S128, .i32⟩ : BufTy).Contents (Elt F)),
    ternary main_v5 main_v11 main_v12 main_v13 ((fun x i u => Host.scatter scatter_S524288_S128x1_S128_n_0_0_1 IntOp.addi x i u) : (⟨S524288, .i32⟩ : BufTy).Contents (Elt F) → (⟨S128x1, .i32⟩ : BufTy).Contents (Elt F) → (⟨S128, .i32⟩ : BufTy).Contents (Elt F) → (⟨S524288, .i32⟩ : BufTy).Contents (Elt F)) ]

/-- The row's segment position: the running sum of the marks, less one. -/
abbrev opsW3 : List (HloOp τ sig (Elt F)) :=
  [ TRef.nullary main_call2.call0.c (constantI S_ 32 0#32),
    TRef.unary main_call2.call0.c main_call2.call0.v0 (broadcastInDim S_ ![] bcast_S_S_),
    TRef.binary (.of main_v13 : TRef sig ⟨S524288, .i32⟩) main_call2.call0.v0 main_call2.call0.v1 (fun x v => Host.reduceWindow IntOp.addi ![524288] ![1] ![524287] ![0] x v reduceWindows_S524288_S524288_w524288s1p524287_0 h_S_),
    nullary main_c_5 (constantI S_ 32 1#32),
    unary main_c_5 main_v15 (broadcastInDim S524288 ![] bcast_S_S524288 : (⟨S_, .i32⟩ : BufTy).Contents (Elt F) → (⟨S524288, .i32⟩ : BufTy).Contents (Elt F)),
    binary main_v14 main_v15 main_v16 (subi : (⟨S524288, .i32⟩ : BufTy).Contents (Elt F) → (⟨S524288, .i32⟩ : BufTy).Contents (Elt F) → (⟨S524288, .i32⟩ : BufTy).Contents (Elt F)) ]

/-- The take of the iota at the positions: the position wrapped, the bounds test, the gather, the fill value where out of bounds. -/
abbrev opsW4 : List (HloOp τ sig (Elt F)) :=
  [ TRef.nullary main_call3.c (constantI S_ 32 0#32),
    TRef.unary main_call3.c main_call3.v0 (broadcastInDim S524288 ![] bcast_S_S524288),
    TRef.binary (.of main_v16 : TRef sig ⟨S524288, .i32⟩) main_call3.v0 main_call3.v1 (cmpi .slt),
    TRef.nullary main_call3.c_0 (constantI S_ 32 128#32),
    TRef.unary main_call3.c_0 main_call3.v2 (broadcastInDim S524288 ![] bcast_S_S524288),
    TRef.binary (.of main_v16 : TRef sig ⟨S524288, .i32⟩) main_call3.v2 main_call3.v3 addi,
    TRef.ternary main_call3.v1 main_call3.v3 (.of main_v16 : TRef sig ⟨S524288, .i32⟩) main_call3.call0.v0 select,
    TRef.unary main_call3.call0.v0 main_call3.v5 (broadcastInDim S524288x1 ![0] bcast_S524288_S524288x1_0),
    TRef.nullary main_call3.c_1 (constantI S1 32 127#32),
    TRef.nullary main_call3.c_2 (constantI S_ 32 0#32),
    TRef.unary main_call3.c_2 main_call3.v6 (broadcastInDim S524288x1 ![] bcast_S_S524288x1),
    TRef.binary main_call3.v5 main_call3.v6 main_call3.v7 (cmpi .sge),
    TRef.unary main_call3.c_1 main_call3.v8 (broadcastInDim S1x1 ![1] bcast_S1_S1x1_1),
    TRef.unary main_call3.v8 main_call3.v9 (broadcastInDim S524288x1 ![0, 1] bcast_S1x1_S524288x1_0_1),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S524288x1_S524288_d1 h_S_),
    TRef.binary (.of main_v0 : TRef sig ⟨S128, .i32⟩) main_call3.v5 main_call3.v13 (fun x i => Host.gather gather_S128_S524288x1_S524288_n_0_n_n_0_1_1 x i),
    TRef.nullary main_call3.c_4 (constantI S_ 32 2147483648#32),
    TRef.unary main_call3.c_4 main_call3.v14 (broadcastInDim S524288 ![] bcast_S_S524288),
    TRef.ternary main_call3.v12 main_call3.v13 main_call3.v14 main_call3.v15 select ]

/-- The counts as floats, the segment sums of the rows, the mean, its gather at the (wrapped) segment ids, the centred rows. -/
abbrev opsW5 : List (HloOp τ sig (Elt F)) :=
  [ unary main_arg1 main_v18 (sitofp .f32 : (⟨S128, .i32⟩ : BufTy).Contents (Elt F) → (⟨S128, .f32⟩ : BufTy).Contents (Elt F)),
    unary main_v18 main_v19 (broadcastInDim S128x1 ![0] bcast_S128_S128x1_0 : (⟨S128, .f32⟩ : BufTy).Contents (Elt F) → (⟨S128x1, .f32⟩ : BufTy).Contents (Elt F)),
    nullary main_cst (constant S_ .f32 0x00000000#32),
    unary main_cst main_v20 (broadcastInDim S128x256 ![] bcast_S_S128x256 : (⟨S_, .f32⟩ : BufTy).Contents (Elt F) → (⟨S128x256, .f32⟩ : BufTy).Contents (Elt F)),
    unary main_v17 main_v21 (broadcastInDim S524288x1 ![0] bcast_S524288_S524288x1_0 : (⟨S524288, .i32⟩ : BufTy).Contents (Elt F) → (⟨S524288x1, .i32⟩ : BufTy).Contents (Elt F)),
    ternary main_v20 main_v21 main_arg0 main_v22 ((fun x i u => Host.scatterAdd scatter_S128x256_S524288x1_S524288x256_1_0_0_1 x i u) : (⟨S128x256, .f32⟩ : BufTy).Contents (Elt F) → (⟨S524288x1, .i32⟩ : BufTy).Contents (Elt F) → (⟨S524288x256, .f32⟩ : BufTy).Contents (Elt F) → (⟨S128x256, .f32⟩ : BufTy).Contents (Elt F)),
    unary main_v19 main_v23 (broadcastInDim S128x256 ![0, 1] bcast_S128x1_S128x256_0_1 : (⟨S128x1, .f32⟩ : BufTy).Contents (Elt F) → (⟨S128x256, .f32⟩ : BufTy).Contents (Elt F)),
    binary main_v22 main_v23 main_v24 (Host.divf : (⟨S128x256, .f32⟩ : BufTy).Contents (Elt F) → (⟨S128x256, .f32⟩ : BufTy).Contents (Elt F) → (⟨S128x256, .f32⟩ : BufTy).Contents (Elt F)),
    nullary main_c_6 (constantI S_ 32 0#32),
    unary main_c_6 main_v25 (broadcastInDim S524288 ![] bcast_S_S524288 : (⟨S_, .i32⟩ : BufTy).Contents (Elt F) → (⟨S524288, .i32⟩ : BufTy).Contents (Elt F)),
    binary main_v17 main_v25 main_v26 (cmpi .slt : (⟨S524288, .i32⟩ : BufTy).Contents (Elt F) → (⟨S524288, .i32⟩ : BufTy).Contents (Elt F) → (⟨S524288, .i1⟩ : BufTy).Contents (Elt F)),
    nullary main_c_7 (constantI S_ 32 128#32),
    unary main_c_7 main_v27 (broadcastInDim S524288 ![] bcast_S_S524288 : (⟨S_, .i32⟩ : BufTy).Contents (Elt F) → (⟨S524288, .i32⟩ : BufTy).Contents (Elt F)),
    binary main_v17 main_v27 main_v28 (addi : (⟨S524288, .i32⟩ : BufTy).Contents (Elt F) → (⟨S524288, .i32⟩ : BufTy).Contents (Elt F) → (⟨S524288, .i32⟩ : BufTy).Contents (Elt F)),
    ternary main_v26 main_v28 main_v17 main_v29 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v29 main_v30 (broadcastInDim S524288x1 ![0] bcast_S524288_S524288x1_0 : (⟨S524288, .i32⟩ : BufTy).Contents (Elt F) → (⟨S524288x1, .i32⟩ : BufTy).Contents (Elt F)),
    binary main_v24 main_v30 main_v31 ((fun x i => Host.gather gather_S128x256_S524288x1_S524288x256_1_0_n_n_0_1_1256 x i) : (⟨S128x256, .f32⟩ : BufTy).Contents (Elt F) → (⟨S524288x1, .i32⟩ : BufTy).Contents (Elt F) → (⟨S524288x256, .f32⟩ : BufTy).Contents (Elt F)),
    binary main_arg0 main_v31 main_v32 (subf : (⟨S524288x256, .f32⟩ : BufTy).Contents (Elt F) → (⟨S524288x256, .f32⟩ : BufTy).Contents (Elt F) → (⟨S524288x256, .f32⟩ : BufTy).Contents (Elt F)) ]

/-- The squares, their segment sums, the variance, the standard deviation; the comparison and the sum that wrap the ids for the last gather. -/
abbrev opsW6 : List (HloOp τ sig (Elt F)) :=
  [ binary main_v32 main_v32 main_v33 (mulf : (⟨S524288x256, .f32⟩ : BufTy).Contents (Elt F) → (⟨S524288x256, .f32⟩ : BufTy).Contents (Elt F) → (⟨S524288x256, .f32⟩ : BufTy).Contents (Elt F)),
    nullary main_cst_8 (constant S_ .f32 0x00000000#32),
    unary main_cst_8 main_v34 (broadcastInDim S128x256 ![] bcast_S_S128x256 : (⟨S_, .f32⟩ : BufTy).Contents (Elt F) → (⟨S128x256, .f32⟩ : BufTy).Contents (Elt F)),
    unary main_v17 main_v35 (broadcastInDim S524288x1 ![0] bcast_S524288_S524288x1_0 : (⟨S524288, .i32⟩ : BufTy).Contents (Elt F) → (⟨S524288x1, .i32⟩ : BufTy).Contents (Elt F)),
    ternary main_v34 main_v35 main_v33 main_v36 ((fun x i u => Host.scatterAdd scatter_S128x256_S524288x1_S524288x256_1_0_0_1 x i u) : (⟨S128x256, .f32⟩ : BufTy).Contents (Elt F) → (⟨S524288x1, .i32⟩ : BufTy).Contents (Elt F) → (⟨S524288x256, .f32⟩ : BufTy).Contents (Elt F) → (⟨S128x256, .f32⟩ : BufTy).Contents (Elt F)),
    unary main_v19 main_v37 (broadcastInDim S128x256 ![0, 1] bcast_S128x1_S128x256_0_1 : (⟨S128x1, .f32⟩ : BufTy).Contents (Elt F) → (⟨S128x256, .f32⟩ : BufTy).Contents (Elt F)),
    binary main_v36 main_v37 main_v38 (Host.divf : (⟨S128x256, .f32⟩ : BufTy).Contents (Elt F) → (⟨S128x256, .f32⟩ : BufTy).Contents (Elt F) → (⟨S128x256, .f32⟩ : BufTy).Contents (Elt F)),
    nullary main_cst_9 (constant S_ .f32 0x3727C5AC#32),
    unary main_cst_9 main_v39 (broadcastInDim S128x256 ![] bcast_S_S128x256 : (⟨S_, .f32⟩ : BufTy).Contents (Elt F) → (⟨S128x256, .f32⟩ : BufTy).Contents (Elt F)),
    binary main_v38 main_v39 main_v40 (addf : (⟨S128x256, .f32⟩ : BufTy).Contents (Elt F) → (⟨S128x256, .f32⟩ : BufTy).Contents (Elt F) → (⟨S128x256, .f32⟩ : BufTy).Contents (Elt F)),
    unary main_v40 main_v41 (Host.sqrt : (⟨S128x256, .f32⟩ : BufTy).Contents (Elt F) → (⟨S128x256, .f32⟩ : BufTy).Contents (Elt F)),
    nullary main_c_10 (constantI S_ 32 0#32),
    unary main_c_10 main_v42 (broadcastInDim S524288 ![] bcast_S_S524288 : (⟨S_, .i32⟩ : BufTy).Contents (Elt F) → (⟨S524288, .i32⟩ : BufTy).Contents (Elt F)),
    binary main_v17 main_v42 main_v43 (cmpi .slt : (⟨S524288, .i32⟩ : BufTy).Contents (Elt F) → (⟨S524288, .i32⟩ : BufTy).Contents (Elt F) → (⟨S524288, .i1⟩ : BufTy).Contents (Elt F)),
    nullary main_c_11 (constantI S_ 32 128#32),
    unary main_c_11 main_v44 (broadcastInDim S524288 ![] bcast_S_S524288 : (⟨S_, .i32⟩ : BufTy).Contents (Elt F) → (⟨S524288, .i32⟩ : BufTy).Contents (Elt F)),
    binary main_v17 main_v44 main_v45 (addi : (⟨S524288, .i32⟩ : BufTy).Contents (Elt F) → (⟨S524288, .i32⟩ : BufTy).Contents (Elt F) → (⟨S524288, .i32⟩ : BufTy).Contents (Elt F)) ]

/-- The last gather, the quotient, the scale and the shift. -/
abbrev opsW7 : List (HloOp τ sig (Elt F)) :=
  [ ternary main_v43 main_v45 main_v17 main_v46 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v46 main_v47 (broadcastInDim S524288x1 ![0] bcast_S524288_S524288x1_0 : (⟨S524288, .i32⟩ : BufTy).Contents (Elt F) → (⟨S524288x1, .i32⟩ : BufTy).Contents (Elt F)),
    binary main_v41 main_v47 main_v48 ((fun x i => Host.gather gather_S128x256_S524288x1_S524288x256_1_0_n_n_0_1_1256 x i) : (⟨S128x256, .f32⟩ : BufTy).Contents (Elt F) → (⟨S524288x1, .i32⟩ : BufTy).Contents (Elt F) → (⟨S524288x256, .f32⟩ : BufTy).Contents (Elt F)),
    binary main_v32 main_v48 main_v49 (Host.divf : (⟨S524288x256, .f32⟩ : BufTy).Contents (Elt F) → (⟨S524288x256, .f32⟩ : BufTy).Contents (Elt F) → (⟨S524288x256, .f32⟩ : BufTy).Contents (Elt F)),
    unary main_arg2 main_v50 (broadcastInDim S1x256 ![1] bcast_S256_S1x256_1 : (⟨S256, .f32⟩ : BufTy).Contents (Elt F) → (⟨S1x256, .f32⟩ : BufTy).Contents (Elt F)),
    unary main_v50 main_v51 (broadcastInDim S524288x256 ![0, 1] bcast_S1x256_S524288x256_0_1 : (⟨S1x256, .f32⟩ : BufTy).Contents (Elt F) → (⟨S524288x256, .f32⟩ : BufTy).Contents (Elt F)),
    binary main_v49 main_v51 main_v52 (mulf : (⟨S524288x256, .f32⟩ : BufTy).Contents (Elt F) → (⟨S524288x256, .f32⟩ : BufTy).Contents (Elt F) → (⟨S524288x256, .f32⟩ : BufTy).Contents (Elt F)),
    unary main_arg3 main_v53 (broadcastInDim S1x256 ![1] bcast_S256_S1x256_1 : (⟨S256, .f32⟩ : BufTy).Contents (Elt F) → (⟨S1x256, .f32⟩ : BufTy).Contents (Elt F)),
    unary main_v53 main_v54 (broadcastInDim S524288x256 ![0, 1] bcast_S1x256_S524288x256_0_1 : (⟨S1x256, .f32⟩ : BufTy).Contents (Elt F) → (⟨S524288x256, .f32⟩ : BufTy).Contents (Elt F)),
    binary main_v52 main_v54 main_v55 (addf : (⟨S524288x256, .f32⟩ : BufTy).Contents (Elt F) → (⟨S524288x256, .f32⟩ : BufTy).Contents (Elt F) → (⟨S524288x256, .f32⟩ : BufTy).Contents (Elt F)) ]

/-- The first window of @main as printed: sixty statements, four of them calls. -/
abbrev ops0 : List (HloOp τ sig (Elt F)) := opsW1 ++ (opsW2 ++ (opsW3 ++ (opsW4 ++ (opsW5 ++ opsW6))))

/-- @main's 97 operations, in order. -/
abbrev ops : List (HloOp τ sig (Elt F)) := ops0 ++ opsW7

set_option maxRecDepth 8192 in
set_option maxHeartbeats 4000000 in
/-- The first printed window is the straight line of its operations: the called functions' definitions unfolded at
    their calls, both sides are one chain of steps once sequencing is reassociated. -/
theorem main_part0_eq (c : Dev nD) : main_part0 (F := F) c = seq ops0 := by
  simp only [main_part0, fn_roll_static.body, fn_cumsum.body, fn_cumsum_0.body, fn_cumsum_1.body, fn_cumsum_2.body,
    fn_take.body, fn_where.body, ops0, opsW1, opsW2, opsW3, opsW4, opsW5, opsW6, List.cons_append, List.nil_append,
    seq, bind_assoc, pure_bind]
  rfl

set_option maxRecDepth 8192 in
theorem main_part1_eq (c : Dev nD) : main_part1 (F := F) c = seq opsW7 := rfl

theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem opsW1_sub : (opsW1 : List (HloOp τ sig (Elt F))).Forall fun op => op.bufs ⊆ tcRefs τ sig :=
  ⟨nullary_bufs_sub .., unary_bufs_sub .., unary_bufs_sub .., binary_bufs_sub .., nullary_bufs_sub .., unary_bufs_sub .., nullary_bufs_sub .., ternary_bufs_sub .., nullary_bufs_sub .., unary_bufs_sub .., binary_bufs_sub ..⟩
theorem opsW2_sub : (opsW2 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩
theorem opsW3_sub : (opsW3 : List (HloOp τ sig (Elt F))).Forall fun op => op.bufs ⊆ tcRefs τ sig :=
  ⟨nullary_bufs_sub .., unary_bufs_sub .., binary_bufs_sub .., nullary_bufs_sub .., unary_bufs_sub .., binary_bufs_sub ..⟩
theorem opsW4_sub : (opsW4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩
theorem opsW5_sub : (opsW5 : List (HloOp τ sig (Elt F))).Forall fun op => op.bufs ⊆ tcRefs τ sig :=
  ⟨unary_bufs_sub .., unary_bufs_sub .., nullary_bufs_sub .., unary_bufs_sub .., unary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem opsW6_sub : (opsW6 : List (HloOp τ sig (Elt F))).Forall fun op => op.bufs ⊆ tcRefs τ sig :=
  ⟨binary_bufs_sub .., nullary_bufs_sub .., unary_bufs_sub .., unary_bufs_sub .., ternary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub ..⟩
theorem opsW7_sub : (opsW7 : List (HloOp τ sig (Elt F))).Forall fun op => op.bufs ⊆ tcRefs τ sig :=
  ⟨ternary_bufs_sub .., unary_bufs_sub .., binary_bufs_sub .., binary_bufs_sub .., unary_bufs_sub .., unary_bufs_sub .., binary_bufs_sub .., unary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, ops0, List.mem_append] at h
    rcases h with (h | h | h | h | h | h) | h
    exacts [List.forall_iff_forall_mem.mp opsW1_sub op h, List.forall_iff_forall_mem.mp opsW2_sub op h,
      List.forall_iff_forall_mem.mp opsW3_sub op h, List.forall_iff_forall_mem.mp opsW4_sub op h,
      List.forall_iff_forall_mem.mp opsW5_sub op h, List.forall_iff_forall_mem.mp opsW6_sub op h,
      List.forall_iff_forall_mem.mp opsW7_sub op h]

end Cert.ReferenceIdeal.Hand

end
-- ==== Proof.RStages.lean ====
/-
  The reference's host operations composed, stage by stage, as pure terms of the arguments: the segment id of
  every row (the lengths' running sum marked into the rows, summed again, and the iota taken at it), the counts
  as floats, the segment means, the centred rows, the segment variances and standard deviations, and the
  normalised, scaled and shifted output. Each stage is the printed operations' own term over the stage before.
-/
import proofs.«122487_j41781441855970_1_alg».proof.Proof.Gen.ReferenceIdeal
import Idealize.ShloMosaic.PureOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The iota over the segments. -/
def refIota : IVec S128 32 := iotaInDim S128 32 0

/-- The lengths rolled by one place: the last entry first, then the first 127. -/
def refRoll (lens : IVec S128 32) : IVec S128 32 :=
  concatenate S128 0 [⟨S1, extractStridedSlice S1 ![127] lens slices_S128_S1_127⟩,
    ⟨S127, extractStridedSlice S127 ![0] lens slices_S128_S127_0⟩] concatenates_S1_S127_S128_d0

/-- The segment starts: the rolled lengths with entry 0 overwritten by zero, summed from the left. -/
def refStarts (lens : IVec S128 32) : IVec S128 32 :=
  Host.reduceWindow IntOp.addi ![128] ![1] ![127] ![0]
    (Host.scatter scatter_S128_S1_S__n_0_0_0 (fun _ b => b) (refRoll lens)
      (broadcastInDim S1 ![] bcast_S_S1 (constantI S_ 32 0#32)) (constantI S_ 32 0#32))
    (broadcastInDim S_ ![] bcast_S_S_ (constantI S_ 32 0#32)) reduceWindows_S128_S128_w128s1p127_0 h_S_

/-- The starts as scatter positions: one below zero wrapped by the row count. -/
def refWrapStarts (starts : IVec S128 32) : IVec S128 32 :=
  select (cmpi .slt starts (broadcastInDim S128 ![] bcast_S_S128 (constantI S_ 32 0#32)))
    (addi starts (broadcastInDim S128 ![] bcast_S_S128 (constantI S_ 32 524288#32))) starts

/-- The marks: over zeros, one added at each start. -/
def refMarks (starts : IVec S128 32) : IVec S524288 32 :=
  Host.scatter scatter_S524288_S128x1_S128_n_0_0_1 IntOp.addi
    (broadcastInDim S524288 ![] bcast_S_S524288 (constantI S_ 32 0#32))
    (broadcastInDim S128x1 ![0] bcast_S128_S128x1_0 (refWrapStarts starts))
    (broadcastInDim S128 ![] bcast_S_S128 (constantI S_ 32 1#32))

/-- The row's position among the segments: the marks summed from the left, less one. -/
def refPos (marks : IVec S524288 32) : IVec S524288 32 :=
  subi
    (Host.reduceWindow IntOp.addi ![524288] ![1] ![524287] ![0] marks
      (broadcastInDim S_ ![] bcast_S_S_ (constantI S_ 32 0#32)) reduceWindows_S524288_S524288_w524288s1p524287_0 h_S_)
    (broadcastInDim S524288 ![] bcast_S_S524288 (constantI S_ 32 1#32))

/-- A position wrapped by the segment count where below zero, as a column of start indices. -/
def refTakeIdx (pos : IVec S524288 32) : IVec S524288x1 32 :=
  broadcastInDim S524288x1 ![0] bcast_S524288_S524288x1_0
    (select (cmpi .slt pos (broadcastInDim S524288 ![] bcast_S_S524288 (constantI S_ 32 0#32)))
      (addi pos (broadcastInDim S524288 ![] bcast_S_S524288 (constantI S_ 32 128#32))) pos)

/-- Whether a start index is within the table: at least zero and at most 127. -/
def refTakeInb (i : IVec S524288x1 32) : IVec S524288 1 :=
  Host.reduce IntOp.andi
    (andi (cmpi .sge i (broadcastInDim S524288x1 ![] bcast_S_S524288x1 (constantI S_ 32 0#32)))
      (cmpi .sle i (broadcastInDim S524288x1 ![0, 1] bcast_S1x1_S524288x1_0_1
        (broadcastInDim S1x1 ![1] bcast_S1_S1x1_1 (constantI S1 32 127#32)))))
    (constantI S_ 1 1#1) reducesTo_S524288x1_S524288_d1 h_S_

/-- The take of a table at positions: the gather where the (wrapped) position is within the table, the least
    integer elsewhere. -/
def refTake (tbl : IVec S128 32) (pos : IVec S524288 32) : IVec S524288 32 :=
  select (refTakeInb (refTakeIdx pos))
    (Host.gather gather_S128_S524288x1_S524288_n_0_n_n_0_1_1 tbl (refTakeIdx pos))
    (broadcastInDim S524288 ![] bcast_S_S524288 (constantI S_ 32 2147483648#32))

/-- The segment id of every row. -/
def refSeg (lens : IVec S128 32) : IVec S524288 32 :=
  refTake refIota (refPos (refMarks (refStarts lens)))

/-- The counts as a column of floats. -/
def refCnt (lens : IVec S128 32) : FVec F S128x1 .f32 :=
  broadcastInDim S128x1 ![0] bcast_S128_S128x1_0 (sitofp .f32 lens)

/-- The segment sums of an array's rows: added into zeros at each row's segment id. -/
def refSegSum (seg : IVec S524288 32) (u : FVec F S524288x256 .f32) : FVec F S128x256 .f32 :=
  Host.scatterAdd scatter_S128x256_S524288x1_S524288x256_1_0_0_1
    (broadcastInDim S128x256 ![] bcast_S_S128x256 (constant S_ .f32 0x00000000#32))
    (broadcastInDim S524288x1 ![0] bcast_S524288_S524288x1_0 seg) u

/-- A segment table divided by the counts. -/
def refPerCnt (cnt : FVec F S128x1 .f32) (t : FVec F S128x256 .f32) : FVec F S128x256 .f32 :=
  Host.divf t (broadcastInDim S128x256 ![0, 1] bcast_S128x1_S128x256_0_1 cnt)

/-- The segment ids as gather start indices: one below zero wrapped by the segment count. -/
def refRowIdx (seg : IVec S524288 32) : IVec S524288x1 32 :=
  broadcastInDim S524288x1 ![0] bcast_S524288_S524288x1_0
    (select (cmpi .slt seg (broadcastInDim S524288 ![] bcast_S_S524288 (constantI S_ 32 0#32)))
      (addi seg (broadcastInDim S524288 ![] bcast_S_S524288 (constantI S_ 32 128#32))) seg)

/-- A segment table read at every row's start index. -/
def refRowsAt (idx : IVec S524288x1 32) (t : FVec F S128x256 .f32) : FVec F S524288x256 .f32 :=
  Host.gather gather_S128x256_S524288x1_S524288x256_1_0_n_n_0_1_1256 t idx

/-- A segment table read at every row's segment id. -/
def refRows (seg : IVec S524288 32) (t : FVec F S128x256 .f32) : FVec F S524288x256 .f32 :=
  refRowsAt (refRowIdx seg) t

/-- The segment means. -/
def refMean (x : FVec F S524288x256 .f32) (seg : IVec S524288 32) (cnt : FVec F S128x1 .f32) : FVec F S128x256 .f32 :=
  refPerCnt cnt (refSegSum seg x)

/-- The rows less their segment's mean. -/
def refCentred (x : FVec F S524288x256 .f32) (seg : IVec S524288 32) (cnt : FVec F S128x1 .f32) :
    FVec F S524288x256 .f32 :=
  subf x (refRows seg (refMean x seg cnt))

/-- The segment standard deviations of centred rows: the square root of the mean square plus the constant. -/
def refStd (xc : FVec F S524288x256 .f32) (seg : IVec S524288 32) (cnt : FVec F S128x1 .f32) : FVec F S128x256 .f32 :=
  Host.sqrt (addf (refPerCnt cnt (refSegSum seg (mulf xc xc)))
    (broadcastInDim S128x256 ![] bcast_S_S128x256 (constant S_ .f32 0x3727C5AC#32)))

/-- The output from the centred rows, the rows' start indices and the deviations: the quotient, scaled and shifted
    by column. -/
def refAffineAt (xc : FVec F S524288x256 .f32) (idx : IVec S524288x1 32) (sd : FVec F S128x256 .f32)
    (w b : FVec F S256 .f32) : FVec F S524288x256 .f32 :=
  addf (mulf (Host.divf xc (refRowsAt idx sd))
      (broadcastInDim S524288x256 ![0, 1] bcast_S1x256_S524288x256_0_1 (broadcastInDim S1x256 ![1] bcast_S256_S1x256_1 w)))
    (broadcastInDim S524288x256 ![0, 1] bcast_S1x256_S524288x256_0_1 (broadcastInDim S1x256 ![1] bcast_S256_S1x256_1 b))

/-- The output from the centred rows and the deviations, the start indices the wrapped segment ids. -/
def refAffine (xc : FVec F S524288x256 .f32) (seg : IVec S524288 32) (sd : FVec F S128x256 .f32)
    (w b : FVec F S256 .f32) : FVec F S524288x256 .f32 :=
  refAffineAt xc (refRowIdx seg) sd w b

/-- The output over given segment ids and counts. -/
def refNorm (x : FVec F S524288x256 .f32) (seg : IVec S524288 32) (cnt : FVec F S128x1 .f32)
    (w b : FVec F S256 .f32) : FVec F S524288x256 .f32 :=
  refAffine (refCentred x seg cnt) seg (refStd (refCentred x seg cnt) seg cnt) w b

/-- What the reference leaves in its result: the operations' composed term of the four arguments. -/
def refOut (x : FVec F S524288x256 .f32) (lens : IVec S128 32) (w b : FVec F S256 .f32) : FVec F S524288x256 .f32 :=
  refNorm x (refSeg lens) (refCnt lens) w b

end Cert.ReferenceIdeal.Hand

end
-- ==== Proof.RWin1.lean ====
/-
  Window 1 of the reference's operations (the segment starts) read from ANY contents: a buffer it does not write keeps
  its contents, and each buffer a later window reads is one stage function of the contents it started from.
-/
import proofs.«122487_j41781441855970_1_alg».proof.Proof.ROps
import proofs.«122487_j41781441855970_1_alg».proof.Proof.RStages

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The buffers that the window's operations write. -/
abbrev opsW1_W : List (Ref sig .tc) := [main_v0, main_call0_v0, main_call0_v1, main_v1, main_c, main_v2, main_c_0, main_v3, main_call1_call0_c, main_call1_call0_v0, main_v4]

set_option maxRecDepth 8192 in
theorem opsW1_writes : (opsW1 : List (HloOp τ sig (Elt F))).Forall fun op => op.writes ⊆ (opsW1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer that the window does not write keeps its contents through it. -/
theorem w1_keep (W : Valuation τ sig (Elt F)) (r : Ref sig .tc) (h : r ∉ opsW1_W) :
    after opsW1 W (Proc.devRef .tc r) = W (Proc.devRef .tc r) :=
  after_of_writes_sub opsW1 W opsW1_writes h

attribute [local irreducible] Host.reduceWindow Host.scatter Host.gather Host.reduce Host.scatterAdd in
set_option maxRecDepth 8192 in
set_option maxHeartbeats 1100000 in
theorem w1_main_v0 (W : Valuation τ sig (Elt F)) :
    after opsW1 W (Proc.devRef .tc main_v0) = refIota := by
  simp only [opsW1]
  after_results_simp
  rfl

attribute [local irreducible] Host.reduceWindow Host.scatter Host.gather Host.reduce Host.scatterAdd in
set_option maxRecDepth 8192 in
set_option maxHeartbeats 1100000 in
theorem w1_main_v4 (W : Valuation τ sig (Elt F)) :
    after opsW1 W (Proc.devRef .tc main_v4) = refStarts (W (Proc.devRef .tc main_arg1)) := by
  simp only [opsW1]
  after_results_simp
  rfl

end Cert.ReferenceIdeal.Hand

end
-- ==== Proof.RWin2.lean ====
/-
  Window 2 of the reference's operations (the marks) read from ANY contents: a buffer it does not write keeps
  its contents, and each buffer a later window reads is one stage function of the contents it started from.
-/
import proofs.«122487_j41781441855970_1_alg».proof.Proof.ROps
import proofs.«122487_j41781441855970_1_alg».proof.Proof.RStages

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The buffers that the window's operations write. -/
abbrev opsW2_W : List (Ref sig .tc) := [main_c_1, main_v5, main_c_2, main_v6, main_v7, main_c_3, main_v8, main_v9, main_v10, main_v11, main_c_4, main_v12, main_v13]

set_option maxRecDepth 8192 in
theorem opsW2_writes : (opsW2 : List (HloOp τ sig (Elt F))).Forall fun op => op.writes ⊆ (opsW2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer that the window does not write keeps its contents through it. -/
theorem w2_keep (W : Valuation τ sig (Elt F)) (r : Ref sig .tc) (h : r ∉ opsW2_W) :
    after opsW2 W (Proc.devRef .tc r) = W (Proc.devRef .tc r) :=
  after_of_writes_sub opsW2 W opsW2_writes h

attribute [local irreducible] Host.reduceWindow Host.scatter Host.gather Host.reduce Host.scatterAdd in
set_option maxRecDepth 8192 in
set_option maxHeartbeats 1300000 in
theorem w2_main_v13 (W : Valuation τ sig (Elt F)) :
    after opsW2 W (Proc.devRef .tc main_v13) = refMarks (W (Proc.devRef .tc main_v4)) := by
  simp only [opsW2]
  after_results_simp
  rfl

end Cert.ReferenceIdeal.Hand

end
-- ==== Proof.RWin3.lean ====
/-
  Window 3 of the reference's operations (the positions) read from ANY contents: a buffer it does not write keeps
  its contents, and each buffer a later window reads is one stage function of the contents it started from.
-/
import proofs.«122487_j41781441855970_1_alg».proof.Proof.ROps
import proofs.«122487_j41781441855970_1_alg».proof.Proof.RStages

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The buffers that the window's operations write. -/
abbrev opsW3_W : List (Ref sig .tc) := [main_call2_call0_c, main_call2_call0_v0, main_v14, main_c_5, main_v15, main_v16]

set_option maxRecDepth 8192 in
theorem opsW3_writes : (opsW3 : List (HloOp τ sig (Elt F))).Forall fun op => op.writes ⊆ (opsW3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer that the window does not write keeps its contents through it. -/
theorem w3_keep (W : Valuation τ sig (Elt F)) (r : Ref sig .tc) (h : r ∉ opsW3_W) :
    after opsW3 W (Proc.devRef .tc r) = W (Proc.devRef .tc r) :=
  after_of_writes_sub opsW3 W opsW3_writes h

attribute [local irreducible] Host.reduceWindow Host.scatter Host.gather Host.reduce Host.scatterAdd in
set_option maxRecDepth 8192 in
set_option maxHeartbeats 600000 in
theorem w3_main_v16 (W : Valuation τ sig (Elt F)) :
    after opsW3 W (Proc.devRef .tc main_v16) = refPos (W (Proc.devRef .tc main_v13)) := by
  simp only [opsW3]
  after_results_simp
  rfl

end Cert.ReferenceIdeal.Hand

end
-- ==== Proof.RWin4.lean ====
/-
  Window 4 of the reference's operations (the take) read from ANY contents: a buffer it does not write keeps
  its contents, and each buffer a later window reads is one stage function of the contents it started from.
-/
import proofs.«122487_j41781441855970_1_alg».proof.Proof.ROps
import proofs.«122487_j41781441855970_1_alg».proof.Proof.RStages

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The buffers that the window's operations write. -/
abbrev opsW4_W : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_c_4, main_call3_v14, main_v17]

set_option maxRecDepth 8192 in
theorem opsW4_writes : (opsW4 : List (HloOp τ sig (Elt F))).Forall fun op => op.writes ⊆ (opsW4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer that the window does not write keeps its contents through it. -/
theorem w4_keep (W : Valuation τ sig (Elt F)) (r : Ref sig .tc) (h : r ∉ opsW4_W) :
    after opsW4 W (Proc.devRef .tc r) = W (Proc.devRef .tc r) :=
  after_of_writes_sub opsW4 W opsW4_writes h

attribute [local irreducible] Host.reduceWindow Host.scatter Host.gather Host.reduce Host.scatterAdd in
set_option maxRecDepth 8192 in
set_option maxHeartbeats 2200000 in
theorem w4_main_v17 (W : Valuation τ sig (Elt F)) :
    after opsW4 W (Proc.devRef .tc main_v17) = refTake (W (Proc.devRef .tc main_v0)) (W (Proc.devRef .tc main_v16)) := by
  simp only [opsW4]
  after_results_simp
  rfl

end Cert.ReferenceIdeal.Hand

end
-- ==== Proof.RWin5.lean ====
/-
  Window 5 of the reference's operations (the counts, the means and the centred rows) read from ANY contents: a buffer it does not write keeps
  its contents, and each buffer a later window reads is one stage function of the contents it started from.
-/
import proofs.«122487_j41781441855970_1_alg».proof.Proof.ROps
import proofs.«122487_j41781441855970_1_alg».proof.Proof.RStages

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The buffers that the window's operations write. -/
abbrev opsW5_W : List (Ref sig .tc) := [main_v18, main_v19, main_cst, main_v20, main_v21, main_v22, main_v23, main_v24, main_c_6, main_v25, main_v26, main_c_7, main_v27, main_v28, main_v29, main_v30, main_v31, main_v32]

set_option maxRecDepth 8192 in
theorem opsW5_writes : (opsW5 : List (HloOp τ sig (Elt F))).Forall fun op => op.writes ⊆ (opsW5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer that the window does not write keeps its contents through it. -/
theorem w5_keep (W : Valuation τ sig (Elt F)) (r : Ref sig .tc) (h : r ∉ opsW5_W) :
    after opsW5 W (Proc.devRef .tc r) = W (Proc.devRef .tc r) :=
  after_of_writes_sub opsW5 W opsW5_writes h

attribute [local irreducible] Host.reduceWindow Host.scatter Host.gather Host.reduce Host.scatterAdd in
set_option maxRecDepth 8192 in
set_option maxHeartbeats 1800000 in
theorem w5_main_v19 (W : Valuation τ sig (Elt F)) :
    after opsW5 W (Proc.devRef .tc main_v19) = refCnt (F := F) (W (Proc.devRef .tc main_arg1)) := by
  simp only [opsW5]
  after_results_simp
  rfl

attribute [local irreducible] Host.reduceWindow Host.scatter Host.gather Host.reduce Host.scatterAdd in
set_option maxRecDepth 8192 in
set_option maxHeartbeats 1800000 in
theorem w5_main_v32 (W : Valuation τ sig (Elt F)) :
    after opsW5 W (Proc.devRef .tc main_v32) = refCentred (W (Proc.devRef .tc main_arg0)) (W (Proc.devRef .tc main_v17)) (refCnt (F := F) (W (Proc.devRef .tc main_arg1))) := by
  simp only [opsW5]
  after_results_simp
  rfl

end Cert.ReferenceIdeal.Hand

end
-- ==== Proof.RWin6.lean ====
/-
  Window 6 of the reference's operations (the deviations and the ids' comparison and sum) read from ANY contents: a buffer it does not write keeps
  its contents, and each buffer a later window reads is one stage function of the contents it started from.
-/
import proofs.«122487_j41781441855970_1_alg».proof.Proof.ROps
import proofs.«122487_j41781441855970_1_alg».proof.Proof.RStages

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The buffers that the window's operations write. -/
abbrev opsW6_W : List (Ref sig .tc) := [main_v33, main_cst_8, main_v34, main_v35, main_v36, main_v37, main_v38, main_cst_9, main_v39, main_v40, main_v41, main_c_10, main_v42, main_v43, main_c_11, main_v44, main_v45]

set_option maxRecDepth 8192 in
theorem opsW6_writes : (opsW6 : List (HloOp τ sig (Elt F))).Forall fun op => op.writes ⊆ (opsW6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer that the window does not write keeps its contents through it. -/
theorem w6_keep (W : Valuation τ sig (Elt F)) (r : Ref sig .tc) (h : r ∉ opsW6_W) :
    after opsW6 W (Proc.devRef .tc r) = W (Proc.devRef .tc r) :=
  after_of_writes_sub opsW6 W opsW6_writes h

attribute [local irreducible] Host.reduceWindow Host.scatter Host.gather Host.reduce Host.scatterAdd in
set_option maxRecDepth 8192 in
set_option maxHeartbeats 1700000 in
theorem w6_main_v41 (W : Valuation τ sig (Elt F)) :
    after opsW6 W (Proc.devRef .tc main_v41) = refStd (W (Proc.devRef .tc main_v32)) (W (Proc.devRef .tc main_v17)) (W (Proc.devRef .tc main_v19)) := by
  simp only [opsW6]
  after_results_simp
  rfl

attribute [local irreducible] Host.reduceWindow Host.scatter Host.gather Host.reduce Host.scatterAdd in
set_option maxRecDepth 8192 in
set_option maxHeartbeats 1700000 in
theorem w6_main_v43 (W : Valuation τ sig (Elt F)) :
    after opsW6 W (Proc.devRef .tc main_v43) = cmpi .slt (W (Proc.devRef .tc main_v17)) (broadcastInDim S524288 ![] bcast_S_S524288 (constantI S_ 32 0#32)) := by
  simp only [opsW6]
  after_results_simp

attribute [local irreducible] Host.reduceWindow Host.scatter Host.gather Host.reduce Host.scatterAdd in
set_option maxRecDepth 8192 in
set_option maxHeartbeats 1700000 in
theorem w6_main_v45 (W : Valuation τ sig (Elt F)) :
    after opsW6 W (Proc.devRef .tc main_v45) = addi (W (Proc.devRef .tc main_v17)) (broadcastInDim S524288 ![] bcast_S_S524288 (constantI S_ 32 128#32)) := by
  simp only [opsW6]
  after_results_simp

end Cert.ReferenceIdeal.Hand

end
-- ==== Proof.RWin7.lean ====
/-
  Window 7 of the reference's operations (the output) read from ANY contents: a buffer it does not write keeps
  its contents, and each buffer a later window reads is one stage function of the contents it started from.
-/
import proofs.«122487_j41781441855970_1_alg».proof.Proof.ROps
import proofs.«122487_j41781441855970_1_alg».proof.Proof.RStages

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The buffers that the window's operations write. -/
abbrev opsW7_W : List (Ref sig .tc) := [main_v46, main_v47, main_v48, main_v49, main_v50, main_v51, main_v52, main_v53, main_v54, main_v55]

set_option maxRecDepth 8192 in
theorem opsW7_writes : (opsW7 : List (HloOp τ sig (Elt F))).Forall fun op => op.writes ⊆ (opsW7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer that the window does not write keeps its contents through it. -/
theorem w7_keep (W : Valuation τ sig (Elt F)) (r : Ref sig .tc) (h : r ∉ opsW7_W) :
    after opsW7 W (Proc.devRef .tc r) = W (Proc.devRef .tc r) :=
  after_of_writes_sub opsW7 W opsW7_writes h

attribute [local irreducible] Host.reduceWindow Host.scatter Host.gather Host.reduce Host.scatterAdd in
set_option maxRecDepth 8192 in
set_option maxHeartbeats 1000000 in
theorem w7_main_v55 (W : Valuation τ sig (Elt F)) :
    after opsW7 W (Proc.devRef .tc main_v55) = refAffineAt (W (Proc.devRef .tc main_v32)) (broadcastInDim S524288x1 ![0] bcast_S524288_S524288x1_0 (select (W (Proc.devRef .tc main_v43)) (W (Proc.devRef .tc main_v45)) (W (Proc.devRef .tc main_v17)))) (W (Proc.devRef .tc main_v41)) (W (Proc.devRef .tc main_arg2)) (W (Proc.devRef .tc main_arg3)) := by
  simp only [opsW7]
  after_results_simp
  rfl

end Cert.ReferenceIdeal.Hand

end
-- ==== Proof.RVals.lean ====
/-
  The windows composed: the contents after each window from any launch contents, and, for every buffer a later
  window still reads, its composed term of the four arguments — each window's stage function at the terms of
  the window before. The whole list is its windows in order.
-/
import proofs.«122487_j41781441855970_1_alg».proof.Proof.RWin1
import proofs.«122487_j41781441855970_1_alg».proof.Proof.RWin2
import proofs.«122487_j41781441855970_1_alg».proof.Proof.RWin3
import proofs.«122487_j41781441855970_1_alg».proof.Proof.RWin4
import proofs.«122487_j41781441855970_1_alg».proof.Proof.RWin5
import proofs.«122487_j41781441855970_1_alg».proof.Proof.RWin6
import proofs.«122487_j41781441855970_1_alg».proof.Proof.RWin7
import Idealize.ShloMosaic.Lib.Pipeline.Frame

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The device's buffer contents before the first window. -/
def val0 (V0 : Valuation τ sig (Elt F)) : Valuation τ sig (Elt F) := V0
theorem val0_main_arg0 (V0 : Valuation τ sig (Elt F)) : val0 V0 (Proc.devRef .tc main_arg0) = V0 (Proc.devRef .tc main_arg0) := rfl
theorem val0_main_arg1 (V0 : Valuation τ sig (Elt F)) : val0 V0 (Proc.devRef .tc main_arg1) = V0 (Proc.devRef .tc main_arg1) := rfl
theorem val0_main_arg2 (V0 : Valuation τ sig (Elt F)) : val0 V0 (Proc.devRef .tc main_arg2) = V0 (Proc.devRef .tc main_arg2) := rfl
theorem val0_main_arg3 (V0 : Valuation τ sig (Elt F)) : val0 V0 (Proc.devRef .tc main_arg3) = V0 (Proc.devRef .tc main_arg3) := rfl

/-- The device's buffer contents after the first 1 window. -/
def val1 (V0 : Valuation τ sig (Elt F)) : Valuation τ sig (Elt F) := after opsW1 (val0 V0)
theorem val1_main_arg0 (V0 : Valuation τ sig (Elt F)) : val1 V0 (Proc.devRef .tc main_arg0) = V0 (Proc.devRef .tc main_arg0) :=
  (w1_keep (val0 V0) main_arg0 (by decide)).trans (val0_main_arg0 V0)
theorem val1_main_arg1 (V0 : Valuation τ sig (Elt F)) : val1 V0 (Proc.devRef .tc main_arg1) = V0 (Proc.devRef .tc main_arg1) :=
  (w1_keep (val0 V0) main_arg1 (by decide)).trans (val0_main_arg1 V0)
theorem val1_main_arg2 (V0 : Valuation τ sig (Elt F)) : val1 V0 (Proc.devRef .tc main_arg2) = V0 (Proc.devRef .tc main_arg2) :=
  (w1_keep (val0 V0) main_arg2 (by decide)).trans (val0_main_arg2 V0)
theorem val1_main_arg3 (V0 : Valuation τ sig (Elt F)) : val1 V0 (Proc.devRef .tc main_arg3) = V0 (Proc.devRef .tc main_arg3) :=
  (w1_keep (val0 V0) main_arg3 (by decide)).trans (val0_main_arg3 V0)
theorem val1_main_v0 (V0 : Valuation τ sig (Elt F)) : val1 V0 (Proc.devRef .tc main_v0) = refIota := by
  unfold val1
  rw [w1_main_v0]
theorem val1_main_v4 (V0 : Valuation τ sig (Elt F)) : val1 V0 (Proc.devRef .tc main_v4) = refStarts (V0 (Proc.devRef .tc main_arg1)) := by
  unfold val1
  rw [w1_main_v4, val0_main_arg1]

/-- The device's buffer contents after the first 2 windows. -/
def val2 (V0 : Valuation τ sig (Elt F)) : Valuation τ sig (Elt F) := after opsW2 (val1 V0)
theorem val2_main_arg0 (V0 : Valuation τ sig (Elt F)) : val2 V0 (Proc.devRef .tc main_arg0) = V0 (Proc.devRef .tc main_arg0) :=
  (w2_keep (val1 V0) main_arg0 (by decide)).trans (val1_main_arg0 V0)
theorem val2_main_arg1 (V0 : Valuation τ sig (Elt F)) : val2 V0 (Proc.devRef .tc main_arg1) = V0 (Proc.devRef .tc main_arg1) :=
  (w2_keep (val1 V0) main_arg1 (by decide)).trans (val1_main_arg1 V0)
theorem val2_main_arg2 (V0 : Valuation τ sig (Elt F)) : val2 V0 (Proc.devRef .tc main_arg2) = V0 (Proc.devRef .tc main_arg2) :=
  (w2_keep (val1 V0) main_arg2 (by decide)).trans (val1_main_arg2 V0)
theorem val2_main_arg3 (V0 : Valuation τ sig (Elt F)) : val2 V0 (Proc.devRef .tc main_arg3) = V0 (Proc.devRef .tc main_arg3) :=
  (w2_keep (val1 V0) main_arg3 (by decide)).trans (val1_main_arg3 V0)
theorem val2_main_v0 (V0 : Valuation τ sig (Elt F)) : val2 V0 (Proc.devRef .tc main_v0) = refIota :=
  (w2_keep (val1 V0) main_v0 (by decide)).trans (val1_main_v0 V0)
theorem val2_main_v13 (V0 : Valuation τ sig (Elt F)) : val2 V0 (Proc.devRef .tc main_v13) = refMarks (refStarts (V0 (Proc.devRef .tc main_arg1))) := by
  unfold val2
  rw [w2_main_v13, val1_main_v4]

/-- The device's buffer contents after the first 3 windows. -/
def val3 (V0 : Valuation τ sig (Elt F)) : Valuation τ sig (Elt F) := after opsW3 (val2 V0)
theorem val3_main_arg0 (V0 : Valuation τ sig (Elt F)) : val3 V0 (Proc.devRef .tc main_arg0) = V0 (Proc.devRef .tc main_arg0) :=
  (w3_keep (val2 V0) main_arg0 (by decide)).trans (val2_main_arg0 V0)
theorem val3_main_arg1 (V0 : Valuation τ sig (Elt F)) : val3 V0 (Proc.devRef .tc main_arg1) = V0 (Proc.devRef .tc main_arg1) :=
  (w3_keep (val2 V0) main_arg1 (by decide)).trans (val2_main_arg1 V0)
theorem val3_main_arg2 (V0 : Valuation τ sig (Elt F)) : val3 V0 (Proc.devRef .tc main_arg2) = V0 (Proc.devRef .tc main_arg2) :=
  (w3_keep (val2 V0) main_arg2 (by decide)).trans (val2_main_arg2 V0)
theorem val3_main_arg3 (V0 : Valuation τ sig (Elt F)) : val3 V0 (Proc.devRef .tc main_arg3) = V0 (Proc.devRef .tc main_arg3) :=
  (w3_keep (val2 V0) main_arg3 (by decide)).trans (val2_main_arg3 V0)
theorem val3_main_v0 (V0 : Valuation τ sig (Elt F)) : val3 V0 (Proc.devRef .tc main_v0) = refIota :=
  (w3_keep (val2 V0) main_v0 (by decide)).trans (val2_main_v0 V0)
theorem val3_main_v16 (V0 : Valuation τ sig (Elt F)) : val3 V0 (Proc.devRef .tc main_v16) = refPos (refMarks (refStarts (V0 (Proc.devRef .tc main_arg1)))) := by
  unfold val3
  rw [w3_main_v16, val2_main_v13]

/-- The device's buffer contents after the first 4 windows. -/
def val4 (V0 : Valuation τ sig (Elt F)) : Valuation τ sig (Elt F) := after opsW4 (val3 V0)
theorem val4_main_arg0 (V0 : Valuation τ sig (Elt F)) : val4 V0 (Proc.devRef .tc main_arg0) = V0 (Proc.devRef .tc main_arg0) :=
  (w4_keep (val3 V0) main_arg0 (by decide)).trans (val3_main_arg0 V0)
theorem val4_main_arg1 (V0 : Valuation τ sig (Elt F)) : val4 V0 (Proc.devRef .tc main_arg1) = V0 (Proc.devRef .tc main_arg1) :=
  (w4_keep (val3 V0) main_arg1 (by decide)).trans (val3_main_arg1 V0)
theorem val4_main_arg2 (V0 : Valuation τ sig (Elt F)) : val4 V0 (Proc.devRef .tc main_arg2) = V0 (Proc.devRef .tc main_arg2) :=
  (w4_keep (val3 V0) main_arg2 (by decide)).trans (val3_main_arg2 V0)
theorem val4_main_arg3 (V0 : Valuation τ sig (Elt F)) : val4 V0 (Proc.devRef .tc main_arg3) = V0 (Proc.devRef .tc main_arg3) :=
  (w4_keep (val3 V0) main_arg3 (by decide)).trans (val3_main_arg3 V0)
theorem val4_main_v17 (V0 : Valuation τ sig (Elt F)) : val4 V0 (Proc.devRef .tc main_v17) = refSeg (V0 (Proc.devRef .tc main_arg1)) := by
  unfold val4
  rw [w4_main_v17, val3_main_v0, val3_main_v16]
  rfl

/-- The device's buffer contents after the first 5 windows. -/
def val5 (V0 : Valuation τ sig (Elt F)) : Valuation τ sig (Elt F) := after opsW5 (val4 V0)
theorem val5_main_arg0 (V0 : Valuation τ sig (Elt F)) : val5 V0 (Proc.devRef .tc main_arg0) = V0 (Proc.devRef .tc main_arg0) :=
  (w5_keep (val4 V0) main_arg0 (by decide)).trans (val4_main_arg0 V0)
theorem val5_main_arg1 (V0 : Valuation τ sig (Elt F)) : val5 V0 (Proc.devRef .tc main_arg1) = V0 (Proc.devRef .tc main_arg1) :=
  (w5_keep (val4 V0) main_arg1 (by decide)).trans (val4_main_arg1 V0)
theorem val5_main_arg2 (V0 : Valuation τ sig (Elt F)) : val5 V0 (Proc.devRef .tc main_arg2) = V0 (Proc.devRef .tc main_arg2) :=
  (w5_keep (val4 V0) main_arg2 (by decide)).trans (val4_main_arg2 V0)
theorem val5_main_arg3 (V0 : Valuation τ sig (Elt F)) : val5 V0 (Proc.devRef .tc main_arg3) = V0 (Proc.devRef .tc main_arg3) :=
  (w5_keep (val4 V0) main_arg3 (by decide)).trans (val4_main_arg3 V0)
theorem val5_main_v17 (V0 : Valuation τ sig (Elt F)) : val5 V0 (Proc.devRef .tc main_v17) = refSeg (V0 (Proc.devRef .tc main_arg1)) :=
  (w5_keep (val4 V0) main_v17 (by decide)).trans (val4_main_v17 V0)
theorem val5_main_v19 (V0 : Valuation τ sig (Elt F)) : val5 V0 (Proc.devRef .tc main_v19) = refCnt (F := F) (V0 (Proc.devRef .tc main_arg1)) := by
  unfold val5
  rw [w5_main_v19, val4_main_arg1]
theorem val5_main_v32 (V0 : Valuation τ sig (Elt F)) : val5 V0 (Proc.devRef .tc main_v32) = refCentred (V0 (Proc.devRef .tc main_arg0)) (refSeg (V0 (Proc.devRef .tc main_arg1))) (refCnt (F := F) (V0 (Proc.devRef .tc main_arg1))) := by
  unfold val5
  rw [w5_main_v32, val4_main_arg0, val4_main_v17, val4_main_arg1]

/-- The device's buffer contents after the first 6 windows. -/
def val6 (V0 : Valuation τ sig (Elt F)) : Valuation τ sig (Elt F) := after opsW6 (val5 V0)
theorem val6_main_arg0 (V0 : Valuation τ sig (Elt F)) : val6 V0 (Proc.devRef .tc main_arg0) = V0 (Proc.devRef .tc main_arg0) :=
  (w6_keep (val5 V0) main_arg0 (by decide)).trans (val5_main_arg0 V0)
theorem val6_main_arg1 (V0 : Valuation τ sig (Elt F)) : val6 V0 (Proc.devRef .tc main_arg1) = V0 (Proc.devRef .tc main_arg1) :=
  (w6_keep (val5 V0) main_arg1 (by decide)).trans (val5_main_arg1 V0)
theorem val6_main_arg2 (V0 : Valuation τ sig (Elt F)) : val6 V0 (Proc.devRef .tc main_arg2) = V0 (Proc.devRef .tc main_arg2) :=
  (w6_keep (val5 V0) main_arg2 (by decide)).trans (val5_main_arg2 V0)
theorem val6_main_arg3 (V0 : Valuation τ sig (Elt F)) : val6 V0 (Proc.devRef .tc main_arg3) = V0 (Proc.devRef .tc main_arg3) :=
  (w6_keep (val5 V0) main_arg3 (by decide)).trans (val5_main_arg3 V0)
theorem val6_main_v17 (V0 : Valuation τ sig (Elt F)) : val6 V0 (Proc.devRef .tc main_v17) = refSeg (V0 (Proc.devRef .tc main_arg1)) :=
  (w6_keep (val5 V0) main_v17 (by decide)).trans (val5_main_v17 V0)
theorem val6_main_v32 (V0 : Valuation τ sig (Elt F)) : val6 V0 (Proc.devRef .tc main_v32) = refCentred (V0 (Proc.devRef .tc main_arg0)) (refSeg (V0 (Proc.devRef .tc main_arg1))) (refCnt (F := F) (V0 (Proc.devRef .tc main_arg1))) :=
  (w6_keep (val5 V0) main_v32 (by decide)).trans (val5_main_v32 V0)
theorem val6_main_v41 (V0 : Valuation τ sig (Elt F)) : val6 V0 (Proc.devRef .tc main_v41) = refStd (refCentred (V0 (Proc.devRef .tc main_arg0)) (refSeg (V0 (Proc.devRef .tc main_arg1))) (refCnt (F := F) (V0 (Proc.devRef .tc main_arg1)))) (refSeg (V0 (Proc.devRef .tc main_arg1))) (refCnt (F := F) (V0 (Proc.devRef .tc main_arg1))) := by
  unfold val6
  rw [w6_main_v41, val5_main_v32, val5_main_v17, val5_main_v19]
theorem val6_main_v43 (V0 : Valuation τ sig (Elt F)) : val6 V0 (Proc.devRef .tc main_v43) = cmpi .slt (refSeg (V0 (Proc.devRef .tc main_arg1))) (broadcastInDim S524288 ![] bcast_S_S524288 (constantI S_ 32 0#32)) := by
  unfold val6
  rw [w6_main_v43, val5_main_v17]
theorem val6_main_v45 (V0 : Valuation τ sig (Elt F)) : val6 V0 (Proc.devRef .tc main_v45) = addi (refSeg (V0 (Proc.devRef .tc main_arg1))) (broadcastInDim S524288 ![] bcast_S_S524288 (constantI S_ 32 128#32)) := by
  unfold val6
  rw [w6_main_v45, val5_main_v17]

/-- The device's buffer contents after the first 7 windows. -/
def val7 (V0 : Valuation τ sig (Elt F)) : Valuation τ sig (Elt F) := after opsW7 (val6 V0)
theorem val7_main_arg0 (V0 : Valuation τ sig (Elt F)) : val7 V0 (Proc.devRef .tc main_arg0) = V0 (Proc.devRef .tc main_arg0) :=
  (w7_keep (val6 V0) main_arg0 (by decide)).trans (val6_main_arg0 V0)
theorem val7_main_arg1 (V0 : Valuation τ sig (Elt F)) : val7 V0 (Proc.devRef .tc main_arg1) = V0 (Proc.devRef .tc main_arg1) :=
  (w7_keep (val6 V0) main_arg1 (by decide)).trans (val6_main_arg1 V0)
theorem val7_main_arg2 (V0 : Valuation τ sig (Elt F)) : val7 V0 (Proc.devRef .tc main_arg2) = V0 (Proc.devRef .tc main_arg2) :=
  (w7_keep (val6 V0) main_arg2 (by decide)).trans (val6_main_arg2 V0)
theorem val7_main_arg3 (V0 : Valuation τ sig (Elt F)) : val7 V0 (Proc.devRef .tc main_arg3) = V0 (Proc.devRef .tc main_arg3) :=
  (w7_keep (val6 V0) main_arg3 (by decide)).trans (val6_main_arg3 V0)
theorem val7_main_v55 (V0 : Valuation τ sig (Elt F)) : val7 V0 (Proc.devRef .tc main_v55) = refOut (V0 (Proc.devRef .tc main_arg0)) (V0 (Proc.devRef .tc main_arg1)) (V0 (Proc.devRef .tc main_arg2)) (V0 (Proc.devRef .tc main_arg3)) := by
  unfold val7
  rw [w7_main_v55, val6_main_v32, val6_main_v43, val6_main_v45, val6_main_v17, val6_main_v41, val6_main_arg2, val6_main_arg3]
  rfl

/-- The whole list from any contents is its windows in order. -/
theorem after_ops (V0 : Valuation τ sig (Elt F)) : after ops V0 = val7 V0 := by
  show after ((opsW1 ++ (opsW2 ++ (opsW3 ++ (opsW4 ++ (opsW5 ++ opsW6))))) ++ opsW7) V0 = _
  rw [StableHlo.after_append, StableHlo.after_append, StableHlo.after_append, StableHlo.after_append,
    StableHlo.after_append, StableHlo.after_append]
  rfl

end Cert.ReferenceIdeal.Hand

end
-- ==== Proof.RRun.lean ====
/-
  The reference's run: from any memory with zero counters every weakly fair execution of @main terminates, the
  result buffer at the operations' composed term of the four arguments as launched, the arguments unchanged.
-/
import proofs.«122487_j41781441855970_1_alg».proof.Proof.RVals

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- On every device, for any float values: @main runs to its end, its result at `refOut` of the arguments' launch
    contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v55) = refOut (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨
      (h c main_v55).trans (by simp only [after_ops]; exact val7_main_v55 (launchContents m c)),
      (h c main_arg0).trans (by simp only [after_ops]; exact val7_main_arg0 (launchContents m c)),
      (h c main_arg1).trans (by simp only [after_ops]; exact val7_main_arg1 (launchContents m c)),
      (h c main_arg2).trans (by simp only [after_ops]; exact val7_main_arg2 (launchContents m c)),
      (h c main_arg3).trans (by simp only [after_ops]; exact val7_main_arg3 (launchContents m c))⟩)
    (run_seq scopedRefs_eq scopedSems_eq defs main (fun _ => ops) main_eq (fun _ => ops_sub) m ρ)

/-- The same run with the result dropped: @main terminates and leaves its four arguments as launched. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => (h c).2) (run m ρ)

end Cert.ReferenceIdeal.Hand

end
-- ==== Proof.KHostTake.lean ====
/-
  The take among the kernel program's host stretches (the iota read at every row's segment position), in three
  slices of its operation list, each read from any buffer contents: the position wrapped and made a column of start
  indices; whether each start index is within the table; the gather, kept where it is and the least integer elsewhere.
  Composed, the stretch leaves the reference's take of the buffers it reads.
-/
import proofs.«122487_j41781441855970_1_alg».proof.Proof.Gen.KernelIdeal.Regions
import proofs.«122487_j41781441855970_1_alg».proof.Proof.RStages
import Idealize.ShloMosaic.Lib.StableHlo.Run
import Idealize.ShloMosaic.Lib.Pipeline.Frame

set_option Elab.async false

noncomputable section

namespace Cert.KernelIdeal.HandHost

open Cert.KernelIdeal Cert.KernelIdeal.Gen Idealize.ShloMosaic Idealize.ShloMosaic.TcCoe Idealize.SL.Sem
open Idealize.ShloMosaic.StableHlo
open Cert.ReferenceIdeal.Hand (refTakeIdx refTakeInb refTake)

variable {F : FTy → Type} [FloatOps F] (W : Valuation τ sig (Elt F))

/-- The first eight operations: the position compared with zero, wrapped by the segment count, made a column. -/
abbrev take1 : List (HloOp τ sig (Elt F)) := (hostOps0_7 (F := F)).take 8
/-- The next ten: the two bounds, their conjunction, reduced along the unit axis. -/
abbrev take2 : List (HloOp τ sig (Elt F)) := ((hostOps0_7 (F := F)).drop 8).take 10
/-- The last four: the gather, the fill value, the select. -/
abbrev take3 : List (HloOp τ sig (Elt F)) := ((hostOps0_7 (F := F)).drop 8).drop 10

/-- The stretch is its three slices in order. -/
theorem take_split : (hostOps0_7 : List (HloOp τ sig (Elt F))) = take1 ++ (take2 ++ take3) := by
  show _ = List.take 8 hostOps0_7 ++ (List.take 10 (List.drop 8 hostOps0_7) ++ List.drop 10 (List.drop 8 hostOps0_7))
  rw [List.take_append_drop, List.take_append_drop]

attribute [local irreducible] Host.reduceWindow Host.scatter Host.gather Host.reduce Host.scatterAdd in
set_option maxRecDepth 8192 in
set_option maxHeartbeats 800000 in
theorem take1_idx : after (take1 (F := F)) W (Proc.devRef .tc main_call3_v5)
    = refTakeIdx (W (Proc.devRef .tc main_v16) : IVec S524288 32) := by
  simp only [take1, take2, take3, hostOps0_7, List.take, List.drop]
  after_results_simp
  rfl

attribute [local irreducible] Host.reduceWindow Host.scatter Host.gather Host.reduce Host.scatterAdd in
set_option maxRecDepth 8192 in
set_option maxHeartbeats 800000 in
theorem take1_v0 : after (take1 (F := F)) W (Proc.devRef .tc main_v0) = W (Proc.devRef .tc main_v0) := by
  simp only [take1, take2, take3, hostOps0_7, List.take, List.drop]
  after_results_simp

attribute [local irreducible] Host.reduceWindow Host.scatter Host.gather Host.reduce Host.scatterAdd in
set_option maxRecDepth 8192 in
set_option maxHeartbeats 1000000 in
theorem take2_inb : after (take2 (F := F)) W (Proc.devRef .tc main_call3_v12)
    = refTakeInb (W (Proc.devRef .tc main_call3_v5) : IVec S524288x1 32) := by
  simp only [take1, take2, take3, hostOps0_7, List.take, List.drop]
  after_results_simp
  rfl

attribute [local irreducible] Host.reduceWindow Host.scatter Host.gather Host.reduce Host.scatterAdd in
set_option maxRecDepth 8192 in
set_option maxHeartbeats 1000000 in
theorem take2_v0 : after (take2 (F := F)) W (Proc.devRef .tc main_v0) = W (Proc.devRef .tc main_v0) := by
  simp only [take1, take2, take3, hostOps0_7, List.take, List.drop]
  after_results_simp

attribute [local irreducible] Host.reduceWindow Host.scatter Host.gather Host.reduce Host.scatterAdd in
set_option maxRecDepth 8192 in
set_option maxHeartbeats 1000000 in
theorem take2_idx : after (take2 (F := F)) W (Proc.devRef .tc main_call3_v5) = W (Proc.devRef .tc main_call3_v5) := by
  simp only [take1, take2, take3, hostOps0_7, List.take, List.drop]
  after_results_simp

attribute [local irreducible] Host.reduceWindow Host.scatter Host.gather Host.reduce Host.scatterAdd in
set_option maxRecDepth 8192 in
set_option maxHeartbeats 400000 in
theorem take3_out : after (take3 (F := F)) W (Proc.devRef .tc main_v17)
    = select (W (Proc.devRef .tc main_call3_v12) : IVec S524288 1)
        (Host.gather Cert.ReferenceIdeal.gather_S128_S524288x1_S524288_n_0_n_n_0_1_1 (W (Proc.devRef .tc main_v0) : IVec S128 32)
          (W (Proc.devRef .tc main_call3_v5) : IVec S524288x1 32))
        (broadcastInDim Cert.ReferenceIdeal.S524288 ![] Cert.ReferenceIdeal.Gen.bcast_S_S524288 (constantI Cert.ReferenceIdeal.S_ 32 2147483648#32)) := by
  simp only [take1, take2, take3, hostOps0_7, List.take, List.drop]
  after_results_simp
  rfl

attribute [local irreducible] Host.reduceWindow Host.scatter Host.gather Host.reduce Host.scatterAdd in
set_option maxRecDepth 8192 in
/-- THE TAKE: the stretch leaves the reference's take of the table and the positions it reads. -/
theorem s7_v17 : StableHlo.after (hostOps0_7 (F := F)) W (Proc.devRef .tc main_v17)
    = refTake (W (Proc.devRef .tc main_v0) : IVec S128 32) (W (Proc.devRef .tc main_v16) : IVec S524288 32) := by
  rw [take_split, StableHlo.after_append, StableHlo.after_append, take3_out, take2_inb, take2_v0, take2_idx,
    take1_idx, take1_v0]
  rfl

end Cert.KernelIdeal.HandHost

end
-- ==== Proof.KHost1.lean ====
/-
  The kernel program's host stretches, one at a time, over any buffer contents: each buffer a stretch writes, as the
  stage function of the buffers it reads. The stages are the same operations the reference applies, so they are
  named by the reference's stage functions.
-/
import proofs.«122487_j41781441855970_1_alg».proof.Proof.Gen.KernelIdeal.Regions
import proofs.«122487_j41781441855970_1_alg».proof.Proof.RStages
import proofs.«122487_j41781441855970_1_alg».proof.Proof.KHostTake
import Idealize.ShloMosaic.Lib.StableHlo.Run

set_option Elab.async false

noncomputable section

namespace Cert.KernelIdeal.HandHost

open Cert.KernelIdeal Cert.KernelIdeal.Gen Idealize.ShloMosaic Idealize.ShloMosaic.TcCoe Idealize.SL.Sem
open Idealize.ShloMosaic.StableHlo
open Cert.ReferenceIdeal.Hand (refIota refRoll refStarts refMarks refPos refTake refSeg)

variable {F : FTy → Type} [FloatOps F] (W : Valuation τ sig (Elt F))

theorem s0_v0 : StableHlo.after (hostOps0 (F := F)) W (Proc.devRef .tc main_v0) = (refIota : IVec S128 32) := by
  after_results; rfl

theorem s1_v1 : StableHlo.after (hostOps0_1 (F := F)) W (Proc.devRef .tc main_v1)
    = refRoll (W (Proc.devRef .tc main_arg1) : IVec S128 32) := by
  after_results; rfl

theorem s2_v3 : StableHlo.after (hostOps0_2 (F := F)) W (Proc.devRef .tc main_v3)
    = Host.scatter Cert.ReferenceIdeal.scatter_S128_S1_S__n_0_0_0 (fun _ b => b) (W (Proc.devRef .tc main_v1) : IVec S128 32)
        (broadcastInDim Cert.ReferenceIdeal.S1 ![] Cert.ReferenceIdeal.Gen.bcast_S_S1 (constantI Cert.ReferenceIdeal.S_ 32 0#32))
        (constantI Cert.ReferenceIdeal.S_ 32 0#32) := by
  after_results; rfl

attribute [local irreducible] Host.reduceWindow Host.scatter Host.gather Host.reduce Host.scatterAdd in
set_option maxRecDepth 8192 in
theorem s3_v4 : StableHlo.after (hostOps0_3 (F := F)) W (Proc.devRef .tc main_v4)
    = Host.reduceWindow IntOp.addi ![128] ![1] ![127] ![0] (W (Proc.devRef .tc main_v3) : IVec S128 32)
        (broadcastInDim Cert.ReferenceIdeal.S_ ![] Cert.ReferenceIdeal.Gen.bcast_S_S_ (constantI Cert.ReferenceIdeal.S_ 32 0#32))
        Cert.ReferenceIdeal.Gen.reduceWindows_S128_S128_w128s1p127_0 Cert.ReferenceIdeal.Gen.h_S_ := by
  after_results_simp; rfl

theorem s4_v13 : StableHlo.after (hostOps0_4 (F := F)) W (Proc.devRef .tc main_v13)
    = refMarks (W (Proc.devRef .tc main_v4) : IVec S128 32) := by
  after_results; rfl

attribute [local irreducible] Host.reduceWindow Host.scatter Host.gather Host.reduce Host.scatterAdd in
set_option maxRecDepth 8192 in
theorem s5_v14 : StableHlo.after (hostOps0_5 (F := F)) W (Proc.devRef .tc main_v14)
    = Host.reduceWindow IntOp.addi ![524288] ![1] ![524287] ![0] (W (Proc.devRef .tc main_v13) : IVec S524288 32)
        (broadcastInDim Cert.ReferenceIdeal.S_ ![] Cert.ReferenceIdeal.Gen.bcast_S_S_ (constantI Cert.ReferenceIdeal.S_ 32 0#32))
        Cert.ReferenceIdeal.Gen.reduceWindows_S524288_S524288_w524288s1p524287_0 Cert.ReferenceIdeal.Gen.h_S_ := by
  after_results_simp; rfl

theorem s6_v16 : StableHlo.after (hostOps0_6 (F := F)) W (Proc.devRef .tc main_v16)
    = subi (W (Proc.devRef .tc main_v14) : IVec S524288 32)
        (broadcastInDim Cert.ReferenceIdeal.S524288 ![] Cert.ReferenceIdeal.Gen.bcast_S_S524288 (constantI Cert.ReferenceIdeal.S_ 32 1#32)) := by
  after_results

theorem s8_v18 : StableHlo.after (hostOps0_8 (F := F)) W (Proc.devRef .tc main_v18)
    = shapeCast S524288x1 (W (Proc.devRef .tc main_v17) : IVec S524288 32) shapeCasts_S524288_S524288x1 := by
  after_results; rfl

theorem s8_v20 : StableHlo.after (hostOps0_8 (F := F)) W (Proc.devRef .tc main_v20)
    = shapeCast S128x1 (sitofp .f32 (W (Proc.devRef .tc main_arg1) : IVec S128 32) : FVec F S128 .f32) shapeCasts_S128_S128x1 := by
  after_results; rfl

theorem s8_v21 : StableHlo.after (hostOps0_8 (F := F)) W (Proc.devRef .tc main_v21)
    = shapeCast S1x256 (W (Proc.devRef .tc main_arg2) : FVec F S256 .f32) shapeCasts_S256_S1x256 := by
  after_results; rfl

theorem s8_v22 : StableHlo.after (hostOps0_8 (F := F)) W (Proc.devRef .tc main_v22)
    = shapeCast S1x256 (W (Proc.devRef .tc main_arg3) : FVec F S256 .f32) shapeCasts_S256_S1x256 := by
  after_results; rfl

end Cert.KernelIdeal.HandHost

end
-- ==== Proof.LibHostSegmentSum.lean ====
/-
  `segment_sum` as it is printed, read at an entry of its result at the ideal instance.

  `operand.at[idx].add(updates)` for `operand : [B, F]`, `updates : [N, F]` and an integer vector `idx : [N]` is
  printed as a float scatter-add whose scatter indices are the column `[N, 1]`: update row `r` is one window
  `[1, F]` placed at operand row `idx r`, the start index read as a signed integer and NOT clamped, and dropped
  altogether when that row is outside `[0, B)`. So update entry `(r, f)` lands on operand entry `(idx r, f)` or
  nowhere, and at the ideal instance, where the accumulation is the exact sum, result entry `(b, f)` is the operand's
  entry plus the sum over the rows `r` with `idx r = b` of `updates (r, f)`.
-/
import Idealize.ShloMosaic.PureOps
import Idealize.ShloMosaic.PureOps.Ideal
import Idealize.ShloMosaic.Lib.ValueIdx

noncomputable section

open Idealize.ShloMosaic Idealize.ShloMosaic.ValueIdx

namespace Cert.HostInt

/-- The dimension numbers of `operand.at[idx].add(updates)`: operand `[B, F]`, scatter indices `[N, 1]`, updates `[N, F]`. -/
abbrev segSumDims (B F N : Nat)
    (wf : ScatterDims.WF ⟨2, ![B, F]⟩ ⟨2, ![N, 1]⟩ ⟨2, ![N, F]⟩ [1] [0] [0] 1) :
    ScatterDims ⟨2, ![B, F]⟩ ⟨2, ![N, 1]⟩ ⟨2, ![N, F]⟩ where
  updateWindowDims := [1]
  insertedWindowDims := [0]
  scatterDimsToOperandDims := [0]
  indexVectorDim := 1
  wf := wf

/-- The scatter-indices entry that update row `r` reads. -/
abbrev rowIdx {N : Nat} (r : Fin N) : (⟨2, ![N, 1]⟩ : Shape).Idx := ix2 r ⟨0, Nat.one_pos⟩

section
variable {B F N w : Nat} (wf : ScatterDims.WF ⟨2, ![B, F]⟩ ⟨2, ![N, 1]⟩ ⟨2, ![N, F]⟩ [1] [0] [0] 1)
  (idx : IVec ⟨2, ![N, 1]⟩ w) (r : Fin N) (f : Fin F)

theorem mem_sKept_iff (a : Fin 2) : a ∈ (segSumDims B F N wf).sKept ↔ a ∉ (segSumDims B F N wf).insertedWindowDims := by
  simp [ScatterDims.sKept, Shape.kept, List.mem_filter, List.mem_finRange]

/-- On the row axis the window starts at the row's start index, read signed. -/
theorem start_row : (segSumDims B F N wf).start (ix2 r f) idx 0 = (idx (rowIdx r)).toInt := by
  unfold ScatterDims.start
  rw [dif_pos (show (0 : Fin 2) ∈ (segSumDims B F N wf).scatterDimsToOperandDims from List.mem_singleton.mpr rfl)]
  have hsi : (segSumDims B F N wf).siIdx (ix2 r f)
      ⟨List.idxOf (0 : Fin 2) (segSumDims B F N wf).scatterDimsToOperandDims,
        List.idxOf_lt_length_iff.2 (List.mem_singleton.mpr rfl)⟩ = rowIdx r := by
    funext b; refine Fin.ext ?_
    match b with
    | ⟨0, _⟩ => rfl
    | ⟨1, _⟩ => rfl
  rw [hsi]

/-- On the column axis it starts at zero. -/
theorem start_col : (segSumDims B F N wf).start (ix2 r f) idx 1 = 0 := by
  unfold ScatterDims.start
  rw [dif_neg (show (1 : Fin 2) ∉ (segSumDims B F N wf).scatterDimsToOperandDims from
    fun h => absurd (show (1 : Nat) = 0 from congrArg Fin.val (List.mem_singleton.mp h)) Nat.one_ne_zero)]

/-- The row axis is inserted: no window coordinate on it. -/
theorem window_row : (segSumDims B F N wf).window (ix2 r f) 0 = 0 := by
  unfold ScatterDims.window
  rw [dif_neg (fun h => ((mem_sKept_iff wf 0).mp h) (List.mem_singleton.mpr rfl))]

/-- The column axis carries the update's column. -/
theorem window_col : (segSumDims B F N wf).window (ix2 r f) 1 = f.val := by
  unfold ScatterDims.window
  rw [dif_pos ((mem_sKept_iff wf 1).mpr fun h =>
    absurd (show (1 : Nat) = 0 from congrArg Fin.val (List.mem_singleton.mp h)) Nat.one_ne_zero)]
  rfl

/-- WHERE AN UPDATE LANDS: entry `(r, f)` lands on `(idx r, f)` when `idx r`, read signed, is a row of the operand,
    and is dropped otherwise. -/
theorem resultIdx?_rows :
    (segSumDims B F N wf).resultIdx? (ix2 r f) idx
      = if h : 0 ≤ (idx (rowIdx r)).toInt ∧ (idx (rowIdx r)).toInt < B then
          some (ix2 ⟨(idx (rowIdx r)).toInt.toNat, by omega⟩ f)
        else none := by
  unfold ScatterDims.resultIdx?
  by_cases h : 0 ≤ (idx (rowIdx r)).toInt ∧ (idx (rowIdx r)).toInt < B
  · have hall : ∀ a : Fin 2, 0 ≤ (segSumDims B F N wf).start (ix2 r f) idx a + (segSumDims B F N wf).window (ix2 r f) a
        ∧ (segSumDims B F N wf).start (ix2 r f) idx a + (segSumDims B F N wf).window (ix2 r f) a
          < ((⟨2, ![B, F]⟩ : Shape).size a : Int) := by
      intro a
      match a with
      | ⟨0, _⟩ =>
        show 0 ≤ (segSumDims B F N wf).start (ix2 r f) idx 0 + (segSumDims B F N wf).window (ix2 r f) 0
          ∧ (segSumDims B F N wf).start (ix2 r f) idx 0 + (segSumDims B F N wf).window (ix2 r f) 0 < (B : Int)
        rw [start_row, window_row]
        simpa using h
      | ⟨1, _⟩ =>
        show 0 ≤ (segSumDims B F N wf).start (ix2 r f) idx 1 + (segSumDims B F N wf).window (ix2 r f) 1
          ∧ (segSumDims B F N wf).start (ix2 r f) idx 1 + (segSumDims B F N wf).window (ix2 r f) 1 < (F : Int)
        rw [start_col, window_col]
        have := f.isLt
        omega
    rw [dif_pos hall, dif_pos h]
    refine congrArg some (funext fun a => Fin.ext ?_)
    match a with
    | ⟨0, _⟩ =>
      show ((segSumDims B F N wf).start (ix2 r f) idx 0 + (segSumDims B F N wf).window (ix2 r f) 0).toNat
        = (idx (rowIdx r)).toInt.toNat
      rw [start_row, window_row]
      simp
    | ⟨1, _⟩ =>
      show ((segSumDims B F N wf).start (ix2 r f) idx 1 + (segSumDims B F N wf).window (ix2 r f) 1).toNat = f.val
      rw [start_col, window_col]
      simp
  · rw [dif_neg h, dif_neg]
    intro hall
    have h0 := hall 0
    have h0' : 0 ≤ (segSumDims B F N wf).start (ix2 r f) idx 0 + (segSumDims B F N wf).window (ix2 r f) 0
        ∧ (segSumDims B F N wf).start (ix2 r f) idx 0 + (segSumDims B F N wf).window (ix2 r f) 0 < (B : Int) := h0
    rw [start_row, window_row] at h0'
    exact h (by simpa using h0')

end

/-- Two rank-two indices agree exactly when their coordinates do. -/
theorem ix2_eq_iff {n0 n1 : Nat} (a a' : Fin n0) (b b' : Fin n1) : ix2 a b = ix2 a' b' ↔ a = a' ∧ b = b' :=
  ⟨fun h => ⟨congrFun h 0, congrFun h 1⟩, fun ⟨h1, h2⟩ => by rw [h1, h2]⟩

/-- THE SEGMENT SUM AT AN ENTRY, at the ideal instance: the operand's entry plus the updates of the rows whose start
    index, read signed, is `b`. -/
theorem scatterAdd_rows_apply {B F N w : Nat} {φ : FTy}
    (wf : ScatterDims.WF ⟨2, ![B, F]⟩ ⟨2, ![N, 1]⟩ ⟨2, ![N, F]⟩ [1] [0] [0] 1)
    (x : FVec Ideal ⟨2, ![B, F]⟩ φ) (idx : IVec ⟨2, ![N, 1]⟩ w) (upd : FVec Ideal ⟨2, ![N, F]⟩ φ)
    (b : Fin B) (f : Fin F) :
    Host.scatterAdd (F := Ideal) (segSumDims B F N wf) x idx upd (ix2 b f)
      = x (ix2 b f) + ∑ r : Fin N, if (idx (rowIdx r)).toInt = (b.val : Int) then upd (ix2 r f) else 0 := by
  show Ideal.hostScatterAdd (segSumDims B F N wf) x idx upd (ix2 b f) = _
  unfold Ideal.hostScatterAdd
  refine congrArg (x (ix2 b f) + ·) ?_
  rw [Finset.sum_filter, sum_idx2]
  refine Finset.sum_congr rfl fun r _ => ?_
  simp only [resultIdx?_rows]
  have hb := b.isLt
  by_cases h : 0 ≤ (idx (rowIdx r)).toInt ∧ (idx (rowIdx r)).toInt < B
  · simp only [dif_pos h, Option.some.injEq, ix2_eq_iff]
    by_cases ht : (idx (rowIdx r)).toInt = (b.val : Int)
    · rw [if_pos ht, Finset.sum_eq_single f]
      · rw [if_pos ⟨Fin.ext (by show (idx (rowIdx r)).toInt.toNat = b.val; omega), rfl⟩]
      · intro f' _ hf'
        rw [if_neg fun hh => hf' hh.2]
      · intro hf
        exact absurd (Finset.mem_univ _) hf
    · rw [if_neg ht]
      refine Finset.sum_eq_zero fun f' _ => ?_
      rw [if_neg]
      intro hh
      have : (idx (rowIdx r)).toInt.toNat = b.val := congrArg Fin.val hh.1
      omega
  · simp only [dif_neg h]
    rw [if_neg (by omega)]
    refine Finset.sum_eq_zero fun f' _ => ?_
    rw [if_neg (by simp)]

end Cert.HostInt

end
-- ==== Proof.LibHostGather.lean ====
/-
  Two gathers through a column of start indices, read at an index.

  `table[idx]` for `table : [B, F]` and an integer vector `idx : [N]` is printed as a gather whose start indices are
  the column `[N, 1]`: the operand's first axis is collapsed (slice size one) and driven by the start index, the second
  is an offset axis taken whole. Result entry `(r, f)` is therefore `table` at row `idx r` — read as a signed integer
  and clamped into `[0, B − 1]`, as every start index of a gather is — and column `f`. The rank-one form, `v[idx]`
  for `v : [B]`, is the same without the offset axis.
-/
import Idealize.ShloMosaic.PureOps
import Idealize.ShloMosaic.Lib.ValueIdx

noncomputable section

open Idealize.ShloMosaic Idealize.ShloMosaic.ValueIdx

namespace Cert.HostInt

variable {α : Type}

/-- The dimension numbers of `table[idx]`: operand `[B, F]`, start indices `[N, 1]`, result `[N, F]`. -/
abbrev rowGatherDims (B F N : Nat)
    (wf : GatherDims.WF ⟨2, ![B, F]⟩ ⟨2, ![N, 1]⟩ ⟨2, ![N, F]⟩ [1] [0] [] [0] [] 1 ![1, F]) :
    GatherDims ⟨2, ![B, F]⟩ ⟨2, ![N, 1]⟩ ⟨2, ![N, F]⟩ where
  offsetDims := [1]
  collapsedSliceDims := [0]
  operandBatchingDims := []
  startIndicesBatchingDims := []
  startIndexMap := [0]
  indexVectorDim := 1
  sliceSizes := ![1, F]
  wf := wf

/-- The start-indices entry that result row `r` reads. -/
abbrev colIdx {N : Nat} (r : Fin N) : (⟨2, ![N, 1]⟩ : Shape).Idx := ix2 r ⟨0, Nat.one_pos⟩

/-- ROWS GATHERED: entry `(r, f)` is the operand at row `idx r`, read signed and clamped into `[0, B − 1]`, column `f`. -/
theorem gather_rows_apply {B F N w : Nat} (hB : 0 < B)
    (wf : GatherDims.WF ⟨2, ![B, F]⟩ ⟨2, ![N, 1]⟩ ⟨2, ![N, F]⟩ [1] [0] [] [0] [] 1 ![1, F])
    (x : (⟨2, ![B, F]⟩ : Shape).Idx → α) (idx : IVec ⟨2, ![N, 1]⟩ w) (r : Fin N) (f : Fin F) :
    Host.gather (rowGatherDims B F N wf) x idx (ix2 r f)
      = x (ix2 ⟨min (idx (colIdx r)).toInt.toNat (B - 1), by omega⟩ f) := by
  unfold Host.gather
  congr 1
  funext a
  refine Fin.ext ?_
  match a with
  | ⟨0, _⟩ =>
    show (rowGatherDims B F N wf).start (ix2 r f) idx 0 + (rowGatherDims B F N wf).batchCoord (ix2 r f) 0
      + (rowGatherDims B F N wf).offCoord (ix2 r f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims B F N wf).startIndexMap from List.mem_singleton.mpr rfl)]
    have hsi : (rowGatherDims B F N wf).siIdx (ix2 r f) ⟨List.idxOf (0 : Fin 2) (rowGatherDims B F N wf).startIndexMap,
        List.idxOf_lt_length_iff.2 (List.mem_singleton.mpr rfl)⟩ = colIdx r := by
      funext b; refine Fin.ext ?_
      match b with
      | ⟨0, _⟩ => rfl
      | ⟨1, _⟩ => rfl
    rw [hsi]
    rfl
  | ⟨1, _⟩ =>
    show (rowGatherDims B F N wf).start (ix2 r f) idx 1 + (rowGatherDims B F N wf).batchCoord (ix2 r f) 1
      + (rowGatherDims B F N wf).offCoord (ix2 r f) 1 = f.val
    rw [GatherDims.batchCoord_eq_zero _ _ _ List.not_mem_nil]
    unfold GatherDims.start
    rw [dif_neg (show (1 : Fin 2) ∉ (rowGatherDims B F N wf).startIndexMap from
      fun h => absurd (show (1 : Nat) = 0 from congrArg Fin.val (List.mem_singleton.mp h)) Nat.one_ne_zero)]
    simp only [Nat.add_zero, Nat.zero_add]
    rfl

/-- The dimension numbers of `v[idx]`: operand `[B]`, start indices `[N, 1]`, result `[N]`. -/
abbrev takeColDims (B N : Nat)
    (wf : GatherDims.WF ⟨1, ![B]⟩ ⟨2, ![N, 1]⟩ ⟨1, ![N]⟩ [] [0] [] [0] [] 1 ![1]) :
    GatherDims ⟨1, ![B]⟩ ⟨2, ![N, 1]⟩ ⟨1, ![N]⟩ where
  offsetDims := []
  collapsedSliceDims := [0]
  operandBatchingDims := []
  startIndicesBatchingDims := []
  startIndexMap := [0]
  indexVectorDim := 1
  sliceSizes := ![1]
  wf := wf

/-- ENTRIES TAKEN: entry `r` is the operand at `idx r`, read signed and clamped into `[0, B − 1]`. -/
theorem gather_take_col_apply {B N w : Nat} (hB : 0 < B)
    (wf : GatherDims.WF ⟨1, ![B]⟩ ⟨2, ![N, 1]⟩ ⟨1, ![N]⟩ [] [0] [] [0] [] 1 ![1])
    (x : (⟨1, ![B]⟩ : Shape).Idx → α) (idx : IVec ⟨2, ![N, 1]⟩ w) (r : Fin N) :
    Host.gather (takeColDims B N wf) x idx (ix1 r)
      = x (ix1 ⟨min (idx (colIdx r)).toInt.toNat (B - 1), by omega⟩) := by
  unfold Host.gather
  congr 1
  funext a
  obtain rfl : a = 0 := Subsingleton.elim _ _
  refine Fin.ext ?_
  show (takeColDims B N wf).start (ix1 r) idx 0 + (takeColDims B N wf).batchCoord (ix1 r) 0
    + (takeColDims B N wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeColDims B N wf).startIndexMap from List.mem_singleton.mpr rfl)]
  have hsi : (takeColDims B N wf).siIdx (ix1 r) ⟨List.idxOf (0 : Fin 1) (takeColDims B N wf).startIndexMap,
      List.idxOf_lt_length_iff.2 (List.mem_singleton.mpr rfl)⟩ = colIdx r := by
    funext b; refine Fin.ext ?_
    match b with
    | ⟨0, _⟩ => rfl
    | ⟨1, _⟩ => rfl
  rw [hsi]
  rfl

end Cert.HostInt

end
-- ==== Proof.RefRead.lean ====
/-
  The reference's result at an entry.

  With every segment id a valid segment, row `r` of segment `b = seg r` and feature `f`: the segment sum is the sum
  `S` of the feature over the rows whose id is `b`; the mean is `S` over the segment's count `c`; every row of the
  segment is centred by that same mean; the mean square of the centred rows is their sum of squares `Q'` over `c`;
  and the result is the centred datum over `√(Q'/c + ε)`, times the weight, plus the bias. A gather reads its start
  index signed and clamped, a scatter-add reads it signed and drops what falls outside, and both agree with
  "the rows whose id is `b`" because the ids are valid.
-/
import proofs.«122487_j41781441855970_1_alg».proof.Proof.RStages
import proofs.«122487_j41781441855970_1_alg».proof.Proof.Spec
import proofs.«122487_j41781441855970_1_alg».proof.Proof.LibHostSegmentSum
import proofs.«122487_j41781441855970_1_alg».proof.Proof.LibHostGather
import Idealize.ShloMosaic.Lib.Pipeline.Value
import Idealize.ShloMosaic.PureOps.Ideal.Laws

noncomputable section

open Idealize.ShloMosaic Idealize.ShloMosaic.ValueIdx
open Cert.ReferenceIdeal Cert.ReferenceIdeal.Gen Cert.ReferenceIdeal.Hand Cert.HostInt Cert.RaggedNorm

namespace Cert.RefRead

/-! ## The layout operations at an index -/

theorem col_apply {α : Type} (v : S524288.Idx → α) (r : Fin 524288) :
    broadcastInDim S524288x1 ![0] bcast_S524288_S524288x1_0 v (ix2 r ⟨0, Nat.one_pos⟩) = v (ix1 r) :=
  broadcastInDim_apply _ _ _ _ (ix1 r) (fun a => by
    obtain rfl : a = 0 := Subsingleton.elim _ _
    rfl)

theorem col128_apply {α : Type} (v : S128.Idx → α) (b : Fin 128) :
    broadcastInDim S128x1 ![0] bcast_S128_S128x1_0 v (ix2 b ⟨0, Nat.one_pos⟩) = v (ix1 b) :=
  broadcastInDim_apply _ _ _ _ (ix1 b) (fun a => by
    obtain rfl : a = 0 := Subsingleton.elim _ _
    rfl)

theorem cntB_apply {α : Type} (c : S128x1.Idx → α) (b : Fin 128) (f : Fin 256) :
    broadcastInDim S128x256 ![0, 1] bcast_S128x1_S128x256_0_1 c (ix2 b f) = c (ix2 b ⟨0, Nat.one_pos⟩) :=
  broadcastInDim_apply _ _ _ _ (ix2 b ⟨0, Nat.one_pos⟩) (fun a => by
    match a with
    | ⟨0, _⟩ => rfl
    | ⟨1, _⟩ => rfl)

theorem featB_apply {α : Type} (w : S256.Idx → α) (r : Fin 524288) (f : Fin 256) :
    broadcastInDim S524288x256 ![0, 1] bcast_S1x256_S524288x256_0_1 (broadcastInDim S1x256 ![1] bcast_S256_S1x256_1 w) (ix2 r f)
      = w (ix1 f) := by
  rw [broadcastInDim_apply _ _ _ _ (ix2 ⟨0, Nat.one_pos⟩ f) (fun a => by
    match a with
    | ⟨0, _⟩ => rfl
    | ⟨1, _⟩ => rfl)]
  exact broadcastInDim_apply _ _ _ _ (ix1 f) (fun a => by
    obtain rfl : a = 0 := Subsingleton.elim _ _
    rfl)

/-! ## The stages at an entry -/

variable (seg : IVec S524288 32) (hseg : ∀ r : Fin 524288, 0 ≤ (seg (ix1 r)).toInt ∧ (seg (ix1 r)).toInt < 128)

/-- The segment of a row, as an index of the tables. -/
def segIx (r : Fin 524288) : Fin 128 := ⟨(seg (ix1 r)).toInt.toNat, by have := hseg r; omega⟩

theorem segIx_val (r : Fin 524288) : ((segIx seg hseg r).val : Int) = (seg (ix1 r)).toInt := by
  have := hseg r
  show (((seg (ix1 r)).toInt.toNat : Nat) : Int) = _
  omega

include hseg in
/-- The gather's start index of a row is the row's id: a valid id is not wrapped. -/
theorem rowIdx_apply (r : Fin 524288) : refRowIdx seg (ix2 r ⟨0, Nat.one_pos⟩) = seg (ix1 r) := by
  unfold refRowIdx
  rw [col_apply]
  show Scalar.select (IntOp.cmpi .slt (seg (ix1 r)) 0#32) _ (seg (ix1 r)) = _
  have h0 : (0#32 : BitVec 32).toInt = 0 := by decide
  have hn : ¬ IntOp.cmpi .slt (seg (ix1 r)) 0#32 = 1#1 := by
    rw [IntOp.cmpi_slt, h0]
    exact not_lt.mpr (hseg r).1
  unfold Scalar.select
  exact if_neg hn

/-- A table read at every row's id: the table's row of the row's segment. -/
theorem rows_apply (t : FVec Ideal S128x256 .f32) (r : Fin 524288) (f : Fin 256) :
    refRows seg t (ix2 r f) = t (ix2 (segIx seg hseg r) f) := by
  have hg := gather_rows_apply (B := 128) (F := 256) (N := 524288) (by decide)
    (gather_S128x256_S524288x1_S524288x256_1_0_n_n_0_1_1256).wf t (refRowIdx seg) r f
  have hg' : refRows seg t (ix2 r f) = _ := hg
  rw [hg']
  refine congrArg t ?_
  rw [ix2_eq_iff]
  refine ⟨Fin.ext ?_, rfl⟩
  show min (refRowIdx seg (colIdx r)).toInt.toNat (128 - 1) = (seg (ix1 r)).toInt.toNat
  rw [show (colIdx r : S524288x1.Idx) = ix2 r ⟨0, Nat.one_pos⟩ from rfl, rowIdx_apply seg hseg]
  have := hseg r
  omega

/-- A segment sum at an entry: the rows whose id is the segment. -/
theorem segSum_apply (u : FVec Ideal S524288x256 .f32) (b : Fin 128) (f : Fin 256) :
    refSegSum seg u (ix2 b f) = ∑ r : Fin 524288, if (seg (ix1 r)).toInt = (b.val : Int) then u (ix2 r f) else 0 := by
  have hs := scatterAdd_rows_apply (B := 128) (F := 256) (N := 524288) (φ := .f32)
    (scatter_S128x256_S524288x1_S524288x256_1_0_0_1).wf
    (broadcastInDim S128x256 ![] bcast_S_S128x256 (constant (F := Ideal) S_ .f32 0x00000000#32))
    (broadcastInDim S524288x1 ![0] bcast_S524288_S524288x1_0 seg) u b f
  have hs' : refSegSum (F := Ideal) seg u (ix2 b f) = _ := hs
  rw [hs']
  have hz : (broadcastInDim S128x256 ![] bcast_S_S128x256 (constant (F := Ideal) S_ .f32 0x00000000#32) : FVec Ideal S128x256 .f32) (ix2 b f) = 0 :=
    Ideal.ofBits_zero_f32
  rw [hz, zero_add]
  refine Finset.sum_congr rfl fun r _ => ?_
  rw [show (rowIdx r : S524288x1.Idx) = ix2 r ⟨0, Nat.one_pos⟩ from rfl, col_apply]

/-- The count of a segment, as an extended real. -/
def cntAt (lens : IVec S128 32) (b : Fin 128) : EReal := (((lens (ix1 b)).toInt : ℝ) : EReal)

theorem cnt_apply (lens : IVec S128 32) (b : Fin 128) :
    refCnt (F := Ideal) lens (ix2 b ⟨0, Nat.one_pos⟩) = cntAt lens b := by
  unfold refCnt
  rw [col128_apply]
  rfl

theorem perCnt_apply (lens : IVec S128 32) (t : FVec Ideal S128x256 .f32) (b : Fin 128) (f : Fin 256) :
    refPerCnt (refCnt lens) t (ix2 b f) = Ideal.div (t (ix2 b f)) (cntAt lens b) := by
  unfold refPerCnt
  show Ideal.div (t (ix2 b f)) (broadcastInDim S128x256 ![0, 1] bcast_S128x1_S128x256_0_1 (refCnt (F := Ideal) lens) (ix2 b f)) = _
  rw [cntB_apply, cnt_apply]

/-- The sum of a feature over the rows of a segment. -/
def sumAt (x : FVec Ideal S524288x256 .f32) (b : Fin 128) (f : Fin 256) : EReal :=
  ∑ r : Fin 524288, if (seg (ix1 r)).toInt = (b.val : Int) then x (ix2 r f) else 0

/-- The sum of the squares of a feature, centred by `μ`, over the rows of a segment. -/
def sqAt (x : FVec Ideal S524288x256 .f32) (μ : EReal) (b : Fin 128) (f : Fin 256) : EReal :=
  ∑ r : Fin 524288, if (seg (ix1 r)).toInt = (b.val : Int) then (x (ix2 r f) - μ) * (x (ix2 r f) - μ) else 0

theorem mean_apply (x : FVec Ideal S524288x256 .f32) (lens : IVec S128 32) (b : Fin 128) (f : Fin 256) :
    refMean x seg (refCnt lens) (ix2 b f) = Ideal.div (sumAt seg x b f) (cntAt lens b) := by
  unfold refMean
  rw [perCnt_apply, segSum_apply]
  rfl

theorem centred_apply (x : FVec Ideal S524288x256 .f32) (lens : IVec S128 32) (r : Fin 524288) (f : Fin 256) :
    refCentred x seg (refCnt lens) (ix2 r f)
      = x (ix2 r f) - Ideal.div (sumAt seg x (segIx seg hseg r) f) (cntAt lens (segIx seg hseg r)) := by
  unfold refCentred
  show x (ix2 r f) - refRows seg (refMean x seg (refCnt lens)) (ix2 r f) = _
  rw [rows_apply seg hseg, mean_apply]

/-- The scaled and shifted quotient at an entry, over any centred rows and deviations. -/
theorem affine_apply (xc : FVec Ideal S524288x256 .f32) (sd : FVec Ideal S128x256 .f32) (w b : FVec Ideal S256 .f32)
    (r : Fin 524288) (f : Fin 256) :
    refAffine xc seg sd w b (ix2 r f)
      = Ideal.div (xc (ix2 r f)) (sd (ix2 (segIx seg hseg r) f)) * w (ix1 f) + b (ix1 f) := by
  unfold refAffine refAffineAt
  show Ideal.div (xc (ix2 r f)) (refRowsAt (refRowIdx seg) sd (ix2 r f))
      * (broadcastInDim S524288x256 ![0, 1] bcast_S1x256_S524288x256_0_1 (broadcastInDim S1x256 ![1] bcast_S256_S1x256_1 w) (ix2 r f))
      + (broadcastInDim S524288x256 ![0, 1] bcast_S1x256_S524288x256_0_1 (broadcastInDim S1x256 ![1] bcast_S256_S1x256_1 b) (ix2 r f)) = _
  rw [featB_apply, featB_apply, show refRowsAt (refRowIdx seg) sd (ix2 r f) = refRows seg sd (ix2 r f) from rfl,
    rows_apply seg hseg]

/-- The deviation of a segment, over any centred rows: the root of their mean square over the count, plus the constant. -/
theorem std_apply (xc : FVec Ideal S524288x256 .f32) (lens : IVec S128 32) (b : Fin 128) (f : Fin 256) :
    refStd xc seg (refCnt lens) (ix2 b f)
      = Ideal.sqrt (Ideal.div (∑ r : Fin 524288, if (seg (ix1 r)).toInt = (b.val : Int) then xc (ix2 r f) * xc (ix2 r f) else 0)
          (cntAt lens b) + eps) := by
  unfold refStd
  show Ideal.sqrt (refPerCnt (refCnt lens) (refSegSum seg (mulf xc xc)) (ix2 b f) + eps) = _
  rw [perCnt_apply, segSum_apply]
  rfl

/-- THE REFERENCE'S RESULT AT AN ENTRY, over given valid segment ids. -/
theorem refNorm_apply (x : FVec Ideal S524288x256 .f32) (lens : IVec S128 32) (w b : FVec Ideal S256 .f32)
    (r : Fin 524288) (f : Fin 256) :
    refNorm x seg (refCnt lens) w b (ix2 r f)
      = rOut (x (ix2 r f)) (sumAt seg x (segIx seg hseg r) f)
          (sqAt seg x (Ideal.div (sumAt seg x (segIx seg hseg r) f) (cntAt lens (segIx seg hseg r))) (segIx seg hseg r) f)
          (cntAt lens (segIx seg hseg r)) (w (ix1 f)) (b (ix1 f)) eps := by
  have hsq : (∑ r' : Fin 524288, if (seg (ix1 r')).toInt = ((segIx seg hseg r).val : Int)
        then refCentred x seg (refCnt lens) (ix2 r' f) * refCentred x seg (refCnt lens) (ix2 r' f) else 0)
      = sqAt seg x (Ideal.div (sumAt seg x (segIx seg hseg r) f) (cntAt lens (segIx seg hseg r))) (segIx seg hseg r) f := by
    unfold sqAt
    refine Finset.sum_congr rfl fun r' _ => ?_
    by_cases hr' : (seg (ix1 r')).toInt = ((segIx seg hseg r).val : Int)
    · rw [if_pos hr', if_pos hr']
      have hb : segIx seg hseg r' = segIx seg hseg r := Fin.ext (by
        have := segIx_val seg hseg r'
        omega)
      rw [centred_apply seg hseg, hb]
    · rw [if_neg hr', if_neg hr']
  unfold refNorm rOut
  rw [affine_apply seg hseg, std_apply, centred_apply seg hseg, hsq]

end Cert.RefRead

end
-- ==== Proof.KHost2.lean ====
/-
  What the kernel program's host operations leave for the two regions, as functions of the arguments: the column of
  segment ids is the reference's segment ids reshaped, the column of counts the lengths read as numbers, and the
  weight and bias rows the weight and the bias.
-/
import proofs.«122487_j41781441855970_1_alg».proof.Proof.KHost1
import proofs.«122487_j41781441855970_1_alg».proof.Proof.RefRead
import Idealize.ShloMosaic.Lib.ValueLayout
import Idealize.ShloMosaic.Lib.Pipeline.Value

set_option Elab.async false

noncomputable section

namespace Cert.KernelIdeal.HandHost

open Cert.KernelIdeal Cert.KernelIdeal.Gen Idealize.ShloMosaic Idealize.ShloMosaic.TcCoe Idealize.SL.Sem
open Idealize.ShloMosaic.StableHlo Idealize.ShloMosaic.ValueIdx
open Cert.ReferenceIdeal.Hand (refIota refRoll refStarts refMarks refPos refTake refSeg)

variable (m : (ℓ : Loc nD τ sig) → Buf (Elt Ideal) ℓ) (c : Dev nD)

/-- The lengths as launched. -/
abbrev lensOf : IVec S128 32 := m ((c.tc : Thread nD τ).loc main_arg1)

theorem V1_arg1 : V1 m c main_arg1 = lensOf m c := (V1_of m c main_arg1 (by decide)).trans rfl

theorem V7_v0 : V7 m c main_v0 = (refIota : IVec S128 32) :=
  (V7_of m c main_v0 (by decide)).trans <| (V6_of m c main_v0 (by decide)).trans <| (V5_of m c main_v0 (by decide)).trans <|
    (V4_of m c main_v0 (by decide)).trans <| (V3_of m c main_v0 (by decide)).trans <| (V2_of m c main_v0 (by decide)).trans <|
    s0_v0 (V0 m c)

theorem V4_v4 : V4 m c main_v4 = refStarts (lensOf m c) := by
  have e1 : V2 m c main_v1 = refRoll (lensOf m c) := (s1_v1 (V1 m c)).trans (congrArg refRoll (V1_arg1 m c))
  have e3 : V3 m c main_v3 = _ := s2_v3 (V2 m c)
  have e4 : V4 m c main_v4 = _ := s3_v4 (V3 m c)
  rw [e4, e3, e1]
  rfl

theorem V7_v16 : V7 m c main_v16 = refPos (refMarks (refStarts (lensOf m c))) := by
  have e13 : V5 m c main_v13 = refMarks (V4 m c main_v4) := s4_v13 (V4 m c)
  have e14 : V6 m c main_v14 = _ := s5_v14 (V5 m c)
  have e16 : V7 m c main_v16 = _ := s6_v16 (V6 m c)
  rw [e16, e14, e13, V4_v4]
  rfl

theorem V8_v17 : V8 m c main_v17 = refSeg (lensOf m c) := by
  have e17 : V8 m c main_v17 = _ := s7_v17 (V7 m c)
  rw [e17, V7_v0, V7_v16]
  rfl

theorem V8_arg1 : V8 m c main_arg1 = lensOf m c :=
  (V8_of m c main_arg1 (by decide)).trans <| (V7_of m c main_arg1 (by decide)).trans <| (V6_of m c main_arg1 (by decide)).trans <|
    (V5_of m c main_arg1 (by decide)).trans <| (V4_of m c main_arg1 (by decide)).trans <| (V3_of m c main_arg1 (by decide)).trans <|
    (V2_of m c main_arg1 (by decide)).trans <| V1_arg1 m c

theorem V8_arg2 : V8 m c main_arg2 = m ((c.tc : Thread nD τ).loc main_arg2) :=
  (V8_of m c main_arg2 (by decide)).trans <| (V7_of m c main_arg2 (by decide)).trans <| (V6_of m c main_arg2 (by decide)).trans <|
    (V5_of m c main_arg2 (by decide)).trans <| (V4_of m c main_arg2 (by decide)).trans <| (V3_of m c main_arg2 (by decide)).trans <|
    (V2_of m c main_arg2 (by decide)).trans <| (V1_of m c main_arg2 (by decide)).trans rfl

theorem V8_arg3 : V8 m c main_arg3 = m ((c.tc : Thread nD τ).loc main_arg3) :=
  (V8_of m c main_arg3 (by decide)).trans <| (V7_of m c main_arg3 (by decide)).trans <| (V6_of m c main_arg3 (by decide)).trans <|
    (V5_of m c main_arg3 (by decide)).trans <| (V4_of m c main_arg3 (by decide)).trans <| (V3_of m c main_arg3 (by decide)).trans <|
    (V2_of m c main_arg3 (by decide)).trans <| (V1_of m c main_arg3 (by decide)).trans rfl

/-- THE COLUMN OF SEGMENT IDS is the reference's segment ids, row by row. -/
theorem seg_col (r : Fin 524288) :
    (V9 m c main_v18 : S524288x1.Idx → BitVec 32) (ix2 r ⟨0, Nat.one_pos⟩) = refSeg (lensOf m c) (ix1 r) := by
  have e : V9 m c main_v18 = _ := s8_v18 (V8 m c)
  rw [e, V8_v17]
  exact shapeCast_apply _ _ _ (ix1 r) (by
    rw [Shape.rowMajor_val_one, Shape.rowMajor_val_two]
    show r.val = r.val * 1 + 0
    omega)

/-- THE COLUMN OF COUNTS is the lengths read as numbers. -/
theorem cnt_col (q : Fin 128) :
    (V9 m c main_v20 : S128x1.Idx → EReal) (ix2 q ⟨0, Nat.one_pos⟩) = Cert.RefRead.cntAt (lensOf m c) q := by
  have e : V9 m c main_v20 = _ := s8_v20 (V8 m c)
  rw [e, V8_arg1]
  exact shapeCast_apply _ _ _ (ix1 q) (by
    rw [Shape.rowMajor_val_one, Shape.rowMajor_val_two]
    show q.val = q.val * 1 + 0
    omega)

/-- THE WEIGHT ROW is the weight. -/
theorem w_row (f : Fin 256) :
    (V9 m c main_v21 : S1x256.Idx → EReal) (ix2 ⟨0, Nat.one_pos⟩ f) = m ((c.tc : Thread nD τ).loc main_arg2) (ix1 f) := by
  have e : V9 m c main_v21 = _ := s8_v21 (V8 m c)
  rw [e, V8_arg2]
  exact shapeCast_a_1a_apply _ _ _ f

/-- THE BIAS ROW is the bias. -/
theorem b_row (f : Fin 256) :
    (V9 m c main_v22 : S1x256.Idx → EReal) (ix2 ⟨0, Nat.one_pos⟩ f) = m ((c.tc : Thread nD τ).loc main_arg3) (ix1 f) := by
  have e : V9 m c main_v22 = _ := s8_v22 (V8 m c)
  rw [e, V8_arg3]
  exact shapeCast_a_1a_apply _ _ _ f

end Cert.KernelIdeal.HandHost

end
-- ==== Proof.LibHostCumsum.lean ====
/-
  A cumulative sum of 32-bit integers, as it is printed, read at an index.

  `jnp.cumsum` of a length-`n` integer vector is printed as a window reduction: window `n`, stride `1`, `n − 1`
  positions of padding below and none above, the padding holding the initial value `0`. Output `j` folds the window's
  `n` positions `k = 0 … n − 1`; position `k` sits at padded coordinate `j + k`, which is an element of the operand,
  namely `x (j + k − (n − 1))`, exactly when `n − 1 ≤ j + k`, and is padding otherwise. So the fold adds `x 0, …, x j`
  and `n − 1 − j` zeros: the prefix sum. Integer addition is the machine's (it wraps), and the statement is about
  that addition, so no bound on the terms is needed.
-/
import Idealize.ShloMosaic.PureOps
import Idealize.ShloMosaic.Lib.ValueIdx
import Mathlib.Data.BitVec

noncomputable section

open Idealize.ShloMosaic Idealize.ShloMosaic.ValueIdx

namespace Cert.HostInt

/-- A left fold that adds one term per position is the start value plus the sum of the terms. -/
theorem foldl_add_finRange {α : Type} [AddCommMonoid α] {m : Nat} (g : Fin m → α) (v : α) :
    (List.finRange m).foldl (fun r k => r + g k) v = v + ∑ k, g k := by
  have h : ∀ (l : List (Fin m)) (v : α), l.foldl (fun r k => r + g k) v = v + (l.map g).sum := by
    intro l
    induction l with
    | nil => intro v; simp
    | cons a l ih => intro v; rw [List.foldl_cons, ih, List.map_cons, List.sum_cons, add_assoc]
  rw [h, Fin.sum_univ_def]

/-- A length-`n` vector read at a natural number: its entry below `n`, zero from `n` on. -/
def readNat {n : Nat} (x : (⟨1, ![n]⟩ : Shape).Idx → BitVec 32) (i : Nat) : BitVec 32 :=
  if hi : i < n then x (ix1 ⟨i, hi⟩) else 0

theorem readNat_lt {n : Nat} (x : (⟨1, ![n]⟩ : Shape).Idx → BitVec 32) {i : Nat} (hi : i < n) :
    readNat x i = x (ix1 ⟨i, hi⟩) := dif_pos hi

/-- The entries up to `j`, summed over all of `Fin n` under a condition, are a sum over an initial range. -/
theorem sum_le_eq_range {n : Nat} (x : (⟨1, ![n]⟩ : Shape).Idx → BitVec 32) (j : Fin n) :
    (∑ i : Fin n, if i.val ≤ j.val then x (ix1 i) else 0) = ∑ i ∈ Finset.range (j.val + 1), readNat x i := by
  have h1 : (∑ i : Fin n, if i.val ≤ j.val then x (ix1 i) else 0)
      = ∑ i : Fin n, (fun m : Nat => if m ≤ j.val then readNat x m else 0) i.val :=
    Finset.sum_congr rfl fun i _ => by
      show _ = if i.val ≤ j.val then readNat x i.val else 0
      rw [readNat_lt x i.isLt]
  rw [h1, Fin.sum_univ_eq_sum_range (fun m : Nat => if m ≤ j.val then readNat x m else 0) n, ← Finset.sum_filter]
  refine Finset.sum_congr ?_ fun _ _ => rfl
  ext i
  have := j.isLt
  simp only [Finset.mem_filter, Finset.mem_range]
  omega

/-- A shifted window over `n` positions, the first `p − j` of them empty, sums the same initial range. -/
theorem sum_window_eq_range {n : Nat} (x : (⟨1, ![n]⟩ : Shape).Idx → BitVec 32) (p : Nat) (hp : p + 1 = n) (j : Fin n) :
    (∑ k ∈ Finset.range n, if p ≤ j.val + k then readNat x (j.val + k - p) else 0)
      = ∑ i ∈ Finset.range (j.val + 1), readNat x i := by
  have hj := j.isLt
  rw [← Finset.sum_filter]
  have hf : (Finset.range n).filter (fun k => p ≤ j.val + k) = Finset.Ico (p - j.val) n := by
    ext k
    simp only [Finset.mem_filter, Finset.mem_range, Finset.mem_Ico]
    omega
  rw [hf, Finset.sum_Ico_eq_sum_range, show n - (p - j.val) = j.val + 1 by omega]
  refine Finset.sum_congr rfl fun i hi => ?_
  rw [Finset.mem_range] at hi
  rw [show j.val + (p - j.val + i) - p = i by omega]

/-- THE PREFIX SUM. A rank-one window reduction by integer addition with window `n`, stride one, `p = n − 1` positions
    of padding below and none above, from the initial value `0`: output `j` is the sum of the operand's entries up to `j`. -/
theorem reduceWindow_addi_prefix {n : Nat} {u : Shape} (x : (⟨1, ![n]⟩ : Shape).Idx → BitVec 32)
    (init : u.Idx → BitVec 32) (p : Nat) (hp : p + 1 = n)
    (h : (⟨1, ![n]⟩ : Shape).ReduceWindows ![n] ![1] ![p] ![0] ⟨1, ![n]⟩) (hu : 0 < u.numel)
    (hinit : init (Shape.Idx.first hu) = 0) (j : Fin n) :
    Host.reduceWindow IntOp.addi ![n] ![1] ![p] ![0] x init h hu (ix1 j)
      = ∑ i : Fin n, if i.val ≤ j.val then x (ix1 i) else 0 := by
  have hW : (⟨1, ![n]⟩ : Shape).numel = n := by simp [Shape.numel]
  have hk : ∀ k : Fin (⟨1, ![n]⟩ : Shape).numel, (((⟨1, ![n]⟩ : Shape).rowMajor.symm k) 0).val = k.val := by
    intro k
    have := Shape.rowMajor_val_one ((⟨1, ![n]⟩ : Shape).rowMajor.symm k)
    rw [Equiv.apply_symm_apply] at this
    exact this.symm
  have hj := j.isLt
  unfold Host.reduceWindow
  dsimp only
  have key : ∀ (r a : BitVec 32), IntOp.addi r a = r + a := fun _ _ => rfl
  simp only [key]
  have hR : (∑ k ∈ Finset.range n, if p ≤ j.val + k then readNat x (j.val + k - p) else 0)
      = ∑ k : Fin (⟨1, ![n]⟩ : Shape).numel, if p ≤ j.val + k.val then readNat x (j.val + k.val - p) else 0 := by
    rw [Fin.sum_univ_eq_sum_range (fun k : Nat => if p ≤ j.val + k then readNat x (j.val + k - p) else 0), hW]
  rw [foldl_add_finRange, hinit, zero_add, sum_le_eq_range x j, ← sum_window_eq_range x p hp j, hR]
  refine Finset.sum_congr rfl fun k _ => ?_
  have hkn : k.val < n := lt_of_lt_of_eq k.isLt hW
  show _ = if p ≤ j.val + k.val then readNat x (j.val + k.val - p) else 0
  by_cases hc : p ≤ j.val + k.val
  · have hin : ∀ a : Fin 1, (![p] : Fin 1 → Nat) a
          ≤ ((ix1 j : (⟨1, ![n]⟩ : Shape).Idx) (Fin.cast h.1.symm a)).val * (![1] : Fin 1 → Nat) a
              + (((⟨1, ![n]⟩ : Shape).rowMajor.symm k) a).val
        ∧ ((ix1 j : (⟨1, ![n]⟩ : Shape).Idx) (Fin.cast h.1.symm a)).val * (![1] : Fin 1 → Nat) a
              + (((⟨1, ![n]⟩ : Shape).rowMajor.symm k) a).val - (![p] : Fin 1 → Nat) a
            < (![n] : Fin 1 → Nat) a := by
      intro a
      obtain rfl : a = 0 := Subsingleton.elim _ _
      show p ≤ j.val * 1 + (((⟨1, ![n]⟩ : Shape).rowMajor.symm k) 0).val
        ∧ j.val * 1 + (((⟨1, ![n]⟩ : Shape).rowMajor.symm k) 0).val - p < n
      rw [hk k]
      omega
    rw [dif_pos hin, if_pos hc, readNat_lt x (show j.val + k.val - p < n by omega)]
    refine congrArg x (funext fun a => ?_)
    obtain rfl : a = 0 := Subsingleton.elim _ _
    refine Fin.ext ?_
    show j.val * 1 + (((⟨1, ![n]⟩ : Shape).rowMajor.symm k) 0).val - p = j.val + k.val - p
    rw [hk k, Nat.mul_one]
  · rw [if_neg hc, dif_neg]
    intro hin
    have h1 : p ≤ j.val * 1 + (((⟨1, ![n]⟩ : Shape).rowMajor.symm k) 0).val := (hin 0).1
    rw [hk k] at h1
    omega

end Cert.HostInt

end
-- ==== Proof.LibWordSum.lean ====
/-
  A sum of machine integers that cannot wrap is the sum of the numbers.

  Addition of 32-bit words is addition modulo `2 ^ 32`. When the natural numbers the words denote add up to less than
  `2 ^ 32` no reduction ever happens, so the word sum denotes the natural sum; when they add up to less than `2 ^ 31`
  the sum is also nonnegative as a signed integer and its signed reading is the same number. A printed cumulative
  sum or count read with these is a statement about natural numbers.
-/
import Mathlib.Data.BitVec
import Mathlib.Algebra.BigOperators.Group.Finset.Basic

namespace Cert.HostInt

/-- The unsigned reading of a word sum is the natural sum, when that is below `2 ^ 32`. -/
theorem toNat_sum_of_lt {ι : Type} (s : Finset ι) (f : ι → BitVec 32) (h : ∑ i ∈ s, (f i).toNat < 2 ^ 32) :
    (∑ i ∈ s, f i).toNat = ∑ i ∈ s, (f i).toNat := by
  classical
  induction s using Finset.induction_on with
  | empty => simp
  | insert a s ha ih =>
    rw [Finset.sum_insert ha] at h ⊢
    rw [Finset.sum_insert ha, BitVec.toNat_add, ih (by omega), Nat.mod_eq_of_lt h]

/-- The signed reading of a word below `2 ^ 31` is its unsigned reading. -/
theorem toInt_eq_toNat_of_lt (x : BitVec 32) (h : x.toNat < 2 ^ 31) : x.toInt = (x.toNat : Int) := by
  rw [BitVec.toInt_eq_toNat_cond, if_pos (by omega)]

/-- The signed reading of a word sum is the natural sum, when that is below `2 ^ 31`. -/
theorem toInt_sum_of_lt {ι : Type} (s : Finset ι) (f : ι → BitVec 32) (h : ∑ i ∈ s, (f i).toNat < 2 ^ 31) :
    (∑ i ∈ s, f i).toInt = ((∑ i ∈ s, (f i).toNat : Nat) : Int) := by
  have h' := toNat_sum_of_lt s f (by omega)
  rw [toInt_eq_toNat_of_lt _ (by rw [h']; exact h), h']

end Cert.HostInt
-- ==== Proof.LibRepeatCount.lean ====
/-
  The counting behind `jnp.repeat(arange(B), lengths, total_repeat_length = N)`.

  The lowering marks, for each segment `b`, the row `offs b = l 0 + … + l (b − 1)` at which the segment starts, takes
  the running count of marks up to row `i`, and subtracts one: row `i` is given the segment
  `#{b | offs b ≤ i} − 1`. Because `offs` is monotone, the segments started by row `i` are an initial run
  `0, …, k − 1`, with `k` the first index whose offset exceeds `i`; so the row's segment is `k − 1`, the one segment
  with `offs b ≤ i < offs (b + 1)`. The rows given segment `b` are therefore exactly `[offs b, offs (b + 1))`, which
  are `l b` rows: every segment receives as many rows as its length, an empty segment none. All of it needs only
  that the lengths add up to the number of rows.
-/
import Mathlib

namespace Cert.HostInt

variable {B : Nat} (l : Fin B → Nat)

/-- The exclusive prefix sums of the lengths, at any natural number: `offs l k` adds the lengths of the segments below `k`. -/
def offs (k : Nat) : Nat := ∑ b : Fin B, if b.val < k then l b else 0

theorem offs_zero : offs l 0 = 0 := by
  unfold offs
  exact Finset.sum_eq_zero fun b _ => if_neg (Nat.not_lt_zero _)

theorem offs_mono {k k' : Nat} (h : k ≤ k') : offs l k ≤ offs l k' := by
  unfold offs
  refine Finset.sum_le_sum fun b _ => ?_
  by_cases h1 : b.val < k
  · rw [if_pos h1, if_pos (lt_of_lt_of_le h1 h)]
  · rw [if_neg h1]; exact Nat.zero_le _

theorem offs_succ (b : Fin B) : offs l (b.val + 1) = offs l b.val + l b := by
  unfold offs
  have h : ∀ b' : Fin B, (if b'.val < b.val + 1 then l b' else 0)
      = (if b'.val < b.val then l b' else 0) + (if b' = b then l b' else 0) := by
    intro b'
    by_cases h1 : b'.val < b.val
    · rw [if_pos h1, if_pos (Nat.lt_succ_of_lt h1), if_neg (fun e => by rw [e] at h1; exact lt_irrefl _ h1), add_zero]
    · by_cases h2 : b' = b
      · rw [h2, if_pos (Nat.lt_succ_self _), if_neg (lt_irrefl _), if_pos rfl, zero_add]
      · have h3 : ¬ b'.val < b.val + 1 := fun h3 => h2 (Fin.ext (by omega))
        rw [if_neg h3, if_neg h1, if_neg h2]
  rw [Finset.sum_congr rfl fun b' _ => h b', Finset.sum_add_distrib, Finset.sum_ite_eq' Finset.univ b]
  simp

theorem offs_top {k : Nat} (hk : B ≤ k) : offs l k = ∑ b, l b := by
  unfold offs
  exact Finset.sum_congr rfl fun b _ => if_pos (lt_of_lt_of_le b.isLt hk)

/-- The segments below `k` number `k`, when `k ≤ B`. -/
theorem card_below {k : Nat} (hk : k ≤ B) : (Finset.univ.filter fun b : Fin B => b.val < k).card = k := by
  rw [Finset.card_filter, Fin.sum_univ_eq_sum_range (fun b => if b < k then 1 else 0) B, ← Finset.card_filter]
  have : (Finset.range B).filter (fun b => b < k) = Finset.range k := by
    ext b
    simp only [Finset.mem_filter, Finset.mem_range]
    omega
  rw [this, Finset.card_range]

/-- The segment a row is given: the number of segments started by the row, less one. -/
def segOf (i : Nat) : Nat := (Finset.univ.filter fun b : Fin B => offs l b.val ≤ i).card - 1

/-- A ROW'S SEGMENT IS THE ONE WHOSE RANGE HOLDS IT. -/
theorem segOf_spec (i : Nat) (hi : i < ∑ b, l b) :
    ∃ b : Fin B, segOf l i = b.val ∧ offs l b.val ≤ i ∧ i < offs l (b.val + 1) := by
  classical
  have hex : ∃ k, i < offs l k := ⟨B, by rw [offs_top l le_rfl]; exact hi⟩
  have hkB : Nat.find hex ≤ B := Nat.find_min' hex (by rw [offs_top l le_rfl]; exact hi)
  have hk0 : Nat.find hex ≠ 0 := by
    intro h0
    have := Nat.find_spec hex
    rw [h0, offs_zero] at this
    exact Nat.not_lt_zero _ this
  have hset : (Finset.univ.filter fun b : Fin B => offs l b.val ≤ i)
      = Finset.univ.filter fun b : Fin B => b.val < Nat.find hex := by
    ext b
    simp only [Finset.mem_filter, Finset.mem_univ, true_and]
    constructor
    · intro hb
      by_contra hlt
      have := offs_mono l (not_lt.mp hlt)
      have hs := Nat.find_spec hex
      omega
    · intro hb
      exact not_lt.mp (Nat.find_min hex hb)
  have hcard : segOf l i = Nat.find hex - 1 := by
    unfold segOf
    rw [hset, card_below hkB]
  have hlt : Nat.find hex - 1 < B := by omega
  refine ⟨⟨Nat.find hex - 1, hlt⟩, hcard, ?_, ?_⟩
  · exact not_lt.mp (Nat.find_min hex (by omega : Nat.find hex - 1 < Nat.find hex))
  · show i < offs l (Nat.find hex - 1 + 1)
    rw [Nat.sub_add_cancel (Nat.one_le_iff_ne_zero.mpr hk0)]
    exact Nat.find_spec hex

/-- EVERY SEGMENT RECEIVES AS MANY ROWS AS ITS LENGTH. -/
theorem card_segOf_eq (b : Fin B) :
    ((Finset.range (∑ b, l b)).filter fun i => segOf l i = b.val).card = l b := by
  have hset : ((Finset.range (∑ b, l b)).filter fun i => segOf l i = b.val)
      = Finset.Ico (offs l b.val) (offs l (b.val + 1)) := by
    ext i
    simp only [Finset.mem_filter, Finset.mem_range, Finset.mem_Ico]
    constructor
    · rintro ⟨hi, hs⟩
      obtain ⟨b', hb', h1, h2⟩ := segOf_spec l i hi
      have : b'.val = b.val := by rw [← hb', hs]
      rw [← this]
      exact ⟨h1, h2⟩
    · rintro ⟨h1, h2⟩
      have hi : i < ∑ b, l b := by
        have := offs_mono l (show b.val + 1 ≤ B from b.isLt)
        rw [offs_top l le_rfl] at this
        omega
      refine ⟨hi, ?_⟩
      obtain ⟨b', hb', h1', h2'⟩ := segOf_spec l i hi
      rw [hb']
      by_contra hne
      rcases Nat.lt_or_gt_of_ne hne with hlt | hgt
      · have := offs_mono l (show b'.val + 1 ≤ b.val from hlt)
        omega
      · have := offs_mono l (show b.val + 1 ≤ b'.val from hgt)
        omega
  rw [hset, Nat.card_Ico, offs_succ]
  omega

/-- A row's segment is one of the `B` segments. -/
theorem segOf_lt (i : Nat) (hi : i < ∑ b, l b) : segOf l i < B := by
  obtain ⟨b, hb, _, _⟩ := segOf_spec l i hi
  rw [hb]
  exact b.isLt

end Cert.HostInt
-- ==== Proof.SegChain1.lean ====
/-
  The segment starts: the exclusive prefix sums of the lengths.

  The lengths are rolled by one place, entry `0` of the rolled vector is overwritten by `0`, and the result is summed
  from the left. Entry `j ≥ 1` of the rolled vector is length `j − 1`, so the sum up to `j` adds the lengths
  `0, …, j − 1`: the row at which segment `j` starts. The lengths are nonnegative and add up to the number of rows,
  far below `2^31`, so the machine sums are the natural sums.
-/
import proofs.«122487_j41781441855970_1_alg».proof.Proof.RStages
import proofs.«122487_j41781441855970_1_alg».proof.Proof.LibHostCumsum
import proofs.«122487_j41781441855970_1_alg».proof.Proof.LibWordSum
import proofs.«122487_j41781441855970_1_alg».proof.Proof.LibRepeatCount
import Idealize.ShloMosaic.Lib.Pipeline.Value
import Idealize.ShloMosaic.Lib.ValueIdx

noncomputable section

open Idealize.ShloMosaic Idealize.ShloMosaic.ValueIdx
open Cert.ReferenceIdeal Cert.ReferenceIdeal.Gen Cert.ReferenceIdeal.Hand Cert.HostInt

namespace Cert.SegChain

instance : Subsingleton S_.Idx := ⟨fun a b => funext fun d => d.elim0⟩

/-- The lengths as natural numbers. -/
def lenN (l : IVec S128 32) (b : Fin 128) : Nat := (l (ix1 b)).toNat

theorem roll_zero (l : IVec S128 32) : refRoll l (ix1 ⟨0, by decide⟩) = l (ix1 ⟨127, by decide⟩) := by
  unfold refRoll
  rw [concatenate_pair_apply_left (t := S128) (s₁ := S1) (s₂ := S127) (0 : Fin 1) _ _ _ (ix1 ⟨0, by decide⟩ : S128.Idx) rfl
    (ix1 ⟨0, by decide⟩ : S1.Idx) (fun b => by obtain rfl : b = 0 := Subsingleton.elim _ _; rfl)]
  exact extractStridedSlice_apply _ _ _ _ (ix1 ⟨127, by decide⟩ : S128.Idx)
    (fun a => by obtain rfl : a = 0 := Subsingleton.elim _ _; rfl)

theorem roll_succ (l : IVec S128 32) (j : Fin 128) (hj : 0 < j.val) :
    refRoll l (ix1 j) = l (ix1 ⟨j.val - 1, by omega⟩) := by
  unfold refRoll
  rw [concatenate_pair_apply_right (t := S128) (s₁ := S1) (s₂ := S127) (0 : Fin 1) _ _ _ (ix1 j : S128.Idx) rfl rfl
    (ix1 ⟨j.val - 1, by omega⟩ : S127.Idx)
    (fun b hb => absurd (Subsingleton.elim _ _) hb) (by show (j.val - 1) + 1 = j.val; omega)]
  exact extractStridedSlice_apply _ _ _ _ (ix1 ⟨j.val - 1, by omega⟩ : S128.Idx)
    (fun a => by obtain rfl : a = 0 := Subsingleton.elim _ _; show j.val - 1 = 0 + (j.val - 1); omega)

/-- The rolled lengths with entry `0` overwritten: `0` first, then length `j − 1` at `j`. -/
def shifted (l : IVec S128 32) : IVec S128 32 :=
  Host.scatter scatter_S128_S1_S__n_0_0_0 (fun _ b => b) (refRoll l)
    (broadcastInDim S1 ![] bcast_S_S1 (constantI S_ 32 0#32)) (constantI S_ 32 0#32)

theorem shifted_apply (l : IVec S128 32) (j : Fin 128) :
    shifted l (ix1 j) = if j.val = 0 then 0#32 else l (ix1 ⟨j.val - 1, by omega⟩) := by
  have hr : scatter_S128_S1_S__n_0_0_0.resultIdx? (ix0 : S_.Idx)
      (broadcastInDim S1 ![] bcast_S_S1 (constantI S_ 32 0#32)) = some (ix1 ⟨0, by decide⟩ : S128.Idx) := by decide
  have hl : List.finRange S_.numel = [⟨0, by decide⟩] := by decide
  have hi : S_.rowMajor.symm ⟨0, by decide⟩ = (ix0 : S_.Idx) := Subsingleton.elim _ _
  unfold shifted Host.scatter
  rw [hl, List.foldl_cons, List.foldl_nil, hi, hr]
  show (if (ix1 j : S128.Idx) = ix1 ⟨0, by decide⟩ then (0#32 : BitVec 32) else refRoll l (ix1 j)) = _
  by_cases h : j.val = 0
  · have hj : j = ⟨0, by decide⟩ := Fin.ext h
    rw [if_pos h, if_pos (by rw [hj])]
  · rw [if_neg h, if_neg, roll_succ l j (by omega)]
    intro e
    exact h (congrArg (fun y : S128.Idx => (y 0).val) e)

/-- The starts are the running sums of the shifted lengths. -/
theorem starts_eq_sum (l : IVec S128 32) (j : Fin 128) :
    refStarts l (ix1 j) = ∑ i : Fin 128, if i.val ≤ j.val then shifted l (ix1 i) else 0 :=
  reduceWindow_addi_prefix (n := 128) (shifted l) _ 127 rfl _ _ rfl j

/-- The natural reading of a shifted entry. -/
theorem shifted_toNat (l : IVec S128 32) (i : Fin 128) :
    (shifted l (ix1 i)).toNat = if h : i.val = 0 then 0 else lenN l ⟨i.val - 1, by omega⟩ := by
  rw [shifted_apply]
  by_cases h : i.val = 0
  · rw [if_pos h, dif_pos h]; rfl
  · rw [if_neg h, dif_neg h]; rfl

/-- The lengths below `j`, summed through the shift: the offset of segment `j`. -/
theorem sum_shifted_eq_offs (l : IVec S128 32) (j : Fin 128) :
    (∑ i : Fin 128, ((if i.val ≤ j.val then shifted l (ix1 i) else 0 : BitVec 32)).toNat) = offs (lenN l) j.val := by
  have hj := j.isLt
  let g : Nat → Nat := fun b => if h : b < 128 then lenN l ⟨b, h⟩ else 0
  have h1 : ∀ i : Fin 128, ((if i.val ≤ j.val then shifted l (ix1 i) else 0 : BitVec 32)).toNat
      = (fun n : Nat => if 1 ≤ n ∧ n ≤ j.val then g (n - 1) else 0) i.val := by
    intro i
    have hi := i.isLt
    show _ = if 1 ≤ i.val ∧ i.val ≤ j.val then g (i.val - 1) else 0
    by_cases hle : i.val ≤ j.val
    · rw [if_pos hle, shifted_toNat]
      by_cases h0 : i.val = 0
      · rw [dif_pos h0, if_neg (by omega)]
      · rw [dif_neg h0, if_pos ⟨by omega, hle⟩]
        show _ = if h : i.val - 1 < 128 then lenN l ⟨i.val - 1, h⟩ else 0
        rw [dif_pos (by omega)]
    · rw [if_neg hle, if_neg (by omega)]; rfl
  have h2 : offs (lenN l) j.val = ∑ b : Fin 128, (fun n : Nat => if n < j.val then g n else 0) b.val := by
    unfold offs
    refine Finset.sum_congr rfl fun b _ => ?_
    show _ = if b.val < j.val then g b.val else 0
    by_cases hb : b.val < j.val
    · rw [if_pos hb, if_pos hb]
      show _ = if h : b.val < 128 then lenN l ⟨b.val, h⟩ else 0
      rw [dif_pos b.isLt]
    · rw [if_neg hb, if_neg hb]
  rw [Finset.sum_congr rfl fun i _ => h1 i, h2,
    Fin.sum_univ_eq_sum_range (fun n : Nat => if 1 ≤ n ∧ n ≤ j.val then g (n - 1) else 0) 128,
    Fin.sum_univ_eq_sum_range (fun n : Nat => if n < j.val then g n else 0) 128,
    ← Finset.sum_filter, ← Finset.sum_filter]
  have e1 : (Finset.range 128).filter (fun n => 1 ≤ n ∧ n ≤ j.val) = Finset.Ico 1 (j.val + 1) := by
    ext n; simp only [Finset.mem_filter, Finset.mem_range, Finset.mem_Ico]; omega
  have e2 : (Finset.range 128).filter (fun n => n < j.val) = Finset.range j.val := by
    ext n; simp only [Finset.mem_filter, Finset.mem_range]; omega
  rw [e1, e2, Finset.sum_Ico_eq_sum_range, show j.val + 1 - 1 = j.val by omega]
  refine Finset.sum_congr rfl fun k _ => ?_
  rw [show 1 + k - 1 = k by omega]

/-- THE STARTS ARE THE OFFSETS: when the lengths' natural sum is the number of rows, start `j` reads, unsigned and
    signed, as the sum of the lengths below `j`. -/
theorem starts_toNat (l : IVec S128 32) (hsum : ∑ b : Fin 128, lenN l b = 524288) (j : Fin 128) :
    (refStarts l (ix1 j)).toNat = offs (lenN l) j.val := by
  rw [starts_eq_sum, toNat_sum_of_lt, sum_shifted_eq_offs]
  rw [sum_shifted_eq_offs]
  have := offs_mono (lenN l) (show j.val ≤ 128 from le_of_lt j.isLt)
  rw [offs_top (lenN l) le_rfl, hsum] at this
  omega

theorem offs_le (l : IVec S128 32) (hsum : ∑ b : Fin 128, lenN l b = 524288) (k : Nat) : offs (lenN l) k ≤ 524288 := by
  by_cases hk : k ≤ 128
  · have := offs_mono (lenN l) hk
    rw [offs_top (lenN l) le_rfl, hsum] at this
    exact this
  · rw [offs_top (lenN l) (by omega), hsum]

end Cert.SegChain

end
-- ==== Proof.LibHostScatterAdd.lean ====
/-
  An accumulating scatter (`.at[idx].add(v)`) as it is printed, read at an entry.

  The printed scatter is a left fold over the update entries in row-major order: an entry whose result index is inside
  the operand replaces the operand's element there by the body applied to it and the update, an entry landing outside
  is dropped. When the body is addition in a commutative monoid the order is immaterial and the fold reads, at every
  entry `i` and for ANY dimension numbers, as the operand's entry plus the sum of the updates whose result index is `i`.
  The rank-one case with a column `[B, 1]` of scatter indices — `zeros(N).at[idx].add(v)` — then has update `j` landing
  at `idx j`, read as a signed integer and not clamped, when that is inside `[0, N)`.
-/
import Idealize.ShloMosaic.PureOps
import Idealize.ShloMosaic.Lib.ValueIdx
import Mathlib.Data.BitVec

noncomputable section

open Idealize.ShloMosaic Idealize.ShloMosaic.ValueIdx

namespace Cert.HostInt

/-- One step of the fold, read at an entry: the entry gains the update exactly when the update lands on it. -/
theorem scatter_step_apply {α : Type} [AddCommMonoid α] {s : Shape} (r : s.Idx → α) (o : Option s.Idx) (v : α) (i : s.Idx) :
    (match o with
      | some i0 => fun i' => if i' = i0 then r i0 + v else r i'
      | none => r) i = r i + if o = some i then v else 0 := by
  cases o with
  | none => simp
  | some i0 =>
    show (if i = i0 then r i0 + v else r i) = r i + if some i0 = some i then v else 0
    by_cases h : i = i0
    · subst h; simp
    · rw [if_neg h, if_neg (fun hh => h (Option.some.inj hh).symm), add_zero]

/-- THE ACCUMULATING SCATTER AT AN ENTRY, for any dimension numbers: the operand's entry plus the updates landing on it. -/
theorem scatter_add_apply {α : Type} [AddCommMonoid α] {s si u : Shape} {w : Nat} (d : ScatterDims s si u)
    (x : s.Idx → α) (idx : IVec si w) (upd : u.Idx → α) (i : s.Idx) :
    Host.scatter d (· + ·) x idx upd i = x i + ∑ j : u.Idx, if d.resultIdx? j idx = some i then upd j else 0 := by
  unfold Host.scatter
  have h : ∀ (l : List (Fin u.numel)) (r : s.Idx → α),
      (l.foldl (fun r n =>
        match d.resultIdx? (u.rowMajor.symm n) idx with
        | some i0 => fun i' => if i' = i0 then r i0 + upd (u.rowMajor.symm n) else r i'
        | none => r) r) i
      = r i + (l.map fun n => if d.resultIdx? (u.rowMajor.symm n) idx = some i then upd (u.rowMajor.symm n) else 0).sum := by
    intro l
    induction l with
    | nil => intro r; simp
    | cons n l ih =>
      intro r
      rw [List.foldl_cons, ih, scatter_step_apply, List.map_cons, List.sum_cons, add_assoc]
  refine (h (List.finRange u.numel) x).trans ?_
  rw [← Fin.sum_univ_def]
  refine congrArg (x i + ·) ?_
  exact Equiv.sum_comp u.rowMajor.symm fun j => if d.resultIdx? j idx = some i then upd j else 0

/-- The dimension numbers of `operand.at[idx].add(v)`: operand `[N]`, scatter indices `[B, 1]`, updates `[B]`. -/
abbrev colScatterDims (N B : Nat) (wf : ScatterDims.WF ⟨1, ![N]⟩ ⟨2, ![B, 1]⟩ ⟨1, ![B]⟩ [] [0] [0] 1) :
    ScatterDims ⟨1, ![N]⟩ ⟨2, ![B, 1]⟩ ⟨1, ![B]⟩ where
  updateWindowDims := []
  insertedWindowDims := [0]
  scatterDimsToOperandDims := [0]
  indexVectorDim := 1
  wf := wf

/-- The scatter-indices entry that update `j` reads. -/
abbrev colEntry {B : Nat} (j : Fin B) : (⟨2, ![B, 1]⟩ : Shape).Idx := ix2 j ⟨0, Nat.one_pos⟩

section
variable {N B w : Nat} (wf : ScatterDims.WF ⟨1, ![N]⟩ ⟨2, ![B, 1]⟩ ⟨1, ![B]⟩ [] [0] [0] 1)
  (idx : IVec ⟨2, ![B, 1]⟩ w) (j : Fin B)

theorem col_start : (colScatterDims N B wf).start (ix1 j) idx 0 = (idx (colEntry j)).toInt := by
  unfold ScatterDims.start
  rw [dif_pos (show (0 : Fin 1) ∈ (colScatterDims N B wf).scatterDimsToOperandDims from List.mem_singleton.mpr rfl)]
  have hsi : (colScatterDims N B wf).siIdx (ix1 j)
      ⟨List.idxOf (0 : Fin 1) (colScatterDims N B wf).scatterDimsToOperandDims,
        List.idxOf_lt_length_iff.2 (List.mem_singleton.mpr rfl)⟩ = colEntry j := by
    funext b; refine Fin.ext ?_
    match b with
    | ⟨0, _⟩ => rfl
    | ⟨1, _⟩ => rfl
  rw [hsi]

theorem col_window : (colScatterDims N B wf).window (ix1 j) 0 = 0 := by
  unfold ScatterDims.window
  rw [dif_neg]
  simp [ScatterDims.sKept, Shape.kept, List.mem_filter, List.mem_finRange]

/-- WHERE UPDATE `j` LANDS: at `idx j`, read signed, when that is an index of the operand; nowhere otherwise. -/
theorem resultIdx?_col :
    (colScatterDims N B wf).resultIdx? (ix1 j) idx
      = if h : 0 ≤ (idx (colEntry j)).toInt ∧ (idx (colEntry j)).toInt < N then
          some (ix1 ⟨(idx (colEntry j)).toInt.toNat, by omega⟩)
        else none := by
  unfold ScatterDims.resultIdx?
  by_cases h : 0 ≤ (idx (colEntry j)).toInt ∧ (idx (colEntry j)).toInt < N
  · have hall : ∀ a : Fin 1, 0 ≤ (colScatterDims N B wf).start (ix1 j) idx a + (colScatterDims N B wf).window (ix1 j) a
        ∧ (colScatterDims N B wf).start (ix1 j) idx a + (colScatterDims N B wf).window (ix1 j) a
          < ((⟨1, ![N]⟩ : Shape).size a : Int) := by
      intro a
      obtain rfl : a = 0 := Subsingleton.elim _ _
      show 0 ≤ (colScatterDims N B wf).start (ix1 j) idx 0 + (colScatterDims N B wf).window (ix1 j) 0
        ∧ (colScatterDims N B wf).start (ix1 j) idx 0 + (colScatterDims N B wf).window (ix1 j) 0 < (N : Int)
      rw [col_start, col_window]
      simpa using h
    rw [dif_pos hall, dif_pos h]
    refine congrArg some (funext fun a => Fin.ext ?_)
    obtain rfl : a = 0 := Subsingleton.elim _ _
    show ((colScatterDims N B wf).start (ix1 j) idx 0 + (colScatterDims N B wf).window (ix1 j) 0).toNat
      = (idx (colEntry j)).toInt.toNat
    rw [col_start, col_window]
    simp
  · rw [dif_neg h, dif_neg]
    intro hall
    have h0 : 0 ≤ (colScatterDims N B wf).start (ix1 j) idx 0 + (colScatterDims N B wf).window (ix1 j) 0
        ∧ (colScatterDims N B wf).start (ix1 j) idx 0 + (colScatterDims N B wf).window (ix1 j) 0 < (N : Int) := hall 0
    rw [col_start, col_window] at h0
    exact h (by simpa using h0)

end

/-- THE RANK-ONE ACCUMULATING SCATTER AT AN ENTRY: the operand's entry plus the updates whose start index, read
    signed, is `i`. -/
theorem scatter_add_col_apply {α : Type} [AddCommMonoid α] {N B w : Nat}
    (wf : ScatterDims.WF ⟨1, ![N]⟩ ⟨2, ![B, 1]⟩ ⟨1, ![B]⟩ [] [0] [0] 1)
    (x : (⟨1, ![N]⟩ : Shape).Idx → α) (idx : IVec ⟨2, ![B, 1]⟩ w) (upd : (⟨1, ![B]⟩ : Shape).Idx → α) (i : Fin N) :
    Host.scatter (colScatterDims N B wf) (· + ·) x idx upd (ix1 i)
      = x (ix1 i) + ∑ j : Fin B, if (idx (colEntry j)).toInt = (i.val : Int) then upd (ix1 j) else 0 := by
  rw [scatter_add_apply]
  refine congrArg (x (ix1 i) + ·) ?_
  have hi := i.isLt
  rw [← Equiv.sum_comp (⟨fun j : Fin B => (ix1 j : (⟨1, ![B]⟩ : Shape).Idx), fun y => y 0, fun _ => rfl,
    fun y => (eq_ix1 y).symm⟩ : Fin B ≃ (⟨1, ![B]⟩ : Shape).Idx)]
  refine Finset.sum_congr rfl fun j _ => ?_
  show (if (colScatterDims N B wf).resultIdx? (ix1 j) idx = some (ix1 i) then upd (ix1 j) else 0) = _
  rw [resultIdx?_col]
  by_cases h : 0 ≤ (idx (colEntry j)).toInt ∧ (idx (colEntry j)).toInt < N
  · rw [dif_pos h]
    by_cases ht : (idx (colEntry j)).toInt = (i.val : Int)
    · rw [if_pos ht, if_pos]
      refine congrArg some (funext fun a => Fin.ext ?_)
      obtain rfl : a = 0 := Subsingleton.elim _ _
      show (idx (colEntry j)).toInt.toNat = i.val
      omega
    · rw [if_neg ht, if_neg]
      intro hh
      have : (idx (colEntry j)).toInt.toNat = i.val := congrArg (fun y : (⟨1, ![N]⟩ : Shape).Idx => (y 0).val) (Option.some.inj hh)
      omega
  · rw [dif_neg h, if_neg (by simp), if_neg (by omega)]

end Cert.HostInt

end
-- ==== Proof.SegChain2.lean ====
/-
  From the starts to each row's position among the segments.

  The starts are nonnegative, so wrapping a negative start by the row count changes nothing. The marks add a one at
  each start's row (a start equal to the row count falls outside and is dropped), so row `i` holds the number of
  segments starting exactly at `i`. Summing the marks up to row `i` counts the segments whose start is at most `i`;
  that count is at least one, since segment `0` starts at row `0`, and less one it is the row's segment.
-/
import proofs.«122487_j41781441855970_1_alg».proof.Proof.SegChain1
import proofs.«122487_j41781441855970_1_alg».proof.Proof.LibHostScatterAdd

noncomputable section

open Idealize.ShloMosaic Idealize.ShloMosaic.ValueIdx
open Cert.ReferenceIdeal Cert.ReferenceIdeal.Gen Cert.ReferenceIdeal.Hand Cert.HostInt

namespace Cert.SegChain

variable (l : IVec S128 32) (hsum : ∑ b : Fin 128, lenN l b = 524288)

include hsum in
theorem starts_toInt (j : Fin 128) : (refStarts l (ix1 j)).toInt = (offs (lenN l) j.val : Int) := by
  have h1 := starts_toNat l hsum j
  have h2 := offs_le l hsum j.val
  rw [toInt_eq_toNat_of_lt _ (by rw [h1]; omega), h1]

/-- Wrapping changes no nonnegative entry. -/
theorem wrap_of_nonneg (s : IVec S128 32) (j : Fin 128) (h : 0 ≤ (s (ix1 j)).toInt) :
    refWrapStarts s (ix1 j) = s (ix1 j) := by
  unfold refWrapStarts
  show Scalar.select (IntOp.cmpi .slt (s (ix1 j)) 0#32) _ (s (ix1 j)) = _
  have h0 : (0#32 : BitVec 32).toInt = 0 := by decide
  have hn : ¬ IntOp.cmpi .slt (s (ix1 j)) 0#32 = 1#1 := by
    rw [IntOp.cmpi_slt, h0]
    exact not_lt.mpr h
  unfold Scalar.select
  exact if_neg hn

include hsum in
/-- Wrapping changes no start. -/
theorem wrap_apply (j : Fin 128) : refWrapStarts (refStarts l) (ix1 j) = refStarts l (ix1 j) :=
  wrap_of_nonneg _ j (by rw [starts_toInt l hsum]; exact Int.natCast_nonneg _)

include hsum in
/-- THE MARKS: row `i` holds the number of segments that start at `i`. -/
theorem marks_apply (i : Fin 524288) :
    refMarks (refStarts l) (ix1 i) = ∑ b : Fin 128, if offs (lenN l) b.val = i.val then (1#32 : BitVec 32) else 0 := by
  have h := scatter_add_col_apply (N := 524288) (B := 128) (scatter_S524288_S128x1_S128_n_0_0_1).wf
    (broadcastInDim S524288 ![] bcast_S_S524288 (constantI S_ 32 0#32))
    (broadcastInDim S128x1 ![0] bcast_S128_S128x1_0 (refWrapStarts (refStarts l)))
    (broadcastInDim S128 ![] bcast_S_S128 (constantI S_ 32 1#32)) i
  have h' : refMarks (refStarts l) (ix1 i) = _ := h
  rw [h']
  have hz : (broadcastInDim S524288 ![] bcast_S_S524288 (constantI S_ 32 0#32) : IVec S524288 32) (ix1 i) = 0 := rfl
  rw [hz, zero_add]
  refine Finset.sum_congr rfl fun b _ => ?_
  have hidx : (broadcastInDim S128x1 ![0] bcast_S128_S128x1_0 (refWrapStarts (refStarts l)) : IVec S128x1 32) (colEntry b)
      = refWrapStarts (refStarts l) (ix1 b) := by
    unfold broadcastInDim
    refine congrArg _ (funext fun a => ?_)
    obtain rfl : a = 0 := Subsingleton.elim _ _
    rfl
  have hone : (broadcastInDim S128 ![] bcast_S_S128 (constantI S_ 32 1#32) : IVec S128 32) (ix1 b) = 1#32 := rfl
  rw [hidx, hone, wrap_apply l hsum, starts_toInt l hsum]
  by_cases hb : offs (lenN l) b.val = i.val
  · rw [if_pos hb, if_pos (by rw [hb])]
  · rw [if_neg hb, if_neg (by omega)]

/-- The number of segments whose start is at most row `i`. -/
def started (i : Nat) : Nat := (Finset.univ.filter fun b : Fin 128 => offs (lenN l) b.val ≤ i).card

theorem started_le (i : Nat) : started l i ≤ 128 := by
  unfold started
  exact (Finset.card_filter_le _ _).trans (by simp)

theorem started_pos (i : Nat) : 1 ≤ started l i := by
  unfold started
  refine Finset.card_pos.mpr ⟨⟨0, by decide⟩, ?_⟩
  rw [Finset.mem_filter]
  exact ⟨Finset.mem_univ _, by show offs (lenN l) 0 ≤ i; rw [offs_zero]; exact Nat.zero_le _⟩

include hsum in
/-- The marks summed up to row `i` count the segments started by then. -/
theorem marks_prefix (i : Fin 524288) :
    (∑ i' : Fin 524288, if i'.val ≤ i.val then refMarks (refStarts l) (ix1 i') else 0) = BitVec.ofNat 32 (started l i.val) := by
  have hi := i.isLt
  have e1 : ∀ i' : Fin 524288, (if i'.val ≤ i.val then refMarks (refStarts l) (ix1 i') else 0)
      = ∑ b : Fin 128, if i'.val ≤ i.val ∧ offs (lenN l) b.val = i'.val then (1#32 : BitVec 32) else 0 := by
    intro i'
    by_cases h : i'.val ≤ i.val
    · rw [if_pos h, marks_apply l hsum]
      refine Finset.sum_congr rfl fun b _ => ?_
      by_cases hb : offs (lenN l) b.val = i'.val
      · rw [if_pos hb, if_pos ⟨h, hb⟩]
      · rw [if_neg hb, if_neg (fun hh => hb hh.2)]
    · rw [if_neg h]
      exact (Finset.sum_eq_zero fun b _ => if_neg fun hh => h hh.1).symm
  rw [Finset.sum_congr rfl fun i' _ => e1 i', Finset.sum_comm]
  have e2 : ∀ b : Fin 128, (∑ i' : Fin 524288, if i'.val ≤ i.val ∧ offs (lenN l) b.val = i'.val then (1#32 : BitVec 32) else 0)
      = if offs (lenN l) b.val ≤ i.val then 1 else 0 := by
    intro b
    by_cases hb : offs (lenN l) b.val ≤ i.val
    · rw [if_pos hb, Finset.sum_eq_single (⟨offs (lenN l) b.val, by omega⟩ : Fin 524288)]
      · rw [if_pos ⟨hb, rfl⟩]; rfl
      · intro i' _ hne
        rw [if_neg]
        intro hh
        exact hne (Fin.ext hh.2.symm)
      · intro h
        exact absurd (Finset.mem_univ _) h
    · rw [if_neg hb]
      refine Finset.sum_eq_zero fun i' _ => if_neg ?_
      intro hh
      omega
  rw [Finset.sum_congr rfl fun b _ => e2 b, Finset.sum_boole]
  rfl

include hsum in
/-- THE POSITION: the row's segment, as LibRepeatCount defines it. -/
theorem pos_apply (i : Fin 524288) :
    refPos (refMarks (refStarts l)) (ix1 i) = BitVec.ofNat 32 (segOf (lenN l) i.val) := by
  unfold refPos
  show IntOp.subi (Host.reduceWindow IntOp.addi ![524288] ![1] ![524287] ![0] (refMarks (refStarts l)) _ _ _ (ix1 i)) 1#32 = _
  rw [reduceWindow_addi_prefix (n := 524288) (refMarks (refStarts l)) _ 524287 rfl _ _ rfl i, marks_prefix l hsum i]
  have h1 := started_pos l i.val
  have h2 := started_le l i.val
  show BitVec.ofNat 32 (started l i.val) - 1#32 = BitVec.ofNat 32 (started l i.val - 1)
  apply BitVec.eq_of_toNat_eq
  simp only [BitVec.toNat_sub, BitVec.toNat_ofNat]
  omega

end Cert.SegChain

end
-- ==== Proof.SegChain3.lean ====
/-
  From the position to the segment id.

  The position of every row is one of `0, …, 127`. It is therefore not wrapped, it passes the range test of the take,
  and the take of the iota at it returns it: the segment id of row `i` is the segment whose range of rows holds `i`.
  Consequently every id is a valid segment, and each segment is the id of exactly as many rows as its length.
-/
import proofs.«122487_j41781441855970_1_alg».proof.Proof.SegChain2
import proofs.«122487_j41781441855970_1_alg».proof.Proof.LibHostGather
import Idealize.ShloMosaic.Lib.ReduceAll

noncomputable section

open Idealize.ShloMosaic Idealize.ShloMosaic.ValueIdx
open Cert.ReferenceIdeal Cert.ReferenceIdeal.Gen Cert.ReferenceIdeal.Hand Cert.HostInt

namespace Cert.SegChain

/-- A conjunction of bits that are all one, started at one, is one. -/
theorem foldl_andi_of_all {ι : Type} (f : ι → BitVec 1) (l : List ι) (hf : ∀ n ∈ l, f n = 1#1) :
    l.foldl (fun r n => IntOp.andi r (f n)) 1#1 = 1#1 := by
  induction l with
  | nil => rfl
  | cons a l ih =>
    rw [List.foldl_cons, hf a (List.mem_cons_self ..)]
    exact ih fun n hn => hf n (List.mem_cons_of_mem _ hn)

/-- `jnp.all` of bits that are all one is one. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ k, x k = 1#1) (j : t.Idx) :
    Host.reduce IntOp.andi x init h hu j = 1#1 := by
  rw [Host.reduce_eq_foldl, hinit]
  exact foldl_andi_of_all x _ fun n _ => hx n

variable (l : IVec S128 32) (hsum : ∑ b : Fin 128, lenN l b = 524288)

/-- The positions, for short. -/
abbrev posOf : IVec S524288 32 := refPos (refMarks (refStarts l))

include hsum in
theorem segOf_lt' (i : Fin 524288) : segOf (lenN l) i.val < 128 :=
  segOf_lt (lenN l) i.val (by rw [hsum]; exact i.isLt)

/-- A small natural number as a word reads, signed, as itself. -/
theorem ofNat_toInt (n : Nat) (h : n < 128) : (BitVec.ofNat 32 n).toInt = (n : Int) := by
  have h32 : (2 : Nat) ^ 32 = 4294967296 := by norm_num
  have h31 : (2 : Nat) ^ 31 = 2147483648 := by norm_num
  have h1 : (BitVec.ofNat 32 n).toNat = n := by
    rw [BitVec.toNat_ofNat]
    exact Nat.mod_eq_of_lt (by omega)
  rw [toInt_eq_toNat_of_lt _ (by rw [h1]; omega), h1]

include hsum in
theorem pos_toInt (i : Fin 524288) : (posOf l (ix1 i)).toInt = (segOf (lenN l) i.val : Int) := by
  rw [show posOf l = refPos (refMarks (refStarts l)) from rfl, pos_apply l hsum]
  exact ofNat_toInt _ (segOf_lt' l hsum i)

/-- The take's start index at any entry of the column is the row's position, when that is nonnegative. -/
theorem takeIdx_of_nonneg (p : IVec S524288 32) (k : S524288x1.Idx) (h : 0 ≤ (p (ix1 (k 0))).toInt) :
    refTakeIdx p k = p (ix1 (k 0)) := by
  unfold refTakeIdx
  have hb : ∀ v : IVec S524288 32, (broadcastInDim S524288x1 ![0] bcast_S524288_S524288x1_0 v : IVec S524288x1 32) k = v (ix1 (k 0)) := by
    intro v
    unfold broadcastInDim
    refine congrArg _ (funext fun a => ?_)
    obtain rfl : a = 0 := Subsingleton.elim _ _
    rfl
  rw [hb]
  show Scalar.select (IntOp.cmpi .slt (p (ix1 (k 0))) 0#32) _ (p (ix1 (k 0))) = _
  have h0 : (0#32 : BitVec 32).toInt = 0 := by decide
  have hn : ¬ IntOp.cmpi .slt (p (ix1 (k 0))) 0#32 = 1#1 := by
    rw [IntOp.cmpi_slt, h0]
    exact not_lt.mpr h
  unfold Scalar.select
  exact if_neg hn

/-- Every row passes the take's range test, when every position is one of `0, …, 127`. -/
theorem takeInb_of_range (p : IVec S524288 32) (h : ∀ r : Fin 524288, 0 ≤ (p (ix1 r)).toInt ∧ (p (ix1 r)).toInt ≤ 127)
    (i : Fin 524288) : refTakeInb (refTakeIdx p) (ix1 i) = 1#1 := by
  unfold refTakeInb
  refine reduce_andi_of_all _ _ _ _ rfl (fun k => ?_) _
  show IntOp.andi (IntOp.cmpi .sge (refTakeIdx p k) 0#32) (IntOp.cmpi .sle (refTakeIdx p k) 127#32) = 1#1
  have h127 : (127#32 : BitVec 32).toInt = 127 := by decide
  have h0 : (0#32 : BitVec 32).toInt = 0 := by decide
  rw [IntOp.andi_eq_one, IntOp.cmpi_sge, IntOp.cmpi_sle, takeIdx_of_nonneg p k (h (k 0)).1, h127, h0]
  exact h (k 0)

/-- The take of the iota at a position in range returns the position. -/
theorem take_iota_of_range (p : IVec S524288 32) (h : ∀ r : Fin 524288, 0 ≤ (p (ix1 r)).toInt ∧ (p (ix1 r)).toInt ≤ 127)
    (i : Fin 524288) : refTake refIota p (ix1 i) = BitVec.ofNat 32 (p (ix1 i)).toInt.toNat := by
  unfold refTake
  show Scalar.select (refTakeInb (refTakeIdx p) (ix1 i))
    (Host.gather gather_S128_S524288x1_S524288_n_0_n_n_0_1_1 refIota (refTakeIdx p) (ix1 i)) _ = _
  rw [takeInb_of_range p h, select_one]
  have hg := gather_take_col_apply (B := 128) (N := 524288) (by decide) (gather_S128_S524288x1_S524288_n_0_n_n_0_1_1).wf
    refIota (refTakeIdx p) i
  have hg' : Host.gather gather_S128_S524288x1_S524288_n_0_n_n_0_1_1 refIota (refTakeIdx p) (ix1 i) = _ := hg
  rw [hg']
  show BitVec.ofNat 32 (min (refTakeIdx p (colIdx i)).toInt.toNat (128 - 1)) = _
  have hi := h i
  rw [takeIdx_of_nonneg p (colIdx i) (h i).1, show ((colIdx i : S524288x1.Idx) 0) = i from rfl]
  congr 1
  omega

include hsum in
theorem pos_range (r : Fin 524288) : 0 ≤ (posOf l (ix1 r)).toInt ∧ (posOf l (ix1 r)).toInt ≤ 127 := by
  have h := segOf_lt' l hsum r
  rw [pos_toInt l hsum]
  omega

include hsum in
/-- THE SEGMENT ID OF A ROW is the segment whose range of rows holds it. -/
theorem seg_apply (i : Fin 524288) : refSeg l (ix1 i) = BitVec.ofNat 32 (segOf (lenN l) i.val) := by
  unfold refSeg
  rw [take_iota_of_range (posOf l) (pos_range l hsum) i, pos_toInt l hsum, Int.toNat_natCast]

include hsum in
theorem seg_toInt (i : Fin 524288) : (refSeg l (ix1 i)).toInt = (segOf (lenN l) i.val : Int) := by
  rw [seg_apply l hsum]
  exact ofNat_toInt _ (segOf_lt' l hsum i)

include hsum in
/-- Every segment id is a valid segment. -/
theorem seg_range (i : Fin 524288) : 0 ≤ (refSeg l (ix1 i)).toInt ∧ (refSeg l (ix1 i)).toInt < 128 := by
  have h := segOf_lt' l hsum i
  rw [seg_toInt l hsum]
  omega

include hsum in
/-- EVERY SEGMENT IS THE ID OF EXACTLY AS MANY ROWS AS ITS LENGTH. -/
theorem seg_count (b : Fin 128) :
    (Finset.univ.filter fun i : Fin 524288 => (refSeg l (ix1 i)).toInt = (b.val : Int)).card = lenN l b := by
  have h := card_segOf_eq (lenN l) b
  rw [hsum] at h
  rw [← h, Finset.card_filter, Finset.card_filter,
    ← Fin.sum_univ_eq_sum_range (fun i => if segOf (lenN l) i = b.val then 1 else 0) 524288]
  refine Finset.sum_congr rfl fun i _ => ?_
  rw [seg_toInt l hsum]
  by_cases hb : segOf (lenN l) i.val = b.val
  · rw [if_pos hb, if_pos (by rw [hb])]
  · rw [if_neg hb, if_neg (by omega)]

end Cert.SegChain

end
-- ==== Proof.LibHostSum.lean ====
/-
  An integer `jnp.sum` of a vector, as it is printed, read as a finite sum.

  The sum of a length-`n` integer vector over its one axis is printed as a one-operand reduction by addition from an
  initial value, into a result with a single index. The reduction is the left fold of the body over the operand's
  entries in row-major order; every entry reduces into the one result index, so the fold is the initial value plus the
  sum of all entries (machine addition: it wraps).
-/
import Idealize.ShloMosaic.PureOps
import Idealize.ShloMosaic.PureOps.Reduce
import Idealize.ShloMosaic.Lib.ValueIdx
import Mathlib.Data.BitVec

noncomputable section

open Idealize.ShloMosaic Idealize.ShloMosaic.ValueIdx

namespace Cert.HostInt

/-- A left fold that adds `g` of each list element is the start value plus the sum of the `g`s. -/
theorem foldl_add_list {α ι : Type} [AddCommMonoid α] (g : ι → α) (l : List ι) (v : α) :
    l.foldl (fun r k => r + g k) v = v + (l.map g).sum := by
  induction l generalizing v with
  | nil => simp
  | cons a l ih => rw [List.foldl_cons, ih, List.map_cons, List.sum_cons, add_assoc]

/-- THE INTEGER SUM OF A VECTOR: the initial value plus the sum of the entries. -/
theorem reduce_addi_vector {n : Nat} {t u : Shape} [Subsingleton t.Idx] (x : (⟨1, ![n]⟩ : Shape).Idx → BitVec 32)
    (init : u.Idx → BitVec 32) {axes : List (Fin (⟨1, ![n]⟩ : Shape).rank)}
    (h : (⟨1, ![n]⟩ : Shape).ReducesTo axes t) (hu : 0 < u.numel) (j : t.Idx) :
    Host.reduce IntOp.addi x init h hu j = init (Shape.Idx.first hu) + ∑ i : Fin n, x (ix1 i) := by
  rw [Host.reduce_eq_foldl]
  have hf : (((List.finRange (⟨1, ![n]⟩ : Shape).numel).map (⟨1, ![n]⟩ : Shape).rowMajor.symm).filter
      fun i => h.drop i = j) = (List.finRange (⟨1, ![n]⟩ : Shape).numel).map (⟨1, ![n]⟩ : Shape).rowMajor.symm :=
    List.filter_eq_self.2 fun i _ => by simp [Subsingleton.elim (h.drop i) j]
  rw [hf]
  have key : ∀ (r a : BitVec 32), IntOp.addi r a = r + a := fun _ _ => rfl
  simp only [key]
  rw [foldl_add_list, List.map_map, ← Fin.sum_univ_def]
  refine congrArg (init (Shape.Idx.first hu) + ·) ?_
  rw [show (∑ k : Fin (⟨1, ![n]⟩ : Shape).numel, (x ∘ (⟨1, ![n]⟩ : Shape).rowMajor.symm) k)
      = ∑ y : (⟨1, ![n]⟩ : Shape).Idx, x y from Equiv.sum_comp (⟨1, ![n]⟩ : Shape).rowMajor.symm x]
  exact (Equiv.sum_comp (⟨fun i : Fin n => (ix1 i : (⟨1, ![n]⟩ : Shape).Idx), fun y => y 0, fun _ => rfl,
    fun y => (eq_ix1 y).symm⟩ : Fin n ≃ (⟨1, ![n]⟩ : Shape).Idx) x).symm

end Cert.HostInt

end
-- ==== Proof.PreDecode.lean ====
/-
  What the precondition says, read off its printed form.

  The printed predicate is a conjunction of six tests, each a single bit: every entry of the data, of the weight and of
  the bias is smaller in absolute value than `+∞`; every length is at least `0`; every length is at most `524288`; the
  machine sum of the lengths is `524288`. An extended real whose absolute value is below `+∞` is a real number. The
  lengths being between `0` and `2^19`, their natural readings add up to at most `2^26`, so the machine sum never
  wraps and the natural sum of the lengths is `524288`.
-/
import proofs.«122487_j41781441855970_1_alg».proof.Pre_finite_inputs
import proofs.«122487_j41781441855970_1_alg».proof.Proof.LibHostSum
import proofs.«122487_j41781441855970_1_alg».proof.Proof.LibWordSum
import Idealize.ShloMosaic.Lib.ReduceAll
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.PreDecode

open Cert.Pre_finite_inputs

instance : Subsingleton S_.Idx := ⟨fun a b => funext fun d => d.elim0⟩

/-- An extended real whose absolute value is below `+∞` (the bit pattern of the positive infinity) is a real. -/
theorem real_of_abs_lt_inf (v : EReal)
    (h : Ideal.cmp .olt (max v (-v)) (Ideal.ofBits .f32 0x7F800000#32) = 1#1) : ∃ r : ℝ, v = (r : EReal) := by
  have htop : Ideal.ofBits .f32 0x7F800000#32 = ⊤ := by simp [Ideal.ofBits, Ideal.ieee]
  rw [htop] at h
  induction v using EReal.rec with
  | bot => simp [Ideal.cmp] at h
  | coe r => exact ⟨r, rfl⟩
  | top => simp [Ideal.cmp] at h

/-- The facts the precondition gives. -/
structure Decoded (x : FVec Ideal S524288x256 .f32) (l : IVec S128 32) (w b : FVec Ideal S256 .f32) : Prop where
  x_real : ∀ i, ∃ r : ℝ, x i = (r : EReal)
  w_real : ∀ i, ∃ r : ℝ, w i = (r : EReal)
  b_real : ∀ i, ∃ r : ℝ, b i = (r : EReal)
  len_nonneg : ∀ i : Fin 128, 0 ≤ (l (ix1 i)).toInt
  len_le : ∀ i : Fin 128, (l (ix1 i)).toInt ≤ 524288
  len_sum : ∑ i : Fin 128, (l (ix1 i)).toNat = 524288

variable [Facts]
open Facts

theorem decode (x : FVec Ideal S524288x256 .f32) (l : IVec S128 32) (w b : FVec Ideal S256 .f32)
    (h : fn (F := Ideal) x l w b = fun _ => 1#1) : Decoded x l w b := by
  have h0 : fn (F := Ideal) x l w b ix0 = 1#1 := congrFun h ix0
  have h1 : IntOp.andi (IntOp.andi (IntOp.andi (IntOp.andi (IntOp.andi _ _) _) _) _) _ = 1#1 := h0
  obtain ⟨h1, hsum⟩ := IntOp.andi_eq_one.1 h1
  obtain ⟨h1, hle⟩ := IntOp.andi_eq_one.1 h1
  obtain ⟨h1, hge⟩ := IntOp.andi_eq_one.1 h1
  obtain ⟨h1, hb⟩ := IntOp.andi_eq_one.1 h1
  obtain ⟨hx, hw⟩ := IntOp.andi_eq_one.1 h1
  have hge' : ∀ i : Fin 128, 0 ≤ (l (ix1 i)).toInt := fun i => by
    have e := Host.reduce_andi_all (t := S_) _ _ _ _ ix0 hge (ix1 i)
    have e' : IntOp.cmpi .sge (l (ix1 i)) 0#32 = 1#1 := e
    have := IntOp.cmpi_sge.1 e'
    simpa using this
  have hle' : ∀ i : Fin 128, (l (ix1 i)).toInt ≤ 524288 := fun i => by
    have e := Host.reduce_andi_all (t := S_) _ _ _ _ ix0 hle (ix1 i)
    have e' : IntOp.cmpi .sle (l (ix1 i)) 524288#32 = 1#1 := e
    have := IntOp.cmpi_sle.1 e'
    have h2 : (524288#32 : BitVec 32).toInt = 524288 := by decide
    omega
  refine ⟨fun i => ?_, fun i => ?_, fun i => ?_, hge', hle', ?_⟩
  · exact real_of_abs_lt_inf _ (Host.reduce_andi_all (t := S_) _ _ _ _ ix0 hx i)
  · exact real_of_abs_lt_inf _ (Host.reduce_andi_all (t := S_) _ _ _ _ ix0 hw i)
  · exact real_of_abs_lt_inf _ (Host.reduce_andi_all (t := S_) _ _ _ _ ix0 hb i)
  · have hs' : IntOp.cmpi .eq (Host.reduce IntOp.addi l (constantI S_ 32 0#32) reducesTo_S128_S_d0 h_S_ ix0) 524288#32 = 1#1 := hsum
    have hs := IntOp.cmpi_eq.1 hs'
    rw [Cert.HostInt.reduce_addi_vector (t := S_) l (constantI S_ 32 0#32) reducesTo_S128_S_d0 h_S_ ix0] at hs
    have hs : (∑ i : Fin 128, l (ix1 i)) = 524288#32 := (zero_add _).symm.trans hs
    have hbound : ∀ i : Fin 128, (l (ix1 i)).toNat ≤ 524288 := fun i => by
      have h1 := hge' i
      have h2 := hle' i
      have h3 := BitVec.toInt_eq_toNat_cond (l (ix1 i))
      have h4 := (l (ix1 i)).isLt
      split_ifs at h3 <;> omega
    have hlt : ∑ i : Fin 128, (l (ix1 i)).toNat < 2 ^ 32 := by
      calc ∑ i : Fin 128, (l (ix1 i)).toNat ≤ ∑ _i : Fin 128, 524288 := Finset.sum_le_sum fun i _ => hbound i
        _ < 2 ^ 32 := by simp
    have := Cert.HostInt.toNat_sum_of_lt Finset.univ (fun i : Fin 128 => l (ix1 i)) hlt
    rw [hs] at this
    rw [← this]
    decide

end Cert.PreDecode

end
-- ==== Proof.Bridge.lean ====
/-
  The two programs' results agree, entry by entry, under the precondition.

  Fix a row `r`, a feature `f`, and let `b` be the row's segment. The rows whose segment is `b` form a set `s` that holds
  `r`, and the segment's length is the number of rows in `s`. The first side's one-hot sums over all rows are the sums
  over `s` of the feature and of its square; the second side's segment sums are the same sums over `s`, of the feature
  and of its centred square. The data, the weight, the bias and the stabiliser are real numbers, the stabiliser a
  positive one. So the two entries are the two formulas of the law `kOut_eq_rOut` on the finite data `s`.
-/
import proofs.«122487_j41781441855970_1_alg».proof.Proof.Spec
import proofs.«122487_j41781441855970_1_alg».proof.Proof.RefRead
import proofs.«122487_j41781441855970_1_alg».proof.Proof.SegChain3
import proofs.«122487_j41781441855970_1_alg».proof.Proof.PreDecode

noncomputable section

open Idealize.ShloMosaic Idealize.ShloMosaic.ValueIdx
open Cert.ReferenceIdeal Cert.ReferenceIdeal.Gen Cert.ReferenceIdeal.Hand
open Cert.HostInt Cert.RaggedNorm Cert.RefRead Cert.SegChain

namespace Cert.Bridge

/-- The stabiliser is a positive real. -/
theorem eps_real : ∃ e : ℝ, 0 < e ∧ Cert.RaggedNorm.eps = (e : EReal) := by
  have hex : ((0x3727C5AC#32 : BitVec 32).extractLsb' 23 8).toNat = 110 := by decide
  have hfr : ((0x3727C5AC#32 : BitVec 32).extractLsb' 0 23).toNat = 2606508 := by decide
  have hneg : ((0x3727C5AC#32 : BitVec 32).extractLsb' (8 + 23) 1 == 1#1) = false := by decide
  refine ⟨(1 : ℝ) * ((2 ^ 23 + 2606508 : Nat) : ℝ) * (2 : ℝ) ^ (((110 : Nat) : Int) - (2 ^ (8 - 1) - 1) - (23 : Nat)), by positivity, ?_⟩
  show Ideal.ieee 8 23 (0x3727C5AC#32 : BitVec 32) = _
  unfold Ideal.ieee
  simp only [hex, hfr, hneg]
  rw [if_neg (by norm_num : ¬ ((110 : Nat) = 2 ^ 8 - 1)), if_neg (by norm_num : ¬ ((110 : Nat) = 0))]
  simp

/-- A selector column against real data is the sum over the selected rows. -/
theorem sum_sel_mul_coe {ι : Type} [Fintype ι] (P : ι → Prop) [DecidablePred P] (y : ι → ℝ) :
    ∑ r, (if P r then (1 : EReal) else 0) * (y r : EReal) = ((∑ r ∈ Finset.univ.filter P, y r : ℝ) : EReal) := by
  rw [coe_sum, Finset.sum_filter]
  refine Finset.sum_congr rfl fun r _ => ?_
  split_ifs <;> simp

/-- A conditional sum of real data is the sum over the selected rows. -/
theorem sum_ite_coe {ι : Type} [Fintype ι] (P : ι → Prop) [DecidablePred P] (y : ι → ℝ) :
    ∑ r, (if P r then (y r : EReal) else 0) = ((∑ r ∈ Finset.univ.filter P, y r : ℝ) : EReal) := by
  rw [coe_sum, Finset.sum_filter]

/-- Two small natural numbers are equal when their words are. -/
theorem ofNat_inj_small {a b : Nat} (ha : a < 128) (hb : b < 128) (h : BitVec.ofNat 32 a = BitVec.ofNat 32 b) : a = b := by
  have := congrArg BitVec.toNat h
  simp only [BitVec.toNat_ofNat] at this
  omega

section
variable (x : FVec Ideal S524288x256 .f32) (lens : IVec S128 32) (w b : FVec Ideal S256 .f32)
  (D : Cert.PreDecode.Decoded x lens w b)
  (segc : S524288x1.Idx → BitVec 32) (hsegc : ∀ r : Fin 524288, segc (ix2 r ⟨0, Nat.one_pos⟩) = refSeg lens (ix1 r))
  (cnt : S128x1.Idx → EReal) (hcnt : ∀ q : Fin 128, cnt (ix2 q ⟨0, Nat.one_pos⟩) = cntAt lens q)
  (w2 b2 : S1x256.Idx → EReal) (hw2 : ∀ f : Fin 256, w2 (ix2 ⟨0, Nat.one_pos⟩ f) = w (ix1 f))
  (hb2 : ∀ f : Fin 256, b2 (ix2 ⟨0, Nat.one_pos⟩ f) = b (ix1 f))

include D hsegc hcnt hw2 hb2 in
/-- THE BRIDGE. What the two kernel regions leave, composed, is the reference's result. -/
theorem kernel_eq_reference :
    outOf x segc (tableOf x segc cnt w2 b2) = refOut (F := Ideal) x lens w b := by
  have hsum : ∑ q : Fin 128, lenN lens q = 524288 := D.len_sum
  have hseg := seg_range lens hsum
  funext i
  obtain ⟨r, f, rfl⟩ : ∃ (r : Fin 524288) (f : Fin 256), i = ix2 r f := ⟨i 0, i 1, eq_ix2 i⟩
  -- the row's segment
  have hsegv : segOf (lenN lens) r.val < 128 := segOf_lt' lens hsum r
  have hbv : (segIx (refSeg lens) hseg r).val = segOf (lenN lens) r.val := by
    have h1 := segIx_val (refSeg lens) hseg r
    rw [seg_toInt lens hsum] at h1
    omega
  have hs : segc (ix2 r ⟨0, Nat.one_pos⟩) = BitVec.ofNat 32 (segIx (refSeg lens) hseg r).val := by
    rw [hsegc, seg_apply lens hsum, hbv]
  show outAt x segc (tableOf x segc cnt w2 b2) r f = refNorm x (refSeg lens) (refCnt lens) w b (ix2 r f)
  rw [outAt_tableOf x segc cnt w2 b2 r f (segIx (refSeg lens) hseg r) hs, refNorm_apply (refSeg lens) hseg]
  generalize hq : segIx (refSeg lens) hseg r = q at *
  -- the real data
  choose xr hxr using D.x_real
  obtain ⟨wr, hwr⟩ := D.w_real (ix1 f)
  obtain ⟨βr, hβr⟩ := D.b_real (ix1 f)
  obtain ⟨e, he, hee⟩ := eps_real
  -- the rows of the segment
  let P : Fin 524288 → Prop := fun r' => (refSeg lens (ix1 r')).toInt = (q.val : Int)
  have hword : ∀ r' : Fin 524288, segc (ix2 r' (0 : Fin 1)) = BitVec.ofNat 32 q.val ↔ P r' := by
    intro r'
    have h' := segOf_lt' lens hsum r'
    rw [show segc (ix2 r' (0 : Fin 1)) = refSeg lens (ix1 r') from hsegc r', seg_apply lens hsum]
    show _ ↔ (refSeg lens (ix1 r')).toInt = (q.val : Int)
    rw [seg_toInt lens hsum]
    constructor
    · intro h
      have := ofNat_inj_small h' q.isLt h
      omega
    · intro h
      have e' : segOf (lenN lens) r'.val = q.val := by omega
      rw [e']
  have hrP : P r := by
    show (refSeg lens (ix1 r)).toInt = (q.val : Int)
    rw [seg_toInt lens hsum, hbv]
  let s : Finset (Fin 524288) := Finset.univ.filter P
  have hrs : r ∈ s := Finset.mem_filter.mpr ⟨Finset.mem_univ _, hrP⟩
  have hcard : ((s.card : ℝ) : EReal) = cntAt lens q := by
    have hc := seg_count lens hsum q
    have hnn := D.len_nonneg q
    have hcond := BitVec.toInt_eq_toNat_cond (lens (ix1 q))
    have hlt := (lens (ix1 q)).isLt
    have hti : (lens (ix1 q)).toInt = ((lens (ix1 q)).toNat : Int) := by
      split_ifs at hcond <;> omega
    unfold cntAt
    rw [hti]
    show (((Finset.univ.filter P).card : ℝ) : EReal) = _
    rw [show (Finset.univ.filter P).card = lenN lens q from hc]
    show ((((lens (ix1 q)).toNat : Nat) : ℝ) : EReal) = ((((((lens (ix1 q)).toNat : Nat) : Int)) : ℝ) : EReal)
    rw [Int.cast_natCast]
  -- the first side's sums
  have hS : segS x segc q f = ((∑ r' ∈ s, xr (ix2 r' f) : ℝ) : EReal) := by
    unfold segS
    rw [← sum_sel_mul_coe P (fun r' => xr (ix2 r' f))]
    refine Finset.sum_congr rfl fun r' _ => ?_
    unfold oh
    rw [hxr]
    by_cases hp : P r'
    · rw [if_pos ((hword r').mpr hp), if_pos hp]
    · rw [if_neg (fun h => hp ((hword r').mp h)), if_neg hp]
  have hQ : segQ x segc q f = ((∑ r' ∈ s, xr (ix2 r' f) ^ 2 : ℝ) : EReal) := by
    unfold segQ
    rw [← sum_sel_mul_coe P (fun r' => xr (ix2 r' f) ^ 2)]
    refine Finset.sum_congr rfl fun r' _ => ?_
    unfold oh
    rw [hxr, ← EReal.coe_mul, ← sq]
    by_cases hp : P r'
    · rw [if_pos ((hword r').mpr hp), if_pos hp]
    · rw [if_neg (fun h => hp ((hword r').mp h)), if_neg hp]
  -- the second side's sums
  have hS' : sumAt (refSeg lens) x q f = ((∑ r' ∈ s, xr (ix2 r' f) : ℝ) : EReal) := by
    unfold sumAt
    rw [← sum_ite_coe P (fun r' => xr (ix2 r' f))]
    refine Finset.sum_congr rfl fun r' _ => ?_
    rw [hxr]
  have hn0 : (s.card : ℝ) ≠ 0 := Nat.cast_ne_zero.mpr (Finset.card_ne_zero_of_mem hrs)
  have hQ' : sqAt (refSeg lens) x (Ideal.div (sumAt (refSeg lens) x q f) (cntAt lens q)) q f
      = ((∑ r' ∈ s, (xr (ix2 r' f) - (∑ r'' ∈ s, xr (ix2 r'' f)) / s.card) ^ 2 : ℝ) : EReal) := by
    unfold sqAt
    rw [hS', ← hcard, div_coe_coe _ _ hn0,
      ← sum_ite_coe P (fun r' => (xr (ix2 r' f) - (∑ r'' ∈ s, xr (ix2 r'' f)) / s.card) ^ 2)]
    refine Finset.sum_congr rfl fun r' _ => ?_
    rw [hxr, ← EReal.coe_sub, ← EReal.coe_mul, ← sq]
  have hcnt' : cnt (ix2 q (0 : Fin 1)) = cntAt lens q := hcnt q
  have hw2' : w2 (ix2 (0 : Fin 1) f) = w (ix1 f) := hw2 f
  have hb2' : b2 (ix2 (0 : Fin 1) f) = b (ix1 f) := hb2 f
  rw [hS, hQ, hQ', hS', hcnt', ← hcard, hw2', hb2', hwr, hβr, hee, hxr]
  exact kOut_eq_rOut s (fun r' => xr (ix2 r' f)) r hrs wr βr e he
end

end Cert.Bridge

end
-- ==== Proof.lean ====
/-
  A ragged instance norm in two kernel regions against its plain reference.

  The rows are grouped into segments by lengths that are nonnegative and add up to the number of rows; row `i` belongs
  to the segment whose range of rows holds it, and each segment receives exactly its length in rows. The first region
  accumulates every segment's sum and sum of squares through a one-hot selector and turns them into a table of scales
  and shifts; the second applies the row's scale and shift. The reference centres each row by its segment's mean and
  divides by the root of the segment's mean centred square. Because every segment's divisor is its number of rows,
  the mean centred square is the mean square less the squared mean, a nonnegative number, and the two results are one
  function of the arguments (Bridge.lean). Each program runs to the end, faults nowhere and leaves its arguments
  unchanged; the idealization rewrote nothing.
-/
import proofs.«122487_j41781441855970_1_alg».proof.Defs
import proofs.«122487_j41781441855970_1_alg».proof.Proof.Gen.Kernel
import proofs.«122487_j41781441855970_1_alg».proof.Proof.Gen.KernelIdeal
import proofs.«122487_j41781441855970_1_alg».proof.Proof.Gen.ReferenceIdeal
import proofs.«122487_j41781441855970_1_alg».proof.Proof.Gen.Pre_finite_inputs
import proofs.«122487_j41781441855970_1_alg».proof.Proof.BRunFinal
import proofs.«122487_j41781441855970_1_alg».proof.Proof.KRunFinal
import proofs.«122487_j41781441855970_1_alg».proof.Proof.KRunMain
import proofs.«122487_j41781441855970_1_alg».proof.Proof.RRun
import proofs.«122487_j41781441855970_1_alg».proof.Proof.KHost2
import proofs.«122487_j41781441855970_1_alg».proof.Proof.Bridge
import proofs.«122487_j41781441855970_1_alg».proof.Proof.PreDecode
import Idealize.ShloMosaic.Adequacy
import Idealize.ShloMosaic.Init

noncomputable section

namespace Cert.Proof

open Idealize.ShloMosaic Idealize.SL.Sem

/-- The word-level program runs, faults nowhere and leaves its arguments unchanged. -/
theorem frame_k : Cert.frame_Kernel := fun m g _ => Cert.Kernel.HandRun.frame (F := Bits) m g

/-- So does the idealized program. -/
theorem frame_ki : Cert.frame_KernelIdeal := fun m g _ => Cert.KernelIdeal.HandRun.frame (F := Ideal) m g

/-- So does the reference. -/
theorem frame_ri : Cert.frame_ReferenceIdeal := fun m g _ => Cert.ReferenceIdeal.Hand.frame (F := Ideal) m g

/-- The idealization rewrote no operation. -/
theorem preserves : Cert.preserves_Kernel_KernelIdeal := trivial

/-- From memories agreeing on the arguments both idealized programs end with the reference's composed term of the
    arguments: the reference by its run, the kernel program by its run through both regions and the bridge. -/
theorem algebraic : Cert.algebraic_KernelIdeal_ReferenceIdeal := by
  intro m g m' g' hpre hagree
  refine ⟨fun c => Cert.ReferenceIdeal.Hand.refOut (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)), ?_,
    Cert.ReferenceIdeal.Hand.run (F := Ideal) m' g'⟩
  refine (θ_run Cert.KernelIdeal.defs _ _).mono (fun r h c => ⟨(h c).1.trans ?_, (h c).2⟩)
    (Cert.KernelIdeal.HandRun.run_main m g)
  beta_reduce
  rw [(hagree c).1, (hagree c).2.1, (hagree c).2.2.1, (hagree c).2.2.2]
  exact Cert.Bridge.kernel_eq_reference _ _ _ _ (Cert.PreDecode.decode _ _ _ _ (hpre c)) _
    (Cert.KernelIdeal.HandHost.seg_col m c) _ (Cert.KernelIdeal.HandHost.cnt_col m c) _ _
    (Cert.KernelIdeal.HandHost.w_row m c) (Cert.KernelIdeal.HandHost.b_row m c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
